-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x2048 .f32) (main_arg13 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S50257x2048 .f32 := Host.absf main_arg12
  let main_cst_20 : FVec F S_ .f32 := constant S_ .f32 0x7F800000#32
  let main_v55 : FVec F S50257x2048 .f32 := broadcastInDim S50257x2048 ![] bcast_S_S50257x2048 main_cst_20
  let main_v56 : IVec S50257x2048 1 := cmpf .olt main_v54 main_v55
  let main_c_21 : IVec S_ 1 := constantI S_ 1 1#1
  let main_v57 : IVec S_ 1 := (fun x v => Host.reduce IntOp.andi x v reducesTo_S50257x2048_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_v48 main_v49 main_v50

def fn_part1 {F : FTy → Type} [FloatOps F] (main_arg5 : FVec F S512 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x4096 .f32 := Host.absf main_arg6
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1x1 32) (main_arg1 : FVec F S1x1x2048 .f32) (main_arg2 : FVec F S512x2048 .f32) (main_arg3 : FVec F S50257x2048 .f32) (main_arg4 : FVec F S512x4096 .f32) (main_arg5 : FVec F S512 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S512x4096 .f32 := Host.absf main_arg4
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg5 main_arg6 main_arg7 main_arg8 main_arg9 main_arg10 main_arg11 main_arg12 main_arg13 main_v13 main_v16
-- ==== Kernel.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S1 : Shape := ⟨1, ![1]⟩
abbrev S_ : Shape := ⟨0, ![]⟩
abbrev S1x2048 : Shape := ⟨2, ![1, 2048]⟩
abbrev S1x4096 : Shape := ⟨2, ![1, 4096]⟩
abbrev S1x512 : Shape := ⟨2, ![1, 512]⟩
abbrev S1x6144 : Shape := ⟨2, ![1, 6144]⟩
abbrev S3x2048x2048 : Shape := ⟨3, ![3, 2048, 2048]⟩
abbrev S3x2048 : Shape := ⟨2, ![3, 2048]⟩
abbrev S1x256 : Shape := ⟨2, ![1, 256]⟩
abbrev S3x256x2048 : Shape := ⟨3, ![3, 256, 2048]⟩
abbrev S3x256 : Shape := ⟨2, ![3, 256]⟩
abbrev S1x256x2048 : Shape := ⟨3, ![1, 256, 2048]⟩
abbrev S256x2048 : Shape := ⟨2, ![256, 2048]⟩
abbrev S1x50257 : Shape := ⟨2, ![1, 50257]⟩
abbrev S1024x2048 : Shape := ⟨2, ![1024, 2048]⟩
abbrev S1x1024 : Shape := ⟨2, ![1, 1024]⟩

abbrev nBuf : Space → Nat
  | .hbm => 70
  | .vmem => 34
  | .smem => 0
  | _ => 0

abbrev bufTy : (tb : Table) → Fin (tcTables nBuf tb) → BufTy
  | .hbm, ⟨0, _⟩ => ⟨S1x1, .i32⟩
  | .hbm, ⟨1, _⟩ => ⟨S1x1x2048, .f32⟩
  | .hbm, ⟨2, _⟩ => ⟨S512x2048, .f32⟩
  | .hbm, ⟨3, _⟩ => ⟨S50257x2048, .f32⟩
  | .hbm, ⟨4, _⟩ => ⟨S512x4096, .f32⟩
  | .hbm, ⟨5, _⟩ => ⟨S512, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1, .i32⟩
  | .hbm, ⟨24, _⟩ => ⟨S_, .i32⟩
  | .hbm, ⟨25, _⟩ => ⟨S1x1, .i32⟩
  | .hbm, ⟨26, _⟩ => ⟨S1x1, .i1⟩
  | .hbm, ⟨27, _⟩ => ⟨S1x1, .i32⟩
  | .hbm, ⟨28, _⟩ => ⟨S1x1, .i1⟩
  | .hbm, ⟨29, _⟩ => ⟨S1x1, .i1⟩
  | .hbm, ⟨30, _⟩ => ⟨S_, .i1⟩
  | .hbm, ⟨31, _⟩ => ⟨S1, .i1⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x4096, .f32⟩
  | .hbm, ⟨39, _⟩ => ⟨S1x512, .f32⟩
  | .hbm, ⟨40, _⟩ => ⟨S1x512, .f32⟩
  | .hbm, ⟨41, _⟩ => ⟨S1x2048, .f32⟩
  | .hbm, ⟨42, _⟩ => ⟨S1x4096, .f32⟩
  | .hbm, ⟨43, _⟩ => ⟨S1x2048, .f32⟩
  | .hbm, ⟨44, _⟩ => ⟨S1x2048, .f32⟩
  | .hbm, ⟨45, _⟩ => ⟨S1x6144, .f32⟩
  | .hbm, ⟨46, _⟩ => ⟨S1x6144, .f32⟩
  | .hbm, ⟨47, _⟩ => ⟨S3x2048x2048, .f32⟩
  | .hbm, ⟨48, _⟩ => ⟨S3x2048x2048, .f32⟩
  | .hbm, ⟨49, _⟩ => ⟨S3x2048, .f32⟩
  | .hbm, ⟨50, _⟩ => ⟨S3x2048, .f32⟩
  | .hbm, ⟨51, _⟩ => ⟨S1x2048, .f32⟩
  | .hbm, ⟨52, _⟩ => ⟨S1x50257, .f32⟩
  | .hbm, ⟨53, _⟩ => ⟨S1x50257, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S1x50257, .f32⟩
  | .hbm, ⟨61, _⟩ => ⟨S1x50257, .f32⟩
  | .hbm, ⟨62, _⟩ => ⟨S1x50257, .f32⟩
  | .hbm, ⟨63, _⟩ => ⟨S_, .f32⟩
  | .hbm, ⟨64, _⟩ => ⟨S1, .f32⟩
  | .hbm, ⟨65, _⟩ => ⟨S1x1, .f32⟩
  | .hbm, ⟨66, _⟩ => ⟨S1x1, .f32⟩
  | .hbm, ⟨67, _⟩ => ⟨S1x50257, .f32⟩
  | .hbm, ⟨68, _⟩ => ⟨S1x50257, .f32⟩
  | .hbm, ⟨69, _⟩ => ⟨S1x1x2048, .f32⟩
  | .local _ .vmem, ⟨0, _⟩ => ⟨S1x4096, .f32⟩
  | .local _ .vmem, ⟨1, _⟩ => ⟨S512x4096, .f32⟩
  | .local _ .vmem, ⟨2, _⟩ => ⟨S1x512, .f32⟩
  | .local _ .vmem, ⟨3, _⟩ => ⟨S512x2048, .f32⟩
  | .local _ .vmem, ⟨4, _⟩ => ⟨S1x512, .f32⟩
  | .local _ .vmem, ⟨5, _⟩ => ⟨S1x2048, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x2048, .f32⟩
  | .local _ .vmem, ⟨14, _⟩ => ⟨S1x2048, .f32⟩
  | .local _ .vmem, ⟨15, _⟩ => ⟨S1x256, .f32⟩
  | .local _ .vmem, ⟨16, _⟩ => ⟨S1x256, .f32⟩
  | .local _ .vmem, ⟨17, _⟩ => ⟨S3x256x2048, .f32⟩
  | .local _ .vmem, ⟨18, _⟩ => ⟨S3x256x2048, .f32⟩
  | .local _ .vmem, ⟨19, _⟩ => ⟨S3x256x2048, .f32⟩
  | .local _ .vmem, ⟨20, _⟩ => ⟨S3x256x2048, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S1x256, .f32⟩
  | .local _ .vmem, ⟨26, _⟩ => ⟨S1x256, .f32⟩
  | .local _ .vmem, ⟨27, _⟩ => ⟨S1x2048, .f32⟩
  | .local _ .vmem, ⟨28, _⟩ => ⟨S1024x2048, .f32⟩
  | .local _ .vmem, ⟨29, _⟩ => ⟨S1024x2048, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | _, _ => ⟨S1x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5_0 : Ref sig .tc := ⟨.hbm, 40, rfl⟩
abbrev main_v5_1 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S3x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x1_S1 : S1x1.ShapeCasts S1
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x2048_0 : S1.BroadcastsInDim S1x2048 (![0] : Fin 1 → Fin S1x2048.rank)
  bcast_S_S1x2048 : S_.BroadcastsInDim S1x2048 (![] : Fin 0 → Fin S1x2048.rank)
  shapeCasts_S1x1x2048_S1x2048 : S1x1x2048.ShapeCasts S1x2048
  concatenates_S1x2048_S1x2048_S1x4096_d1 : Shape.Concatenates [S1x2048, S1x2048] S1x4096 1
  shapeCasts_S512_S1x512 : S512.ShapeCasts S1x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S2048_S1x2048 : S2048.ShapeCasts S1x2048
  shapeCasts_S6144_S1x6144 : S6144.ShapeCasts S1x6144
  shapeCasts_S6144x2048_S3x2048x2048 : S6144x2048.ShapeCasts S3x2048x2048
  shapeCasts_S1x6144_S3x2048 : S1x6144.ShapeCasts S3x2048
  shapeCasts_S1x2048_S1x2048 : S1x2048.ShapeCasts S1x2048
  inb_S3x256x2048_S3x256x2048_0_0_0 : ∀ a, (![0, 0, 0] : Fin 3 → Nat) a + S3x256x2048.size a ≤ S3x256x2048.size a
  h_S3x256x2048 : 0 < S3x256x2048.numel
  shapeCasts_S3x256x2048_S3x256x2048 : S3x256x2048.ShapeCasts S3x256x2048
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S3x256x2048_o0_0_0_S1x256x2048 : S3x256x2048.Slices ![0, 0, 0] S1x256x2048
  shapeCasts_S1x256x2048_S256x2048 : S1x256x2048.ShapeCasts S256x2048
  slices_S3x256_o0_0_S1x256 : S3x256.Slices ![0, 0] S1x256
  slices_S3x256x2048_o1_0_0_S1x256x2048 : S3x256x2048.Slices ![1, 0, 0] S1x256x2048
  slices_S3x256_o1_0_S1x256 : S3x256.Slices ![1, 0] S1x256
  slices_S3x256x2048_o2_0_0_S1x256x2048 : S3x256x2048.Slices ![2, 0, 0] S1x256x2048
  slices_S3x256_o2_0_S1x256 : S3x256.Slices ![2, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S50257_S1x50257 : S50257.ShapeCasts S1x50257
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S512x4096_S1x512_1_1_0_0_n_n_wf : DotDims.WF S1x4096 S512x4096 S1x512 [1] [1] [0] [0] [] []
  dot_S1x512_S512x2048_S1x2048_1_0_0_1_n_n_wf : DotDims.WF S1x512 S512x2048 S1x2048 [1] [0] [0] [1] [] []
  dot_S1x2048_S256x2048_S1x256_1_1_0_0_n_n_wf : DotDims.WF S1x2048 S256x2048 S1x256 [1] [1] [0] [0] [] []
  dot_S1x2048_S1024x2048_S1x1024_1_1_0_0_n_n_wf : DotDims.WF S1x2048 S1024x2048 S1x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .f32 = 32 ∨ (Rect.block (s := S2048x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .f32 = 32 ∨ (Rect.block (s := S1x2048) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x256x2048.size a ≤ S3x2048x2048.size a
  hwx2_3 : ∀ i : grid2.Coords, EltTy.bits .f32 = 32 ∨ (Rect.block (s := S3x2048x2048) S3x256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x256x2048.size a ≤ S3x2048x2048.size a
  hwx2_4 : ∀ i : grid2.Coords, EltTy.bits .f32 = 32 ∨ (Rect.block (s := S3x2048x2048) S3x256x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3x256.size a ≤ S3x2048.size a
  hwx2_5 : ∀ i : grid2.Coords, EltTy.bits .f32 = 32 ∨ (Rect.block (s := S3x2048) S3x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3x256.size a ≤ S3x2048.size a
  hwx2_6 : ∀ i : grid2.Coords, EltTy.bits .f32 = 32 ∨ (Rect.block (s := S3x2048) S3x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x2048.size a
  hwx2_7 : ∀ i : grid2.Coords, EltTy.bits .f32 = 32 ∨ (Rect.block (s := S1x2048) S1x256.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S1024x2048.size a < S50257x2048.size a
  hwx3_1 : ∀ i : grid3.Coords, EltTy.bits .f32 = 32 ∨ (Rect.unit (s := S50257x2048) (fun a => cc3_transform_1 i a * S1024x2048.size a) (fun a => (Pipeline.Clip.of (cc3_transform_1 i a) (S1024x2048.size a) (S50257x2048.size a)).extent (S1024x2048.size a)) fun a => Pipeline.Clip.inb (Pipeline.Clip.ok_of (hstart3_1 i a))).WholeWords (EltTy.packing .f32)
  hwxs3_1 : ∀ i : grid3.Coords, EltTy.bits .f32 = 32 ∨ (Rect.unit (s := S1024x2048) (fun _ => 0) (fun a => (Pipeline.Clip.of (cc3_transform_1 i a) (S1024x2048.size a) (S50257x2048.size a)).extent (S1024x2048.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x1024.size a < S1x50257.size a
  hwx3_2 : ∀ i : grid3.Coords, EltTy.bits .f32 = 32 ∨ (Rect.unit (s := S1x50257) (fun a => cc3_transform_2 i a * S1x1024.size a) (fun a => (Pipeline.Clip.of (cc3_transform_2 i a) (S1x1024.size a) (S1x50257.size a)).extent (S1x1024.size a)) fun a => Pipeline.Clip.inb (Pipeline.Clip.ok_of (hstart3_2 i a))).WholeWords (EltTy.packing .f32)
  hwxs3_2 : ∀ i : grid3.Coords, EltTy.bits .f32 = 32 ∨ (Rect.unit (s := S1x1024) (fun _ => 0) (fun a => (Pipeline.Clip.of (cc3_transform_2 i a) (S1x1024.size a) (S1x50257.size a)).extent (S1x1024.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x1024.size a < S1x50257.size a
  hwx3_3 : ∀ i : grid3.Coords, EltTy.bits .f32 = 32 ∨ (Rect.unit (s := S1x50257) (fun a => cc3_transform_3 i a * S1x1024.size a) (fun a => (Pipeline.Clip.of (cc3_transform_3 i a) (S1x1024.size a) (S1x50257.size a)).extent (S1x1024.size a)) fun a => Pipeline.Clip.inb (Pipeline.Clip.ok_of (hstart3_3 i a))).WholeWords (EltTy.packing .f32)
  hwxs3_3 : ∀ i : grid3.Coords, EltTy.bits .f32 = 32 ∨ (Rect.unit (s := S1x1024) (fun _ => 0) (fun a => (Pipeline.Clip.of (cc3_transform_3 i a) (S1x1024.size a) (S1x50257.size a)).extent (S1x1024.size a)) fun a => (Nat.zero_add _).trans_le (Pipeline.Clip.extent_le (Pipeline.Clip.ok_of (hstart3_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf

abbrev win0_0 : Pipeline.Window sig grid0 :=
  Pipeline.Window.ofSpec (Memref.whole main_v3) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S3x256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S3x256x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13) S3x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v14) S3x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v15) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S1024x2048.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v16) S1x1024.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v17) S1x1024.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S1 : Shape := ⟨1, ![1]⟩
abbrev S_ : Shape := ⟨0, ![]⟩
abbrev S1x2048 : Shape := ⟨2, ![1, 2048]⟩
abbrev S1x4096 : Shape := ⟨2, ![1, 4096]⟩
abbrev S4096x512 : Shape := ⟨2, ![4096, 512]⟩
abbrev S1x512 : Shape := ⟨2, ![1, 512]⟩
abbrev S4096x2048 : Shape := ⟨2, ![4096, 2048]⟩
abbrev S2048x6144 : Shape := ⟨2, ![2048, 6144]⟩
abbrev S1x6144 : Shape := ⟨2, ![1, 6144]⟩
abbrev S2048x50257 : Shape := ⟨2, ![2048, 50257]⟩
abbrev S1x50257 : Shape := ⟨2, ![1, 50257]⟩

abbrev nBuf : Space → Nat
  | .hbm => 127
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x1x2048, .f32⟩
  | .hbm, ⟨2, _⟩ => ⟨S512x2048, .f32⟩
  | .hbm, ⟨3, _⟩ => ⟨S50257x2048, .f32⟩
  | .hbm, ⟨4, _⟩ => ⟨S512x4096, .f32⟩
  | .hbm, ⟨5, _⟩ => ⟨S512, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1, .i32⟩
  | .hbm, ⟨24, _⟩ => ⟨S_, .i32⟩
  | .hbm, ⟨25, _⟩ => ⟨S1x1, .i32⟩
  | .hbm, ⟨26, _⟩ => ⟨S1x1, .i1⟩
  | .hbm, ⟨27, _⟩ => ⟨S1x1, .i32⟩
  | .hbm, ⟨28, _⟩ => ⟨S1x1, .i1⟩
  | .hbm, ⟨29, _⟩ => ⟨S1x1, .i1⟩
  | .hbm, ⟨30, _⟩ => ⟨S_, .i1⟩
  | .hbm, ⟨31, _⟩ => ⟨S1, .i1⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x4096, .f32⟩
  | .hbm, ⟨39, _⟩ => ⟨S4096x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S1, .f32⟩
  | .hbm, ⟨48, _⟩ => ⟨S1x1, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1, .f32⟩
  | .hbm, ⟨54, _⟩ => ⟨S1x1, .f32⟩
  | .hbm, ⟨55, _⟩ => ⟨S1x512, .f32⟩
  | .hbm, ⟨56, _⟩ => ⟨S1x512, .f32⟩
  | .hbm, ⟨57, _⟩ => ⟨S1x2048, .f32⟩
  | .hbm, ⟨58, _⟩ => ⟨S1x4096, .f32⟩
  | .hbm, ⟨59, _⟩ => ⟨S4096x2048, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S2048x6144, .f32⟩
  | .hbm, ⟨67, _⟩ => ⟨S1x6144, .f32⟩
  | .hbm, ⟨68, _⟩ => ⟨S1x6144, .f32⟩
  | .hbm, ⟨69, _⟩ => ⟨S1x6144, .f32⟩
  | .hbm, ⟨70, _⟩ => ⟨S2048x6144, .f32⟩
  | .hbm, ⟨71, _⟩ => ⟨S1x6144, .f32⟩
  | .hbm, ⟨72, _⟩ => ⟨S1x6144, .f32⟩
  | .hbm, ⟨73, _⟩ => ⟨S1x6144, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S_, .f32⟩
  | .hbm, ⟨84, _⟩ => ⟨S1x2048, .f32⟩
  | .hbm, ⟨85, _⟩ => ⟨S1x2048, .f32⟩
  | .hbm, ⟨86, _⟩ => ⟨S_, .f32⟩
  | .hbm, ⟨87, _⟩ => ⟨S1x2048, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | .hbm, ⟨95, _⟩ => ⟨S_, .f32⟩
  | .hbm, ⟨96, _⟩ => ⟨S1x2048, .f32⟩
  | .hbm, ⟨97, _⟩ => ⟨S1x2048, .f32⟩
  | .hbm, ⟨98, _⟩ => ⟨S1x2048, .f32⟩
  | .hbm, ⟨99, _⟩ => ⟨S1x2048, .f32⟩
  | .hbm, ⟨100, _⟩ => ⟨S1x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S2048x50257, .f32⟩
  | .hbm, ⟨108, _⟩ => ⟨S1x50257, .f32⟩
  | .hbm, ⟨109, _⟩ => ⟨S1x50257, .f32⟩
  | .hbm, ⟨110, _⟩ => ⟨S1x50257, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | .hbm, ⟨116, _⟩ => ⟨S1x1, .f32⟩
  | .hbm, ⟨117, _⟩ => ⟨S1x50257, .f32⟩
  | .hbm, ⟨118, _⟩ => ⟨S1x50257, .f32⟩
  | .hbm, ⟨119, _⟩ => ⟨S1x50257, .f32⟩
  | .hbm, ⟨120, _⟩ => ⟨S_, .f32⟩
  | .hbm, ⟨121, _⟩ => ⟨S1, .f32⟩
  | .hbm, ⟨122, _⟩ => ⟨S1x1, .f32⟩
  | .hbm, ⟨123, _⟩ => ⟨S1x1, .f32⟩
  | .hbm, ⟨124, _⟩ => ⟨S1x50257, .f32⟩
  | .hbm, ⟨125, _⟩ => ⟨S1x50257, .f32⟩
  | .hbm, ⟨126, _⟩ => ⟨S1x1x2048, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_cst_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_2 : Ref sig .tc := ⟨.hbm, 83, rfl⟩
abbrev main_v43 : Ref sig .tc := ⟨.hbm, 84, rfl⟩
abbrev main_v44 : Ref sig .tc := ⟨.hbm, 85, rfl⟩
abbrev main_cst_3 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_4 : Ref sig .tc := ⟨.hbm, 92, rfl⟩
abbrev main_v50 : Ref sig .tc := ⟨.hbm, 93, rfl⟩
abbrev main_v51 : Ref sig .tc := ⟨.hbm, 94, rfl⟩
abbrev main_cst_5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_6 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v66 : Ref sig .tc := ⟨.hbm, 125, rfl⟩
abbrev main_v67 : Ref sig .tc := ⟨.hbm, 126, rfl⟩

abbrev nD : Nat := 1
abbrev τ : Topo := Topo.v7x

variable {F : FTy → Type} [FloatOps F]

class Facts₀ : Prop where
  shapeCasts_S1x1_S1 : S1x1.ShapeCasts S1
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x2048_0 : S1.BroadcastsInDim S1x2048 (![0] : Fin 1 → Fin S1x2048.rank)
  bcast_S_S1x2048 : S_.BroadcastsInDim S1x2048 (![] : Fin 0 → Fin S1x2048.rank)
  shapeCasts_S1x1x2048_S1x2048 : S1x1x2048.ShapeCasts S1x2048
  concatenates_S1x2048_S1x2048_S1x4096_d1 : Shape.Concatenates [S1x2048, S1x2048] S1x4096 1
  transposes_S512x4096_S4096x512_1_0 : S512x4096.Transposes [1, 0] S4096x512
  bcast_S512_S1x512_1 : S512.BroadcastsInDim S1x512 (![1] : Fin 1 → Fin S1x512.rank)
  reducesTo_S1x512_S1_d1 : S1x512.ReducesTo [1] S1
  bcast_S1x1_S1x512_0_1 : S1x1.BroadcastsInDim S1x512 (![0, 1] : Fin 2 → Fin S1x512.rank)
  transposes_S2048x4096_S4096x2048_1_0 : S2048x4096.Transposes [1, 0] S4096x2048
  bcast_S2048_S1x2048_1 : S2048.BroadcastsInDim S1x2048 (![1] : Fin 1 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x512_S1x512_1_0_0_1_n_n_wf : DotDims.WF S1x4096 S4096x512 S1x512 [1] [0] [0] [1] [] []
  dot_S1x512_S512x2048_S1x2048_1_0_0_1_n_n_wf : DotDims.WF S1x512 S512x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.K.Region0.lean ====
/-
  Region 0 of the decoder step: the attention kernel, one grid point.

  The kernel reads four whole blocks — the concatenated row `x1 = [emb, h]` (1 × 4096), the attention matrix
  (512 × 4096), the bias row (1 × 512) and the encoder outputs (512 × 2048) — and writes two: the attention
  weights `softmax (x1 · Wᵀ + b)` (1 × 512) and the context row `weights · enc` (1 × 2048). Each output buffer
  is written by ONE store of the whole block, so after the body it holds that store's value: the first the
  quotient of the shifted exponentials by their sum, the second the product of that same quotient with the encoder
  block. Everything here is stated for any float interpretation and over the contents `V` the region is entered at.
-/
import proofs.«111195_j57131654971751_2_alg».proof.Proof.Gen.Kernel.Launch
import proofs.«111195_j57131654971751_2_alg».proof.Proof.Gen.Kernel.Skeleton
import proofs.«111195_j57131654971751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole block -/

abbrev rX1 : Rect S1x4096 := Rect.unit (s := S1x4096) ![0, 0] S1x4096.size inb_S1x4096_S1x4096_0_0
abbrev rW : Rect S512x4096 := Rect.unit (s := S512x4096) ![0, 0] S512x4096.size inb_S512x4096_S512x4096_0_0
abbrev rB : Rect S1x512 := Rect.unit (s := S1x512) ![0, 0] S1x512.size inb_S1x512_S1x512_0_0
abbrev rEnc : Rect S512x2048 := Rect.unit (s := S512x2048) ![0, 0] S512x2048.size inb_S512x2048_S512x2048_0_0
abbrev rCtx : Rect S1x2048 := Rect.unit (s := S1x2048) ![0, 0] S1x2048.size inb_S1x2048_S1x2048_0_0

/-! ## What the body leaves in each output buffer -/

/-- The attention weights' buffer after the body: its one store, of the softmax row. -/
def out0_4 (x0 : Vec F S1x4096 .f32) (x1 : Vec F S512x4096 .f32) (x2 : Vec F S1x512 .f32) : Vec F S1x512 .f32 :=
  View.canon [⟨rB, k0_pay1 (View.ld x0 rX1) (View.ld x1 rW) (View.ld x2 rB)⟩]

/-- The context row's buffer after the body: its one store, the weights times the encoder block. -/
def out0_5 (x0 : Vec F S1x4096 .f32) (x1 : Vec F S512x4096 .f32) (x2 : Vec F S1x512 .f32) (x3 : Vec F S512x2048 .f32) :
    Vec F S1x2048 .f32 :=
  View.canon [⟨rCtx, k0_pay2 (View.ld x0 rX1) (View.ld x1 rW) (View.ld x2 rB) (View.ld x3 rEnc)⟩]

/-- A store of the whole block covers the buffer. -/
theorem cover0_4 (p0 : Vec F S1x512 .f32) (y : S1x512.Idx) :
    ∃ pc ∈ ([⟨rB, p0⟩] : List (View.Piece (Elt F) S1x512 .f32)), y ∈ pc.1.set :=
  View.cover_of_tiled [⟨rB, p0⟩] S1x512.size (by rfl) y

theorem cover0_5 (p0 : Vec F S1x2048 .f32) (y : S1x2048.Idx) :
    ∃ pc ∈ ([⟨rCtx, p0⟩] : List (View.Piece (Elt F) S1x2048 .f32)), y ∈ pc.1.set :=
  View.cover_of_tiled [⟨rCtx, p0⟩] S1x2048.size (by rfl) y

/-! ## The body's triple -/

set_option maxHeartbeats 1000000 in
/-- The attention kernel on whole staging buffers — the four inputs at contents `x0 … x3`, the two outputs at
    anything — runs to its end leaving the inputs as they were and each output at its store's value. -/
theorem sound_kernel0 (c : Dev nD) (E : Set ℕ) (i : grid0.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1x2048 .f32) (harg6 : arg6.IsWhole)
    (x0 : Vec F S1x4096 .f32) (x1 : Vec F S512x4096 .f32) (x2 : Vec F S1x512 .f32) (x3 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  · iexists _; isplitr
    swap; · iexact H5
    ipureintro
    exact View.read_writes_eq_canon _ _ _ (cover0_5 _)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, for any proof data whose array is the entry
    contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body each input's buffer at its block, the weights' buffer at the
    softmax row of the input blocks and the context's at its product with the encoder block; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.Region1.lean ====
import proofs.«111195_j57131654971751_2_alg».proof.Proof.Gen.Kernel.Launch
import proofs.«111195_j57131654971751_2_alg».proof.Proof.Gen.Kernel.Skeleton
import proofs.«111195_j57131654971751_2_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

/-! # The attention-combine projection (second TensorCore region): the body's half

The region computes, tile by tile over four column tiles of 512, relu (x · Wᵀ + b): the whole input row
x : [1, 4096], a row tile W_t : [512, 4096] of the weight and the matching bias tile b_t : [1, 512] go in,
one output tile [1, 512] comes out. Everything here is stated at the buffer contents V the region is
entered with, and at a symbolic grid point t. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: where the window is not fetched its block
    index has not moved since the last fetch. Window 0 (the input row): fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the weight's row tile): fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the bias tile): fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer is read, and the output's written, whole -/

abbrev r1_0 : Rect S1x4096 := Rect.unit (s := S1x4096) ![0, 0] S1x4096.size inb_S1x4096_S1x4096_0_0
abbrev r1_1 : Rect S512x4096 := Rect.unit (s := S512x4096) ![0, 0] S512x4096.size inb_S512x4096_S512x4096_0_0
abbrev r1_2 : Rect S1x512 := Rect.unit (s := S1x512) ![0, 0] S1x512.size inb_S1x512_S1x512_0_0

/-! ## What the body leaves in the output window's buffer -/

/-- The output tile's staging buffer after the body, from the input windows' blocks: the one store of
    max (x · W_tᵀ + b_t) 0 (the skeleton's payload), as a piece over the whole buffer. -/
def out1_3 (x0 : Vec F S1x4096 .f32) (x1 : Vec F S512x4096 .f32) (x2 : Vec F S1x512 .f32) : Vec F S1x512 .f32 :=
  View.canon [⟨r1_2, k1_pay1 (View.ld x0 r1_0) (View.ld x1 r1_1) (View.ld x2 r1_2)⟩]

/-- The store tiles the buffer, so it covers it. -/
theorem cover1_3 (p0 : Vec F S1x512 .f32) (y : S1x512.Idx) :
    ∃ pc ∈ ([⟨r1_2, p0⟩] : List (View.Piece (Elt F) S1x512 .f32)), y ∈ pc.1.set :=
  View.cover_of_tiled [⟨r1_2, p0⟩] S1x512.size (by rfl) y

/-! ## The body's triple -/

set_option maxHeartbeats 1000000 in
/-- The kernel body on whole staging memrefs, the inputs' at read contents xW and the output's at anything, runs to
    the continuation holding the inputs' as they were and the output's at out1_3 of the inputs'. -/
theorem sound_kernel1 (c : Dev nD) (E : Set ℕ) (i : grid1.Coords) (arg1 : Memref sig .tc .vmem S1x4096 .f32) (harg1 : arg1.IsWhole) (arg2 : Memref sig .tc .vmem S512x4096 .f32) (harg2 : arg2.IsWhole) (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__comb_kernel i arg1 harg1 arg2 harg2 arg3 harg3 arg4 harg4) K := by
  simp only [cc1__comb_kernel_eq_skeleton]; unfold cc1__comb_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Region2.lean ====
/- The fused GRU gates (the third of the decoder step's four kernels, a grid of 8 column tiles of the new hidden
   state): the half of its region that is stated at the region's entry contents `V` — each window's block at a point,
   what the body leaves in the output tile's buffer, the body's triple, the proof data and the body obligation.
   The hidden state is read through two windows on one array (whole, and the point's tile): both are inputs, and the
   proof data deals the array's full share between them, the left half to the whole-array window and the right half
   to the tile window. -/
import proofs.«111195_j57131654971751_2_alg».proof.Proof.Gen.Kernel.Launch
import proofs.«111195_j57131654971751_2_alg».proof.Proof.Gen.Kernel.Skeleton
import proofs.«111195_j57131654971751_2_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take a whole buffer -/

/-- The whole of a `1 × 2048` buffer (the input vector, the hidden state). -/
abbrev rVec : Rect S1x2048 := Rect.unit (s := S1x2048) ![0, 0] S1x2048.size inb_S1x2048_S1x2048_0_0
/-- The whole of a `3 × 256 × 2048` buffer (a weight tile: the three gates' rows of the point's columns). -/
abbrev rWt : Rect S3x256x2048 := Rect.unit (s := S3x256x2048) ![0, 0, 0] S3x256x2048.size inb_S3x256x2048_S3x256x2048_0_0_0
/-- The whole of a `3 × 256` buffer (a bias tile). -/
abbrev rBias : Rect S3x256 := Rect.unit (s := S3x256) ![0, 0] S3x256.size inb_S3x256_S3x256_0_0
/-- The whole of a `1 × 256` buffer (the hidden state's tile, the output tile). -/
abbrev rTile : Rect S1x256 := Rect.unit (s := S1x256) ![0, 0] S1x256.size inb_S1x256_S1x256_0_0

/-! ## What the body leaves in the output tile's buffer -/

/-- The output tile's staging buffer after the body, from the input windows' blocks `x` (input vector), `h` (hidden
    state), `hT` (its tile), `wi`, `wh` (the input and hidden weights' tiles), `bi`, `bh` (the biases' tiles): its one
    store, of `(1 - z) * n + z * hT` with `r`, `z` the logistic gates and `n` the candidate, the payloads the
    skeleton's. -/
def out2_7 (x h : Vec F S1x2048 .f32) (hT : Vec F S1x256 .f32) (wi wh : Vec F S3x256x2048 .f32) (bi bh : Vec F S3x256 .f32) :
    Vec F S1x256 .f32 :=
  View.canon [⟨rTile, k2_pay1 (k2_pay3 (View.ld h rVec)) (k2_pay5 (View.ld wh rWt)) (k2_pay7 (View.ld bh rBias))
    (k2_pay8 (View.ld x rVec) (View.ld wi rWt) (View.ld bi rBias)) (k2_pay9 (View.ld x rVec) (View.ld wi rWt) (View.ld bi rBias))
    (k2_pay10 (View.ld x rVec) (View.ld wi rWt) (View.ld bi rBias)) (k2_pay11 (View.ld h rVec) (View.ld wh rWt) (View.ld bh rBias))
    (k2_pay12 (View.ld bh rBias)) (k2_pay13 (View.ld h rVec) (View.ld wh rWt)) (View.ld hT rTile)⟩]

/-- The store takes the whole tile, so it covers it. -/
theorem cover2_7 (p0 : Vec F S1x256 .f32) (y : S1x256.Idx) :
    ∃ pc ∈ ([⟨rTile, p0⟩] : List (View.Piece (Elt F) S1x256 .f32)), y ∈ pc.1.set :=
  View.cover_of_tiled [⟨rTile, p0⟩] S1x256.size (by rfl) y

/-! ## The body's triple -/

set_option maxHeartbeats 1000000 in
/-- The kernel body on whole staging memrefs, the inputs' at read contents and the output's at anything, runs to the
    continuation holding the inputs' as they were and the output's at `out2_7` of the inputs': the printed functions
    are their skeletons, run statement by statement through the call of the body's first part. -/
theorem sound_kernel2 (c : Dev nD) (E : Set ℕ) (i : grid2.Coords)
    (arg1 : Memref sig .tc .vmem S1x2048 .f32) (harg1 : arg1.IsWhole) (arg2 : Memref sig .tc .vmem S1x2048 .f32) (harg2 : arg2.IsWhole)
    (arg3 : Memref sig .tc .vmem S1x256 .f32) (harg3 : arg3.IsWhole) (arg4 : Memref sig .tc .vmem S3x256x2048 .f32) (harg4 : arg4.IsWhole)
    (arg5 : Memref sig .tc .vmem S3x256x2048 .f32) (harg5 : arg5.IsWhole) (arg6 : Memref sig .tc .vmem S3x256 .f32) (harg6 : arg6.IsWhole)
    (arg7 : Memref sig .tc .vmem S3x256 .f32) (harg7 : arg7.IsWhole) (arg8 : Memref sig .tc .vmem S1x256 .f32) (harg8 : arg8.IsWhole)
    (x h : Vec F S1x2048 .f32) (hT : Vec F S1x256 .f32) (wi wh : Vec F S3x256x2048 .f32) (bi bh : Vec F S3x256 .f32)
    (K : PUnit → sProp 𝕄) :
    iprop(owns (c : Thread nD τ) arg1 fullShare x ∗ owns (c : Thread nD τ) arg2 fullShare h ∗ owns (c : Thread nD τ) arg3 fullShare hT
        ∗ owns (c : Thread nD τ) arg4 fullShare wi ∗ owns (c : Thread nD τ) arg5 fullShare wh ∗ owns (c : Thread nD τ) arg6 fullShare bi
        ∗ owns (c : Thread nD τ) arg7 fullShare bh ∗ (∃ d, owns (c : Thread nD τ) arg8 fullShare d)
        ∗ (iprop(owns (c : Thread nD τ) arg1 fullShare x ∗ owns (c : Thread nD τ) arg2 fullShare h ∗ owns (c : Thread nD τ) arg3 fullShare hT
            ∗ owns (c : Thread nD τ) arg4 fullShare wi ∗ owns (c : Thread nD τ) arg5 fullShare wh ∗ owns (c : Thread nD τ) arg6 fullShare bi
            ∗ owns (c : Thread nD τ) arg7 fullShare bh ∗ owns (c : Thread nD τ) arg8 fullShare (out2_7 x h hT wi wh bi bh)) -∗ K ⟨⟩))
      ⊢ wp frame (wpE (defs₀ (F := F)) Variants.none c none) E
          (cc2__grucomb_kernel i arg1 harg1 arg2 harg2 arg3 harg3 arg4 harg4 arg5 harg5 arg6 harg6 arg7 harg7 arg8 harg8) K := by
  simp only [cc2__grucomb_kernel_eq_skeleton]; unfold cc2__grucomb_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_7 _)

/-! # The region at its entry contents -/

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input's staging buffer holds its block, fetched at the point or not

For ANY proof data whose array is `V`'s (`hA`) and whose body leaves the block in place (`hafter`): a window not
fetched at a point has not moved its block index since the point before, and its buffer still holds that block. The
input vector and the whole hidden state are fetched at the first point only; the five tiles at every point. -/

/-- Window 0 (the input vector, whole). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the hidden state, whole). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the hidden state's tile). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (the input weights' tile). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the hidden weights' tile). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the input bias's tile). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the hidden bias's tile). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the region's pipeline on core `c`: the arrays as the region finds them (`V`); after the body at
    point `t` each input's buffer at its block and the output tile's at `out2_7` of the input blocks; the invariant the
    scoped rest and the generator register, untouched; nothing owed. The hidden state's array is read through windows
    1 and 2: its full share is dealt between them, the left half to window 1 and the right half to window 2; every
    other input holds its own array's full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

/-- The shares of the input arrays, window by window. -/
theorem q2_1 (c : Dev nD) : (dat2 V c).q 1 = fullShare.left := by dsimp only [dat2]
theorem q2_2 (c : Dev nD) : (dat2 V c).q 2 = fullShare.right := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_w`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand
-- ==== Proof.K.Region3.lean ====
/-
  The output projection of the decoder step (the fourth pallas_call): logits = bf16(h_new) · bf16(out_W)ᵀ + bias, over a
  grid of 50 points, point t computing the 1024 logits of vocabulary rows 1024·t ‥ 1024·t + 1023. The vocabulary has
  50257 = 49·1024 + 81 rows, so at the last point the row tile of out_W, the bias tile and the logits tile all overhang
  their arrays: only their first 81 rows (columns) are moved by the transfers, and the rest of each staging buffer holds
  words nothing names. This module states, at any contents V of the TensorCore's buffers on entry, what each window's
  staging buffer holds after the body at each point (on the part the transfers move), the body's triple, and the body
  obligation of the pipeline.
-/
import proofs.«111195_j57131654971751_2_alg».proof.Proof.Gen.Kernel.Launch
import proofs.«111195_j57131654971751_2_alg».proof.Proof.Gen.Kernel.Points
import proofs.«111195_j57131654971751_2_alg».proof.Proof.Gen.Kernel.Skeleton
import Idealize.ShloMosaic.Lib.Pipeline.FrameBody
import Idealize.ShloMosaic.Lib.Pipeline.FrameSuffix
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store take the whole staging buffer -/

abbrev r3_h : Rect S1x2048 := Rect.unit (s := S1x2048) ![0, 0] S1x2048.size inb_S1x2048_S1x2048_0_0
abbrev r3_W : Rect S1024x2048 := Rect.unit (s := S1024x2048) ![0, 0] S1024x2048.size inb_S1024x2048_S1024x2048_0_0
abbrev r3_b : Rect S1x1024 := Rect.unit (s := S1x1024) ![0, 0] S1x1024.size inb_S1x1024_S1x1024_0_0

/-- What the logits' staging buffer holds after the body, from what the three input staging buffers hold: the one
    store's payload, the product of the rounded hidden state with the rounded row tile plus the bias tile. -/
def stored3 (x0 : Vec F S1x2048 .f32) (x1 : Vec F S1024x2048 .f32) (x2 : Vec F S1x1024 .f32) : Vec F S1x1024 .f32 :=
  View.canon [⟨r3_b, k3_pay1 (View.ld x0 r3_h) (View.ld x1 r3_W) (View.ld x2 r3_b)⟩]

/-- The one store covers the buffer. -/
theorem cover3_3 (p0 : Vec F S1x1024 .f32) (y : S1x1024.Idx) :
    ∃ pc ∈ ([⟨r3_b, p0⟩] : List (View.Piece (Elt F) S1x1024 .f32)), y ∈ pc.1.set :=
  View.cover_of_tiled [⟨r3_b, p0⟩] S1x1024.size (by rfl) y

set_option maxHeartbeats 1000000 in
/-- The body on whole staging memrefs: the three inputs' at contents `x0`, `x1`, `x2` and the logits' at anything run to
    the continuation holding the inputs' as they were and the logits' at `stored3` of them. -/
theorem sound_kernel3 (c : Dev nD) (E : Set ℕ) (i : grid3.Coords)
    (arg1 : Memref sig .tc .vmem S1x2048 .f32) (harg1 : arg1.IsWhole)
    (arg2 : Memref sig .tc .vmem S1024x2048 .f32) (harg2 : arg2.IsWhole)
    (arg3 : Memref sig .tc .vmem S1x1024 .f32) (harg3 : arg3.IsWhole)
    (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored3 x0 x1 x2)) -∗ K ⟨⟩))
      ⊢ wp frame (wpE (defs₀ (F := F)) Variants.none c none) E
          (cc3__outproj_kernel i arg1 harg1 arg2 harg2 arg3 harg3 arg4 harg4) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- Offsets `![0, 0]` are the zero offsets. -/
theorem zeros2 : (![0, 0] : Fin 2 → Nat) = fun _ => 0 := funext fun a => by fin_cases a <;> rfl

/-- Every access being of the whole buffer, the stored contents are the payload of the buffers' contents. -/
theorem stored3_eq (x0 : Vec F S1x2048 .f32) (x1 : Vec F S1024x2048 .f32) (x2 : Vec F S1x1024 .f32) :
    stored3 x0 x1 x2 = k3_pay1 x0 x1 x2 := by
  unfold stored3
  rw [View.canon_unit_zero (S := S1x1024) zeros2 inb_S1x1024_S1x1024_0_0,
    View.ld_unit_zero (S := S1x2048) zeros2 inb_S1x2048_S1x2048_0_0,
    View.ld_unit_zero (S := S1024x2048) zeros2 inb_S1024x2048_S1024x2048_0_0,
    View.ld_unit_zero (S := S1x1024) zeros2 inb_S1x1024_S1x1024_0_0]

section Regions
-- the TensorCore's buffer contents when the region is entered
variable (V : (c : Dev nD) → (b : Ref sig .tc) → Buf (Elt F) ((c : Thread nD τ).loc b))

/-! ## The windows' blocks -/

/-- Window `w`'s block at point `t`, read off its array as the region finds it: the part of the block inside the array
    (all of it but at the last point, where the row tile, the bias tile and the logits tile keep 81 of their 1024 rows). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The word a block is filled out with past the array's end where a closed form is wanted: zero. Nothing reads it. -/
def pad3 {s : Shape} : s.Idx → Elt F .f32 := fun _ => Scalar.ofBits .f32 0#32

/-- The row tile of the weight matrix at point `t` as a whole staging block: the rows inside the array, zero past them. -/
def rows3 (c : Dev nD) (t : Fin cfg3.N) : Vec F S1024x2048 .f32 := win3_1.fill (grid3.coords t) pad3 (iblk3 V c 1 t)
/-- The bias tile at point `t` likewise. -/
def bias3 (c : Dev nD) (t : Fin cfg3.N) : Vec F S1x1024 .f32 := win3_2.fill (grid3.coords t) pad3 (iblk3 V c 2 t)

/-- The logits tile after the body at point `t`, from the three input blocks there: the payload at the hidden state, the
    row tile and the bias tile, the two tiles filled out with zero past their arrays' ends. -/
def out3_3 (t : Fin cfg3.N) (x0 : Vec F S1x2048 .f32) (x1 : (win3_1.xblock (grid3.coords t)).Idx → Elt F .f32)
    (x2 : (win3_2.xblock (grid3.coords t)).Idx → Elt F .f32) : Vec F S1x1024 .f32 :=
  k3_pay1 x0 (win3_1.fill (grid3.coords t) pad3 x1) (win3_2.fill (grid3.coords t) pad3 x2)

/-! ## The pipeline's proof data -/

/-- The proof data of the pipeline on core `c`: the arrays as the region finds them; after the body at point `t` the
    hidden state's buffer at the hidden state, the two tiles' at their blocks (named on the part inside the array), the
    logits' at `out3_3` of them; the invariant the scoped rest and the generator register, untouched; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => rows3 V c t
    | ⟨2, _⟩ => bias3 V c t
    | ⟨3, _⟩ => out3_3 t (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = rows3 V c t := by dsimp only [dat3]
theorem after3_2 (c : Dev nD) (t : Fin cfg3.N) : (dat3 V c).after 2 t = bias3 V c t := by dsimp only [dat3]
theorem after3_3 (c : Dev nD) (t : Fin cfg3.N) :
    (dat3 V c).after 3 t = out3_3 t (iblk3 V c 0 t) (iblk3 V c 1 t) (iblk3 V c 2 t) := by dsimp only [dat3]

/-! ## What the body finds in each staging buffer -/

/-- The hidden state's buffer, fetched at the first point only and never cut, holds the hidden state at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The row tile's buffer, fetched at every point: the rows inside the array, `d` past them. -/
theorem before3_1 (c : Dev nD) (t : Fin cfg3.N) (d) :
    (dat3 V c).before 1 t d = win3_1.fill (grid3.coords t) d (iblk3 V c 1 t) :=
  ((dat3 V c).before_fetched 1 t (fetch3_1 t) d).trans (by unfold Dat.fetched Dat.blockOf iblk3; rw [A_eq3]; try rfl)

/-- The bias tile's likewise. -/
theorem before3_2 (c : Dev nD) (t : Fin cfg3.N) (d) :
    (dat3 V c).before 2 t d = win3_2.fill (grid3.coords t) d (iblk3 V c 2 t) :=
  ((dat3 V c).before_fetched 2 t (fetch3_2 t) d).trans (by unfold Dat.fetched Dat.blockOf iblk3; rw [A_eq3]; try rfl)

/-- The logits' buffer, written back at every point, holds contents nothing names. -/
theorem before3_3 (c : Dev nD) (t : Fin cfg3.N) (d) : (dat3 V c).before 3 t d = d :=
  (dat3 V c).before_out_reset 3 rfl t
    (by
      by_cases h : t.val = 0
      · exact .inl h
      · exact .inr ⟨h, flush3_3 _⟩) d

/-! ## The body at a point -/

/-- The body at any point, from what the buffers hold there — the two tiles' buffers at their blocks with ANY words
    `d1`, `d2` past the arrays' ends —: the inputs' buffers are left as found, and the logits' buffer holds the payload of
    what the three hold, the words `d1` and `d2` included. -/
theorem sound_body3 (c : Dev nD) (t : Fin cfg3.N) (d1 : Vec F S1024x2048 .f32) (d2 : Vec F S1x1024 .f32)
    (K : PUnit → sProp 𝕄) :
    iprop(owns (c : Thread nD τ) (st3_0 t) fullShare (iblk3 V c 0 t)
        ∗ owns (c : Thread nD τ) (st3_1 t) fullShare (win3_1.fill (grid3.coords t) d1 (iblk3 V c 1 t))
        ∗ owns (c : Thread nD τ) (st3_2 t) fullShare (win3_2.fill (grid3.coords t) d2 (iblk3 V c 2 t))
        ∗ (∃ d, owns (c : Thread nD τ) (st3_3 t) fullShare d)
        ∗ (iprop(owns (c : Thread nD τ) (st3_0 t) fullShare (iblk3 V c 0 t)
            ∗ owns (c : Thread nD τ) (st3_1 t) fullShare (win3_1.fill (grid3.coords t) d1 (iblk3 V c 1 t))
            ∗ owns (c : Thread nD τ) (st3_2 t) fullShare (win3_2.fill (grid3.coords t) d2 (iblk3 V c 2 t))
            ∗ owns (c : Thread nD τ) (st3_3 t) fullShare
                (k3_pay1 (iblk3 V c 0 t) (win3_1.fill (grid3.coords t) d1 (iblk3 V c 1 t))
                  (win3_2.fill (grid3.coords t) d2 (iblk3 V c 2 t)))) -∗ K ⟨⟩))
      ⊢ wp frame (wpE (defs₀ (F := F)) Variants.none c none) Set.univ (bodyAt3 t) K := by
  rw [← stored3_eq]
  exact sound_kernel3 c Set.univ _ _ _ _ _ _ _ _ _ _ _ _ K

/-- The law of the product the named contents rest on: the payload's columns inside the logits array read, of the row
    tile and of the bias tile, only the part inside their arrays — column `j` of the product is the hidden state against
    row `j` of the tile. It holds where the product is the exact contraction; nothing here assumes it of every `F`. -/
def RowLocal3 : Prop :=
  ∀ (t : Fin cfg3.N) (x0 : Vec F S1x2048 .f32) (g1 : (win3_1.xblock (grid3.coords t)).Idx → Elt F .f32)
    (g2 : (win3_2.xblock (grid3.coords t)).Idx → Elt F .f32) (d1 d1' : Vec F S1024x2048 .f32) (d2 d2' : Vec F S1x1024 .f32),
    win3_3.cut (grid3.coords t) (k3_pay1 x0 (win3_1.fill (grid3.coords t) d1 g1) (win3_2.fill (grid3.coords t) d2 g2))
      = win3_3.cut (grid3.coords t) (k3_pay1 x0 (win3_1.fill (grid3.coords t) d1' g1) (win3_2.fill (grid3.coords t) d2' g2))

/-- The pipeline's body obligation, under the product's row law: every buffer is handed back stated on the part inside
    its array. -/
theorem body_obligation3 (hloc : RowLocal3 (F := F)) (c : Dev nD) :
    BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (sound_body3 V c t d1 d2 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after3_0]; iexact H0
  isplitl [H1]
  · iexists d1
    change _ ⊢ owns (c : Thread nD τ) (st3_1 t) fullShare
      (win3_1.fill (grid3.coords t) d1 (win3_1.cut (grid3.coords t) ((dat3 V c).after 1 t)))
    rw [after3_1]; unfold rows3; rw [Window.cut_fill]; try iexact H1
  isplitl [H2]
  · iexists d2
    change _ ⊢ owns (c : Thread nD τ) (st3_2 t) fullShare
      (win3_2.fill (grid3.coords t) d2 (win3_2.cut (grid3.coords t) ((dat3 V c).after 2 t)))
    rw [after3_2]; unfold bias3; rw [Window.cut_fill]; try iexact H2
  · iexists k3_pay1 (iblk3 V c 0 t) (win3_1.fill (grid3.coords t) d1 (iblk3 V c 1 t))
      (win3_2.fill (grid3.coords t) d2 (iblk3 V c 2 t))
    change _ ⊢ owns (c : Thread nD τ) (st3_3 t) fullShare
      (win3_3.fill (grid3.coords t) _ (win3_3.cut (grid3.coords t) ((dat3 V c).after 3 t)))
    rw [after3_3]; unfold out3_3
    rw [win3_3.fill_congr_cut (grid3.coords t) (hloc t _ _ _ _ _ _ _)]
    try iexact H3

/-- The pipeline's body obligation with the logits' buffer FORGOTTEN (handed to the body at any contents and taken back at
    any): it assumes nothing of the product, and says nothing of the logits — what a claim that the program runs to the
    end and leaves its inputs alone needs. -/
theorem body_obligation3_fgt (c : Dev nD) :
    BodyObligationLoose (dat3 (F := F) V c) (defs₀ (F := F)) Variants.none () Set.univ (fun w => decide (w = 3)) := fun t => by
  rw [bigSep_W3, bigSep_W3]
  have h0 : decide ((0 : Fin 4) = 3) = false := by decide
  have h1 : decide ((1 : Fin 4) = 3) = false := by decide
  have h2 : decide ((2 : Fin 4) = 3) = false := by decide
  have h3 : decide ((3 : Fin 4) = 3) = true := by decide
  simp only [h0, h1, h2, h3, decide_true]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2]
  iapply (sound_body3 V c t d1 d2 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after3_0]; iexact H0
  isplitl [H1]
  · iexists d1
    change _ ⊢ owns (c : Thread nD τ) (st3_1 t) fullShare
      (win3_1.fill (grid3.coords t) d1 (win3_1.cut (grid3.coords t) ((dat3 V c).after 1 t)))
    rw [after3_1]; unfold rows3; rw [Window.cut_fill]; try iexact H1
  isplitl [H2]
  · iexists d2
    change _ ⊢ owns (c : Thread nD τ) (st3_2 t) fullShare
      (win3_2.fill (grid3.coords t) d2 (win3_2.cut (grid3.coords t) ((dat3 V c).after 2 t)))
    rw [after3_2]; unfold bias3; rw [Window.cut_fill]; try iexact H2
  · iexists _; iexact H3

end Regions

end Cert.Kernel.Hand

end
-- ==== Proof.K.Bounds.lean ====
import proofs.«111195_j57131654971751_2_alg».proof.Proof.K.Region0
import proofs.«111195_j57131654971751_2_alg».proof.Proof.K.Region1
import proofs.«111195_j57131654971751_2_alg».proof.Proof.K.Region2
import proofs.«111195_j57131654971751_2_alg».proof.Proof.K.Region3
import proofs.«111195_j57131654971751_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-
  The contents of the TensorCore's unscoped buffers at each boundary of the decoder step: the launch memory, then each
  stretch of host operations applied, then — at a kernel region's exit — the region's output arrays at what its grid
  points wrote back and every other buffer as the region found it. Each argument array is written by no stretch and is
  no region's output, so it reaches the end as launched.
-/
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev Vb1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m c)
abbrev Vb2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m c)
abbrev Vb3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
/-- At region 0's exit: its output arrays at what the grid's write-backs leave, every other buffer as entered. -/
def W4 (c : Dev nD) : Valuation τ sig (Elt F) :=
  Function.update (Function.update (W3 m c) (Proc.devRef .tc main_v5_0) ((dat0 (Vb3 m) c).arrAt 4 cfg0.N)) (Proc.devRef .tc main_v5_1) ((dat0 (Vb3 m) c).arrAt 5 cfg0.N)
abbrev Vb4 : (c : Dev nD) → (b : Ref sig .tc) → Buf (Elt F) ((c : Thread nD τ).loc b) := fun c b => W4 m c b
theorem W4_of (c : Dev nD) (r : Ref sig .tc) (h : r ∉ ([main_v5_0, main_v5_1] : List (Ref sig .tc))) :
    W4 m c (Proc.devRef .tc r) = W3 m c (Proc.devRef .tc r) := by
  simp only [W4, Function.update_of_ne (StableHlo.devRef_ne_of_ne (List.ne_of_not_mem_cons (List.not_mem_of_not_mem_cons h)) : (Proc.devRef .tc r : DevRef τ sig) ≠ Proc.devRef .tc main_v5_1), Function.update_of_ne (StableHlo.devRef_ne_of_ne (List.ne_of_not_mem_cons h) : (Proc.devRef .tc r : DevRef τ sig) ≠ Proc.devRef .tc main_v5_0)]
theorem W4_main_v5_0 (c : Dev nD) : W4 m c (Proc.devRef .tc main_v5_0) = (dat0 (Vb3 m) c).arrAt 4 cfg0.N := by
  unfold W4
  rw [Function.update_of_ne (StableHlo.devRef_ne_of_ne (by decide) : (Proc.devRef .tc main_v5_0 : DevRef τ sig) ≠ Proc.devRef .tc main_v5_1)]
  exact Function.update_self _ _ _
theorem W4_main_v5_1 (c : Dev nD) : W4 m c (Proc.devRef .tc main_v5_1) = (dat0 (Vb3 m) c).arrAt 5 cfg0.N := by
  unfold W4
  exact Function.update_self _ _ _
set_option maxHeartbeats 2000000 in
theorem hF0 (c : Dev nD) (w : Fin cfg0.W) : (dat0 (Vb3 m) c).arrAt w cfg0.N = Vb4 m c (Pipeline.arrRef spec0 w) :=
  match w with
  | ⟨0, _⟩ => (((dat0 (Vb3 m) c).arrAt_in 0 rfl cfg0.N).trans (A_eq0 (Vb3 m) c 0)).trans (W4_of m c main_v3 (by decide)).symm
  | ⟨1, _⟩ => (((dat0 (Vb3 m) c).arrAt_in 1 rfl cfg0.N).trans (A_eq0 (Vb3 m) c 1)).trans (W4_of m c main_arg4 (by decide)).symm
  | ⟨2, _⟩ => (((dat0 (Vb3 m) c).arrAt_in 2 rfl cfg0.N).trans (A_eq0 (Vb3 m) c 2)).trans (W4_of m c main_v4 (by decide)).symm
  | ⟨3, _⟩ => (((dat0 (Vb3 m) c).arrAt_in 3 rfl cfg0.N).trans (A_eq0 (Vb3 m) c 3)).trans (W4_of m c main_arg2 (by decide)).symm
  | ⟨4, _⟩ => (W4_main_v5_0 m c).symm
  | ⟨5, _⟩ => (W4_main_v5_1 m c).symm
theorem hrest0 (c : Dev nD) : ∀ b, b ∉ Finset.univ.image (Pipeline.arrRef spec0) → Vb4 m c b = Vb3 m c b := fun b hb =>
  W4_of m c b fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    exact absurd h List.not_mem_nil)
/-- After the host stretch `hostOps1`. -/
abbrev W5 : Dev nD → Valuation τ sig (Elt F) := fun c => StableHlo.after hostOps1 (W4 m c)
abbrev Vb5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h
/-- At region 1's exit: its output array at what the grid's write-backs leave, every other buffer as entered. -/
def W6 (c : Dev nD) : Valuation τ sig (Elt F) :=
  Function.update (W5 m c) (Proc.devRef .tc main_v8) ((dat1 (Vb5 m) c).arrAt 3 cfg1.N)
abbrev Vb6 : (c : Dev nD) → (b : Ref sig .tc) → Buf (Elt F) ((c : Thread nD τ).loc b) := fun c b => W6 m c b
theorem W6_of (c : Dev nD) (r : Ref sig .tc) (h : r ∉ ([main_v8] : List (Ref sig .tc))) :
    W6 m c (Proc.devRef .tc r) = W5 m c (Proc.devRef .tc r) := by
  simp only [W6, Function.update_of_ne (StableHlo.devRef_ne_of_ne (List.ne_of_not_mem_cons h) : (Proc.devRef .tc r : DevRef τ sig) ≠ Proc.devRef .tc main_v8)]
theorem W6_main_v8 (c : Dev nD) : W6 m c (Proc.devRef .tc main_v8) = (dat1 (Vb5 m) c).arrAt 3 cfg1.N := by
  unfold W6
  exact Function.update_self _ _ _
set_option maxHeartbeats 2000000 in
theorem hF1 (c : Dev nD) (w : Fin cfg1.W) : (dat1 (Vb5 m) c).arrAt w cfg1.N = Vb6 m c (Pipeline.arrRef spec1 w) :=
  match w with
  | ⟨0, _⟩ => (((dat1 (Vb5 m) c).arrAt_in 0 rfl cfg1.N).trans (A_eq1 (Vb5 m) c 0)).trans (W6_of m c main_v6 (by decide)).symm
  | ⟨1, _⟩ => (((dat1 (Vb5 m) c).arrAt_in 1 rfl cfg1.N).trans (A_eq1 (Vb5 m) c 1)).trans (W6_of m c main_arg6 (by decide)).symm
  | ⟨2, _⟩ => (((dat1 (Vb5 m) c).arrAt_in 2 rfl cfg1.N).trans (A_eq1 (Vb5 m) c 2)).trans (W6_of m c main_v7 (by decide)).symm
  | ⟨3, _⟩ => (W6_main_v8 m c).symm
theorem hrest1 (c : Dev nD) : ∀ b, b ∉ Finset.univ.image (Pipeline.arrRef spec1) → Vb6 m c b = Vb5 m c b := fun b hb =>
  W6_of m c b fun h => hb (by
    rcases List.mem_cons.mp h with rfl | h
    · exact Finset.mem_image.mpr ⟨3, Finset.mem_univ _, rfl⟩
    exact absurd h List.not_mem_nil)
/-- After the host stretch `hostOps2`. -/
abbrev W7 : Dev nD → Valuation τ sig (Elt F) := fun c => StableHlo.after hostOps2 (W6 m c)
abbrev Vb7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h
/-- At region 2's exit: its output array at what the grid's write-backs leave, every other buffer as entered. -/
def W8 (c : Dev nD) : Valuation τ sig (Elt F) :=
  Function.update (W7 m c) (Proc.devRef .tc main_v15) ((dat2 (Vb7 m) c).arrAt 7 cfg2.N)
abbrev Vb8 : (c : Dev nD) → (b : Ref sig .tc) → Buf (Elt F) ((c : Thread nD τ).loc b) := fun c b => W8 m c b
theorem W8_of (c : Dev nD) (r : Ref sig .tc) (h : r ∉ ([main_v15] : List (Ref sig .tc))) :
    W8 m c (Proc.devRef .tc r) = W7 m c (Proc.devRef .tc r) := by
  simp only [W8, Function.update_of_ne (StableHlo.devRef_ne_of_ne (List.ne_of_not_mem_cons h) : (Proc.devRef .tc r : DevRef τ sig) ≠ Proc.devRef .tc main_v15)]
theorem W8_main_v15 (c : Dev nD) : W8 m c (Proc.devRef .tc main_v15) = (dat2 (Vb7 m) c).arrAt 7 cfg2.N := by
  unfold W8
  exact Function.update_self _ _ _
set_option maxHeartbeats 2000000 in
theorem hF2 (c : Dev nD) (w : Fin cfg2.W) : (dat2 (Vb7 m) c).arrAt w cfg2.N = Vb8 m c (Pipeline.arrRef spec2 w) :=
  match w with
  | ⟨0, _⟩ => (((dat2 (Vb7 m) c).arrAt_in 0 rfl cfg2.N).trans (A_eq2 (Vb7 m) c 0)).trans (W8_of m c main_v8 (by decide)).symm
  | ⟨1, _⟩ => (((dat2 (Vb7 m) c).arrAt_in 1 rfl cfg2.N).trans (A_eq2 (Vb7 m) c 1)).trans (W8_of m c main_v2 (by decide)).symm
  | ⟨2, _⟩ => (((dat2 (Vb7 m) c).arrAt_in 2 rfl cfg2.N).trans (A_eq2 (Vb7 m) c 2)).trans (W8_of m c main_v2 (by decide)).symm
  | ⟨3, _⟩ => (((dat2 (Vb7 m) c).arrAt_in 3 rfl cfg2.N).trans (A_eq2 (Vb7 m) c 3)).trans (W8_of m c main_v11 (by decide)).symm
  | ⟨4, _⟩ => (((dat2 (Vb7 m) c).arrAt_in 4 rfl cfg2.N).trans (A_eq2 (Vb7 m) c 4)).trans (W8_of m c main_v12 (by decide)).symm
  | ⟨5, _⟩ => (((dat2 (Vb7 m) c).arrAt_in 5 rfl cfg2.N).trans (A_eq2 (Vb7 m) c 5)).trans (W8_of m c main_v13 (by decide)).symm
  | ⟨6, _⟩ => (((dat2 (Vb7 m) c).arrAt_in 6 rfl cfg2.N).trans (A_eq2 (Vb7 m) c 6)).trans (W8_of m c main_v14 (by decide)).symm
  | ⟨7, _⟩ => (W8_main_v15 m c).symm
theorem hrest2 (c : Dev nD) : ∀ b, b ∉ Finset.univ.image (Pipeline.arrRef spec2) → Vb8 m c b = Vb7 m c b := fun b hb =>
  W8_of m c b fun h => hb (by
    rcases List.mem_cons.mp h with rfl | h
    · exact Finset.mem_image.mpr ⟨7, Finset.mem_univ _, rfl⟩
    exact absurd h List.not_mem_nil)
/-- After the host stretch `hostOps3`. -/
abbrev W9 : Dev nD → Valuation τ sig (Elt F) := fun c => StableHlo.after hostOps3 (W8 m c)
abbrev Vb9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) :=
  StableHlo.after_of_writes_sub hostOps3 _ hostOps3_writes h
/-- At region 3's exit: its output array at what the grid's write-backs leave, every other buffer as entered. -/
def W10 (c : Dev nD) : Valuation τ sig (Elt F) :=
  Function.update (W9 m c) (Proc.devRef .tc main_v17) ((dat3 (Vb9 m) c).arrAt 3 cfg3.N)
abbrev Vb10 : (c : Dev nD) → (b : Ref sig .tc) → Buf (Elt F) ((c : Thread nD τ).loc b) := fun c b => W10 m c b
theorem W10_of (c : Dev nD) (r : Ref sig .tc) (h : r ∉ ([main_v17] : List (Ref sig .tc))) :
    W10 m c (Proc.devRef .tc r) = W9 m c (Proc.devRef .tc r) := by
  simp only [W10, Function.update_of_ne (StableHlo.devRef_ne_of_ne (List.ne_of_not_mem_cons h) : (Proc.devRef .tc r : DevRef τ sig) ≠ Proc.devRef .tc main_v17)]
theorem W10_main_v17 (c : Dev nD) : W10 m c (Proc.devRef .tc main_v17) = (dat3 (Vb9 m) c).arrAt 3 cfg3.N := by
  unfold W10
  exact Function.update_self _ _ _
set_option maxHeartbeats 2000000 in
theorem hF3 (c : Dev nD) (w : Fin cfg3.W) : (dat3 (Vb9 m) c).arrAt w cfg3.N = Vb10 m c (Pipeline.arrRef spec3 w) :=
  match w with
  | ⟨0, _⟩ => (((dat3 (Vb9 m) c).arrAt_in 0 rfl cfg3.N).trans (A_eq3 (Vb9 m) c 0)).trans (W10_of m c main_v15 (by decide)).symm
  | ⟨1, _⟩ => (((dat3 (Vb9 m) c).arrAt_in 1 rfl cfg3.N).trans (A_eq3 (Vb9 m) c 1)).trans (W10_of m c main_arg12 (by decide)).symm
  | ⟨2, _⟩ => (((dat3 (Vb9 m) c).arrAt_in 2 rfl cfg3.N).trans (A_eq3 (Vb9 m) c 2)).trans (W10_of m c main_v16 (by decide)).symm
  | ⟨3, _⟩ => (W10_main_v17 m c).symm
theorem hrest3 (c : Dev nD) : ∀ b, b ∉ Finset.univ.image (Pipeline.arrRef spec3) → Vb10 m c b = Vb9 m c b := fun b hb =>
  W10_of m c b fun h => hb (by
    rcases List.mem_cons.mp h with rfl | h
    · exact Finset.mem_image.mpr ⟨3, Finset.mem_univ _, rfl⟩
    exact absurd h List.not_mem_nil)
/-- After the host stretch `hostOps4`. -/
abbrev W11 : Dev nD → Valuation τ sig (Elt F) := fun c => StableHlo.after hostOps4 (W10 m c)
abbrev Vb11 : (c : Dev nD) → (b : Ref sig .tc) → Buf (Elt F) ((c : Thread nD τ).loc b) := fun c b => W11 m c b
theorem W11_of (c : Dev nD) (r : Ref sig .tc) (h : r ∉ hostOps4_W) : W11 m c (Proc.devRef .tc r) = W10 m c (Proc.devRef .tc r) :=
  StableHlo.after_of_writes_sub hostOps4 _ hostOps4_writes h
/-- After the host stretch `hostOps4_1`. -/
abbrev W12 : Dev nD → Valuation τ sig (Elt F) := fun c => StableHlo.after hostOps4_1 (W11 m c)
abbrev Vb12 : (c : Dev nD) → (b : Ref sig .tc) → Buf (Elt F) ((c : Thread nD τ).loc b) := fun c b => W12 m c b
theorem W12_of (c : Dev nD) (r : Ref sig .tc) (h : r ∉ hostOps4_1_W) : W12 m c (Proc.devRef .tc r) = W11 m c (Proc.devRef .tc r) :=
  StableHlo.after_of_writes_sub hostOps4_1 _ hostOps4_1_writes h

/-! ## The proof data family -/

abbrev admH : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (Vb3 m) c
  | ⟨1, _⟩ => fun c => dat1 (Vb5 m) c
  | ⟨2, _⟩ => fun c => dat2 (Vb7 m) c
  | ⟨3, _⟩ => fun c => dat3 (Vb9 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RData.lean ====
import proofs.«111195_j57131654971751_2_alg».proof.Proof.K.Region0
import proofs.«111195_j57131654971751_2_alg».proof.Proof.K.Region1
import proofs.«111195_j57131654971751_2_alg».proof.Proof.K.Region2
import proofs.«111195_j57131654971751_2_alg».proof.Proof.K.Region3
import proofs.«111195_j57131654971751_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The decoder step's four pipelines' proof data read RELATIONALLY (what a body leaves in a window is constrained, not
  named), each at the buffer contents its region is entered with — given here as four valuations `E0 … E3` —, the last
  region's output window (the logits' tile) FORGOTTEN: of what that region leaves in the logits' array nothing is said.
  Also what rides beside the buffers through every segment, and a host stretch run from contents known only up to a
  parameter (the logits' array after the last region).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A valuation read at the TensorCore's references. -/
abbrev atTc (E : Dev nD → Valuation τ sig (Elt F)) : (c : Dev nD) → (b : Ref sig .tc) → Buf (Elt F) ((c : Thread nD τ).loc b) :=
  fun c b => E c b

/-- No pipeline has a prefetched table. -/
abbrev admR : (p : Fin 4) → (pcfgs (F := F) p).Adm := fun p => (cfgs p).toPCfg_adm

variable (E0 E1 E2 E3 : Dev nD → Valuation τ sig (Elt F))

/-- Every pipeline's exact proof data, each at its region's entry contents. -/
def pdatsR : (p : Fin 4) → (c : Dev nD) → Dat τ (Elt F) Unit ℕ (UR sig nD τ) ℕ (Pipeline.pin (pcfgs (F := F)) admR p) c
  | ⟨0, _⟩ => fun c => dat0 (atTc E0) c
  | ⟨1, _⟩ => fun c => dat1 (atTc E1) c
  | ⟨2, _⟩ => fun c => dat2 (atTc E2) c
  | ⟨3, _⟩ => fun c => dat3 (atTc E3) c

/-- The same read relationally; the last pipeline's output window forgotten. -/
def rdatsR : (p : Fin 4) → (c : Dev nD) → RDat τ (Elt F) Unit ℕ (UR sig nD τ) ℕ (Pipeline.pin (pcfgs (F := F)) admR p) c
  | ⟨0, _⟩ => fun c => (pdatsR E0 E1 E2 E3 0 c).toR
  | ⟨1, _⟩ => fun c => (pdatsR E0 E1 E2 E3 1 c).toR
  | ⟨2, _⟩ => fun c => (pdatsR E0 E1 E2 E3 2 c).toR
  | ⟨3, _⟩ => fun c => (pdatsR E0 E1 E2 E3 3 c).toRForget (fun w => decide (w = 3))

abbrev varR : Variants := Variants.none
/-- No core owes another anything: no level is assigned. -/
abbrev LR : GSem nD τ sig → Finset Unit := fun _ => ∅
abbrev lvR : GSem nD τ sig → Unit → ℕ := fun _ _ => 0
/-- What rides beside the buffers through every segment: the generator register at some state, nothing owed. -/
abbrev restR (c : Dev nD) : sProp 𝕄 := iprop((∃ r, prngReg c r) ∗ ∃ W, owes (c : Thread nD τ) (0 : CellTallies nD τ sig Unit) W)

/-- A host stretch as a segment over the unscoped references from the contents `W`. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ varR LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W restR

-- a StableHLO rule stated for any thread unifies at the TensorCore's only when unification may unfold plain
-- definitions in a metavariable's type
set_option backward.isDefEq.respectTransparency.types false in
/-- A host stretch run from contents known only up to a parameter `f`: the unscoped buffers are held at `W f c` for
    SOME `f`, and it runs to them at the stretch applied to `W f c`, for the same `f`. -/
def hsegEx {ι : Type} (ops : List (HloOp τ sig (Elt F))) (hsub : ops.Forall fun op => op.bufs ⊆ StableHlo.tcRefs τ sig)
    (hfresh : ops.Forall fun op => op.fresh = ∅) (W : ι → Dev nD → Valuation τ sig (Elt F)) :
    Pipeline.HostSeg (Name := ℕ) (U := UR sig nD τ) (pcfgs (F := F)) defs₀ varR LR lvR where
  prog := StableHlo.seq ops
  pre c := iprop((∃ f, StableHlo.held (c : Thread nD τ) (Pipeline.ucRefs τ sig) (W f c)) ∗ restR c)
  post c := iprop((∃ f, StableHlo.held (c : Thread nD τ) (Pipeline.ucRefs τ sig) (StableHlo.after ops (W f c))) ∗ restR c)
  run c {β} k K := by
    iintro ⟨Hk, Hbd, ⟨⟨%f, Hh⟩, HR⟩, -⟩
    have hseq := StableHlo.wp_seq (defs := Pipeline.defs (pcfgs (F := F)) defs₀) (Variants.lift varR) none Set.univ c
      (Pipeline.ucRefs τ sig) k (K := K) ops
      (fun op h => Pipeline.sub_ucRefs op ((List.forall_iff_forall_mem.mp hsub) op h))
      (fun op h => (List.forall_iff_forall_mem.mp hfresh) op h) (W f c)
    iapply hseq $$ [Hbd Hh]
    · isplitl [Hbd] <;> iassumption
    iintro ⟨Hbd, Hh⟩
    iapply Hk
    isplitl [Hbd]; · iexact Hbd
    isplitl [Hh]; · iexists f; iexact Hh
    iexact HR

end Cert.Kernel.Hand

end
-- ==== Proof.K.RReg0.lean ====
import proofs.«111195_j57131654971751_2_alg».proof.Proof.K.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 0 (the attention scores and the context vector) as a segment of the run over relational proof data: entered with every unscoped buffer held at the contents `E0`,
  left with them at any contents `X` that have the region's arrays at what its grid's write-backs leave and agree with
  `E0` elsewhere. Its arrays are split out of the unscoped buffers at the entry and put back at the exit; the generator
  register passes through the kernel's invariant; nothing is owed and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg0 (hF : ∀ c w, (dat0 (atTc E0) c).arrAt w cfg0.N = atTc X c (Pipeline.arrRef spec0 w))
    (hrest : ∀ c b, b ∉ Finset.univ.image (Pipeline.arrRef spec0) → atTc X c b = atTc E0 c b) :
    Pipeline.RDat.RegionSeg (pcfgs (F := F)) admR (rdatsR E0 E1 E2 E3) () defs₀ varR LR lvR 0 where
  win := launch0.win.to₀
  block_pos := launch0.block_pos
  stage_whole := launch0.stage_whole
  K := PEmpty
  osem k := k.elim
  ho := Pipeline.OwnSemFacts.none _
  hbody c := (body_obligation0 (atTc E0) c).loose.toR
  hwaits := Pipeline.RDat.hwaits_of_owed_zero _ _ _ _ LR lvR 0 fun _ _ => rfl
  pre c := iprop(StableHlo.held (c : Thread nD τ) (Pipeline.ucRefs τ sig) (E0 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec0 c (atTc E0 c)
  hentry c := by
    rw [Pipeline.ownSems0_none]
    have hsplit := Pipeline.RDat.arrays_of_unscopedBufs (p := 0) (pcfgs (F := F)) admR (rdatsR E0 E1 E2 E3) launch0.win launch0.arr_whole c
      ((pdatsR E0 E1 E2 E3 0 c).share_full fun _ => rfl) (atTc E0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdatsR E0 E1 E2 E3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR E0 E1 E2 E3) ((pdatsR E0 E1 E2 E3 0 c).share_full fun _ => rfl)
      (atTc E0 c) (atTc X c) ((pdatsR E0 E1 E2 E3 0 c).arrAt · cfg0.N) (hF c) (hrest c)
    rw [Pipeline.unscopedBufs_held] at hjoin
    have hpost : (rdatsR E0 E1 E2 E3 0 c).arraysAt (Pipeline.pin (pcfgs (F := F)) admR 0).N
        ⊢ ((pdatsR E0 E1 E2 E3 0 c).arrays ((pdatsR E0 E1 E2 E3 0 c).arrAt · cfg0.N) : sProp 𝕄) :=
      (pdatsR E0 E1 E2 E3 0 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.RReg1.lean ====
import proofs.«111195_j57131654971751_2_alg».proof.Proof.K.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 1 (the attention-combine projection) as a segment of the run over relational proof data: entered with every unscoped buffer held at the contents `E1`,
  left with them at any contents `X` that have the region's arrays at what its grid's write-backs leave and agree with
  `E1` elsewhere. Its arrays are split out of the unscoped buffers at the entry and put back at the exit; the generator
  register passes through the kernel's invariant; nothing is owed and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg1 (hF : ∀ c w, (dat1 (atTc E1) c).arrAt w cfg1.N = atTc X c (Pipeline.arrRef spec1 w))
    (hrest : ∀ c b, b ∉ Finset.univ.image (Pipeline.arrRef spec1) → atTc X c b = atTc E1 c b) :
    Pipeline.RDat.RegionSeg (pcfgs (F := F)) admR (rdatsR E0 E1 E2 E3) () defs₀ varR LR lvR 1 where
  win := launch1.win.to₀
  block_pos := launch1.block_pos
  stage_whole := launch1.stage_whole
  K := PEmpty
  osem k := k.elim
  ho := Pipeline.OwnSemFacts.none _
  hbody c := (body_obligation1 (atTc E1) c).loose.toR
  hwaits := Pipeline.RDat.hwaits_of_owed_zero _ _ _ _ LR lvR 1 fun _ _ => rfl
  pre c := iprop(StableHlo.held (c : Thread nD τ) (Pipeline.ucRefs τ sig) (E1 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec1 c (atTc E1 c)
  hentry c := by
    rw [Pipeline.ownSems0_none]
    have hsplit := Pipeline.RDat.arrays_of_unscopedBufs (p := 1) (pcfgs (F := F)) admR (rdatsR E0 E1 E2 E3) launch1.win launch1.arr_whole c
      ((pdatsR E0 E1 E2 E3 1 c).share_full fun _ => rfl) (atTc E1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsR E0 E1 E2 E3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdatsR E0 E1 E2 E3) ((pdatsR E0 E1 E2 E3 1 c).share_full fun _ => rfl)
      (atTc E1 c) (atTc X c) ((pdatsR E0 E1 E2 E3 1 c).arrAt · cfg1.N) (hF c) (hrest c)
    rw [Pipeline.unscopedBufs_held] at hjoin
    have hpost : (rdatsR E0 E1 E2 E3 1 c).arraysAt (Pipeline.pin (pcfgs (F := F)) admR 1).N
        ⊢ ((pdatsR E0 E1 E2 E3 1 c).arrays ((pdatsR E0 E1 E2 E3 1 c).arrAt · cfg1.N) : sProp 𝕄) :=
      (pdatsR E0 E1 E2 E3 1 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.Region2b.lean ====
/- The fused GRU gates' region: the hidden state's array, which two of its input windows read, dealt between them
   when the region is entered and put together again when it is left. -/
import proofs.«111195_j57131654971751_2_alg».proof.Proof.K.Region2
import Idealize.ShloMosaic.Lib.Pipeline.Launch
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The share the proof data holds of each window's array: the hidden state's halves on windows 1 and 2, the full
    share elsewhere (an output's array always). -/
theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl

/-- The proof data's arrays, window by window, each a whole buffer. -/
theorem arrays2_eq (c : Dev nD) (G : (w : Fin cfg2.W) → Buf (Elt F) ((cfg2.win w).arr.view.loc (c : Thread nD τ))) :
    ((dat2 V c).arrays G : sProp 𝕄)
      = bigSep Finset.univ fun w : Fin 8 => (((c : Thread nD τ).loc (Pipeline.arrRef spec2 w)) ↦{(dat2 V c).share w} G w : sProp 𝕄) := by
  unfold Dat.arrays
  exact bigSep_congr fun w _ => by rw [(arr_whole2 w).set_eq_univ]

/-- The distinct buffers behind the windows' arrays, one by one: seven, the hidden state's behind two windows. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v8) ↦{fullShare} V' main_v8)
        ∗ (((c : Thread nD τ).loc main_v2) ↦{fullShare} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15)) :=
  bigSep_eq_bigSepL_of_eq [main_v8, main_v2, main_v11, main_v12, main_v13, main_v14, main_v15] (by decide) (by decide) _

set_option maxHeartbeats 400000 in
/-- The proof data's arrays at contents `G` that are a valuation `V'` of the buffers read at each window's array are
    those buffers whole at `V'`: the hidden state's full share is its two windows' halves put together, every other
    buffer its one window's full share. -/
theorem arrays2_iff (c : Dev nD) (G : (w : Fin cfg2.W) → Buf (Elt F) ((cfg2.win w).arr.view.loc (c : Thread nD τ)))
    (V' : (b : Ref sig .tc) → Buf (Elt F) ((c : Thread nD τ).loc b)) (hG : ∀ w, G w = V' (Pipeline.arrRef spec2 w)) :
    ((dat2 V c).arrays G : sProp 𝕄) ⊣⊢ (Pipeline.arrBufs (Ix := Unit) (Name := ℕ) (U := UR sig nD τ) (Lvl := ℕ) spec2 c V' : sProp 𝕄) := by
  rw [arrays2_eq, bigSep_W2, arrBufs2_eq]
  simp only [share2_0, share2_1, share2_2, share2_3, share2_4, share2_5, share2_6, share2_7, hG]
  -- each window's array named as the buffer behind it (one pass of definitional unfolding, window by window)
  change (iprop((((c : Thread nD τ).loc main_v8) ↦{fullShare} V' main_v8)
        ∗ (((c : Thread nD τ).loc main_v2) ↦{fullShare.left} V' main_v2)
        ∗ (((c : Thread nD τ).loc main_v2) ↦{fullShare.right} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15)) : sProp 𝕄)
    ⊣⊢ iprop((((c : Thread nD τ).loc main_v8) ↦{fullShare} V' main_v8)
        ∗ (((c : Thread nD τ).loc main_v2) ↦{fullShare} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15))
  refine ⟨?_, ?_⟩
  · iintro ⟨H0, H1, H2, H3, H4, H5, H6, H7⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    iexact H7
  · iintro ⟨H0, H12, H3, H4, H5, H6, H7⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- ENTRY: the buffers behind the arrays, whole at the entry contents, are the proof data's arrays at them. -/
theorem hsplit2 (c : Dev nD) :
    (Pipeline.arrBufs (Ix := Unit) (Name := ℕ) (U := UR sig nD τ) (Lvl := ℕ) spec2 c (V c) : sProp 𝕄) ⊢ (dat2 V c).arrays (dat2 V c).A :=
  (arrays2_iff V c (dat2 V c).A (V c) (A_eq2 V c)).2

/-- EXIT: the proof data's arrays at their final contents, which are a valuation `V'` read at each window's array, are
    the buffers behind them whole at `V'`. -/
theorem hjoin2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N) ⊢ (Pipeline.arrBufs (Ix := Unit) (Name := ℕ) (U := UR sig nD τ) (Lvl := ℕ) spec2 c V' : sProp 𝕄) :=
  (arrays2_iff V c ((dat2 V c).arrAt · cfg2.N) V' hF).1

end Region

end Cert.Kernel.Hand
-- ==== Proof.K.RReg2.lean ====
import proofs.«111195_j57131654971751_2_alg».proof.Proof.K.RData
import proofs.«111195_j57131654971751_2_alg».proof.Proof.K.Region2b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 2 (the fused GRU gates) as a segment of the run over relational proof data: entered with every unscoped buffer held at the
  contents `E2`, left with them at any contents `X` that have the region's arrays at what its grid's write-backs leave and
  agree with `E2` elsewhere. Two of its input windows read the hidden state's array, so the buffers BEHIND the arrays
  (seven, not eight) are split out of the unscoped buffers at the entry, the hidden state's dealt between its two windows,
  and put back together at the exit; the generator register passes through the kernel's invariant; nothing is owed and
  the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg2 (hF : ∀ c w, (dat2 (atTc E2) c).arrAt w cfg2.N = atTc X c (Pipeline.arrRef spec2 w))
    (hrest : ∀ c b, b ∉ Finset.univ.image (Pipeline.arrRef spec2) → atTc X c b = atTc E2 c b) :
    Pipeline.RDat.RegionSeg (pcfgs (F := F)) admR (rdatsR E0 E1 E2 E3) () defs₀ varR LR lvR 2 where
  win := winFacts₀2
  block_pos := block_pos2
  stage_whole := stage_whole2
  K := PEmpty
  osem k := k.elim
  ho := Pipeline.OwnSemFacts.none _
  hbody c := (body_obligation2 (atTc E2) c).loose.toR
  hwaits := Pipeline.RDat.hwaits_of_owed_zero _ _ _ _ LR lvR 2 fun _ _ => rfl
  pre c := iprop(StableHlo.held (c : Thread nD τ) (Pipeline.ucRefs τ sig) (E2 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec2 c (atTc E2 c)
  hentry c := by
    rw [Pipeline.ownSems0_none]
    have hsp := Pipeline.unscopedBufs_split₀ (Ix := Unit) (Name := ℕ) (U := UR sig nD τ) (Lvl := ℕ)
      (Pipeline.pin (pcfgs (F := F)) admR) 2 winFacts₀2.arr_unscoped c (atTc E2 c)
    rw [Pipeline.unscopedBufs_held] at hsp
    have hsplit : (StableHlo.held (c : Thread nD τ) (Pipeline.ucRefs τ sig) (E2 c) : sProp 𝕄)
        ⊢ iprop((rdatsR E0 E1 E2 E3 2 c).arrays (rdatsR E0 E1 E2 E3 2 c).A
          ∗ Pipeline.unscopedRest (Ix := Unit) (Name := ℕ) (U := UR sig nD τ) (Lvl := ℕ) spec2 c (atTc E2 c)) := by
      rw [hsp]; exact sep_mono (hsplit2 (atTc E2) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdatsR E0 E1 E2 E3 2 c).Φ (Fin.last _) = Pipeline.ΦA spec2 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ)
      (Pipeline.pin (pcfgs (F := F)) admR) 2 winFacts₀2.arr_unscoped c (atTc X c)
    rw [Pipeline.unscopedBufs_held] at hsp
    have hjoin : iprop((pdatsR E0 E1 E2 E3 2 c).arrays ((pdatsR E0 E1 E2 E3 2 c).arrAt · cfg2.N)
          ∗ Pipeline.unscopedRest (Ix := Unit) (Name := ℕ) (U := UR sig nD τ) (Lvl := ℕ) spec2 c (atTc E2 c))
        ⊢ (StableHlo.held (c : Thread nD τ) (Pipeline.ucRefs τ sig) (X c) : sProp 𝕄) := by
      rw [hsp]
      refine sep_mono (hjoin2 (atTc E2) c (atTc X c) (hF c)) (Entails.of_eq ?_)
      unfold Pipeline.unscopedRest
      exact bigSep_congr fun b hb => by rw [hrest c b (Finset.mem_sdiff.mp hb).2]
    have hpost : (rdatsR E0 E1 E2 E3 2 c).arraysAt (Pipeline.pin (pcfgs (F := F)) admR 2).N
        ⊢ ((pdatsR E0 E1 E2 E3 2 c).arrays ((pdatsR E0 E1 E2 E3 2 c).arrAt · cfg2.N) : sProp 𝕄) :=
      (pdatsR E0 E1 E2 E3 2 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.K.RReg3.lean ====
import proofs.«111195_j57131654971751_2_alg».proof.Proof.K.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The last region (the output projection onto the vocabulary) as a segment of the run over relational proof data, its output window
  FORGOTTEN: it is entered with every unscoped buffer held at the contents `E3` and left with them as entered except the
  logits' array, which holds contents nothing names. Its arrays are split out of the unscoped buffers at the entry and put
  back at the exit; the generator register passes through the kernel's invariant; nothing is owed and the kernel has no
  semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The contents of the logits' array. -/
abbrev LogitsC : Type := (Proc.devRef .tc main_v17 : DevRef τ sig).ty.Contents (Elt F)

/-- A valuation with the logits' array at `f`. -/
def logitsAt (E : Dev nD → Valuation τ sig (Elt F)) (f : LogitsC (F := F)) (c : Dev nD) : Valuation τ sig (Elt F) :=
  Function.update (E c) (Proc.devRef .tc main_v17) f

theorem logitsAt_of (E : Dev nD → Valuation τ sig (Elt F)) (f : LogitsC (F := F)) (c : Dev nD) (r : Ref sig .tc) (h : r ≠ main_v17) :
    logitsAt E f c (Proc.devRef .tc r) = E c (Proc.devRef .tc r) := by
  unfold logitsAt
  exact Function.update_of_ne (StableHlo.devRef_ne_of_ne h : (Proc.devRef .tc r : DevRef τ sig) ≠ Proc.devRef .tc main_v17) _ _

theorem logitsAt_self (E : Dev nD → Valuation τ sig (Elt F)) (f : LogitsC (F := F)) (c : Dev nD) :
    logitsAt E f c (Proc.devRef .tc main_v17) = f := by
  unfold logitsAt
  exact Function.update_self _ _ _

variable (E0 E1 E2 E3 : Dev nD → Valuation τ sig (Elt F))

/-- Off the region's arrays such a valuation is `E`. -/
theorem logitsAt_rest (f : LogitsC (F := F)) (c : Dev nD) :
    ∀ b, b ∉ Finset.univ.image (Pipeline.arrRef spec3) → atTc (logitsAt E3 f) c b = atTc E3 c b := fun b hb =>
  logitsAt_of E3 f c b fun e => hb (Finset.mem_image.mpr ⟨3, Finset.mem_univ _, by subst e; rfl⟩)

set_option backward.isDefEq.respectTransparency.types false in
/-- After every write-back the region's arrays are: the three inputs' as entered (an input array is never written), the
    logits' at some contents. -/
theorem arraysAt3_open (c : Dev nD) :
    ((dat3 (atTc E3) c).toRForget (fun w => decide (w = 3))).arraysAt cfg3.N
      ⊢ (iprop(∃ f : LogitsC (F := F), (dat3 (atTc E3) c).arrays fun w => atTc (logitsAt E3 f) c (Pipeline.arrRef spec3 w)) : sProp 𝕄) := by
  have e0 : ∀ G, ((dat3 (atTc E3) c).toRForget (fun w => decide (w = 3))).ArrAt 0 cfg3.N G → ∀ f : LogitsC (F := F), G = atTc (logitsAt E3 f) c (Pipeline.arrRef spec3 0) := fun G h f =>
    ((((dat3 (atTc E3) c).toRForget_arrAt_iff (fgt := fun w => decide (w = 3)) (w := 0) (by decide) cfg3.N G).mp h).trans
      (((dat3 (atTc E3) c).arrAt_in 0 rfl cfg3.N).trans (A_eq3 (atTc E3) c 0))).trans (logitsAt_of E3 f c _ (by decide)).symm
  have e1 : ∀ G, ((dat3 (atTc E3) c).toRForget (fun w => decide (w = 3))).ArrAt 1 cfg3.N G → ∀ f : LogitsC (F := F), G = atTc (logitsAt E3 f) c (Pipeline.arrRef spec3 1) := fun G h f =>
    ((((dat3 (atTc E3) c).toRForget_arrAt_iff (fgt := fun w => decide (w = 3)) (w := 1) (by decide) cfg3.N G).mp h).trans
      (((dat3 (atTc E3) c).arrAt_in 1 rfl cfg3.N).trans (A_eq3 (atTc E3) c 1))).trans (logitsAt_of E3 f c _ (by decide)).symm
  have e2 : ∀ G, ((dat3 (atTc E3) c).toRForget (fun w => decide (w = 3))).ArrAt 2 cfg3.N G → ∀ f : LogitsC (F := F), G = atTc (logitsAt E3 f) c (Pipeline.arrRef spec3 2) := fun G h f =>
    ((((dat3 (atTc E3) c).toRForget_arrAt_iff (fgt := fun w => decide (w = 3)) (w := 2) (by decide) cfg3.N G).mp h).trans
      (((dat3 (atTc E3) c).arrAt_in 2 rfl cfg3.N).trans (A_eq3 (atTc E3) c 2))).trans (logitsAt_of E3 f c _ (by decide)).symm
  unfold Pipeline.RDat.arraysAt Pipeline.Dat.arrays
  simp only [bigSep_W3]
  iintro ⟨⟨%G0, %h0, H0⟩, ⟨%G1, %h1, H1⟩, ⟨%G2, %h2, H2⟩, ⟨%G3, -, H3⟩⟩
  iexists G3
  have h0' := e0 G0 h0 G3
  have h1' := e1 G1 h1 G3
  have h2' := e2 G2 h2 G3
  have h3' : G3 = atTc (logitsAt E3 G3) c (Pipeline.arrRef spec3 3) := (logitsAt_self E3 G3 c).symm
  isplitl [H0]; · rw [← h0']; iexact H0
  isplitl [H1]; · rw [← h1']; iexact H1
  isplitl [H2]; · rw [← h2']; iexact H2
  rw [← h3']; iexact H3

variable (X : Dev nD → Valuation τ sig (Elt F))

set_option backward.isDefEq.respectTransparency.types false in
def rreg3 : Pipeline.RDat.RegionSeg (pcfgs (F := F)) admR (rdatsR E0 E1 E2 E3) () defs₀ varR LR lvR 3 where
  win := launch3.win.to₀
  block_pos := launch3.block_pos
  stage_whole := launch3.stage_whole
  K := PEmpty
  osem k := k.elim
  ho := Pipeline.OwnSemFacts.none _
  hbody c := (body_obligation3_fgt (atTc E3) c).toRForget
  hwaits := Pipeline.RDat.hwaits_of_owed_zero _ _ _ _ LR lvR 3 fun _ _ => rfl
  pre c := iprop(StableHlo.held (c : Thread nD τ) (Pipeline.ucRefs τ sig) (E3 c) ∗ restR c)
  post c := iprop((∃ f : LogitsC (F := F), StableHlo.held (c : Thread nD τ) (Pipeline.ucRefs τ sig) (logitsAt E3 f c)) ∗ restR c)
  X c := iprop(∃ r, prngReg c r)
  Y c := iprop(∃ r, prngReg c r)
  Z c := Pipeline.unscopedRest (Ix := Unit) (Name := ℕ) (U := UR sig nD τ) (Lvl := ℕ) spec3 c (atTc E3 c)
  hentry c := by
    rw [Pipeline.ownSems0_none]
    have hsplit := Pipeline.RDat.arrays_of_unscopedBufs (p := 3) (pcfgs (F := F)) admR (rdatsR E0 E1 E2 E3) launch3.win launch3.arr_whole c
      ((pdatsR E0 E1 E2 E3 3 c).share_full fun _ => rfl) (atTc E3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdatsR E0 E1 E2 E3 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : ∀ f : LogitsC (F := F),
        iprop((pdatsR E0 E1 E2 E3 3 c).arrays (fun w => atTc (logitsAt E3 f) c (Pipeline.arrRef spec3 w))
          ∗ Pipeline.unscopedRest (Ix := Unit) (Name := ℕ) (U := UR sig nD τ) (Lvl := ℕ) spec3 c (atTc E3 c))
        ⊢ (StableHlo.held (c : Thread nD τ) (Pipeline.ucRefs τ sig) (logitsAt E3 f c) : sProp 𝕄) := fun f => by
      have h := Pipeline.unscopedBufs_of_arrays (p := 3) (pcfgs (F := F)) admR (Ix := Unit) (Name := ℕ) (U := UR sig nD τ) (Lvl := ℕ)
        launch3.win launch3.arr_whole c (pdatsR E0 E1 E2 E3) ((pdatsR E0 E1 E2 E3 3 c).share_full fun _ => rfl)
        (atTc E3 c) (atTc (logitsAt E3 f) c) (fun w => atTc (logitsAt E3 f) c (Pipeline.arrRef spec3 w)) (fun _ => rfl) (logitsAt_rest E3 f c)
      rw [Pipeline.unscopedBufs_held] at h
      exact h
    have hopen : (rdatsR E0 E1 E2 E3 3 c).arraysAt (Pipeline.pin (pcfgs (F := F)) admR 3).N
        ⊢ (iprop(∃ f : LogitsC (F := F), (pdatsR E0 E1 E2 E3 3 c).arrays fun w => atTc (logitsAt E3 f) c (Pipeline.arrRef spec3 w)) : sProp 𝕄) :=
      arraysAt3_open E3 c
    iintro ⟨Ha, HO, HY, Hrest⟩
    ihave Ha := hopen $$ Ha
    icases Ha with ⟨%f, Ha⟩
    imodintro
    isplitl [Ha Hrest]
    · iexists f; iapply (hjoin f); isplitl [Ha] <;> iassumption
    isplitl [HY]; · iexact HY
    unfold Pipeline.RDat.owesAt Pipeline.owesWithin
    icases HO with ⟨%W, -, HO⟩; iexists W; iexact HO

end Cert.Kernel.Hand

end
-- ==== Proof.K.FrameR.lean ====
import proofs.«111195_j57131654971751_2_alg».proof.Proof.K.Bounds
import proofs.«111195_j57131654971751_2_alg».proof.Proof.K.RReg0
import proofs.«111195_j57131654971751_2_alg».proof.Proof.K.RReg1
import proofs.«111195_j57131654971751_2_alg».proof.Proof.K.RReg2
import proofs.«111195_j57131654971751_2_alg».proof.Proof.K.RReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  THE FRAME of the decoder step, over relational proof data and with no hypothesis on the arithmetic: from any memory with
  zero counters every weakly fair execution of @main terminates, nothing faulting, and every final state holds each argument
  array as launched. The four regions are entered at the boundary contents; of what the last region (the output projection)
  leaves in the logits' array nothing is said, so from its exit on the unscoped buffers are held at contents known up to that
  array's, through the two host stretches that follow; no stretch writes an argument and no region's output is one, so
  each argument reads back as launched whatever the logits were.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at the end, the logits' array having been left at `f` by the last region. -/
abbrev tailAt (f : LogitsC (F := F)) (c : Dev nD) : Valuation τ sig (Elt F) :=
  StableHlo.after hostOps4_1 (StableHlo.after hostOps4 (logitsAt (W9 m) f c))

/-! ## The arguments end as launched, whatever the logits -/

theorem tail_main_arg0 (f : LogitsC (F := F)) (c : Dev nD) :
    tailAt m f c (Proc.devRef .tc main_arg0) = m ((c : Thread nD τ).loc main_arg0) :=
  (StableHlo.after_of_writes_sub hostOps4_1 _ hostOps4_1_writes (by decide : main_arg0 ∉ hostOps4_1_W)).trans <|
  (StableHlo.after_of_writes_sub hostOps4 _ hostOps4_writes (by decide : main_arg0 ∉ hostOps4_W)).trans <|
  (logitsAt_of (W9 m) f c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem tail_main_arg1 (f : LogitsC (F := F)) (c : Dev nD) :
    tailAt m f c (Proc.devRef .tc main_arg1) = m ((c : Thread nD τ).loc main_arg1) :=
  (StableHlo.after_of_writes_sub hostOps4_1 _ hostOps4_1_writes (by decide : main_arg1 ∉ hostOps4_1_W)).trans <|
  (StableHlo.after_of_writes_sub hostOps4 _ hostOps4_writes (by decide : main_arg1 ∉ hostOps4_W)).trans <|
  (logitsAt_of (W9 m) f c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem tail_main_arg2 (f : LogitsC (F := F)) (c : Dev nD) :
    tailAt m f c (Proc.devRef .tc main_arg2) = m ((c : Thread nD τ).loc main_arg2) :=
  (StableHlo.after_of_writes_sub hostOps4_1 _ hostOps4_1_writes (by decide : main_arg2 ∉ hostOps4_1_W)).trans <|
  (StableHlo.after_of_writes_sub hostOps4 _ hostOps4_writes (by decide : main_arg2 ∉ hostOps4_W)).trans <|
  (logitsAt_of (W9 m) f c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem tail_main_arg3 (f : LogitsC (F := F)) (c : Dev nD) :
    tailAt m f c (Proc.devRef .tc main_arg3) = m ((c : Thread nD τ).loc main_arg3) :=
  (StableHlo.after_of_writes_sub hostOps4_1 _ hostOps4_1_writes (by decide : main_arg3 ∉ hostOps4_1_W)).trans <|
  (StableHlo.after_of_writes_sub hostOps4 _ hostOps4_writes (by decide : main_arg3 ∉ hostOps4_W)).trans <|
  (logitsAt_of (W9 m) f c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem tail_main_arg4 (f : LogitsC (F := F)) (c : Dev nD) :
    tailAt m f c (Proc.devRef .tc main_arg4) = m ((c : Thread nD τ).loc main_arg4) :=
  (StableHlo.after_of_writes_sub hostOps4_1 _ hostOps4_1_writes (by decide : main_arg4 ∉ hostOps4_1_W)).trans <|
  (StableHlo.after_of_writes_sub hostOps4 _ hostOps4_writes (by decide : main_arg4 ∉ hostOps4_W)).trans <|
  (logitsAt_of (W9 m) f c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem tail_main_arg5 (f : LogitsC (F := F)) (c : Dev nD) :
    tailAt m f c (Proc.devRef .tc main_arg5) = m ((c : Thread nD τ).loc main_arg5) :=
  (StableHlo.after_of_writes_sub hostOps4_1 _ hostOps4_1_writes (by decide : main_arg5 ∉ hostOps4_1_W)).trans <|
  (StableHlo.after_of_writes_sub hostOps4 _ hostOps4_writes (by decide : main_arg5 ∉ hostOps4_W)).trans <|
  (logitsAt_of (W9 m) f c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem tail_main_arg6 (f : LogitsC (F := F)) (c : Dev nD) :
    tailAt m f c (Proc.devRef .tc main_arg6) = m ((c : Thread nD τ).loc main_arg6) :=
  (StableHlo.after_of_writes_sub hostOps4_1 _ hostOps4_1_writes (by decide : main_arg6 ∉ hostOps4_1_W)).trans <|
  (StableHlo.after_of_writes_sub hostOps4 _ hostOps4_writes (by decide : main_arg6 ∉ hostOps4_W)).trans <|
  (logitsAt_of (W9 m) f c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem tail_main_arg7 (f : LogitsC (F := F)) (c : Dev nD) :
    tailAt m f c (Proc.devRef .tc main_arg7) = m ((c : Thread nD τ).loc main_arg7) :=
  (StableHlo.after_of_writes_sub hostOps4_1 _ hostOps4_1_writes (by decide : main_arg7 ∉ hostOps4_1_W)).trans <|
  (StableHlo.after_of_writes_sub hostOps4 _ hostOps4_writes (by decide : main_arg7 ∉ hostOps4_W)).trans <|
  (logitsAt_of (W9 m) f c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem tail_main_arg8 (f : LogitsC (F := F)) (c : Dev nD) :
    tailAt m f c (Proc.devRef .tc main_arg8) = m ((c : Thread nD τ).loc main_arg8) :=
  (StableHlo.after_of_writes_sub hostOps4_1 _ hostOps4_1_writes (by decide : main_arg8 ∉ hostOps4_1_W)).trans <|
  (StableHlo.after_of_writes_sub hostOps4 _ hostOps4_writes (by decide : main_arg8 ∉ hostOps4_W)).trans <|
  (logitsAt_of (W9 m) f c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem tail_main_arg9 (f : LogitsC (F := F)) (c : Dev nD) :
    tailAt m f c (Proc.devRef .tc main_arg9) = m ((c : Thread nD τ).loc main_arg9) :=
  (StableHlo.after_of_writes_sub hostOps4_1 _ hostOps4_1_writes (by decide : main_arg9 ∉ hostOps4_1_W)).trans <|
  (StableHlo.after_of_writes_sub hostOps4 _ hostOps4_writes (by decide : main_arg9 ∉ hostOps4_W)).trans <|
  (logitsAt_of (W9 m) f c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem tail_main_arg10 (f : LogitsC (F := F)) (c : Dev nD) :
    tailAt m f c (Proc.devRef .tc main_arg10) = m ((c : Thread nD τ).loc main_arg10) :=
  (StableHlo.after_of_writes_sub hostOps4_1 _ hostOps4_1_writes (by decide : main_arg10 ∉ hostOps4_1_W)).trans <|
  (StableHlo.after_of_writes_sub hostOps4 _ hostOps4_writes (by decide : main_arg10 ∉ hostOps4_W)).trans <|
  (logitsAt_of (W9 m) f c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem tail_main_arg11 (f : LogitsC (F := F)) (c : Dev nD) :
    tailAt m f c (Proc.devRef .tc main_arg11) = m ((c : Thread nD τ).loc main_arg11) :=
  (StableHlo.after_of_writes_sub hostOps4_1 _ hostOps4_1_writes (by decide : main_arg11 ∉ hostOps4_1_W)).trans <|
  (StableHlo.after_of_writes_sub hostOps4 _ hostOps4_writes (by decide : main_arg11 ∉ hostOps4_W)).trans <|
  (logitsAt_of (W9 m) f c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem tail_main_arg12 (f : LogitsC (F := F)) (c : Dev nD) :
    tailAt m f c (Proc.devRef .tc main_arg12) = m ((c : Thread nD τ).loc main_arg12) :=
  (StableHlo.after_of_writes_sub hostOps4_1 _ hostOps4_1_writes (by decide : main_arg12 ∉ hostOps4_1_W)).trans <|
  (StableHlo.after_of_writes_sub hostOps4 _ hostOps4_writes (by decide : main_arg12 ∉ hostOps4_W)).trans <|
  (logitsAt_of (W9 m) f c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem tail_main_arg13 (f : LogitsC (F := F)) (c : Dev nD) :
    tailAt m f c (Proc.devRef .tc main_arg13) = m ((c : Thread nD τ).loc main_arg13) :=
  (StableHlo.after_of_writes_sub hostOps4_1 _ hostOps4_1_writes (by decide : main_arg13 ∉ hostOps4_1_W)).trans <|
  (StableHlo.after_of_writes_sub hostOps4 _ hostOps4_writes (by decide : main_arg13 ∉ hostOps4_W)).trans <|
  (logitsAt_of (W9 m) f c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl

/-! ## @main as segments, and the launch -/

abbrev segsR : List (Pipeline.RDat.Seg (pcfgs (F := F)) admR (rdatsR (W3 m) (W5 m) (W7 m) (W9 m)) () defs₀ varR LR lvR) :=
  [ .host (hsegR hostOps0 hostOps0_sub hostOps0_fresh (W0 m)),
    .host (hsegR hostOps0_1 hostOps0_1_sub hostOps0_1_fresh (W1 m)),
    .host (hsegR hostOps0_2 hostOps0_2_sub hostOps0_2_fresh (W2 m)),
    .region (rreg0 (W3 m) (W5 m) (W7 m) (W9 m) (W4 m) (hF0 m) (hrest0 m)),
    .host (hsegR hostOps1 hostOps1_sub hostOps1_fresh (W4 m)),
    .region (rreg1 (W3 m) (W5 m) (W7 m) (W9 m) (W6 m) (hF1 m) (hrest1 m)),
    .host (hsegR hostOps2 hostOps2_sub hostOps2_fresh (W6 m)),
    .region (rreg2 (W3 m) (W5 m) (W7 m) (W9 m) (W8 m) (hF2 m) (hrest2 m)),
    .host (hsegR hostOps3 hostOps3_sub hostOps3_fresh (W8 m)),
    .region (rreg3 (W3 m) (W5 m) (W7 m) (W9 m)),
    .host (hsegEx hostOps4 hostOps4_sub hostOps4_fresh (fun f => logitsAt (W9 m) f)),
    .host (hsegEx hostOps4_1 hostOps4_1_sub hostOps4_1_fresh (fun f c => StableHlo.after hostOps4 (logitsAt (W9 m) f c))) ]

/-- @main is the run of the segments. -/
theorem main_runR (c : Dev nD) : main (F := F) c = Pipeline.RDat.Seg.run (segsR m) := (main_chain c).trans (by chain_rfl)

/-- The last thread state without the dues: every unscoped buffer at the last contents for some logits, the generator
    register at some state. -/
abbrev TlastR (c : Dev nD) : sProp 𝕄 :=
  iprop((∃ f : LogitsC (F := F), StableHlo.held (c : Thread nD τ) (Pipeline.ucRefs τ sig) (tailAt m f c)) ∗ ∃ r, prngReg c r)

set_option backward.isDefEq.respectTransparency.types false in
/-- THE RUN: every final state holds each unscoped buffer at the last contents, for some logits. -/
theorem run_allR : θ_run defs (onTc (τ := τ) (main (F := F))) ⟨m, fun _ => 0, ρ⟩ (fun r => ∀ c : Dev nD,
      ∃ f : LogitsC (F := F), ∀ b ∈ Pipeline.ucRefs τ sig, r.2.mem (((c : Thread nD τ)).1, b) = tailAt m f c b) :=
  Pipeline.RDat.θ_run_regions_kit (pcfgs (F := F)) admR (rdatsR (W3 m) (W5 m) (W7 m) (W9 m)) () cellOf_inj emb₁ defs₀ varR LR lvR m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ restR c)) (Tₙ := TlastR m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop((∃ f : LogitsC (F := F), StableHlo.held (c : Thread nD τ) (Pipeline.ucRefs τ sig) (tailAt m f c)) ∗ restR c)
          ⊢ iprop(TlastR m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ f : LogitsC (F := F), ∀ b ∈ Pipeline.ucRefs τ sig, s.mem (((c : Thread nD τ)).1, b) = tailAt m f c b)
    (hfin := fun c s' => by
      iintro ⟨⟨⟨%f, Hh⟩, -⟩, HSI⟩
      unfold StableHlo.held
      ihave Hr := (pointsTo_read_all (Pipeline.ucRefs τ sig) (fun b => (((c : Thread nD τ)).1, b)) (tailAt m f c) s') $$ [Hh HSI]
      · isplitl [Hh] <;> iassumption
      icases Hr with ⟨%h, HSI⟩
      imodintro
      isplitr; · ipureintro; exact ⟨f, h⟩
      iexact HSI)
    (hQ := fun s h c => h c)

/-- The frame: every argument array ends as launched. -/
theorem frameR : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨f, hf⟩ := h c
    exact ⟨(hf _ (mem_uc main_arg0 (by decide))).trans (tail_main_arg0 m f c),
      (hf _ (mem_uc main_arg1 (by decide))).trans (tail_main_arg1 m f c),
      (hf _ (mem_uc main_arg2 (by decide))).trans (tail_main_arg2 m f c),
      (hf _ (mem_uc main_arg3 (by decide))).trans (tail_main_arg3 m f c),
      (hf _ (mem_uc main_arg4 (by decide))).trans (tail_main_arg4 m f c),
      (hf _ (mem_uc main_arg5 (by decide))).trans (tail_main_arg5 m f c),
      (hf _ (mem_uc main_arg6 (by decide))).trans (tail_main_arg6 m f c),
      (hf _ (mem_uc main_arg7 (by decide))).trans (tail_main_arg7 m f c),
      (hf _ (mem_uc main_arg8 (by decide))).trans (tail_main_arg8 m f c),
      (hf _ (mem_uc main_arg9 (by decide))).trans (tail_main_arg9 m f c),
      (hf _ (mem_uc main_arg10 (by decide))).trans (tail_main_arg10 m f c),
      (hf _ (mem_uc main_arg11 (by decide))).trans (tail_main_arg11 m f c),
      (hf _ (mem_uc main_arg12 (by decide))).trans (tail_main_arg12 m f c),
      (hf _ (mem_uc main_arg13 (by decide))).trans (tail_main_arg13 m f c)⟩)
    (run_allR m ρ)

end Cert.Kernel.Hand

end
-- ==== Proof.KI.Region0.lean ====
/-
  Region 0 of the decoder step: the attention kernel, one grid point.

  The kernel reads four whole blocks — the concatenated row `x1 = [emb, h]` (1 × 4096), the attention matrix
  (512 × 4096), the bias row (1 × 512) and the encoder outputs (512 × 2048) — and writes two: the attention
  weights `softmax (x1 · Wᵀ + b)` (1 × 512) and the context row `weights · enc` (1 × 2048). Each output buffer
  is written by ONE store of the whole block, so after the body it holds that store's value: the first the
  quotient of the shifted exponentials by their sum, the second the product of that same quotient with the encoder
  block. Everything here is stated for any float interpretation and over the contents `V` the region is entered at.
-/
import proofs.«111195_j57131654971751_2_alg».proof.Proof.Gen.KernelIdeal.Launch
import proofs.«111195_j57131654971751_2_alg».proof.Proof.Gen.KernelIdeal.Skeleton
import proofs.«111195_j57131654971751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole block -/

abbrev rX1 : Rect S1x4096 := Rect.unit (s := S1x4096) ![0, 0] S1x4096.size inb_S1x4096_S1x4096_0_0
abbrev rW : Rect S512x4096 := Rect.unit (s := S512x4096) ![0, 0] S512x4096.size inb_S512x4096_S512x4096_0_0
abbrev rB : Rect S1x512 := Rect.unit (s := S1x512) ![0, 0] S1x512.size inb_S1x512_S1x512_0_0
abbrev rEnc : Rect S512x2048 := Rect.unit (s := S512x2048) ![0, 0] S512x2048.size inb_S512x2048_S512x2048_0_0
abbrev rCtx : Rect S1x2048 := Rect.unit (s := S1x2048) ![0, 0] S1x2048.size inb_S1x2048_S1x2048_0_0

/-! ## What the body leaves in each output buffer -/

/-- The attention weights' buffer after the body: its one store, of the softmax row. -/
def out0_4 (x0 : Vec F S1x4096 .f32) (x1 : Vec F S512x4096 .f32) (x2 : Vec F S1x512 .f32) : Vec F S1x512 .f32 :=
  View.canon [⟨rB, k0_pay1 (View.ld x0 rX1) (View.ld x1 rW) (View.ld x2 rB)⟩]

/-- The context row's buffer after the body: its one store, the weights times the encoder block. -/
def out0_5 (x0 : Vec F S1x4096 .f32) (x1 : Vec F S512x4096 .f32) (x2 : Vec F S1x512 .f32) (x3 : Vec F S512x2048 .f32) :
    Vec F S1x2048 .f32 :=
  View.canon [⟨rCtx, k0_pay2 (View.ld x0 rX1) (View.ld x1 rW) (View.ld x2 rB) (View.ld x3 rEnc)⟩]

/-- A store of the whole block covers the buffer. -/
theorem cover0_4 (p0 : Vec F S1x512 .f32) (y : S1x512.Idx) :
    ∃ pc ∈ ([⟨rB, p0⟩] : List (View.Piece (Elt F) S1x512 .f32)), y ∈ pc.1.set :=
  View.cover_of_tiled [⟨rB, p0⟩] S1x512.size (by rfl) y

theorem cover0_5 (p0 : Vec F S1x2048 .f32) (y : S1x2048.Idx) :
    ∃ pc ∈ ([⟨rCtx, p0⟩] : List (View.Piece (Elt F) S1x2048 .f32)), y ∈ pc.1.set :=
  View.cover_of_tiled [⟨rCtx, p0⟩] S1x2048.size (by rfl) y

/-! ## The body's triple -/

set_option maxHeartbeats 1000000 in
/-- The attention kernel on whole staging buffers — the four inputs at contents `x0 … x3`, the two outputs at
    anything — runs to its end leaving the inputs as they were and each output at its store's value. -/
theorem sound_kernel0 (c : Dev nD) (E : Set ℕ) (i : grid0.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1x2048 .f32) (harg6 : arg6.IsWhole)
    (x0 : Vec F S1x4096 .f32) (x1 : Vec F S512x4096 .f32) (x2 : Vec F S1x512 .f32) (x3 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  · iexists _; isplitr
    swap; · iexact H5
    ipureintro
    exact View.read_writes_eq_canon _ _ _ (cover0_5 _)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, for any proof data whose array is the entry
    contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body each input's buffer at its block, the weights' buffer at the
    softmax row of the input blocks and the context's at its product with the encoder block; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Region1.lean ====
import proofs.«111195_j57131654971751_2_alg».proof.Proof.Gen.KernelIdeal.Launch
import proofs.«111195_j57131654971751_2_alg».proof.Proof.Gen.KernelIdeal.Skeleton
import proofs.«111195_j57131654971751_2_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

/-! # The attention-combine projection (second TensorCore region): the body's half

The region computes, tile by tile over four column tiles of 512, relu (x · Wᵀ + b): the whole input row
x : [1, 4096], a row tile W_t : [512, 4096] of the weight and the matching bias tile b_t : [1, 512] go in,
one output tile [1, 512] comes out. Everything here is stated at the buffer contents V the region is
entered with, and at a symbolic grid point t. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: where the window is not fetched its block
    index has not moved since the last fetch. Window 0 (the input row): fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the weight's row tile): fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the bias tile): fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer is read, and the output's written, whole -/

abbrev r1_0 : Rect S1x4096 := Rect.unit (s := S1x4096) ![0, 0] S1x4096.size inb_S1x4096_S1x4096_0_0
abbrev r1_1 : Rect S512x4096 := Rect.unit (s := S512x4096) ![0, 0] S512x4096.size inb_S512x4096_S512x4096_0_0
abbrev r1_2 : Rect S1x512 := Rect.unit (s := S1x512) ![0, 0] S1x512.size inb_S1x512_S1x512_0_0

/-! ## What the body leaves in the output window's buffer -/

/-- The output tile's staging buffer after the body, from the input windows' blocks: the one store of
    max (x · W_tᵀ + b_t) 0 (the skeleton's payload), as a piece over the whole buffer. -/
def out1_3 (x0 : Vec F S1x4096 .f32) (x1 : Vec F S512x4096 .f32) (x2 : Vec F S1x512 .f32) : Vec F S1x512 .f32 :=
  View.canon [⟨r1_2, k1_pay1 (View.ld x0 r1_0) (View.ld x1 r1_1) (View.ld x2 r1_2)⟩]

/-- The store tiles the buffer, so it covers it. -/
theorem cover1_3 (p0 : Vec F S1x512 .f32) (y : S1x512.Idx) :
    ∃ pc ∈ ([⟨r1_2, p0⟩] : List (View.Piece (Elt F) S1x512 .f32)), y ∈ pc.1.set :=
  View.cover_of_tiled [⟨r1_2, p0⟩] S1x512.size (by rfl) y

/-! ## The body's triple -/

set_option maxHeartbeats 1000000 in
/-- The kernel body on whole staging memrefs, the inputs' at read contents xW and the output's at anything, runs to
    the continuation holding the inputs' as they were and the output's at out1_3 of the inputs'. -/
theorem sound_kernel1 (c : Dev nD) (E : Set ℕ) (i : grid1.Coords) (arg1 : Memref sig .tc .vmem S1x4096 .f32) (harg1 : arg1.IsWhole) (arg2 : Memref sig .tc .vmem S512x4096 .f32) (harg2 : arg2.IsWhole) (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__comb_kernel i arg1 harg1 arg2 harg2 arg3 harg3 arg4 harg4) K := by
  simp only [cc1__comb_kernel_eq_skeleton]; unfold cc1__comb_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Region2.lean ====
/- The fused GRU gates (the third of the decoder step's four kernels, a grid of 8 column tiles of the new hidden
   state): the half of its region that is stated at the region's entry contents `V` — each window's block at a point,
   what the body leaves in the output tile's buffer, the body's triple, the proof data and the body obligation.
   The hidden state is read through two windows on one array (whole, and the point's tile): both are inputs, and the
   proof data deals the array's full share between them, the left half to the whole-array window and the right half
   to the tile window. -/
import proofs.«111195_j57131654971751_2_alg».proof.Proof.Gen.KernelIdeal.Launch
import proofs.«111195_j57131654971751_2_alg».proof.Proof.Gen.KernelIdeal.Skeleton
import proofs.«111195_j57131654971751_2_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take a whole buffer -/

/-- The whole of a `1 × 2048` buffer (the input vector, the hidden state). -/
abbrev rVec : Rect S1x2048 := Rect.unit (s := S1x2048) ![0, 0] S1x2048.size inb_S1x2048_S1x2048_0_0
/-- The whole of a `3 × 256 × 2048` buffer (a weight tile: the three gates' rows of the point's columns). -/
abbrev rWt : Rect S3x256x2048 := Rect.unit (s := S3x256x2048) ![0, 0, 0] S3x256x2048.size inb_S3x256x2048_S3x256x2048_0_0_0
/-- The whole of a `3 × 256` buffer (a bias tile). -/
abbrev rBias : Rect S3x256 := Rect.unit (s := S3x256) ![0, 0] S3x256.size inb_S3x256_S3x256_0_0
/-- The whole of a `1 × 256` buffer (the hidden state's tile, the output tile). -/
abbrev rTile : Rect S1x256 := Rect.unit (s := S1x256) ![0, 0] S1x256.size inb_S1x256_S1x256_0_0

/-! ## What the body leaves in the output tile's buffer -/

/-- The output tile's staging buffer after the body, from the input windows' blocks `x` (input vector), `h` (hidden
    state), `hT` (its tile), `wi`, `wh` (the input and hidden weights' tiles), `bi`, `bh` (the biases' tiles): its one
    store, of `(1 - z) * n + z * hT` with `r`, `z` the logistic gates and `n` the candidate, the payloads the
    skeleton's. -/
def out2_7 (x h : Vec F S1x2048 .f32) (hT : Vec F S1x256 .f32) (wi wh : Vec F S3x256x2048 .f32) (bi bh : Vec F S3x256 .f32) :
    Vec F S1x256 .f32 :=
  View.canon [⟨rTile, k2_pay1 (k2_pay3 (View.ld h rVec)) (k2_pay5 (View.ld wh rWt)) (k2_pay7 (View.ld bh rBias))
    (k2_pay8 (View.ld x rVec) (View.ld wi rWt) (View.ld bi rBias)) (k2_pay9 (View.ld x rVec) (View.ld wi rWt) (View.ld bi rBias))
    (k2_pay10 (View.ld x rVec) (View.ld wi rWt) (View.ld bi rBias)) (k2_pay11 (View.ld h rVec) (View.ld wh rWt) (View.ld bh rBias))
    (k2_pay12 (View.ld bh rBias)) (k2_pay13 (View.ld h rVec) (View.ld wh rWt)) (View.ld hT rTile)⟩]

/-- The store takes the whole tile, so it covers it. -/
theorem cover2_7 (p0 : Vec F S1x256 .f32) (y : S1x256.Idx) :
    ∃ pc ∈ ([⟨rTile, p0⟩] : List (View.Piece (Elt F) S1x256 .f32)), y ∈ pc.1.set :=
  View.cover_of_tiled [⟨rTile, p0⟩] S1x256.size (by rfl) y

/-! ## The body's triple -/

set_option maxHeartbeats 1000000 in
/-- The kernel body on whole staging memrefs, the inputs' at read contents and the output's at anything, runs to the
    continuation holding the inputs' as they were and the output's at `out2_7` of the inputs': the printed functions
    are their skeletons, run statement by statement through the call of the body's first part. -/
theorem sound_kernel2 (c : Dev nD) (E : Set ℕ) (i : grid2.Coords)
    (arg1 : Memref sig .tc .vmem S1x2048 .f32) (harg1 : arg1.IsWhole) (arg2 : Memref sig .tc .vmem S1x2048 .f32) (harg2 : arg2.IsWhole)
    (arg3 : Memref sig .tc .vmem S1x256 .f32) (harg3 : arg3.IsWhole) (arg4 : Memref sig .tc .vmem S3x256x2048 .f32) (harg4 : arg4.IsWhole)
    (arg5 : Memref sig .tc .vmem S3x256x2048 .f32) (harg5 : arg5.IsWhole) (arg6 : Memref sig .tc .vmem S3x256 .f32) (harg6 : arg6.IsWhole)
    (arg7 : Memref sig .tc .vmem S3x256 .f32) (harg7 : arg7.IsWhole) (arg8 : Memref sig .tc .vmem S1x256 .f32) (harg8 : arg8.IsWhole)
    (x h : Vec F S1x2048 .f32) (hT : Vec F S1x256 .f32) (wi wh : Vec F S3x256x2048 .f32) (bi bh : Vec F S3x256 .f32)
    (K : PUnit → sProp 𝕄) :
    iprop(owns (c : Thread nD τ) arg1 fullShare x ∗ owns (c : Thread nD τ) arg2 fullShare h ∗ owns (c : Thread nD τ) arg3 fullShare hT
        ∗ owns (c : Thread nD τ) arg4 fullShare wi ∗ owns (c : Thread nD τ) arg5 fullShare wh ∗ owns (c : Thread nD τ) arg6 fullShare bi
        ∗ owns (c : Thread nD τ) arg7 fullShare bh ∗ (∃ d, owns (c : Thread nD τ) arg8 fullShare d)
        ∗ (iprop(owns (c : Thread nD τ) arg1 fullShare x ∗ owns (c : Thread nD τ) arg2 fullShare h ∗ owns (c : Thread nD τ) arg3 fullShare hT
            ∗ owns (c : Thread nD τ) arg4 fullShare wi ∗ owns (c : Thread nD τ) arg5 fullShare wh ∗ owns (c : Thread nD τ) arg6 fullShare bi
            ∗ owns (c : Thread nD τ) arg7 fullShare bh ∗ owns (c : Thread nD τ) arg8 fullShare (out2_7 x h hT wi wh bi bh)) -∗ K ⟨⟩))
      ⊢ wp frame (wpE (defs₀ (F := F)) Variants.none c none) E
          (cc2__grucomb_kernel i arg1 harg1 arg2 harg2 arg3 harg3 arg4 harg4 arg5 harg5 arg6 harg6 arg7 harg7 arg8 harg8) K := by
  simp only [cc2__grucomb_kernel_eq_skeleton]; unfold cc2__grucomb_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_7 _)

/-! # The region at its entry contents -/

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input's staging buffer holds its block, fetched at the point or not

For ANY proof data whose array is `V`'s (`hA`) and whose body leaves the block in place (`hafter`): a window not
fetched at a point has not moved its block index since the point before, and its buffer still holds that block. The
input vector and the whole hidden state are fetched at the first point only; the five tiles at every point. -/

/-- Window 0 (the input vector, whole). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the hidden state, whole). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the hidden state's tile). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (the input weights' tile). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the hidden weights' tile). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the input bias's tile). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the hidden bias's tile). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the region's pipeline on core `c`: the arrays as the region finds them (`V`); after the body at
    point `t` each input's buffer at its block and the output tile's at `out2_7` of the input blocks; the invariant the
    scoped rest and the generator register, untouched; nothing owed. The hidden state's array is read through windows
    1 and 2: its full share is dealt between them, the left half to window 1 and the right half to window 2; every
    other input holds its own array's full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

/-- The shares of the input arrays, window by window. -/
theorem q2_1 (c : Dev nD) : (dat2 V c).q 1 = fullShare.left := by dsimp only [dat2]
theorem q2_2 (c : Dev nD) : (dat2 V c).q 2 = fullShare.right := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_w`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand
-- ==== Proof.KI.Region3.lean ====
/-
  The output projection of the decoder step (the fourth pallas_call): logits = bf16(h_new) · bf16(out_W)ᵀ + bias, over a
  grid of 50 points, point t computing the 1024 logits of vocabulary rows 1024·t ‥ 1024·t + 1023. The vocabulary has
  50257 = 49·1024 + 81 rows, so at the last point the row tile of out_W, the bias tile and the logits tile all overhang
  their arrays: only their first 81 rows (columns) are moved by the transfers, and the rest of each staging buffer holds
  words nothing names. This module states, at any contents V of the TensorCore's buffers on entry, what each window's
  staging buffer holds after the body at each point (on the part the transfers move), the body's triple, and the body
  obligation of the pipeline.
-/
import proofs.«111195_j57131654971751_2_alg».proof.Proof.Gen.KernelIdeal.Launch
import proofs.«111195_j57131654971751_2_alg».proof.Proof.Gen.KernelIdeal.Points
import proofs.«111195_j57131654971751_2_alg».proof.Proof.Gen.KernelIdeal.Skeleton
import Idealize.ShloMosaic.Lib.Pipeline.FrameBody
import Idealize.ShloMosaic.Lib.Pipeline.FrameSuffix
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store take the whole staging buffer -/

abbrev r3_h : Rect S1x2048 := Rect.unit (s := S1x2048) ![0, 0] S1x2048.size inb_S1x2048_S1x2048_0_0
abbrev r3_W : Rect S1024x2048 := Rect.unit (s := S1024x2048) ![0, 0] S1024x2048.size inb_S1024x2048_S1024x2048_0_0
abbrev r3_b : Rect S1x1024 := Rect.unit (s := S1x1024) ![0, 0] S1x1024.size inb_S1x1024_S1x1024_0_0

/-- What the logits' staging buffer holds after the body, from what the three input staging buffers hold: the one
    store's payload, the product of the rounded hidden state with the rounded row tile plus the bias tile. -/
def stored3 (x0 : Vec F S1x2048 .f32) (x1 : Vec F S1024x2048 .f32) (x2 : Vec F S1x1024 .f32) : Vec F S1x1024 .f32 :=
  View.canon [⟨r3_b, k3_pay1 (View.ld x0 r3_h) (View.ld x1 r3_W) (View.ld x2 r3_b)⟩]

/-- The one store covers the buffer. -/
theorem cover3_3 (p0 : Vec F S1x1024 .f32) (y : S1x1024.Idx) :
    ∃ pc ∈ ([⟨r3_b, p0⟩] : List (View.Piece (Elt F) S1x1024 .f32)), y ∈ pc.1.set :=
  View.cover_of_tiled [⟨r3_b, p0⟩] S1x1024.size (by rfl) y

set_option maxHeartbeats 1000000 in
/-- The body on whole staging memrefs: the three inputs' at contents `x0`, `x1`, `x2` and the logits' at anything run to
    the continuation holding the inputs' as they were and the logits' at `stored3` of them. -/
theorem sound_kernel3 (c : Dev nD) (E : Set ℕ) (i : grid3.Coords)
    (arg1 : Memref sig .tc .vmem S1x2048 .f32) (harg1 : arg1.IsWhole)
    (arg2 : Memref sig .tc .vmem S1024x2048 .f32) (harg2 : arg2.IsWhole)
    (arg3 : Memref sig .tc .vmem S1x1024 .f32) (harg3 : arg3.IsWhole)
    (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored3 x0 x1 x2)) -∗ K ⟨⟩))
      ⊢ wp frame (wpE (defs₀ (F := F)) Variants.none c none) E
          (cc3__outproj_kernel i arg1 harg1 arg2 harg2 arg3 harg3 arg4 harg4) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- Offsets `![0, 0]` are the zero offsets. -/
theorem zeros2 : (![0, 0] : Fin 2 → Nat) = fun _ => 0 := funext fun a => by fin_cases a <;> rfl

/-- Every access being of the whole buffer, the stored contents are the payload of the buffers' contents. -/
theorem stored3_eq (x0 : Vec F S1x2048 .f32) (x1 : Vec F S1024x2048 .f32) (x2 : Vec F S1x1024 .f32) :
    stored3 x0 x1 x2 = k3_pay1 x0 x1 x2 := by
  unfold stored3
  rw [View.canon_unit_zero (S := S1x1024) zeros2 inb_S1x1024_S1x1024_0_0,
    View.ld_unit_zero (S := S1x2048) zeros2 inb_S1x2048_S1x2048_0_0,
    View.ld_unit_zero (S := S1024x2048) zeros2 inb_S1024x2048_S1024x2048_0_0,
    View.ld_unit_zero (S := S1x1024) zeros2 inb_S1x1024_S1x1024_0_0]

section Regions
-- the TensorCore's buffer contents when the region is entered
variable (V : (c : Dev nD) → (b : Ref sig .tc) → Buf (Elt F) ((c : Thread nD τ).loc b))

/-! ## The windows' blocks -/

/-- Window `w`'s block at point `t`, read off its array as the region finds it: the part of the block inside the array
    (all of it but at the last point, where the row tile, the bias tile and the logits tile keep 81 of their 1024 rows). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The word a block is filled out with past the array's end where a closed form is wanted: zero. Nothing reads it. -/
def pad3 {s : Shape} : s.Idx → Elt F .f32 := fun _ => Scalar.ofBits .f32 0#32

/-- The row tile of the weight matrix at point `t` as a whole staging block: the rows inside the array, zero past them. -/
def rows3 (c : Dev nD) (t : Fin cfg3.N) : Vec F S1024x2048 .f32 := win3_1.fill (grid3.coords t) pad3 (iblk3 V c 1 t)
/-- The bias tile at point `t` likewise. -/
def bias3 (c : Dev nD) (t : Fin cfg3.N) : Vec F S1x1024 .f32 := win3_2.fill (grid3.coords t) pad3 (iblk3 V c 2 t)

/-- The logits tile after the body at point `t`, from the three input blocks there: the payload at the hidden state, the
    row tile and the bias tile, the two tiles filled out with zero past their arrays' ends. -/
def out3_3 (t : Fin cfg3.N) (x0 : Vec F S1x2048 .f32) (x1 : (win3_1.xblock (grid3.coords t)).Idx → Elt F .f32)
    (x2 : (win3_2.xblock (grid3.coords t)).Idx → Elt F .f32) : Vec F S1x1024 .f32 :=
  k3_pay1 x0 (win3_1.fill (grid3.coords t) pad3 x1) (win3_2.fill (grid3.coords t) pad3 x2)

/-! ## The pipeline's proof data -/

/-- The proof data of the pipeline on core `c`: the arrays as the region finds them; after the body at point `t` the
    hidden state's buffer at the hidden state, the two tiles' at their blocks (named on the part inside the array), the
    logits' at `out3_3` of them; the invariant the scoped rest and the generator register, untouched; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => rows3 V c t
    | ⟨2, _⟩ => bias3 V c t
    | ⟨3, _⟩ => out3_3 t (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = rows3 V c t := by dsimp only [dat3]
theorem after3_2 (c : Dev nD) (t : Fin cfg3.N) : (dat3 V c).after 2 t = bias3 V c t := by dsimp only [dat3]
theorem after3_3 (c : Dev nD) (t : Fin cfg3.N) :
    (dat3 V c).after 3 t = out3_3 t (iblk3 V c 0 t) (iblk3 V c 1 t) (iblk3 V c 2 t) := by dsimp only [dat3]

/-! ## What the body finds in each staging buffer -/

/-- The hidden state's buffer, fetched at the first point only and never cut, holds the hidden state at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The row tile's buffer, fetched at every point: the rows inside the array, `d` past them. -/
theorem before3_1 (c : Dev nD) (t : Fin cfg3.N) (d) :
    (dat3 V c).before 1 t d = win3_1.fill (grid3.coords t) d (iblk3 V c 1 t) :=
  ((dat3 V c).before_fetched 1 t (fetch3_1 t) d).trans (by unfold Dat.fetched Dat.blockOf iblk3; rw [A_eq3]; try rfl)

/-- The bias tile's likewise. -/
theorem before3_2 (c : Dev nD) (t : Fin cfg3.N) (d) :
    (dat3 V c).before 2 t d = win3_2.fill (grid3.coords t) d (iblk3 V c 2 t) :=
  ((dat3 V c).before_fetched 2 t (fetch3_2 t) d).trans (by unfold Dat.fetched Dat.blockOf iblk3; rw [A_eq3]; try rfl)

/-- The logits' buffer, written back at every point, holds contents nothing names. -/
theorem before3_3 (c : Dev nD) (t : Fin cfg3.N) (d) : (dat3 V c).before 3 t d = d :=
  (dat3 V c).before_out_reset 3 rfl t
    (by
      by_cases h : t.val = 0
      · exact .inl h
      · exact .inr ⟨h, flush3_3 _⟩) d

/-! ## The body at a point -/

/-- The body at any point, from what the buffers hold there — the two tiles' buffers at their blocks with ANY words
    `d1`, `d2` past the arrays' ends —: the inputs' buffers are left as found, and the logits' buffer holds the payload of
    what the three hold, the words `d1` and `d2` included. -/
theorem sound_body3 (c : Dev nD) (t : Fin cfg3.N) (d1 : Vec F S1024x2048 .f32) (d2 : Vec F S1x1024 .f32)
    (K : PUnit → sProp 𝕄) :
    iprop(owns (c : Thread nD τ) (st3_0 t) fullShare (iblk3 V c 0 t)
        ∗ owns (c : Thread nD τ) (st3_1 t) fullShare (win3_1.fill (grid3.coords t) d1 (iblk3 V c 1 t))
        ∗ owns (c : Thread nD τ) (st3_2 t) fullShare (win3_2.fill (grid3.coords t) d2 (iblk3 V c 2 t))
        ∗ (∃ d, owns (c : Thread nD τ) (st3_3 t) fullShare d)
        ∗ (iprop(owns (c : Thread nD τ) (st3_0 t) fullShare (iblk3 V c 0 t)
            ∗ owns (c : Thread nD τ) (st3_1 t) fullShare (win3_1.fill (grid3.coords t) d1 (iblk3 V c 1 t))
            ∗ owns (c : Thread nD τ) (st3_2 t) fullShare (win3_2.fill (grid3.coords t) d2 (iblk3 V c 2 t))
            ∗ owns (c : Thread nD τ) (st3_3 t) fullShare
                (k3_pay1 (iblk3 V c 0 t) (win3_1.fill (grid3.coords t) d1 (iblk3 V c 1 t))
                  (win3_2.fill (grid3.coords t) d2 (iblk3 V c 2 t)))) -∗ K ⟨⟩))
      ⊢ wp frame (wpE (defs₀ (F := F)) Variants.none c none) Set.univ (bodyAt3 t) K := by
  rw [← stored3_eq]
  exact sound_kernel3 c Set.univ _ _ _ _ _ _ _ _ _ _ _ _ K

/-- The law of the product the named contents rest on: the payload's columns inside the logits array read, of the row
    tile and of the bias tile, only the part inside their arrays — column `j` of the product is the hidden state against
    row `j` of the tile. It holds where the product is the exact contraction; nothing here assumes it of every `F`. -/
def RowLocal3 : Prop :=
  ∀ (t : Fin cfg3.N) (x0 : Vec F S1x2048 .f32) (g1 : (win3_1.xblock (grid3.coords t)).Idx → Elt F .f32)
    (g2 : (win3_2.xblock (grid3.coords t)).Idx → Elt F .f32) (d1 d1' : Vec F S1024x2048 .f32) (d2 d2' : Vec F S1x1024 .f32),
    win3_3.cut (grid3.coords t) (k3_pay1 x0 (win3_1.fill (grid3.coords t) d1 g1) (win3_2.fill (grid3.coords t) d2 g2))
      = win3_3.cut (grid3.coords t) (k3_pay1 x0 (win3_1.fill (grid3.coords t) d1' g1) (win3_2.fill (grid3.coords t) d2' g2))

/-- The pipeline's body obligation, under the product's row law: every buffer is handed back stated on the part inside
    its array. -/
theorem body_obligation3 (hloc : RowLocal3 (F := F)) (c : Dev nD) :
    BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (sound_body3 V c t d1 d2 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after3_0]; iexact H0
  isplitl [H1]
  · iexists d1
    change _ ⊢ owns (c : Thread nD τ) (st3_1 t) fullShare
      (win3_1.fill (grid3.coords t) d1 (win3_1.cut (grid3.coords t) ((dat3 V c).after 1 t)))
    rw [after3_1]; unfold rows3; rw [Window.cut_fill]; try iexact H1
  isplitl [H2]
  · iexists d2
    change _ ⊢ owns (c : Thread nD τ) (st3_2 t) fullShare
      (win3_2.fill (grid3.coords t) d2 (win3_2.cut (grid3.coords t) ((dat3 V c).after 2 t)))
    rw [after3_2]; unfold bias3; rw [Window.cut_fill]; try iexact H2
  · iexists k3_pay1 (iblk3 V c 0 t) (win3_1.fill (grid3.coords t) d1 (iblk3 V c 1 t))
      (win3_2.fill (grid3.coords t) d2 (iblk3 V c 2 t))
    change _ ⊢ owns (c : Thread nD τ) (st3_3 t) fullShare
      (win3_3.fill (grid3.coords t) _ (win3_3.cut (grid3.coords t) ((dat3 V c).after 3 t)))
    rw [after3_3]; unfold out3_3
    rw [win3_3.fill_congr_cut (grid3.coords t) (hloc t _ _ _ _ _ _ _)]
    try iexact H3

/-- The pipeline's body obligation with the logits' buffer FORGOTTEN (handed to the body at any contents and taken back at
    any): it assumes nothing of the product, and says nothing of the logits — what a claim that the program runs to the
    end and leaves its inputs alone needs. -/
theorem body_obligation3_fgt (c : Dev nD) :
    BodyObligationLoose (dat3 (F := F) V c) (defs₀ (F := F)) Variants.none () Set.univ (fun w => decide (w = 3)) := fun t => by
  rw [bigSep_W3, bigSep_W3]
  have h0 : decide ((0 : Fin 4) = 3) = false := by decide
  have h1 : decide ((1 : Fin 4) = 3) = false := by decide
  have h2 : decide ((2 : Fin 4) = 3) = false := by decide
  have h3 : decide ((3 : Fin 4) = 3) = true := by decide
  simp only [h0, h1, h2, h3, decide_true]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2]
  iapply (sound_body3 V c t d1 d2 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after3_0]; iexact H0
  isplitl [H1]
  · iexists d1
    change _ ⊢ owns (c : Thread nD τ) (st3_1 t) fullShare
      (win3_1.fill (grid3.coords t) d1 (win3_1.cut (grid3.coords t) ((dat3 V c).after 1 t)))
    rw [after3_1]; unfold rows3; rw [Window.cut_fill]; try iexact H1
  isplitl [H2]
  · iexists d2
    change _ ⊢ owns (c : Thread nD τ) (st3_2 t) fullShare
      (win3_2.fill (grid3.coords t) d2 (win3_2.cut (grid3.coords t) ((dat3 V c).after 2 t)))
    rw [after3_2]; unfold bias3; rw [Window.cut_fill]; try iexact H2
  · iexists _; iexact H3

end Regions

end Cert.KernelIdeal.Hand

end
-- ==== Proof.KI.Bounds.lean ====
import proofs.«111195_j57131654971751_2_alg».proof.Proof.KI.Region0
import proofs.«111195_j57131654971751_2_alg».proof.Proof.KI.Region1
import proofs.«111195_j57131654971751_2_alg».proof.Proof.KI.Region2
import proofs.«111195_j57131654971751_2_alg».proof.Proof.KI.Region3
import proofs.«111195_j57131654971751_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-
  The contents of the TensorCore's unscoped buffers at each boundary of the decoder step: the launch memory, then each
  stretch of host operations applied, then — at a kernel region's exit — the region's output arrays at what its grid
  points wrote back and every other buffer as the region found it. Each argument array is written by no stretch and is
  no region's output, so it reaches the end as launched.
-/
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev Vb1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m c)
abbrev Vb2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m c)
abbrev Vb3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
/-- At region 0's exit: its output arrays at what the grid's write-backs leave, every other buffer as entered. -/
def W4 (c : Dev nD) : Valuation τ sig (Elt F) :=
  Function.update (Function.update (W3 m c) (Proc.devRef .tc main_v5_0) ((dat0 (Vb3 m) c).arrAt 4 cfg0.N)) (Proc.devRef .tc main_v5_1) ((dat0 (Vb3 m) c).arrAt 5 cfg0.N)
abbrev Vb4 : (c : Dev nD) → (b : Ref sig .tc) → Buf (Elt F) ((c : Thread nD τ).loc b) := fun c b => W4 m c b
theorem W4_of (c : Dev nD) (r : Ref sig .tc) (h : r ∉ ([main_v5_0, main_v5_1] : List (Ref sig .tc))) :
    W4 m c (Proc.devRef .tc r) = W3 m c (Proc.devRef .tc r) := by
  simp only [W4, Function.update_of_ne (StableHlo.devRef_ne_of_ne (List.ne_of_not_mem_cons (List.not_mem_of_not_mem_cons h)) : (Proc.devRef .tc r : DevRef τ sig) ≠ Proc.devRef .tc main_v5_1), Function.update_of_ne (StableHlo.devRef_ne_of_ne (List.ne_of_not_mem_cons h) : (Proc.devRef .tc r : DevRef τ sig) ≠ Proc.devRef .tc main_v5_0)]
theorem W4_main_v5_0 (c : Dev nD) : W4 m c (Proc.devRef .tc main_v5_0) = (dat0 (Vb3 m) c).arrAt 4 cfg0.N := by
  unfold W4
  rw [Function.update_of_ne (StableHlo.devRef_ne_of_ne (by decide) : (Proc.devRef .tc main_v5_0 : DevRef τ sig) ≠ Proc.devRef .tc main_v5_1)]
  exact Function.update_self _ _ _
theorem W4_main_v5_1 (c : Dev nD) : W4 m c (Proc.devRef .tc main_v5_1) = (dat0 (Vb3 m) c).arrAt 5 cfg0.N := by
  unfold W4
  exact Function.update_self _ _ _
set_option maxHeartbeats 2000000 in
theorem hF0 (c : Dev nD) (w : Fin cfg0.W) : (dat0 (Vb3 m) c).arrAt w cfg0.N = Vb4 m c (Pipeline.arrRef spec0 w) :=
  match w with
  | ⟨0, _⟩ => (((dat0 (Vb3 m) c).arrAt_in 0 rfl cfg0.N).trans (A_eq0 (Vb3 m) c 0)).trans (W4_of m c main_v3 (by decide)).symm
  | ⟨1, _⟩ => (((dat0 (Vb3 m) c).arrAt_in 1 rfl cfg0.N).trans (A_eq0 (Vb3 m) c 1)).trans (W4_of m c main_arg4 (by decide)).symm
  | ⟨2, _⟩ => (((dat0 (Vb3 m) c).arrAt_in 2 rfl cfg0.N).trans (A_eq0 (Vb3 m) c 2)).trans (W4_of m c main_v4 (by decide)).symm
  | ⟨3, _⟩ => (((dat0 (Vb3 m) c).arrAt_in 3 rfl cfg0.N).trans (A_eq0 (Vb3 m) c 3)).trans (W4_of m c main_arg2 (by decide)).symm
  | ⟨4, _⟩ => (W4_main_v5_0 m c).symm
  | ⟨5, _⟩ => (W4_main_v5_1 m c).symm
theorem hrest0 (c : Dev nD) : ∀ b, b ∉ Finset.univ.image (Pipeline.arrRef spec0) → Vb4 m c b = Vb3 m c b := fun b hb =>
  W4_of m c b fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    exact absurd h List.not_mem_nil)
/-- After the host stretch `hostOps1`. -/
abbrev W5 : Dev nD → Valuation τ sig (Elt F) := fun c => StableHlo.after hostOps1 (W4 m c)
abbrev Vb5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h
/-- At region 1's exit: its output array at what the grid's write-backs leave, every other buffer as entered. -/
def W6 (c : Dev nD) : Valuation τ sig (Elt F) :=
  Function.update (W5 m c) (Proc.devRef .tc main_v8) ((dat1 (Vb5 m) c).arrAt 3 cfg1.N)
abbrev Vb6 : (c : Dev nD) → (b : Ref sig .tc) → Buf (Elt F) ((c : Thread nD τ).loc b) := fun c b => W6 m c b
theorem W6_of (c : Dev nD) (r : Ref sig .tc) (h : r ∉ ([main_v8] : List (Ref sig .tc))) :
    W6 m c (Proc.devRef .tc r) = W5 m c (Proc.devRef .tc r) := by
  simp only [W6, Function.update_of_ne (StableHlo.devRef_ne_of_ne (List.ne_of_not_mem_cons h) : (Proc.devRef .tc r : DevRef τ sig) ≠ Proc.devRef .tc main_v8)]
theorem W6_main_v8 (c : Dev nD) : W6 m c (Proc.devRef .tc main_v8) = (dat1 (Vb5 m) c).arrAt 3 cfg1.N := by
  unfold W6
  exact Function.update_self _ _ _
set_option maxHeartbeats 2000000 in
theorem hF1 (c : Dev nD) (w : Fin cfg1.W) : (dat1 (Vb5 m) c).arrAt w cfg1.N = Vb6 m c (Pipeline.arrRef spec1 w) :=
  match w with
  | ⟨0, _⟩ => (((dat1 (Vb5 m) c).arrAt_in 0 rfl cfg1.N).trans (A_eq1 (Vb5 m) c 0)).trans (W6_of m c main_v6 (by decide)).symm
  | ⟨1, _⟩ => (((dat1 (Vb5 m) c).arrAt_in 1 rfl cfg1.N).trans (A_eq1 (Vb5 m) c 1)).trans (W6_of m c main_arg6 (by decide)).symm
  | ⟨2, _⟩ => (((dat1 (Vb5 m) c).arrAt_in 2 rfl cfg1.N).trans (A_eq1 (Vb5 m) c 2)).trans (W6_of m c main_v7 (by decide)).symm
  | ⟨3, _⟩ => (W6_main_v8 m c).symm
theorem hrest1 (c : Dev nD) : ∀ b, b ∉ Finset.univ.image (Pipeline.arrRef spec1) → Vb6 m c b = Vb5 m c b := fun b hb =>
  W6_of m c b fun h => hb (by
    rcases List.mem_cons.mp h with rfl | h
    · exact Finset.mem_image.mpr ⟨3, Finset.mem_univ _, rfl⟩
    exact absurd h List.not_mem_nil)
/-- After the host stretch `hostOps2`. -/
abbrev W7 : Dev nD → Valuation τ sig (Elt F) := fun c => StableHlo.after hostOps2 (W6 m c)
abbrev Vb7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h
/-- At region 2's exit: its output array at what the grid's write-backs leave, every other buffer as entered. -/
def W8 (c : Dev nD) : Valuation τ sig (Elt F) :=
  Function.update (W7 m c) (Proc.devRef .tc main_v15) ((dat2 (Vb7 m) c).arrAt 7 cfg2.N)
abbrev Vb8 : (c : Dev nD) → (b : Ref sig .tc) → Buf (Elt F) ((c : Thread nD τ).loc b) := fun c b => W8 m c b
theorem W8_of (c : Dev nD) (r : Ref sig .tc) (h : r ∉ ([main_v15] : List (Ref sig .tc))) :
    W8 m c (Proc.devRef .tc r) = W7 m c (Proc.devRef .tc r) := by
  simp only [W8, Function.update_of_ne (StableHlo.devRef_ne_of_ne (List.ne_of_not_mem_cons h) : (Proc.devRef .tc r : DevRef τ sig) ≠ Proc.devRef .tc main_v15)]
theorem W8_main_v15 (c : Dev nD) : W8 m c (Proc.devRef .tc main_v15) = (dat2 (Vb7 m) c).arrAt 7 cfg2.N := by
  unfold W8
  exact Function.update_self _ _ _
set_option maxHeartbeats 2000000 in
theorem hF2 (c : Dev nD) (w : Fin cfg2.W) : (dat2 (Vb7 m) c).arrAt w cfg2.N = Vb8 m c (Pipeline.arrRef spec2 w) :=
  match w with
  | ⟨0, _⟩ => (((dat2 (Vb7 m) c).arrAt_in 0 rfl cfg2.N).trans (A_eq2 (Vb7 m) c 0)).trans (W8_of m c main_v8 (by decide)).symm
  | ⟨1, _⟩ => (((dat2 (Vb7 m) c).arrAt_in 1 rfl cfg2.N).trans (A_eq2 (Vb7 m) c 1)).trans (W8_of m c main_v2 (by decide)).symm
  | ⟨2, _⟩ => (((dat2 (Vb7 m) c).arrAt_in 2 rfl cfg2.N).trans (A_eq2 (Vb7 m) c 2)).trans (W8_of m c main_v2 (by decide)).symm
  | ⟨3, _⟩ => (((dat2 (Vb7 m) c).arrAt_in 3 rfl cfg2.N).trans (A_eq2 (Vb7 m) c 3)).trans (W8_of m c main_v11 (by decide)).symm
  | ⟨4, _⟩ => (((dat2 (Vb7 m) c).arrAt_in 4 rfl cfg2.N).trans (A_eq2 (Vb7 m) c 4)).trans (W8_of m c main_v12 (by decide)).symm
  | ⟨5, _⟩ => (((dat2 (Vb7 m) c).arrAt_in 5 rfl cfg2.N).trans (A_eq2 (Vb7 m) c 5)).trans (W8_of m c main_v13 (by decide)).symm
  | ⟨6, _⟩ => (((dat2 (Vb7 m) c).arrAt_in 6 rfl cfg2.N).trans (A_eq2 (Vb7 m) c 6)).trans (W8_of m c main_v14 (by decide)).symm
  | ⟨7, _⟩ => (W8_main_v15 m c).symm
theorem hrest2 (c : Dev nD) : ∀ b, b ∉ Finset.univ.image (Pipeline.arrRef spec2) → Vb8 m c b = Vb7 m c b := fun b hb =>
  W8_of m c b fun h => hb (by
    rcases List.mem_cons.mp h with rfl | h
    · exact Finset.mem_image.mpr ⟨7, Finset.mem_univ _, rfl⟩
    exact absurd h List.not_mem_nil)
/-- After the host stretch `hostOps3`. -/
abbrev W9 : Dev nD → Valuation τ sig (Elt F) := fun c => StableHlo.after hostOps3 (W8 m c)
abbrev Vb9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) :=
  StableHlo.after_of_writes_sub hostOps3 _ hostOps3_writes h
/-- At region 3's exit: its output array at what the grid's write-backs leave, every other buffer as entered. -/
def W10 (c : Dev nD) : Valuation τ sig (Elt F) :=
  Function.update (W9 m c) (Proc.devRef .tc main_v17) ((dat3 (Vb9 m) c).arrAt 3 cfg3.N)
abbrev Vb10 : (c : Dev nD) → (b : Ref sig .tc) → Buf (Elt F) ((c : Thread nD τ).loc b) := fun c b => W10 m c b
theorem W10_of (c : Dev nD) (r : Ref sig .tc) (h : r ∉ ([main_v17] : List (Ref sig .tc))) :
    W10 m c (Proc.devRef .tc r) = W9 m c (Proc.devRef .tc r) := by
  simp only [W10, Function.update_of_ne (StableHlo.devRef_ne_of_ne (List.ne_of_not_mem_cons h) : (Proc.devRef .tc r : DevRef τ sig) ≠ Proc.devRef .tc main_v17)]
theorem W10_main_v17 (c : Dev nD) : W10 m c (Proc.devRef .tc main_v17) = (dat3 (Vb9 m) c).arrAt 3 cfg3.N := by
  unfold W10
  exact Function.update_self _ _ _
set_option maxHeartbeats 2000000 in
theorem hF3 (c : Dev nD) (w : Fin cfg3.W) : (dat3 (Vb9 m) c).arrAt w cfg3.N = Vb10 m c (Pipeline.arrRef spec3 w) :=
  match w with
  | ⟨0, _⟩ => (((dat3 (Vb9 m) c).arrAt_in 0 rfl cfg3.N).trans (A_eq3 (Vb9 m) c 0)).trans (W10_of m c main_v15 (by decide)).symm
  | ⟨1, _⟩ => (((dat3 (Vb9 m) c).arrAt_in 1 rfl cfg3.N).trans (A_eq3 (Vb9 m) c 1)).trans (W10_of m c main_arg12 (by decide)).symm
  | ⟨2, _⟩ => (((dat3 (Vb9 m) c).arrAt_in 2 rfl cfg3.N).trans (A_eq3 (Vb9 m) c 2)).trans (W10_of m c main_v16 (by decide)).symm
  | ⟨3, _⟩ => (W10_main_v17 m c).symm
theorem hrest3 (c : Dev nD) : ∀ b, b ∉ Finset.univ.image (Pipeline.arrRef spec3) → Vb10 m c b = Vb9 m c b := fun b hb =>
  W10_of m c b fun h => hb (by
    rcases List.mem_cons.mp h with rfl | h
    · exact Finset.mem_image.mpr ⟨3, Finset.mem_univ _, rfl⟩
    exact absurd h List.not_mem_nil)
/-- After the host stretch `hostOps4`. -/
abbrev W11 : Dev nD → Valuation τ sig (Elt F) := fun c => StableHlo.after hostOps4 (W10 m c)
abbrev Vb11 : (c : Dev nD) → (b : Ref sig .tc) → Buf (Elt F) ((c : Thread nD τ).loc b) := fun c b => W11 m c b
theorem W11_of (c : Dev nD) (r : Ref sig .tc) (h : r ∉ hostOps4_W) : W11 m c (Proc.devRef .tc r) = W10 m c (Proc.devRef .tc r) :=
  StableHlo.after_of_writes_sub hostOps4 _ hostOps4_writes h
/-- After the host stretch `hostOps4_1`. -/
abbrev W12 : Dev nD → Valuation τ sig (Elt F) := fun c => StableHlo.after hostOps4_1 (W11 m c)
abbrev Vb12 : (c : Dev nD) → (b : Ref sig .tc) → Buf (Elt F) ((c : Thread nD τ).loc b) := fun c b => W12 m c b
theorem W12_of (c : Dev nD) (r : Ref sig .tc) (h : r ∉ hostOps4_1_W) : W12 m c (Proc.devRef .tc r) = W11 m c (Proc.devRef .tc r) :=
  StableHlo.after_of_writes_sub hostOps4_1 _ hostOps4_1_writes h

/-! ## The proof data family -/

abbrev admH : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (Vb3 m) c
  | ⟨1, _⟩ => fun c => dat1 (Vb5 m) c
  | ⟨2, _⟩ => fun c => dat2 (Vb7 m) c
  | ⟨3, _⟩ => fun c => dat3 (Vb9 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RData.lean ====
import proofs.«111195_j57131654971751_2_alg».proof.Proof.KI.Region0
import proofs.«111195_j57131654971751_2_alg».proof.Proof.KI.Region1
import proofs.«111195_j57131654971751_2_alg».proof.Proof.KI.Region2
import proofs.«111195_j57131654971751_2_alg».proof.Proof.KI.Region3
import proofs.«111195_j57131654971751_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The decoder step's four pipelines' proof data read RELATIONALLY (what a body leaves in a window is constrained, not
  named), each at the buffer contents its region is entered with — given here as four valuations `E0 … E3` —, the last
  region's output window (the logits' tile) FORGOTTEN: of what that region leaves in the logits' array nothing is said.
  Also what rides beside the buffers through every segment, and a host stretch run from contents known only up to a
  parameter (the logits' array after the last region).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A valuation read at the TensorCore's references. -/
abbrev atTc (E : Dev nD → Valuation τ sig (Elt F)) : (c : Dev nD) → (b : Ref sig .tc) → Buf (Elt F) ((c : Thread nD τ).loc b) :=
  fun c b => E c b

/-- No pipeline has a prefetched table. -/
abbrev admR : (p : Fin 4) → (pcfgs (F := F) p).Adm := fun p => (cfgs p).toPCfg_adm

variable (E0 E1 E2 E3 : Dev nD → Valuation τ sig (Elt F))

/-- Every pipeline's exact proof data, each at its region's entry contents. -/
def pdatsR : (p : Fin 4) → (c : Dev nD) → Dat τ (Elt F) Unit ℕ (UR sig nD τ) ℕ (Pipeline.pin (pcfgs (F := F)) admR p) c
  | ⟨0, _⟩ => fun c => dat0 (atTc E0) c
  | ⟨1, _⟩ => fun c => dat1 (atTc E1) c
  | ⟨2, _⟩ => fun c => dat2 (atTc E2) c
  | ⟨3, _⟩ => fun c => dat3 (atTc E3) c

/-- The same read relationally; the last pipeline's output window forgotten. -/
def rdatsR : (p : Fin 4) → (c : Dev nD) → RDat τ (Elt F) Unit ℕ (UR sig nD τ) ℕ (Pipeline.pin (pcfgs (F := F)) admR p) c
  | ⟨0, _⟩ => fun c => (pdatsR E0 E1 E2 E3 0 c).toR
  | ⟨1, _⟩ => fun c => (pdatsR E0 E1 E2 E3 1 c).toR
  | ⟨2, _⟩ => fun c => (pdatsR E0 E1 E2 E3 2 c).toR
  | ⟨3, _⟩ => fun c => (pdatsR E0 E1 E2 E3 3 c).toRForget (fun w => decide (w = 3))

abbrev varR : Variants := Variants.none
/-- No core owes another anything: no level is assigned. -/
abbrev LR : GSem nD τ sig → Finset Unit := fun _ => ∅
abbrev lvR : GSem nD τ sig → Unit → ℕ := fun _ _ => 0
/-- What rides beside the buffers through every segment: the generator register at some state, nothing owed. -/
abbrev restR (c : Dev nD) : sProp 𝕄 := iprop((∃ r, prngReg c r) ∗ ∃ W, owes (c : Thread nD τ) (0 : CellTallies nD τ sig Unit) W)

/-- A host stretch as a segment over the unscoped references from the contents `W`. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ varR LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W restR

-- a StableHLO rule stated for any thread unifies at the TensorCore's only when unification may unfold plain
-- definitions in a metavariable's type
set_option backward.isDefEq.respectTransparency.types false in
/-- A host stretch run from contents known only up to a parameter `f`: the unscoped buffers are held at `W f c` for
    SOME `f`, and it runs to them at the stretch applied to `W f c`, for the same `f`. -/
def hsegEx {ι : Type} (ops : List (HloOp τ sig (Elt F))) (hsub : ops.Forall fun op => op.bufs ⊆ StableHlo.tcRefs τ sig)
    (hfresh : ops.Forall fun op => op.fresh = ∅) (W : ι → Dev nD → Valuation τ sig (Elt F)) :
    Pipeline.HostSeg (Name := ℕ) (U := UR sig nD τ) (pcfgs (F := F)) defs₀ varR LR lvR where
  prog := StableHlo.seq ops
  pre c := iprop((∃ f, StableHlo.held (c : Thread nD τ) (Pipeline.ucRefs τ sig) (W f c)) ∗ restR c)
  post c := iprop((∃ f, StableHlo.held (c : Thread nD τ) (Pipeline.ucRefs τ sig) (StableHlo.after ops (W f c))) ∗ restR c)
  run c {β} k K := by
    iintro ⟨Hk, Hbd, ⟨⟨%f, Hh⟩, HR⟩, -⟩
    have hseq := StableHlo.wp_seq (defs := Pipeline.defs (pcfgs (F := F)) defs₀) (Variants.lift varR) none Set.univ c
      (Pipeline.ucRefs τ sig) k (K := K) ops
      (fun op h => Pipeline.sub_ucRefs op ((List.forall_iff_forall_mem.mp hsub) op h))
      (fun op h => (List.forall_iff_forall_mem.mp hfresh) op h) (W f c)
    iapply hseq $$ [Hbd Hh]
    · isplitl [Hbd] <;> iassumption
    iintro ⟨Hbd, Hh⟩
    iapply Hk
    isplitl [Hbd]; · iexact Hbd
    isplitl [Hh]; · iexists f; iexact Hh
    iexact HR

end Cert.KernelIdeal.Hand

end
-- ==== Proof.KI.RReg0.lean ====
import proofs.«111195_j57131654971751_2_alg».proof.Proof.KI.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 0 (the attention scores and the context vector) as a segment of the run over relational proof data: entered with every unscoped buffer held at the contents `E0`,
  left with them at any contents `X` that have the region's arrays at what its grid's write-backs leave and agree with
  `E0` elsewhere. Its arrays are split out of the unscoped buffers at the entry and put back at the exit; the generator
  register passes through the kernel's invariant; nothing is owed and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg0 (hF : ∀ c w, (dat0 (atTc E0) c).arrAt w cfg0.N = atTc X c (Pipeline.arrRef spec0 w))
    (hrest : ∀ c b, b ∉ Finset.univ.image (Pipeline.arrRef spec0) → atTc X c b = atTc E0 c b) :
    Pipeline.RDat.RegionSeg (pcfgs (F := F)) admR (rdatsR E0 E1 E2 E3) () defs₀ varR LR lvR 0 where
  win := launch0.win.to₀
  block_pos := launch0.block_pos
  stage_whole := launch0.stage_whole
  K := PEmpty
  osem k := k.elim
  ho := Pipeline.OwnSemFacts.none _
  hbody c := (body_obligation0 (atTc E0) c).loose.toR
  hwaits := Pipeline.RDat.hwaits_of_owed_zero _ _ _ _ LR lvR 0 fun _ _ => rfl
  pre c := iprop(StableHlo.held (c : Thread nD τ) (Pipeline.ucRefs τ sig) (E0 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec0 c (atTc E0 c)
  hentry c := by
    rw [Pipeline.ownSems0_none]
    have hsplit := Pipeline.RDat.arrays_of_unscopedBufs (p := 0) (pcfgs (F := F)) admR (rdatsR E0 E1 E2 E3) launch0.win launch0.arr_whole c
      ((pdatsR E0 E1 E2 E3 0 c).share_full fun _ => rfl) (atTc E0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdatsR E0 E1 E2 E3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR E0 E1 E2 E3) ((pdatsR E0 E1 E2 E3 0 c).share_full fun _ => rfl)
      (atTc E0 c) (atTc X c) ((pdatsR E0 E1 E2 E3 0 c).arrAt · cfg0.N) (hF c) (hrest c)
    rw [Pipeline.unscopedBufs_held] at hjoin
    have hpost : (rdatsR E0 E1 E2 E3 0 c).arraysAt (Pipeline.pin (pcfgs (F := F)) admR 0).N
        ⊢ ((pdatsR E0 E1 E2 E3 0 c).arrays ((pdatsR E0 E1 E2 E3 0 c).arrAt · cfg0.N) : sProp 𝕄) :=
      (pdatsR E0 E1 E2 E3 0 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.RReg1.lean ====
import proofs.«111195_j57131654971751_2_alg».proof.Proof.KI.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 1 (the attention-combine projection) as a segment of the run over relational proof data: entered with every unscoped buffer held at the contents `E1`,
  left with them at any contents `X` that have the region's arrays at what its grid's write-backs leave and agree with
  `E1` elsewhere. Its arrays are split out of the unscoped buffers at the entry and put back at the exit; the generator
  register passes through the kernel's invariant; nothing is owed and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg1 (hF : ∀ c w, (dat1 (atTc E1) c).arrAt w cfg1.N = atTc X c (Pipeline.arrRef spec1 w))
    (hrest : ∀ c b, b ∉ Finset.univ.image (Pipeline.arrRef spec1) → atTc X c b = atTc E1 c b) :
    Pipeline.RDat.RegionSeg (pcfgs (F := F)) admR (rdatsR E0 E1 E2 E3) () defs₀ varR LR lvR 1 where
  win := launch1.win.to₀
  block_pos := launch1.block_pos
  stage_whole := launch1.stage_whole
  K := PEmpty
  osem k := k.elim
  ho := Pipeline.OwnSemFacts.none _
  hbody c := (body_obligation1 (atTc E1) c).loose.toR
  hwaits := Pipeline.RDat.hwaits_of_owed_zero _ _ _ _ LR lvR 1 fun _ _ => rfl
  pre c := iprop(StableHlo.held (c : Thread nD τ) (Pipeline.ucRefs τ sig) (E1 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec1 c (atTc E1 c)
  hentry c := by
    rw [Pipeline.ownSems0_none]
    have hsplit := Pipeline.RDat.arrays_of_unscopedBufs (p := 1) (pcfgs (F := F)) admR (rdatsR E0 E1 E2 E3) launch1.win launch1.arr_whole c
      ((pdatsR E0 E1 E2 E3 1 c).share_full fun _ => rfl) (atTc E1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsR E0 E1 E2 E3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdatsR E0 E1 E2 E3) ((pdatsR E0 E1 E2 E3 1 c).share_full fun _ => rfl)
      (atTc E1 c) (atTc X c) ((pdatsR E0 E1 E2 E3 1 c).arrAt · cfg1.N) (hF c) (hrest c)
    rw [Pipeline.unscopedBufs_held] at hjoin
    have hpost : (rdatsR E0 E1 E2 E3 1 c).arraysAt (Pipeline.pin (pcfgs (F := F)) admR 1).N
        ⊢ ((pdatsR E0 E1 E2 E3 1 c).arrays ((pdatsR E0 E1 E2 E3 1 c).arrAt · cfg1.N) : sProp 𝕄) :=
      (pdatsR E0 E1 E2 E3 1 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.Region2b.lean ====
/- The fused GRU gates' region: the hidden state's array, which two of its input windows read, dealt between them
   when the region is entered and put together again when it is left. -/
import proofs.«111195_j57131654971751_2_alg».proof.Proof.KI.Region2
import Idealize.ShloMosaic.Lib.Pipeline.Launch
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The share the proof data holds of each window's array: the hidden state's halves on windows 1 and 2, the full
    share elsewhere (an output's array always). -/
theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl

/-- The proof data's arrays, window by window, each a whole buffer. -/
theorem arrays2_eq (c : Dev nD) (G : (w : Fin cfg2.W) → Buf (Elt F) ((cfg2.win w).arr.view.loc (c : Thread nD τ))) :
    ((dat2 V c).arrays G : sProp 𝕄)
      = bigSep Finset.univ fun w : Fin 8 => (((c : Thread nD τ).loc (Pipeline.arrRef spec2 w)) ↦{(dat2 V c).share w} G w : sProp 𝕄) := by
  unfold Dat.arrays
  exact bigSep_congr fun w _ => by rw [(arr_whole2 w).set_eq_univ]

/-- The distinct buffers behind the windows' arrays, one by one: seven, the hidden state's behind two windows. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v8) ↦{fullShare} V' main_v8)
        ∗ (((c : Thread nD τ).loc main_v2) ↦{fullShare} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15)) :=
  bigSep_eq_bigSepL_of_eq [main_v8, main_v2, main_v11, main_v12, main_v13, main_v14, main_v15] (by decide) (by decide) _

set_option maxHeartbeats 400000 in
/-- The proof data's arrays at contents `G` that are a valuation `V'` of the buffers read at each window's array are
    those buffers whole at `V'`: the hidden state's full share is its two windows' halves put together, every other
    buffer its one window's full share. -/
theorem arrays2_iff (c : Dev nD) (G : (w : Fin cfg2.W) → Buf (Elt F) ((cfg2.win w).arr.view.loc (c : Thread nD τ)))
    (V' : (b : Ref sig .tc) → Buf (Elt F) ((c : Thread nD τ).loc b)) (hG : ∀ w, G w = V' (Pipeline.arrRef spec2 w)) :
    ((dat2 V c).arrays G : sProp 𝕄) ⊣⊢ (Pipeline.arrBufs (Ix := Unit) (Name := ℕ) (U := UR sig nD τ) (Lvl := ℕ) spec2 c V' : sProp 𝕄) := by
  rw [arrays2_eq, bigSep_W2, arrBufs2_eq]
  simp only [share2_0, share2_1, share2_2, share2_3, share2_4, share2_5, share2_6, share2_7, hG]
  -- each window's array named as the buffer behind it (one pass of definitional unfolding, window by window)
  change (iprop((((c : Thread nD τ).loc main_v8) ↦{fullShare} V' main_v8)
        ∗ (((c : Thread nD τ).loc main_v2) ↦{fullShare.left} V' main_v2)
        ∗ (((c : Thread nD τ).loc main_v2) ↦{fullShare.right} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15)) : sProp 𝕄)
    ⊣⊢ iprop((((c : Thread nD τ).loc main_v8) ↦{fullShare} V' main_v8)
        ∗ (((c : Thread nD τ).loc main_v2) ↦{fullShare} V' main_v2)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v15) ↦{fullShare} V' main_v15))
  refine ⟨?_, ?_⟩
  · iintro ⟨H0, H1, H2, H3, H4, H5, H6, H7⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    isplitl [H6]; · iexact H6
    iexact H7
  · iintro ⟨H0, H12, H3, H4, H5, H6, H7⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- ENTRY: the buffers behind the arrays, whole at the entry contents, are the proof data's arrays at them. -/
theorem hsplit2 (c : Dev nD) :
    (Pipeline.arrBufs (Ix := Unit) (Name := ℕ) (U := UR sig nD τ) (Lvl := ℕ) spec2 c (V c) : sProp 𝕄) ⊢ (dat2 V c).arrays (dat2 V c).A :=
  (arrays2_iff V c (dat2 V c).A (V c) (A_eq2 V c)).2

/-- EXIT: the proof data's arrays at their final contents, which are a valuation `V'` read at each window's array, are
    the buffers behind them whole at `V'`. -/
theorem hjoin2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N) ⊢ (Pipeline.arrBufs (Ix := Unit) (Name := ℕ) (U := UR sig nD τ) (Lvl := ℕ) spec2 c V' : sProp 𝕄) :=
  (arrays2_iff V c ((dat2 V c).arrAt · cfg2.N) V' hF).1

end Region

end Cert.KernelIdeal.Hand
-- ==== Proof.KI.RReg2.lean ====
import proofs.«111195_j57131654971751_2_alg».proof.Proof.KI.RData
import proofs.«111195_j57131654971751_2_alg».proof.Proof.KI.Region2b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  Region 2 (the fused GRU gates) as a segment of the run over relational proof data: entered with every unscoped buffer held at the
  contents `E2`, left with them at any contents `X` that have the region's arrays at what its grid's write-backs leave and
  agree with `E2` elsewhere. Two of its input windows read the hidden state's array, so the buffers BEHIND the arrays
  (seven, not eight) are split out of the unscoped buffers at the entry, the hidden state's dealt between its two windows,
  and put back together at the exit; the generator register passes through the kernel's invariant; nothing is owed and
  the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (E0 E1 E2 E3 : Dev nD → Valuation τ sig (Elt F)) (X : Dev nD → Valuation τ sig (Elt F))

set_option backward.isDefEq.respectTransparency.types false in
def rreg2 (hF : ∀ c w, (dat2 (atTc E2) c).arrAt w cfg2.N = atTc X c (Pipeline.arrRef spec2 w))
    (hrest : ∀ c b, b ∉ Finset.univ.image (Pipeline.arrRef spec2) → atTc X c b = atTc E2 c b) :
    Pipeline.RDat.RegionSeg (pcfgs (F := F)) admR (rdatsR E0 E1 E2 E3) () defs₀ varR LR lvR 2 where
  win := winFacts₀2
  block_pos := block_pos2
  stage_whole := stage_whole2
  K := PEmpty
  osem k := k.elim
  ho := Pipeline.OwnSemFacts.none _
  hbody c := (body_obligation2 (atTc E2) c).loose.toR
  hwaits := Pipeline.RDat.hwaits_of_owed_zero _ _ _ _ LR lvR 2 fun _ _ => rfl
  pre c := iprop(StableHlo.held (c : Thread nD τ) (Pipeline.ucRefs τ sig) (E2 c) ∗ restR c)
  post c := iprop(StableHlo.held (c : Thread nD τ) (Pipeline.ucRefs τ sig) (X c) ∗ restR c)
  X c := iprop(∃ r, prngReg c r)
  Y c := iprop(∃ r, prngReg c r)
  Z c := Pipeline.unscopedRest (Ix := Unit) (Name := ℕ) (U := UR sig nD τ) (Lvl := ℕ) spec2 c (atTc E2 c)
  hentry c := by
    rw [Pipeline.ownSems0_none]
    have hsp := Pipeline.unscopedBufs_split₀ (Ix := Unit) (Name := ℕ) (U := UR sig nD τ) (Lvl := ℕ)
      (Pipeline.pin (pcfgs (F := F)) admR) 2 winFacts₀2.arr_unscoped c (atTc E2 c)
    rw [Pipeline.unscopedBufs_held] at hsp
    have hsplit : (StableHlo.held (c : Thread nD τ) (Pipeline.ucRefs τ sig) (E2 c) : sProp 𝕄)
        ⊢ iprop((rdatsR E0 E1 E2 E3 2 c).arrays (rdatsR E0 E1 E2 E3 2 c).A
          ∗ Pipeline.unscopedRest (Ix := Unit) (Name := ℕ) (U := UR sig nD τ) (Lvl := ℕ) spec2 c (atTc E2 c)) := by
      rw [hsp]; exact sep_mono (hsplit2 (atTc E2) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdatsR E0 E1 E2 E3 2 c).Φ (Fin.last _) = Pipeline.ΦA spec2 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ)
      (Pipeline.pin (pcfgs (F := F)) admR) 2 winFacts₀2.arr_unscoped c (atTc X c)
    rw [Pipeline.unscopedBufs_held] at hsp
    have hjoin : iprop((pdatsR E0 E1 E2 E3 2 c).arrays ((pdatsR E0 E1 E2 E3 2 c).arrAt · cfg2.N)
          ∗ Pipeline.unscopedRest (Ix := Unit) (Name := ℕ) (U := UR sig nD τ) (Lvl := ℕ) spec2 c (atTc E2 c))
        ⊢ (StableHlo.held (c : Thread nD τ) (Pipeline.ucRefs τ sig) (X c) : sProp 𝕄) := by
      rw [hsp]
      refine sep_mono (hjoin2 (atTc E2) c (atTc X c) (hF c)) (Entails.of_eq ?_)
      unfold Pipeline.unscopedRest
      exact bigSep_congr fun b hb => by rw [hrest c b (Finset.mem_sdiff.mp hb).2]
    have hpost : (rdatsR E0 E1 E2 E3 2 c).arraysAt (Pipeline.pin (pcfgs (F := F)) admR 2).N
        ⊢ ((pdatsR E0 E1 E2 E3 2 c).arrays ((pdatsR E0 E1 E2 E3 2 c).arrAt · cfg2.N) : sProp 𝕄) :=
      (pdatsR E0 E1 E2 E3 2 c).toR_arraysAt_post _
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.RReg3.lean ====
import proofs.«111195_j57131654971751_2_alg».proof.Proof.KI.RData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The last region (the output projection onto the vocabulary) as a segment of the run over relational proof data, its output window
  FORGOTTEN: it is entered with every unscoped buffer held at the contents `E3` and left with them as entered except the
  logits' array, which holds contents nothing names. Its arrays are split out of the unscoped buffers at the entry and put
  back at the exit; the generator register passes through the kernel's invariant; nothing is owed and the kernel has no
  semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The contents of the logits' array. -/
abbrev LogitsC : Type := (Proc.devRef .tc main_v17 : DevRef τ sig).ty.Contents (Elt F)

/-- A valuation with the logits' array at `f`. -/
def logitsAt (E : Dev nD → Valuation τ sig (Elt F)) (f : LogitsC (F := F)) (c : Dev nD) : Valuation τ sig (Elt F) :=
  Function.update (E c) (Proc.devRef .tc main_v17) f

theorem logitsAt_of (E : Dev nD → Valuation τ sig (Elt F)) (f : LogitsC (F := F)) (c : Dev nD) (r : Ref sig .tc) (h : r ≠ main_v17) :
    logitsAt E f c (Proc.devRef .tc r) = E c (Proc.devRef .tc r) := by
  unfold logitsAt
  exact Function.update_of_ne (StableHlo.devRef_ne_of_ne h : (Proc.devRef .tc r : DevRef τ sig) ≠ Proc.devRef .tc main_v17) _ _

theorem logitsAt_self (E : Dev nD → Valuation τ sig (Elt F)) (f : LogitsC (F := F)) (c : Dev nD) :
    logitsAt E f c (Proc.devRef .tc main_v17) = f := by
  unfold logitsAt
  exact Function.update_self _ _ _

variable (E0 E1 E2 E3 : Dev nD → Valuation τ sig (Elt F))

/-- Off the region's arrays such a valuation is `E`. -/
theorem logitsAt_rest (f : LogitsC (F := F)) (c : Dev nD) :
    ∀ b, b ∉ Finset.univ.image (Pipeline.arrRef spec3) → atTc (logitsAt E3 f) c b = atTc E3 c b := fun b hb =>
  logitsAt_of E3 f c b fun e => hb (Finset.mem_image.mpr ⟨3, Finset.mem_univ _, by subst e; rfl⟩)

set_option backward.isDefEq.respectTransparency.types false in
/-- After every write-back the region's arrays are: the three inputs' as entered (an input array is never written), the
    logits' at some contents. -/
theorem arraysAt3_open (c : Dev nD) :
    ((dat3 (atTc E3) c).toRForget (fun w => decide (w = 3))).arraysAt cfg3.N
      ⊢ (iprop(∃ f : LogitsC (F := F), (dat3 (atTc E3) c).arrays fun w => atTc (logitsAt E3 f) c (Pipeline.arrRef spec3 w)) : sProp 𝕄) := by
  have e0 : ∀ G, ((dat3 (atTc E3) c).toRForget (fun w => decide (w = 3))).ArrAt 0 cfg3.N G → ∀ f : LogitsC (F := F), G = atTc (logitsAt E3 f) c (Pipeline.arrRef spec3 0) := fun G h f =>
    ((((dat3 (atTc E3) c).toRForget_arrAt_iff (fgt := fun w => decide (w = 3)) (w := 0) (by decide) cfg3.N G).mp h).trans
      (((dat3 (atTc E3) c).arrAt_in 0 rfl cfg3.N).trans (A_eq3 (atTc E3) c 0))).trans (logitsAt_of E3 f c _ (by decide)).symm
  have e1 : ∀ G, ((dat3 (atTc E3) c).toRForget (fun w => decide (w = 3))).ArrAt 1 cfg3.N G → ∀ f : LogitsC (F := F), G = atTc (logitsAt E3 f) c (Pipeline.arrRef spec3 1) := fun G h f =>
    ((((dat3 (atTc E3) c).toRForget_arrAt_iff (fgt := fun w => decide (w = 3)) (w := 1) (by decide) cfg3.N G).mp h).trans
      (((dat3 (atTc E3) c).arrAt_in 1 rfl cfg3.N).trans (A_eq3 (atTc E3) c 1))).trans (logitsAt_of E3 f c _ (by decide)).symm
  have e2 : ∀ G, ((dat3 (atTc E3) c).toRForget (fun w => decide (w = 3))).ArrAt 2 cfg3.N G → ∀ f : LogitsC (F := F), G = atTc (logitsAt E3 f) c (Pipeline.arrRef spec3 2) := fun G h f =>
    ((((dat3 (atTc E3) c).toRForget_arrAt_iff (fgt := fun w => decide (w = 3)) (w := 2) (by decide) cfg3.N G).mp h).trans
      (((dat3 (atTc E3) c).arrAt_in 2 rfl cfg3.N).trans (A_eq3 (atTc E3) c 2))).trans (logitsAt_of E3 f c _ (by decide)).symm
  unfold Pipeline.RDat.arraysAt Pipeline.Dat.arrays
  simp only [bigSep_W3]
  iintro ⟨⟨%G0, %h0, H0⟩, ⟨%G1, %h1, H1⟩, ⟨%G2, %h2, H2⟩, ⟨%G3, -, H3⟩⟩
  iexists G3
  have h0' := e0 G0 h0 G3
  have h1' := e1 G1 h1 G3
  have h2' := e2 G2 h2 G3
  have h3' : G3 = atTc (logitsAt E3 G3) c (Pipeline.arrRef spec3 3) := (logitsAt_self E3 G3 c).symm
  isplitl [H0]; · rw [← h0']; iexact H0
  isplitl [H1]; · rw [← h1']; iexact H1
  isplitl [H2]; · rw [← h2']; iexact H2
  rw [← h3']; iexact H3

variable (X : Dev nD → Valuation τ sig (Elt F))

set_option backward.isDefEq.respectTransparency.types false in
def rreg3 : Pipeline.RDat.RegionSeg (pcfgs (F := F)) admR (rdatsR E0 E1 E2 E3) () defs₀ varR LR lvR 3 where
  win := launch3.win.to₀
  block_pos := launch3.block_pos
  stage_whole := launch3.stage_whole
  K := PEmpty
  osem k := k.elim
  ho := Pipeline.OwnSemFacts.none _
  hbody c := (body_obligation3_fgt (atTc E3) c).toRForget
  hwaits := Pipeline.RDat.hwaits_of_owed_zero _ _ _ _ LR lvR 3 fun _ _ => rfl
  pre c := iprop(StableHlo.held (c : Thread nD τ) (Pipeline.ucRefs τ sig) (E3 c) ∗ restR c)
  post c := iprop((∃ f : LogitsC (F := F), StableHlo.held (c : Thread nD τ) (Pipeline.ucRefs τ sig) (logitsAt E3 f c)) ∗ restR c)
  X c := iprop(∃ r, prngReg c r)
  Y c := iprop(∃ r, prngReg c r)
  Z c := Pipeline.unscopedRest (Ix := Unit) (Name := ℕ) (U := UR sig nD τ) (Lvl := ℕ) spec3 c (atTc E3 c)
  hentry c := by
    rw [Pipeline.ownSems0_none]
    have hsplit := Pipeline.RDat.arrays_of_unscopedBufs (p := 3) (pcfgs (F := F)) admR (rdatsR E0 E1 E2 E3) launch3.win launch3.arr_whole c
      ((pdatsR E0 E1 E2 E3 3 c).share_full fun _ => rfl) (atTc E3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR E0 E1 E2 E3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdatsR E0 E1 E2 E3 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : ∀ f : LogitsC (F := F),
        iprop((pdatsR E0 E1 E2 E3 3 c).arrays (fun w => atTc (logitsAt E3 f) c (Pipeline.arrRef spec3 w))
          ∗ Pipeline.unscopedRest (Ix := Unit) (Name := ℕ) (U := UR sig nD τ) (Lvl := ℕ) spec3 c (atTc E3 c))
        ⊢ (StableHlo.held (c : Thread nD τ) (Pipeline.ucRefs τ sig) (logitsAt E3 f c) : sProp 𝕄) := fun f => by
      have h := Pipeline.unscopedBufs_of_arrays (p := 3) (pcfgs (F := F)) admR (Ix := Unit) (Name := ℕ) (U := UR sig nD τ) (Lvl := ℕ)
        launch3.win launch3.arr_whole c (pdatsR E0 E1 E2 E3) ((pdatsR E0 E1 E2 E3 3 c).share_full fun _ => rfl)
        (atTc E3 c) (atTc (logitsAt E3 f) c) (fun w => atTc (logitsAt E3 f) c (Pipeline.arrRef spec3 w)) (fun _ => rfl) (logitsAt_rest E3 f c)
      rw [Pipeline.unscopedBufs_held] at h
      exact h
    have hopen : (rdatsR E0 E1 E2 E3 3 c).arraysAt (Pipeline.pin (pcfgs (F := F)) admR 3).N
        ⊢ (iprop(∃ f : LogitsC (F := F), (pdatsR E0 E1 E2 E3 3 c).arrays fun w => atTc (logitsAt E3 f) c (Pipeline.arrRef spec3 w)) : sProp 𝕄) :=
      arraysAt3_open E3 c
    iintro ⟨Ha, HO, HY, Hrest⟩
    ihave Ha := hopen $$ Ha
    icases Ha with ⟨%f, Ha⟩
    imodintro
    isplitl [Ha Hrest]
    · iexists f; iapply (hjoin f); isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KI.FrameR.lean ====
import proofs.«111195_j57131654971751_2_alg».proof.Proof.KI.Bounds
import proofs.«111195_j57131654971751_2_alg».proof.Proof.KI.RReg0
import proofs.«111195_j57131654971751_2_alg».proof.Proof.KI.RReg1
import proofs.«111195_j57131654971751_2_alg».proof.Proof.KI.RReg2
import proofs.«111195_j57131654971751_2_alg».proof.Proof.KI.RReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  THE FRAME of the decoder step, over relational proof data and with no hypothesis on the arithmetic: from any memory with
  zero counters every weakly fair execution of @main terminates, nothing faulting, and every final state holds each argument
  array as launched. The four regions are entered at the boundary contents; of what the last region (the output projection)
  leaves in the logits' array nothing is said, so from its exit on the unscoped buffers are held at contents known up to that
  array's, through the two host stretches that follow; no stretch writes an argument and no region's output is one, so
  each argument reads back as launched whatever the logits were.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at the end, the logits' array having been left at `f` by the last region. -/
abbrev tailAt (f : LogitsC (F := F)) (c : Dev nD) : Valuation τ sig (Elt F) :=
  StableHlo.after hostOps4_1 (StableHlo.after hostOps4 (logitsAt (W9 m) f c))

/-! ## The arguments end as launched, whatever the logits -/

theorem tail_main_arg0 (f : LogitsC (F := F)) (c : Dev nD) :
    tailAt m f c (Proc.devRef .tc main_arg0) = m ((c : Thread nD τ).loc main_arg0) :=
  (StableHlo.after_of_writes_sub hostOps4_1 _ hostOps4_1_writes (by decide : main_arg0 ∉ hostOps4_1_W)).trans <|
  (StableHlo.after_of_writes_sub hostOps4 _ hostOps4_writes (by decide : main_arg0 ∉ hostOps4_W)).trans <|
  (logitsAt_of (W9 m) f c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem tail_main_arg1 (f : LogitsC (F := F)) (c : Dev nD) :
    tailAt m f c (Proc.devRef .tc main_arg1) = m ((c : Thread nD τ).loc main_arg1) :=
  (StableHlo.after_of_writes_sub hostOps4_1 _ hostOps4_1_writes (by decide : main_arg1 ∉ hostOps4_1_W)).trans <|
  (StableHlo.after_of_writes_sub hostOps4 _ hostOps4_writes (by decide : main_arg1 ∉ hostOps4_W)).trans <|
  (logitsAt_of (W9 m) f c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem tail_main_arg2 (f : LogitsC (F := F)) (c : Dev nD) :
    tailAt m f c (Proc.devRef .tc main_arg2) = m ((c : Thread nD τ).loc main_arg2) :=
  (StableHlo.after_of_writes_sub hostOps4_1 _ hostOps4_1_writes (by decide : main_arg2 ∉ hostOps4_1_W)).trans <|
  (StableHlo.after_of_writes_sub hostOps4 _ hostOps4_writes (by decide : main_arg2 ∉ hostOps4_W)).trans <|
  (logitsAt_of (W9 m) f c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem tail_main_arg3 (f : LogitsC (F := F)) (c : Dev nD) :
    tailAt m f c (Proc.devRef .tc main_arg3) = m ((c : Thread nD τ).loc main_arg3) :=
  (StableHlo.after_of_writes_sub hostOps4_1 _ hostOps4_1_writes (by decide : main_arg3 ∉ hostOps4_1_W)).trans <|
  (StableHlo.after_of_writes_sub hostOps4 _ hostOps4_writes (by decide : main_arg3 ∉ hostOps4_W)).trans <|
  (logitsAt_of (W9 m) f c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem tail_main_arg4 (f : LogitsC (F := F)) (c : Dev nD) :
    tailAt m f c (Proc.devRef .tc main_arg4) = m ((c : Thread nD τ).loc main_arg4) :=
  (StableHlo.after_of_writes_sub hostOps4_1 _ hostOps4_1_writes (by decide : main_arg4 ∉ hostOps4_1_W)).trans <|
  (StableHlo.after_of_writes_sub hostOps4 _ hostOps4_writes (by decide : main_arg4 ∉ hostOps4_W)).trans <|
  (logitsAt_of (W9 m) f c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem tail_main_arg5 (f : LogitsC (F := F)) (c : Dev nD) :
    tailAt m f c (Proc.devRef .tc main_arg5) = m ((c : Thread nD τ).loc main_arg5) :=
  (StableHlo.after_of_writes_sub hostOps4_1 _ hostOps4_1_writes (by decide : main_arg5 ∉ hostOps4_1_W)).trans <|
  (StableHlo.after_of_writes_sub hostOps4 _ hostOps4_writes (by decide : main_arg5 ∉ hostOps4_W)).trans <|
  (logitsAt_of (W9 m) f c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem tail_main_arg6 (f : LogitsC (F := F)) (c : Dev nD) :
    tailAt m f c (Proc.devRef .tc main_arg6) = m ((c : Thread nD τ).loc main_arg6) :=
  (StableHlo.after_of_writes_sub hostOps4_1 _ hostOps4_1_writes (by decide : main_arg6 ∉ hostOps4_1_W)).trans <|
  (StableHlo.after_of_writes_sub hostOps4 _ hostOps4_writes (by decide : main_arg6 ∉ hostOps4_W)).trans <|
  (logitsAt_of (W9 m) f c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem tail_main_arg7 (f : LogitsC (F := F)) (c : Dev nD) :
    tailAt m f c (Proc.devRef .tc main_arg7) = m ((c : Thread nD τ).loc main_arg7) :=
  (StableHlo.after_of_writes_sub hostOps4_1 _ hostOps4_1_writes (by decide : main_arg7 ∉ hostOps4_1_W)).trans <|
  (StableHlo.after_of_writes_sub hostOps4 _ hostOps4_writes (by decide : main_arg7 ∉ hostOps4_W)).trans <|
  (logitsAt_of (W9 m) f c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem tail_main_arg8 (f : LogitsC (F := F)) (c : Dev nD) :
    tailAt m f c (Proc.devRef .tc main_arg8) = m ((c : Thread nD τ).loc main_arg8) :=
  (StableHlo.after_of_writes_sub hostOps4_1 _ hostOps4_1_writes (by decide : main_arg8 ∉ hostOps4_1_W)).trans <|
  (StableHlo.after_of_writes_sub hostOps4 _ hostOps4_writes (by decide : main_arg8 ∉ hostOps4_W)).trans <|
  (logitsAt_of (W9 m) f c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem tail_main_arg9 (f : LogitsC (F := F)) (c : Dev nD) :
    tailAt m f c (Proc.devRef .tc main_arg9) = m ((c : Thread nD τ).loc main_arg9) :=
  (StableHlo.after_of_writes_sub hostOps4_1 _ hostOps4_1_writes (by decide : main_arg9 ∉ hostOps4_1_W)).trans <|
  (StableHlo.after_of_writes_sub hostOps4 _ hostOps4_writes (by decide : main_arg9 ∉ hostOps4_W)).trans <|
  (logitsAt_of (W9 m) f c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem tail_main_arg10 (f : LogitsC (F := F)) (c : Dev nD) :
    tailAt m f c (Proc.devRef .tc main_arg10) = m ((c : Thread nD τ).loc main_arg10) :=
  (StableHlo.after_of_writes_sub hostOps4_1 _ hostOps4_1_writes (by decide : main_arg10 ∉ hostOps4_1_W)).trans <|
  (StableHlo.after_of_writes_sub hostOps4 _ hostOps4_writes (by decide : main_arg10 ∉ hostOps4_W)).trans <|
  (logitsAt_of (W9 m) f c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem tail_main_arg11 (f : LogitsC (F := F)) (c : Dev nD) :
    tailAt m f c (Proc.devRef .tc main_arg11) = m ((c : Thread nD τ).loc main_arg11) :=
  (StableHlo.after_of_writes_sub hostOps4_1 _ hostOps4_1_writes (by decide : main_arg11 ∉ hostOps4_1_W)).trans <|
  (StableHlo.after_of_writes_sub hostOps4 _ hostOps4_writes (by decide : main_arg11 ∉ hostOps4_W)).trans <|
  (logitsAt_of (W9 m) f c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem tail_main_arg12 (f : LogitsC (F := F)) (c : Dev nD) :
    tailAt m f c (Proc.devRef .tc main_arg12) = m ((c : Thread nD τ).loc main_arg12) :=
  (StableHlo.after_of_writes_sub hostOps4_1 _ hostOps4_1_writes (by decide : main_arg12 ∉ hostOps4_1_W)).trans <|
  (StableHlo.after_of_writes_sub hostOps4 _ hostOps4_writes (by decide : main_arg12 ∉ hostOps4_W)).trans <|
  (logitsAt_of (W9 m) f c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem tail_main_arg13 (f : LogitsC (F := F)) (c : Dev nD) :
    tailAt m f c (Proc.devRef .tc main_arg13) = m ((c : Thread nD τ).loc main_arg13) :=
  (StableHlo.after_of_writes_sub hostOps4_1 _ hostOps4_1_writes (by decide : main_arg13 ∉ hostOps4_1_W)).trans <|
  (StableHlo.after_of_writes_sub hostOps4 _ hostOps4_writes (by decide : main_arg13 ∉ hostOps4_W)).trans <|
  (logitsAt_of (W9 m) f c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl

/-! ## @main as segments, and the launch -/

abbrev segsR : List (Pipeline.RDat.Seg (pcfgs (F := F)) admR (rdatsR (W3 m) (W5 m) (W7 m) (W9 m)) () defs₀ varR LR lvR) :=
  [ .host (hsegR hostOps0 hostOps0_sub hostOps0_fresh (W0 m)),
    .host (hsegR hostOps0_1 hostOps0_1_sub hostOps0_1_fresh (W1 m)),
    .host (hsegR hostOps0_2 hostOps0_2_sub hostOps0_2_fresh (W2 m)),
    .region (rreg0 (W3 m) (W5 m) (W7 m) (W9 m) (W4 m) (hF0 m) (hrest0 m)),
    .host (hsegR hostOps1 hostOps1_sub hostOps1_fresh (W4 m)),
    .region (rreg1 (W3 m) (W5 m) (W7 m) (W9 m) (W6 m) (hF1 m) (hrest1 m)),
    .host (hsegR hostOps2 hostOps2_sub hostOps2_fresh (W6 m)),
    .region (rreg2 (W3 m) (W5 m) (W7 m) (W9 m) (W8 m) (hF2 m) (hrest2 m)),
    .host (hsegR hostOps3 hostOps3_sub hostOps3_fresh (W8 m)),
    .region (rreg3 (W3 m) (W5 m) (W7 m) (W9 m)),
    .host (hsegEx hostOps4 hostOps4_sub hostOps4_fresh (fun f => logitsAt (W9 m) f)),
    .host (hsegEx hostOps4_1 hostOps4_1_sub hostOps4_1_fresh (fun f c => StableHlo.after hostOps4 (logitsAt (W9 m) f c))) ]

/-- @main is the run of the segments. -/
theorem main_runR (c : Dev nD) : main (F := F) c = Pipeline.RDat.Seg.run (segsR m) := (main_chain c).trans (by chain_rfl)

/-- The last thread state without the dues: every unscoped buffer at the last contents for some logits, the generator
    register at some state. -/
abbrev TlastR (c : Dev nD) : sProp 𝕄 :=
  iprop((∃ f : LogitsC (F := F), StableHlo.held (c : Thread nD τ) (Pipeline.ucRefs τ sig) (tailAt m f c)) ∗ ∃ r, prngReg c r)

set_option backward.isDefEq.respectTransparency.types false in
/-- THE RUN: every final state holds each unscoped buffer at the last contents, for some logits. -/
theorem run_allR : θ_run defs (onTc (τ := τ) (main (F := F))) ⟨m, fun _ => 0, ρ⟩ (fun r => ∀ c : Dev nD,
      ∃ f : LogitsC (F := F), ∀ b ∈ Pipeline.ucRefs τ sig, r.2.mem (((c : Thread nD τ)).1, b) = tailAt m f c b) :=
  Pipeline.RDat.θ_run_regions_kit (pcfgs (F := F)) admR (rdatsR (W3 m) (W5 m) (W7 m) (W9 m)) () cellOf_inj emb₁ defs₀ varR LR lvR m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ restR c)) (Tₙ := TlastR m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop((∃ f : LogitsC (F := F), StableHlo.held (c : Thread nD τ) (Pipeline.ucRefs τ sig) (tailAt m f c)) ∗ restR c)
          ⊢ iprop(TlastR m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ f : LogitsC (F := F), ∀ b ∈ Pipeline.ucRefs τ sig, s.mem (((c : Thread nD τ)).1, b) = tailAt m f c b)
    (hfin := fun c s' => by
      iintro ⟨⟨⟨%f, Hh⟩, -⟩, HSI⟩
      unfold StableHlo.held
      ihave Hr := (pointsTo_read_all (Pipeline.ucRefs τ sig) (fun b => (((c : Thread nD τ)).1, b)) (tailAt m f c) s') $$ [Hh HSI]
      · isplitl [Hh] <;> iassumption
      icases Hr with ⟨%h, HSI⟩
      imodintro
      isplitr; · ipureintro; exact ⟨f, h⟩
      iexact HSI)
    (hQ := fun s h c => h c)

/-- The frame: every argument array ends as launched. -/
theorem frameR : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨f, hf⟩ := h c
    exact ⟨(hf _ (mem_uc main_arg0 (by decide))).trans (tail_main_arg0 m f c),
      (hf _ (mem_uc main_arg1 (by decide))).trans (tail_main_arg1 m f c),
      (hf _ (mem_uc main_arg2 (by decide))).trans (tail_main_arg2 m f c),
      (hf _ (mem_uc main_arg3 (by decide))).trans (tail_main_arg3 m f c),
      (hf _ (mem_uc main_arg4 (by decide))).trans (tail_main_arg4 m f c),
      (hf _ (mem_uc main_arg5 (by decide))).trans (tail_main_arg5 m f c),
      (hf _ (mem_uc main_arg6 (by decide))).trans (tail_main_arg6 m f c),
      (hf _ (mem_uc main_arg7 (by decide))).trans (tail_main_arg7 m f c),
      (hf _ (mem_uc main_arg8 (by decide))).trans (tail_main_arg8 m f c),
      (hf _ (mem_uc main_arg9 (by decide))).trans (tail_main_arg9 m f c),
      (hf _ (mem_uc main_arg10 (by decide))).trans (tail_main_arg10 m f c),
      (hf _ (mem_uc main_arg11 (by decide))).trans (tail_main_arg11 m f c),
      (hf _ (mem_uc main_arg12 (by decide))).trans (tail_main_arg12 m f c),
      (hf _ (mem_uc main_arg13 (by decide))).trans (tail_main_arg13 m f c)⟩)
    (run_allR m ρ)

end Cert.KernelIdeal.Hand

end
-- ==== Proof.KI.Reg0.lean ====
/-
  Region 0 (attention weights and context row) as one segment of the decoder step's run with exact proof data: entered with every unscoped buffer at
  the contents before it and left with them at the contents after it — its arrays taken out of the unscoped buffers at
  the entry and put back, the outputs at what the grid wrote, at the exit.
-/
import proofs.«111195_j57131654971751_2_alg».proof.Proof.KI.Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer held at the contents before it, left with them
    at the contents after it. Its arrays are split out of the unscoped buffers at the entry and put back, the outputs at
    what the grid wrote, at the exit; the generator register passes through the kernel's invariant; nothing is owed and the
    kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vb3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vb3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vb3 m c) (Vb4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 (the rectified combination) as one segment of the decoder step's run with exact proof data: entered with every unscoped buffer at
  the contents before it and left with them at the contents after it — its arrays taken out of the unscoped buffers at
  the entry and put back, the outputs at what the grid wrote, at the exit.
-/
import proofs.«111195_j57131654971751_2_alg».proof.Proof.KI.Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer held at the contents before it, left with them
    at the contents after it. Its arrays are split out of the unscoped buffers at the entry and put back, the outputs at
    what the grid wrote, at the exit; the generator register passes through the kernel's invariant; nothing is owed and the
    kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vb5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vb5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vb5 m c) (Vb6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 (the gated recurrent cell) as one segment of the decoder step's run with exact proof data: entered with every unscoped buffer at
  the contents before it and left with them at the contents after it — its arrays taken out of the unscoped buffers at
  the entry and put back, the outputs at what the grid wrote, at the exit.
-/
import proofs.«111195_j57131654971751_2_alg».proof.Proof.KI.Bounds
import proofs.«111195_j57131654971751_2_alg».proof.Proof.KI.Region2b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The unscoped buffers that are no array of region 2 are left alone by it. -/
theorem rest2_eq (c : Dev nD) :
    (Pipeline.unscopedRest (Ix := Unit) (Name := ℕ) (U := UR sig nD τ) (Lvl := ℕ) spec2 c (Vb8 m c) : sProp 𝕄)
      = Pipeline.unscopedRest spec2 c (Vb7 m c) := by
  unfold Pipeline.unscopedRest
  exact bigSep_congr fun b hb => by rw [hrest2 m c b (Finset.mem_sdiff.mp hb).2]

set_option backward.isDefEq.respectTransparency.types false in
/-- Region 2 over the thread state. Two of its input windows read ONE array (the old hidden state, whole and by tiles):
    at the entry that array's full share is dealt between the two windows, at the exit the two parts are put together
    again; otherwise as the other regions. -/
def reg2 : Pipeline.RegionSeg (pcfgs (F := F)) admH (pdats m) () defs₀ 𝒱₀ L lv 2 where
  win := winFacts₀2
  block_pos := block_pos2
  stage_whole := stage_whole2
  K := PEmpty
  osem k := k.elim
  ho := Pipeline.OwnSemFacts.none _
  hbody c := (body_obligation2 (Vb7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Vb7 m c)
  hentry c := by
    rw [Pipeline.ownSems0_none]
    have hub := Pipeline.unscopedBufs_split₀ (Ix := Unit) (Name := ℕ) (U := UR sig nD τ) (Lvl := ℕ)
      (Pipeline.pin (pcfgs (F := F)) admH) 2 winFacts₀2.arr_unscoped c (Vb7 m c)
    rw [Pipeline.unscopedBufs_held] at hub
    iintro ⟨⟨Hub, Hp, HO⟩, -, -⟩
    ihave H := (Entails.of_eq hub) $$ Hub
    icases H with ⟨Hab, Hrest⟩
    ihave Ha := (hsplit2 (Vb7 m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ)
      (Pipeline.pin (pcfgs (F := F)) admH) 2 winFacts₀2.arr_unscoped c (Vb8 m c)
    rw [Pipeline.unscopedBufs_held] at hub
    iintro ⟨Ha, HO, HY, Hrest⟩
    imodintro
    isplitl [Ha Hrest]
    · iapply (Entails.of_eq hub.symm)
      isplitl [Ha]
      · iapply (hjoin2 (Vb7 m) c (Vb8 m c) (hF2 m c)); iexact Ha
      · iapply (Entails.of_eq (rest2_eq m c).symm); iexact Hrest
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 (the output projection) as one segment of the decoder step's run with exact proof data: entered with every unscoped buffer at
  the contents before it and left with them at the contents after it — its arrays taken out of the unscoped buffers at
  the entry and put back, the outputs at what the grid wrote, at the exit.
-/
import proofs.«111195_j57131654971751_2_alg».proof.Proof.KI.Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hloc : RowLocal3 (F := F))

set_option backward.isDefEq.respectTransparency.types false in
/-- Region 3 over the thread state: entered with every unscoped buffer held at the contents before it, left with them
    at the contents after it. Its arrays are split out of the unscoped buffers at the entry and put back, the outputs at
    what the grid wrote, at the exit; the generator register passes through the kernel's invariant; nothing is owed and the
    kernel has no semaphore of its own. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (Vb9 m) hloc c
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (Vb9 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (Vb9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (Vb9 m c) (Vb10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«111195_j57131654971751_2_alg».proof.Proof.KI.Reg0
import proofs.«111195_j57131654971751_2_alg».proof.Proof.KI.Reg1
import proofs.«111195_j57131654971751_2_alg».proof.Proof.KI.Reg2
import proofs.«111195_j57131654971751_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-
  The decoder step's @main as its twelve segments — eight stretches of host operations and the four kernel regions, in
  order — and its run: from any memory with zero counters every weakly fair execution ends, nothing faulting, with every
  unscoped buffer at the last boundary's contents. Each argument array reaches that boundary as launched.
-/
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W12_main_arg0 (c : Dev nD) : W12 m c (Proc.devRef .tc main_arg0) = m ((c : Thread nD τ).loc main_arg0) :=
  (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W12_main_arg1 (c : Dev nD) : W12 m c (Proc.devRef .tc main_arg1) = m ((c : Thread nD τ).loc main_arg1) :=
  (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W12_main_arg2 (c : Dev nD) : W12 m c (Proc.devRef .tc main_arg2) = m ((c : Thread nD τ).loc main_arg2) :=
  (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W12_main_arg3 (c : Dev nD) : W12 m c (Proc.devRef .tc main_arg3) = m ((c : Thread nD τ).loc main_arg3) :=
  (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W12_main_arg4 (c : Dev nD) : W12 m c (Proc.devRef .tc main_arg4) = m ((c : Thread nD τ).loc main_arg4) :=
  (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W12_main_arg5 (c : Dev nD) : W12 m c (Proc.devRef .tc main_arg5) = m ((c : Thread nD τ).loc main_arg5) :=
  (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W12_main_arg6 (c : Dev nD) : W12 m c (Proc.devRef .tc main_arg6) = m ((c : Thread nD τ).loc main_arg6) :=
  (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W12_main_arg7 (c : Dev nD) : W12 m c (Proc.devRef .tc main_arg7) = m ((c : Thread nD τ).loc main_arg7) :=
  (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W12_main_arg8 (c : Dev nD) : W12 m c (Proc.devRef .tc main_arg8) = m ((c : Thread nD τ).loc main_arg8) :=
  (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W12_main_arg9 (c : Dev nD) : W12 m c (Proc.devRef .tc main_arg9) = m ((c : Thread nD τ).loc main_arg9) :=
  (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W12_main_arg10 (c : Dev nD) : W12 m c (Proc.devRef .tc main_arg10) = m ((c : Thread nD τ).loc main_arg10) :=
  (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W12_main_arg11 (c : Dev nD) : W12 m c (Proc.devRef .tc main_arg11) = m ((c : Thread nD τ).loc main_arg11) :=
  (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W12_main_arg12 (c : Dev nD) : W12 m c (Proc.devRef .tc main_arg12) = m ((c : Thread nD τ).loc main_arg12) :=
  (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W12_main_arg13 (c : Dev nD) : W12 m c (Proc.devRef .tc main_arg13) = m ((c : Thread nD τ).loc main_arg13) :=
  (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl

/-! ## @main as segments, and the launch -/

abbrev segsH (hloc : RowLocal3 (F := F)) : List (Pipeline.Seg (pcfgs (F := F)) admH (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m hloc),
    .host (hseg hostOps4 hostOps4_sub hostOps4_fresh (W10 m)),
    .host (hseg hostOps4_1 hostOps4_1_sub hostOps4_1_fresh (W11 m)) ]

/-- @main is the run of the segments. -/
theorem main_run (hloc : RowLocal3 (F := F)) (c : Dev nD) : main (F := F) c = Pipeline.Seg.run (segsH m hloc) := (main_chain c).trans (by chain_rfl)

/-- The last thread state without the dues: every unscoped buffer at the last boundary's contents, the generator
    register at some state. -/
abbrev Tlast (c : Dev nD) : sProp 𝕄 := iprop(StableHlo.held (c : Thread nD τ) (Pipeline.ucRefs τ sig) (W12 m c) ∗ ∃ r, prngReg c r)

set_option backward.isDefEq.respectTransparency.types false in
/-- THE RUN: from any memory with zero counters every weakly fair execution of @main terminates, nothing faulting, and
    every final state holds each unscoped buffer at the last boundary's contents. -/
theorem run_all (hloc : RowLocal3 (F := F)) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) admH (pdats m) () cellOf_inj emb₁ defs₀ 𝒱₀ L lv m ρ main (segsH m hloc)
    (fun c Q => by rw [main_run m hloc c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ R c)
          ⊢ iprop(Tlast m c ∗ ∃ W, owes (c : Thread nD τ) (0 : CellTallies nD τ sig Unit) W)
        iintro ⟨Hh, Hp, HO⟩
        isplitl [Hh Hp]
        · isplitl [Hh] <;> iassumption
        · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The frame: every argument array ends as launched. -/
theorem frameD (hloc : RowLocal3 (F := F)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c),
    (h c _ (mem_uc main_arg11 (by decide))).trans (W12_main_arg11 m c),
    (h c _ (mem_uc main_arg12 (by decide))).trans (W12_main_arg12 m c),
    (h c _ (mem_uc main_arg13 (by decide))).trans (W12_main_arg13 m c)⟩)
    (run_all m ρ hloc)

end Cert.KernelIdeal.Hand

end
-- ==== Proof.KI.Region3Ideal.lean ====
/-
  The output projection's product at the exact values: column j of the product is the sum over k of the rounded hidden
  state at k against row j of the rounded row tile, so the columns inside the logits array read only the rows of the
  tile inside the weight array — the row law the named contents of the logits rest on.
-/
import proofs.«111195_j57131654971751_2_alg».proof.Proof.KI.Region3
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe
open Idealize.ShloMosaic.Pipeline (Window)

/-- Two fillings of a block with the same moved part agree wherever the transfer moves the index. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- At the exact values the product's row law holds: a logits column inside the array is the bias there plus the sum, over
    the contraction index, of the hidden state against that row of the row tile, and that row and that bias entry lie in
    the parts of their tiles inside the arrays (the three tiles are cut at the same vocabulary row), so the words past
    the arrays' ends are not read. -/
theorem rowLocal3_ideal : RowLocal3 (F := Ideal) := by
  intro t x0 g1 g2 d1 d1' d2 d2'
  funext j
  show k3_pay1 x0 _ _ (win3_3.xinj (grid3.coords t) j) = k3_pay1 x0 _ _ (win3_3.xinj (grid3.coords t) j)
  unfold k3_pay1
  -- the column of the logits tile, inside the logits array
  generalize hy : win3_3.xinj (grid3.coords t) j = y
  have hyv : ∀ a, (y a).val = (j a).val := fun a => by rw [← hy]
  -- the bias tile there is inside the bias array: the two tiles are cut alike
  have hb : win3_2.fill (grid3.coords t) d2 g2 y = win3_2.fill (grid3.coords t) d2' g2 y :=
    fill_eq_of_moved win3_2 (grid3.coords t) d2 d2' g2
      ((win3_2.moved_iff (grid3.coords t) y).mpr fun a => by rw [hyv a]; exact (j a).isLt)
  -- row `y 1` of the row tile is inside the weight array, at every contraction index
  have hrow : ∀ k, win3_1.fill (grid3.coords t) d1 g1 (dot_S1x2048_S1024x2048_S1x1024_1_1_0_0_n_n.rhsIdx y k)
      = win3_1.fill (grid3.coords t) d1' g1 (dot_S1x2048_S1024x2048_S1x1024_1_1_0_0_n_n.rhsIdx y k) := fun k =>
    fill_eq_of_moved win3_1 (grid3.coords t) d1 d1' g1
      ((win3_1.moved_iff (grid3.coords t) _).mpr fun a => by
        fin_cases a
        · show (dot_S1x2048_S1024x2048_S1x1024_1_1_0_0_n_n.rhsIdx y k 0).val < win3_1.xsize (grid3.coords t) 0
          have e : (dot_S1x2048_S1024x2048_S1x1024_1_1_0_0_n_n.rhsIdx y k 0).val = (y 1).val := rfl
          rw [e, hyv 1]; exact (j 1).isLt
        · exact (dot_S1x2048_S1024x2048_S1x1024_1_1_0_0_n_n.rhsIdx y k 1).isLt)
  rw [shapeCast_self, shapeCast_self, shapeCast_self]
  show FloatOps.addf (F := Ideal) (φ := .f32) (matmul _ none _ _ _ y) (win3_2.fill (grid3.coords t) d2 g2 y)
    = FloatOps.addf (F := Ideal) (φ := .f32) (matmul _ none _ _ _ y) (win3_2.fill (grid3.coords t) d2' g2 y)
  rw [hb]
  congr 1
  simp only [matmul]
  rw [Ideal.matmul_apply, Ideal.matmul_apply]
  congr 1
  exact Finset.sum_congr rfl fun k _ => by
    show _ * FloatOps.truncf (F := Ideal) (φ := .f32) FTy.bf16 _ (win3_1.fill (grid3.coords t) d1 g1 _)
      = _ * FloatOps.truncf (F := Ideal) (φ := .f32) FTy.bf16 _ (win3_1.fill (grid3.coords t) d1' g1 _)
    rw [hrow k]

end Cert.KernelIdeal.Hand

end
-- ==== Proof.KI.Results.lean ====
import proofs.«111195_j57131654971751_2_alg».proof.Proof.KI.Bounds
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-
  What the boundaries' contents hold at the buffers the values flow through: each kernel region's operands read off
  the contents before it (a concatenation of the embedding row with a previous row, a bias or weight array reshaped),
  and the three results read off the last boundary — the attention weights as region 0 left them, the new hidden
  state as region 2 left it under one more leading unit axis, and the log-softmax of the row region 3 left.
-/
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host functions the values pass through -/

/-- A row less its largest entry (the largest taken from the bottom element, then once more against it). -/
def lsShift (x : FVec F S1x50257 .f32) : FVec F S1x50257 .f32 :=
  subf x (broadcastInDim S1x50257 ![0, 1] bcast_S1x1_S1x50257_0_1 (broadcastInDim S1x1 ![0] bcast_S1_S1x1_0
    (maximumf (broadcastInDim S1 ![] bcast_S_S1 (constant S_ .f32 0xFF800000#32))
      (Host.reduce FloatOps.maximumf x (constant S_ .f32 0xFF800000#32) reducesTo_S1x50257_S1_d1 h_S_))))

/-- The log-softmax of a row: the shifted row less the logarithm of the sum of its exponentials. -/
def logSoftmaxRow (x : FVec F S1x50257 .f32) : FVec F S1x50257 .f32 :=
  subf (lsShift x) (broadcastInDim S1x50257 ![0, 1] bcast_S1x1_S1x50257_0_1 (Host.log (broadcastInDim S1x1 ![0] bcast_S1_S1x1_0
    (Host.reduceAdd (Host.exp (lsShift x)) (constant S_ .f32 0x00000000#32) reducesTo_S1x50257_S1_d1 h_S_))))

/-- Contents moved to a typed reference's buffer type and back are the contents. -/
theorem ofBuf_toBuf {T : BufTy} (x : StableHlo.TRef sig T) (v : T.Contents (Elt F)) : x.ofBuf (x.toBuf v) = v := by
  obtain ⟨r, rfl, h1, h2⟩ := x; rfl

/-! ## The three results at the last boundary -/

/-- The attention weights: what region 0 left, untouched since. -/
theorem W12_main_v5_0 (c : Dev nD) : W12 m c (Proc.devRef .tc main_v5_0) = (dat0 (Vb3 m) c).arrAt 4 cfg0.N :=
  (W12_of m c main_v5_0 (by decide)).trans <| (W11_of m c main_v5_0 (by decide)).trans <| (W10_of m c main_v5_0 (by decide)).trans <| (W9_of m c main_v5_0 (by decide)).trans <| (W8_of m c main_v5_0 (by decide)).trans <| (W7_of m c main_v5_0 (by decide)).trans <| (W6_of m c main_v5_0 (by decide)).trans <| (W5_of m c main_v5_0 (by decide)).trans <| W4_main_v5_0 m c

/-- The new hidden state as region 2 left it, read at the later boundaries. -/
theorem W11_main_v15 (c : Dev nD) : W11 m c (Proc.devRef .tc main_v15) = (dat2 (Vb7 m) c).arrAt 7 cfg2.N :=
  (W11_of m c main_v15 (by decide)).trans <| (W10_of m c main_v15 (by decide)).trans <| (W9_of m c main_v15 (by decide)).trans <| W8_main_v15 m c

/-- The second result: that state under a leading unit axis. -/
theorem W12_main_v19 (c : Dev nD) : W12 m c (Proc.devRef .tc main_v19)
    = broadcastInDim S1x1x2048 ![1, 2] bcast_S1x2048_S1x1x2048_1_2 ((dat2 (Vb7 m) c).arrAt 7 cfg2.N) := by
  rw [← W11_main_v15 m c]
  show StableHlo.after hostOps4_1 (W11 m c) (Proc.devRef .tc main_v19) = _
  after_results
  all_goals rfl

/-- Through the fifteen operations of the log-softmax: its result buffer holds the function of the row before them. -/
theorem W11_main_v18 (c : Dev nD) : W11 m c (Proc.devRef .tc main_v18) = logSoftmaxRow (W10 m c (Proc.devRef .tc main_v17)) := by
  show StableHlo.after hostOps4 (W10 m c) (Proc.devRef .tc main_v18) = _
  after_results_simp
  simp only [ofBuf_toBuf]
  rfl

/-- The first result: the log-softmax of the row region 3 left. -/
theorem W12_main_v18 (c : Dev nD) : W12 m c (Proc.devRef .tc main_v18) = logSoftmaxRow ((dat3 (Vb9 m) c).arrAt 3 cfg3.N) :=
  (W12_of m c main_v18 (by decide)).trans ((W11_main_v18 m c).trans (congrArg logSoftmaxRow (W10_main_v17 m c)))

end Cert.KernelIdeal.Hand

end
-- ==== Proof.KI.Entries.lean ====
import proofs.«111195_j57131654971751_2_alg».proof.Proof.KI.Results
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-
  What each kernel region finds in its operand buffers, as the host operations before it leave them: the embedding row
  looked up by the token (out-of-range tokens give the filler), the old hidden state as a row, their concatenation, and
  the bias and weight arrays reshaped to the layouts the kernels read.
-/
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The embedding row -/

/-- The row of the table at the token's index: a negative index wrapped once by the table's length, the lookup kept where
    the wrapped index is in range and the filler word elsewhere. -/
def takeRow (E : (⟨S50257x2048, .f32⟩ : BufTy).Contents (Elt F)) (tok : (⟨S1, .i32⟩ : BufTy).Contents (Elt F)) :
    (⟨S1x2048, .f32⟩ : BufTy).Contents (Elt F) :=
  select (broadcastInDim S1x2048 ![0] bcast_S1_S1x2048_0
      (Host.reduce IntOp.andi
        (andi
          (cmpi .sge (broadcastInDim S1x1 ![0] bcast_S1_S1x1_0
              (select (cmpi .slt tok (broadcastInDim S1 ![] bcast_S_S1 (constantI S_ 32 0#32)))
                (addi tok (broadcastInDim S1 ![] bcast_S_S1 (constantI S_ 32 50257#32))) tok))
            (broadcastInDim S1x1 ![] bcast_S_S1x1 (constantI S_ 32 0#32)))
          (cmpi .sle (broadcastInDim S1x1 ![0] bcast_S1_S1x1_0
              (select (cmpi .slt tok (broadcastInDim S1 ![] bcast_S_S1 (constantI S_ 32 0#32)))
                (addi tok (broadcastInDim S1 ![] bcast_S_S1 (constantI S_ 32 50257#32))) tok))
            (broadcastInDim S1x1 ![1] bcast_S1_S1x1_1 (constantI S1 32 50256#32))))
        (constantI S_ 1 1#1) reducesTo_S1x1_S1_d1 h_S_))
    (Host.gather gather_S50257x2048_S1x1_S1x2048_1_0_n_n_0_1_12048 E
      (broadcastInDim S1x1 ![0] bcast_S1_S1x1_0
        (select (cmpi .slt tok (broadcastInDim S1 ![] bcast_S_S1 (constantI S_ 32 0#32)))
          (addi tok (broadcastInDim S1 ![] bcast_S_S1 (constantI S_ 32 50257#32))) tok)))
    (broadcastInDim S1x2048 ![] bcast_S_S1x2048 (constant S_ .f32 0x7FC00000#32))

/-- After the lookup's operations its result buffer holds the row of the table (as it was) at the token (as it was). -/
theorem W2_main_v1_of (X : Valuation τ sig (Elt F)) : StableHlo.after hostOps0_1 X (Proc.devRef .tc main_v1)
    = takeRow (X (Proc.devRef .tc main_arg3)) (X (Proc.devRef .tc main_v0)) := by
  after_results_simp
  simp only [ofBuf_toBuf]
  rfl
theorem W2_main_v1 (c : Dev nD) : W2 m c (Proc.devRef .tc main_v1)
    = takeRow (W1 m c (Proc.devRef .tc main_arg3)) (W1 m c (Proc.devRef .tc main_v0)) :=
  W2_main_v1_of (W1 m c)

/-! ## Region 0's operands -/

/-- The old hidden state as a row. -/
theorem W3_main_v2_of (X : Valuation τ sig (Elt F)) : StableHlo.after hostOps0_2 X (Proc.devRef .tc main_v2)
    = fun i => shapeCast S1x2048 (X (Proc.devRef .tc main_arg1)) shapeCasts_S1x1x2048_S1x2048 i := by
  after_results
  all_goals rfl
theorem W3_main_v2 (c : Dev nD) : W3 m c (Proc.devRef .tc main_v2)
    = fun i => shapeCast S1x2048 (W2 m c (Proc.devRef .tc main_arg1)) shapeCasts_S1x1x2048_S1x2048 i :=
  W3_main_v2_of (W2 m c)

/-- The embedding row and the old state side by side. -/
theorem W3_main_v3_of (X : Valuation τ sig (Elt F)) : StableHlo.after hostOps0_2 X (Proc.devRef .tc main_v3)
    = concatenate S1x4096 1 [⟨S1x2048, X (Proc.devRef .tc main_v1)⟩, ⟨S1x2048, fun i => shapeCast S1x2048 (X (Proc.devRef .tc main_arg1)) shapeCasts_S1x1x2048_S1x2048 i⟩] concatenates_S1x2048_S1x2048_S1x4096_d1 := by
  after_results
  all_goals rfl
theorem W3_main_v3 (c : Dev nD) : W3 m c (Proc.devRef .tc main_v3)
    = concatenate S1x4096 1 [⟨S1x2048, W2 m c (Proc.devRef .tc main_v1)⟩, ⟨S1x2048, fun i => shapeCast S1x2048 (W2 m c (Proc.devRef .tc main_arg1)) shapeCasts_S1x1x2048_S1x2048 i⟩] concatenates_S1x2048_S1x2048_S1x4096_d1 :=
  W3_main_v3_of (W2 m c)

/-- The attention bias as a row. -/
theorem W3_main_v4_of (X : Valuation τ sig (Elt F)) : StableHlo.after hostOps0_2 X (Proc.devRef .tc main_v4)
    = fun i => shapeCast S1x512 (X (Proc.devRef .tc main_arg5)) shapeCasts_S512_S1x512 i := by
  after_results
  all_goals rfl
theorem W3_main_v4 (c : Dev nD) : W3 m c (Proc.devRef .tc main_v4)
    = fun i => shapeCast S1x512 (W2 m c (Proc.devRef .tc main_arg5)) shapeCasts_S512_S1x512 i :=
  W3_main_v4_of (W2 m c)

/-! ## Region 1's operands -/

/-- The embedding row and the context row side by side. -/
theorem W5_main_v6_of (X : Valuation τ sig (Elt F)) : StableHlo.after hostOps1 X (Proc.devRef .tc main_v6)
    = concatenate S1x4096 1 [⟨S1x2048, X (Proc.devRef .tc main_v1)⟩, ⟨S1x2048, X (Proc.devRef .tc main_v5_1)⟩] concatenates_S1x2048_S1x2048_S1x4096_d1 := by
  after_results
  all_goals rfl
theorem W5_main_v6 (c : Dev nD) : W5 m c (Proc.devRef .tc main_v6)
    = concatenate S1x4096 1 [⟨S1x2048, W4 m c (Proc.devRef .tc main_v1)⟩, ⟨S1x2048, W4 m c (Proc.devRef .tc main_v5_1)⟩] concatenates_S1x2048_S1x2048_S1x4096_d1 :=
  W5_main_v6_of (W4 m c)

/-- The combine bias as a row. -/
theorem W5_main_v7_of (X : Valuation τ sig (Elt F)) : StableHlo.after hostOps1 X (Proc.devRef .tc main_v7)
    = fun i => shapeCast S1x2048 (X (Proc.devRef .tc main_arg7)) shapeCasts_S2048_S1x2048 i := by
  after_results
  all_goals rfl
theorem W5_main_v7 (c : Dev nD) : W5 m c (Proc.devRef .tc main_v7)
    = fun i => shapeCast S1x2048 (W4 m c (Proc.devRef .tc main_arg7)) shapeCasts_S2048_S1x2048 i :=
  W5_main_v7_of (W4 m c)

/-! ## Region 2's operands -/

/-- The input weights, one block of rows per gate. -/
theorem W7_main_v11_of (X : Valuation τ sig (Elt F)) : StableHlo.after hostOps2 X (Proc.devRef .tc main_v11)
    = fun i => shapeCast S3x2048x2048 (X (Proc.devRef .tc main_arg8)) shapeCasts_S6144x2048_S3x2048x2048 i := by
  after_results
  all_goals rfl
theorem W7_main_v11 (c : Dev nD) : W7 m c (Proc.devRef .tc main_v11)
    = fun i => shapeCast S3x2048x2048 (W6 m c (Proc.devRef .tc main_arg8)) shapeCasts_S6144x2048_S3x2048x2048 i :=
  W7_main_v11_of (W6 m c)

/-- The hidden weights, one block of rows per gate. -/
theorem W7_main_v12_of (X : Valuation τ sig (Elt F)) : StableHlo.after hostOps2 X (Proc.devRef .tc main_v12)
    = fun i => shapeCast S3x2048x2048 (X (Proc.devRef .tc main_arg9)) shapeCasts_S6144x2048_S3x2048x2048 i := by
  after_results
  all_goals rfl
theorem W7_main_v12 (c : Dev nD) : W7 m c (Proc.devRef .tc main_v12)
    = fun i => shapeCast S3x2048x2048 (W6 m c (Proc.devRef .tc main_arg9)) shapeCasts_S6144x2048_S3x2048x2048 i :=
  W7_main_v12_of (W6 m c)

/-- The input bias, one row per gate. -/
theorem W7_main_v13_of (X : Valuation τ sig (Elt F)) : StableHlo.after hostOps2 X (Proc.devRef .tc main_v13)
    = fun i => shapeCast S3x2048 (fun i' => shapeCast S1x6144 (X (Proc.devRef .tc main_arg10)) shapeCasts_S6144_S1x6144 i') shapeCasts_S1x6144_S3x2048 i := by
  after_results
  all_goals rfl
theorem W7_main_v13 (c : Dev nD) : W7 m c (Proc.devRef .tc main_v13)
    = fun i => shapeCast S3x2048 (fun i' => shapeCast S1x6144 (W6 m c (Proc.devRef .tc main_arg10)) shapeCasts_S6144_S1x6144 i') shapeCasts_S1x6144_S3x2048 i :=
  W7_main_v13_of (W6 m c)

/-- The hidden bias, one row per gate. -/
theorem W7_main_v14_of (X : Valuation τ sig (Elt F)) : StableHlo.after hostOps2 X (Proc.devRef .tc main_v14)
    = fun i => shapeCast S3x2048 (fun i' => shapeCast S1x6144 (X (Proc.devRef .tc main_arg11)) shapeCasts_S6144_S1x6144 i') shapeCasts_S1x6144_S3x2048 i := by
  after_results
  all_goals rfl
theorem W7_main_v14 (c : Dev nD) : W7 m c (Proc.devRef .tc main_v14)
    = fun i => shapeCast S3x2048 (fun i' => shapeCast S1x6144 (W6 m c (Proc.devRef .tc main_arg11)) shapeCasts_S6144_S1x6144 i') shapeCasts_S1x6144_S3x2048 i :=
  W7_main_v14_of (W6 m c)

/-! ## Region 3's operand, and the token -/

/-- The output bias as a row. -/
theorem W9_main_v16_of (X : Valuation τ sig (Elt F)) : StableHlo.after hostOps3 X (Proc.devRef .tc main_v16)
    = fun i => shapeCast S1x50257 (X (Proc.devRef .tc main_arg13)) shapeCasts_S50257_S1x50257 i := by
  after_results
  all_goals rfl
theorem W9_main_v16 (c : Dev nD) : W9 m c (Proc.devRef .tc main_v16)
    = fun i => shapeCast S1x50257 (W8 m c (Proc.devRef .tc main_arg13)) shapeCasts_S50257_S1x50257 i :=
  W9_main_v16_of (W8 m c)

/-- The token as a vector of one. -/
theorem W1_main_v0_of (X : Valuation τ sig (Elt F)) : StableHlo.after hostOps0 X (Proc.devRef .tc main_v0)
    = fun i => shapeCast S1 (X (Proc.devRef .tc main_arg0)) shapeCasts_S1x1_S1 i := by
  after_results
  all_goals rfl
theorem W1_main_v0 (c : Dev nD) : W1 m c (Proc.devRef .tc main_v0)
    = fun i => shapeCast S1 (W0 m c (Proc.devRef .tc main_arg0)) shapeCasts_S1x1_S1 i :=
  W1_main_v0_of (W0 m c)

end Cert.KernelIdeal.Hand

end
-- ==== Proof.KI.Spec.lean ====
/-
  The decoder step's arithmetic on the extended reals, stage by stage, over plain index types: the functions both
  programs are shown to compute.  A row is a function on `Fin n`, a matrix a function of a row and a column index.

  * `affine x W b`     : `x · Wᵀ + b`, entry `j` the sum over `k` of `x k * W j k`, plus `b j`;
  * `rowMax`, `softmax` : a row's largest entry (from the bottom element) and the quotient of the shifted exponentials
                         by their sum;
  * `weighted a E`     : `a · E`, entry `j` the sum over `k` of `a k * E k j`;
  * `relu`             : the larger of an entry and zero;
  * `gru`              : one entry of the gated recurrent cell from its six pre-activations and the old state:
                         `(1 - z) * n + z * h` with `r = σ (i_r + h_r)`, `z = σ (i_z + h_z)`, `n = tanh (i_n + r * h_n)`.
-/
import Idealize.ShloMosaic.PureOps.Ideal

noncomputable section

namespace Cert.Spec

open Idealize.ShloMosaic

/-- Entry `j` of `x · Wᵀ + b`. -/
def affine {K N : ℕ} (x : Fin K → EReal) (W : Fin N → Fin K → EReal) (b : Fin N → EReal) (j : Fin N) : EReal :=
  (∑ k : Fin K, x k * W j k) + b j

/-- A row's largest entry, the bottom element for an empty row. -/
def rowMax {N : ℕ} (l : Fin N → EReal) : EReal := (Finset.univ : Finset (Fin N)).fold max ⊥ l

/-- Entry `j` of the softmax of a row: the exponential of the entry less the row's largest, over the sum of those. -/
def softmax {N : ℕ} (l : Fin N → EReal) (j : Fin N) : EReal :=
  Ideal.div (Ideal.exp (l j - rowMax l)) (∑ i : Fin N, Ideal.exp (l i - rowMax l))

/-- Entry `j` of the row `a · E`. -/
def weighted {L H : ℕ} (a : Fin L → EReal) (E : Fin L → Fin H → EReal) (j : Fin H) : EReal :=
  ∑ k : Fin L, a k * E k j

/-- The larger of a number and zero. -/
def relu (y : EReal) : EReal := max y 0

/-- One entry of the gated recurrent cell: reset and update gates from the summed pre-activations, the candidate from the
    reset-scaled hidden pre-activation, then the convex-looking mix with the old state (no law of convexity is used:
    the expression is taken as written). -/
def gru (ir iz inn hr hz hn h : EReal) : EReal :=
  (1 - Ideal.logistic (iz + hz)) * Ideal.tanh (inn + Ideal.logistic (ir + hr) * hn) + Ideal.logistic (iz + hz) * h

end Cert.Spec

end
-- ==== Proof.KI.Value0.lean ====
/-
  The value of the attention kernel (the first pallas_call) at the exact values. Its one grid point reads the whole
  input row x1 [1,4096], the attention weights W [512,4096], the attention bias [1,512] and the encoder outputs
  E [512,2048], and writes two rows: the attention weights, softmax (x1 · Wᵀ + bias) — the scores row less its largest
  entry, exponentiated, over the sum of those —, and the context row, those weights times E. The kernel's reductions
  are along the one row: a maximum from minus infinity is the row's largest entry, a sum from zero the row's sum; each
  is recast to one row of one entry and spread back along the row, which reads the one entry everywhere. Both
  products contract one axis (4096 and 512 entries); rounding is the identity here. Every block being its whole array
  (one point, block index zero), what the point writes back is the array.
-/
import proofs.«111195_j57131654971751_2_alg».proof.Proof.KI.Region0
import proofs.«111195_j57131654971751_2_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.ShloMosaic.Pipeline (Window Dat)

/-! ## The reductions of a row, at the exact values -/

/-- The word of minus infinity is the bottom element. -/
theorem ofBits_neg_inf : Ideal.ofBits .f32 0xFF800000#32 = ⊥ := by simp [Ideal.ofBits, Ideal.ieee]

/-- The one index of the one-entry shape. -/
theorem idx_S1_eq (j j' : S1.Idx) : j = j' := by
  funext a; apply Fin.ext
  have h : (j a).val < 1 := by match a with | ⟨0, _⟩ => exact (j 0).isLt
  have h' : (j' a).val < 1 := by match a with | ⟨0, _⟩ => exact (j' 0).isLt
  omega

/-- A row's entry `k`, as the index a reduction along the row visits. -/
theorem lift_S1x512 (j0 : S1.Idx) (k : Fin 512) : reduces_S1x512_S1.lift j0 k = ix2 (0 : Fin 1) k := by
  funext a; apply Fin.ext
  match a with
  | ⟨0, _⟩ =>
    have h : (reduces_S1x512_S1.lift j0 k 0).val < 1 := (reduces_S1x512_S1.lift j0 k 0).isLt
    show (reduces_S1x512_S1.lift j0 k 0).val = 0
    omega
  | ⟨1, _⟩ => rfl

/-- A row's maximum-reduction from minus infinity is the row's largest entry. -/
theorem rowMax_S1x512 (f : FVec Ideal S1x512 .f32) (hφ : FKind.Formats .f32)
    (hacc : (0xFF800000#32 : BitVec FTy.f32.bits) = FKind.maximumf.neutral .f32 hφ) (j0 : S1.Idx) :
    multiReduction .maximumf [1] S1 f 0xFF800000#32 reduces_S1x512_S1 hφ hacc j0
      = Cert.Spec.rowMax (fun k : Fin 512 => f (ix2 (0 : Fin 1) k)) := by
  refine (Ideal.multiReduction_maximumf_single f _ reduces_S1x512_S1 hφ hacc j0).trans ?_
  unfold Cert.Spec.rowMax
  show Finset.univ.fold max (Ideal.ofBits .f32 0xFF800000#32) _ = _
  rw [ofBits_neg_inf]
  congr 1
  funext k; exact congrArg f (lift_S1x512 j0 k)

/-- A row's sum-reduction from zero is the sum of the row's entries. -/
theorem rowSum_S1x512 (f : FVec Ideal S1x512 .f32) (hφ : FKind.Formats .f32)
    (hacc : (0x00000000#32 : BitVec FTy.f32.bits) = FKind.add.neutral .f32 hφ) (j0 : S1.Idx) :
    multiReduction .add [1] S1 f 0x00000000#32 reduces_S1x512_S1 hφ hacc j0 = ∑ k : Fin 512, f (ix2 (0 : Fin 1) k) := by
  refine (Ideal.multiReduction_add_single f _ reduces_S1x512_S1 hφ hacc j0).trans ?_
  exact Finset.sum_congr rfl fun k _ => congrArg f (lift_S1x512 j0 k)

/-- A one-entry vector recast to one row of one entry and spread along the row reads its entry everywhere. -/
theorem keep_S1 {α : Type} (g : S1.Idx → α) (y : S1x512.Idx) (j0 : S1.Idx) :
    broadcastTo S1x512 (shapeCast S1x1 g shapeCasts_S1_S1x1) broadcasts_S1x1_S1x512 y = g j0 := by
  unfold broadcastTo shapeCast; exact congrArg g (idx_S1_eq _ _)

/-! ## The attention kernel's payloads, at the exact values -/

/-- The scores row before the softmax: the rounded input row against the rounded weight rows, plus the bias. -/
def pre0 (x0 : Vec Ideal S1x4096 .f32) (x1 : Vec Ideal S512x4096 .f32) (x2 : Vec Ideal S1x512 .f32) : FVec Ideal S1x512 .f32 :=
  addf (matmul dot_S1x4096_S512x4096_S1x512_1_1_0_0_n_n none
      (truncf .bf16 (shapeCast S1x4096 x0 shapeCasts_S1x4096_S1x4096) bitsLt_bf16_f32) (truncf .bf16 x1 bitsLt_bf16_f32)
      (constant S1x512 .f32 0x00000000#32))
    (shapeCast S1x512 x2 shapeCasts_S1x512_S1x512)

/-- The softmax of a row as the kernel spells it: subtract the row's maximum, exponentiate, divide by the sum. -/
def smax0 (p : FVec Ideal S1x512 .f32) : FVec Ideal S1x512 .f32 :=
  have v9 : FVec Ideal S1 .f32 := multiReduction .maximumf [1] S1 p 0xFF800000#32 reduces_S1x512_S1 (.inl rfl) rfl
  have v10 : FVec Ideal S1x1 .f32 := shapeCast S1x1 v9 shapeCasts_S1_S1x1
  have v11 : FVec Ideal S1x512 .f32 := broadcastTo S1x512 v10 broadcasts_S1x1_S1x512
  have v12 : FVec Ideal S1x512 .f32 := subf p v11
  have v13 : FVec Ideal S1x512 .f32 := exp v12
  have v14 : FVec Ideal S1 .f32 := multiReduction .add [1] S1 v13 0x00000000#32 reduces_S1x512_S1 (.inl rfl) rfl
  have v15 : FVec Ideal S1x1 .f32 := shapeCast S1x1 v14 shapeCasts_S1_S1x1
  have v16 : FVec Ideal S1x512 .f32 := broadcastTo S1x512 v15 broadcasts_S1x1_S1x512
  divf v13 v16

/-- The first payload is the softmax of the scores row. -/
theorem k0_pay1_eq (x0 : Vec Ideal S1x4096 .f32) (x1 : Vec Ideal S512x4096 .f32) (x2 : Vec Ideal S1x512 .f32) :
    k0_pay1 x0 x1 x2 = smax0 (pre0 x0 x1 x2) := rfl

/-- The scores' product contracts one axis of 4096 entries. -/
abbrev contr0a : dot_S1x4096_S512x4096_S1x512_1_1_0_0_n_n.contr.Idx ≃ Fin 4096 :=
  contrEquiv1 dot_S1x4096_S512x4096_S1x512_1_1_0_0_n_n 4096 rfl rfl

/-- Entry `j` of the scores row: the input row against weight row `j`, plus the bias's entry `j`. -/
theorem pre0_apply (x0 : Vec Ideal S1x4096 .f32) (x1 : Vec Ideal S512x4096 .f32) (x2 : Vec Ideal S1x512 .f32) (j : Fin 512) :
    pre0 x0 x1 x2 (ix2 (0 : Fin 1) j)
      = Cert.Spec.affine (K := 4096) (N := 512) (fun k => x0 (ix2 (0 : Fin 1) k)) (fun j k => x1 (ix2 j k))
          (fun j => x2 (ix2 (0 : Fin 1) j)) j := by
  unfold pre0 Cert.Spec.affine
  rw [shapeCast_self, shapeCast_self]
  show FloatOps.addf (F := Ideal) (φ := .f32) (matmul _ none _ _ _ _) (x2 _) = _
  simp only [matmul]
  rw [Ideal.matmul_constant_zero_apply]
  show (∑ k : dot_S1x4096_S512x4096_S1x512_1_1_0_0_n_n.contr.Idx, _) + x2 (ix2 (0 : Fin 1) j) = _ + x2 (ix2 (0 : Fin 1) j)
  congr 1
  rw [← Equiv.sum_comp contr0a]
  refine Finset.sum_congr rfl fun k _ => ?_
  have hk : (contr0a k).val = (k ⟨0, Nat.one_pos⟩).val := rfl
  have e0 : dot_S1x4096_S512x4096_S1x512_1_1_0_0_n_n.lhsIdx (ix2 (0 : Fin 1) j) k = ix2 (0 : Fin 1) (contr0a k) := by
    funext a; apply Fin.ext
    match a with
    | ⟨0, _⟩ =>
      have h : (dot_S1x4096_S512x4096_S1x512_1_1_0_0_n_n.lhsIdx (ix2 (0 : Fin 1) j) k 0).val < 1 :=
        (dot_S1x4096_S512x4096_S1x512_1_1_0_0_n_n.lhsIdx (ix2 (0 : Fin 1) j) k 0).isLt
      show (dot_S1x4096_S512x4096_S1x512_1_1_0_0_n_n.lhsIdx (ix2 (0 : Fin 1) j) k 0).val = 0
      omega
    | ⟨1, _⟩ => rfl
  have e1 : dot_S1x4096_S512x4096_S1x512_1_1_0_0_n_n.rhsIdx (ix2 (0 : Fin 1) j) k = ix2 j (contr0a k) := by
    funext a; apply Fin.ext
    match a with
    | ⟨0, _⟩ => rfl
    | ⟨1, _⟩ => rfl
  show x0 (dot_S1x4096_S512x4096_S1x512_1_1_0_0_n_n.lhsIdx (ix2 (0 : Fin 1) j) k)
      * x1 (dot_S1x4096_S512x4096_S1x512_1_1_0_0_n_n.rhsIdx (ix2 (0 : Fin 1) j) k)
    = x0 (ix2 (0 : Fin 1) (contr0a k)) * x1 (ix2 j (contr0a k))
  rw [e0, e1]

/-- The kernel's softmax of a row is the specification's softmax of the row's entries. -/
theorem smax0_apply (p : FVec Ideal S1x512 .f32) (j : Fin 512) :
    smax0 p (ix2 (0 : Fin 1) j) = Cert.Spec.softmax (fun k : Fin 512 => p (ix2 (0 : Fin 1) k)) j := by
  have hmax : ∀ y : S1x512.Idx, broadcastTo S1x512 (shapeCast S1x1
        (multiReduction .maximumf [1] S1 p 0xFF800000#32 reduces_S1x512_S1 (.inl rfl) rfl) shapeCasts_S1_S1x1)
        broadcasts_S1x1_S1x512 y = Cert.Spec.rowMax (fun k : Fin 512 => p (ix2 (0 : Fin 1) k)) := fun y =>
    (keep_S1 _ y (ix1 (0 : Fin 1))).trans (rowMax_S1x512 p _ _ _)
  -- the shifted exponentials
  generalize hq : (exp (subf p (broadcastTo S1x512 (shapeCast S1x1
        (multiReduction .maximumf [1] S1 p 0xFF800000#32 reduces_S1x512_S1 (.inl rfl) rfl) shapeCasts_S1_S1x1)
        broadcasts_S1x1_S1x512)) : FVec Ideal S1x512 .f32) = q
  have hqv : ∀ y : S1x512.Idx, q y = Ideal.exp (p y - Cert.Spec.rowMax (fun k : Fin 512 => p (ix2 (0 : Fin 1) k))) := fun y => by
    rw [← hq]
    show Ideal.exp (p y - _) = _
    rw [hmax y]
  have hsum : ∀ y : S1x512.Idx, broadcastTo S1x512 (shapeCast S1x1
        (multiReduction .add [1] S1 q 0x00000000#32 reduces_S1x512_S1 (.inl rfl) rfl) shapeCasts_S1_S1x1)
        broadcasts_S1x1_S1x512 y = ∑ k : Fin 512, q (ix2 (0 : Fin 1) k) := fun y =>
    (keep_S1 _ y (ix1 (0 : Fin 1))).trans (rowSum_S1x512 q _ _ _)
  have key : smax0 p (ix2 (0 : Fin 1) j) = Ideal.div (q (ix2 (0 : Fin 1) j)) (broadcastTo S1x512 (shapeCast S1x1
        (multiReduction .add [1] S1 q 0x00000000#32 reduces_S1x512_S1 (.inl rfl) rfl) shapeCasts_S1_S1x1)
        broadcasts_S1x1_S1x512 (ix2 (0 : Fin 1) j)) := by
    rw [← hq]; rfl
  rw [key, hsum, hqv]
  unfold Cert.Spec.softmax
  congr 1
  exact Finset.sum_congr rfl fun k _ => hqv _

/-- The context's product contracts one axis of 512 entries. -/
abbrev contr0b : dot_S1x512_S512x2048_S1x2048_1_0_0_1_n_n.contr.Idx ≃ Fin 512 :=
  contrEquiv1 dot_S1x512_S512x2048_S1x2048_1_0_0_1_n_n 512 rfl rfl

/-- Entry `j` of the second payload: the weights row against column `j` of the encoder block. -/
theorem k0_pay2_apply_ideal (x0 : Vec Ideal S1x4096 .f32) (x1 : Vec Ideal S512x4096 .f32) (x2 : Vec Ideal S1x512 .f32)
    (x3 : Vec Ideal S512x2048 .f32) (j : Fin 2048) :
    k0_pay2 x0 x1 x2 x3 (ix2 (0 : Fin 1) j)
      = Cert.Spec.weighted (L := 512) (H := 2048) (fun k => k0_pay1 x0 x1 x2 (ix2 (0 : Fin 1) k)) (fun k j => x3 (ix2 k j)) j := by
  unfold k0_pay2 Cert.Spec.weighted
  simp only [matmul]
  rw [Ideal.matmul_constant_zero_apply]
  rw [← Equiv.sum_comp contr0b]
  refine Finset.sum_congr rfl fun k _ => ?_
  have e0 : dot_S1x512_S512x2048_S1x2048_1_0_0_1_n_n.lhsIdx (ix2 (0 : Fin 1) j) k = ix2 (0 : Fin 1) (contr0b k) := by
    funext a; apply Fin.ext
    match a with
    | ⟨0, _⟩ =>
      have h : (dot_S1x512_S512x2048_S1x2048_1_0_0_1_n_n.lhsIdx (ix2 (0 : Fin 1) j) k 0).val < 1 :=
        (dot_S1x512_S512x2048_S1x2048_1_0_0_1_n_n.lhsIdx (ix2 (0 : Fin 1) j) k 0).isLt
      show (dot_S1x512_S512x2048_S1x2048_1_0_0_1_n_n.lhsIdx (ix2 (0 : Fin 1) j) k 0).val = 0
      omega
    | ⟨1, _⟩ => rfl
  have e1 : dot_S1x512_S512x2048_S1x2048_1_0_0_1_n_n.rhsIdx (ix2 (0 : Fin 1) j) k = ix2 (contr0b k) j := by
    funext a; apply Fin.ext
    match a with
    | ⟨0, _⟩ => rfl
    | ⟨1, _⟩ => rfl
  show k0_pay1 x0 x1 x2 (dot_S1x512_S512x2048_S1x2048_1_0_0_1_n_n.lhsIdx (ix2 (0 : Fin 1) j) k)
      * x3 (dot_S1x512_S512x2048_S1x2048_1_0_0_1_n_n.rhsIdx (ix2 (0 : Fin 1) j) k)
    = k0_pay1 x0 x1 x2 (ix2 (0 : Fin 1) (contr0b k)) * x3 (ix2 (contr0b k) j)
  rw [e0, e1]

/-- Entry `j` of the first payload: the softmax of the scores row. -/
theorem k0_pay1_apply_ideal (x0 : Vec Ideal S1x4096 .f32) (x1 : Vec Ideal S512x4096 .f32) (x2 : Vec Ideal S1x512 .f32)
    (j : Fin 512) :
    k0_pay1 x0 x1 x2 (ix2 (0 : Fin 1) j)
      = Cert.Spec.softmax (Cert.Spec.affine (K := 4096) (N := 512) (fun k => x0 (ix2 (0 : Fin 1) k)) (fun j k => x1 (ix2 j k))
          (fun j => x2 (ix2 (0 : Fin 1) j))) j := by
  rw [k0_pay1_eq, smax0_apply]
  exact congrArg (fun l => Cert.Spec.softmax l j) (funext fun k => pre0_apply x0 x1 x2 k)

/-! ## From the blocks to the arrays: one grid point, every block its whole array -/

/-- Offsets `![0, 0]` are the zero offsets. -/
theorem zeros2_0 : (![0, 0] : Fin 2 → Nat) = fun _ => 0 := funext fun a => by fin_cases a <;> rfl

/-- Every window's block index is zero on both axes, decided at the one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

section
variable (V : (c : Dev nD) → (b : Ref sig .tc) → Buf (Elt Ideal) ((c : Thread nD τ).loc b))

/-- The input row's block is the input row. -/
theorem iblk0_0_apply (c : Dev nD) (t : Fin cfg0.N) (a : Fin 1) (k : Fin 4096) :
    iblk0 V c 0 t (ix2 a k) = V c main_v3 (ix2 a k) := by
  obtain ⟨e0, e1, -⟩ := idx_facts0 t
  show V c main_v3 ((win0_0.blk t).view.emb (ix2 a k)) = _
  refine congrArg (V c main_v3) (funext fun ax => Fin.ext ?_)
  match ax with
  | ⟨0, _⟩ => show win0_0.index t (0 : Fin 2) * 1 + 1 * a.val = a.val; rw [e0]; omega
  | ⟨1, _⟩ => show win0_0.index t (1 : Fin 2) * 4096 + 1 * k.val = k.val; rw [e1]; omega

/-- The weight block is the weight matrix. -/
theorem iblk0_1_apply (c : Dev nD) (t : Fin cfg0.N) (a : Fin 512) (k : Fin 4096) :
    iblk0 V c 1 t (ix2 a k) = V c main_arg4 (ix2 a k) := by
  obtain ⟨-, -, e0, e1, -⟩ := idx_facts0 t
  show V c main_arg4 ((win0_1.blk t).view.emb (ix2 a k)) = _
  refine congrArg (V c main_arg4) (funext fun ax => Fin.ext ?_)
  match ax with
  | ⟨0, _⟩ => show win0_1.index t (0 : Fin 2) * 512 + 1 * a.val = a.val; rw [e0]; omega
  | ⟨1, _⟩ => show win0_1.index t (1 : Fin 2) * 4096 + 1 * k.val = k.val; rw [e1]; omega

/-- The bias block is the bias row. -/
theorem iblk0_2_apply (c : Dev nD) (t : Fin cfg0.N) (a : Fin 1) (k : Fin 512) :
    iblk0 V c 2 t (ix2 a k) = V c main_v4 (ix2 a k) := by
  obtain ⟨-, -, -, -, e0, e1, -⟩ := idx_facts0 t
  show V c main_v4 ((win0_2.blk t).view.emb (ix2 a k)) = _
  refine congrArg (V c main_v4) (funext fun ax => Fin.ext ?_)
  match ax with
  | ⟨0, _⟩ => show win0_2.index t (0 : Fin 2) * 1 + 1 * a.val = a.val; rw [e0]; omega
  | ⟨1, _⟩ => show win0_2.index t (1 : Fin 2) * 512 + 1 * k.val = k.val; rw [e1]; omega

/-- The encoder block is the encoder outputs. -/
theorem iblk0_3_apply (c : Dev nD) (t : Fin cfg0.N) (a : Fin 512) (k : Fin 2048) :
    iblk0 V c 3 t (ix2 a k) = V c main_arg2 (ix2 a k) := by
  obtain ⟨-, -, -, -, -, -, e0, e1, -⟩ := idx_facts0 t
  show V c main_arg2 ((win0_3.blk t).view.emb (ix2 a k)) = _
  refine congrArg (V c main_arg2) (funext fun ax => Fin.ext ?_)
  match ax with
  | ⟨0, _⟩ => show win0_3.index t (0 : Fin 2) * 512 + 1 * a.val = a.val; rw [e0]; omega
  | ⟨1, _⟩ => show win0_3.index t (1 : Fin 2) * 2048 + 1 * k.val = k.val; rw [e1]; omega

/-- The attention scores: the input row against the attention weights, plus the attention bias. -/
def scores0 (c : Dev nD) : Fin 512 → EReal :=
  Cert.Spec.affine (K := 4096) (N := 512) (fun k => V c main_v3 (ix2 (0 : Fin 1) k)) (fun j k => V c main_arg4 (ix2 j k))
    (fun j => V c main_v4 (ix2 (0 : Fin 1) j))

/-- The attention weights row as a function on the weights array's indices. -/
def weights0 (c : Dev nD) : S1x512.Idx → EReal := fun i => Cert.Spec.softmax (scores0 V c) ⟨(i 1).val, (i 1).isLt⟩

/-- The context row as a function on the context array's indices. -/
def context0 (c : Dev nD) : S1x2048.Idx → EReal := fun i =>
  Cert.Spec.weighted (L := 512) (H := 2048) (Cert.Spec.softmax (scores0 V c)) (fun k j => V c main_arg2 (ix2 k j))
    ⟨(i 1).val, (i 1).isLt⟩

/-- The first payload of the input blocks, entry `j`: the softmax of the attention scores. -/
theorem pay1_blocks (c : Dev nD) (t : Fin cfg0.N) (j : Fin 512) :
    k0_pay1 (iblk0 V c 0 t) (iblk0 V c 1 t) (iblk0 V c 2 t) (ix2 (0 : Fin 1) j) = Cert.Spec.softmax (scores0 V c) j := by
  rw [k0_pay1_apply_ideal]
  unfold scores0
  congr 1
  unfold Cert.Spec.affine
  funext j'
  congr 1
  · exact Finset.sum_congr rfl fun k _ => congrArg₂ (· * ·) (iblk0_0_apply V c t 0 k) (iblk0_1_apply V c t j' k)
  · exact iblk0_2_apply V c t 0 j'

/-- WHAT THE POINT WRITES BACK to the weights array is the softmax row. -/
theorem flushed0_4_eq (c : Dev nD) (t : Fin cfg0.N) :
    (dat0 (F := Ideal) V c).flushed 4 t = ((cfg0.win 4).blk t).view.read (Elt Ideal) (weights0 V c) := by
  show (cfg0.win 4).cut (grid0.coords t) ((dat0 V c).after 4 t) = _
  rw [after0_4]
  unfold out0_4
  rw [View.canon_unit_zero (S := S1x512) zeros2_0 inb_S1x512_S1x512_0_0,
    View.ld_unit_zero (S := S1x4096) zeros2_0 inb_S1x4096_S1x4096_0_0,
    View.ld_unit_zero (S := S512x4096) zeros2_0 inb_S512x4096_S512x4096_0_0,
    View.ld_unit_zero (S := S1x512) zeros2_0 inb_S1x512_S1x512_0_0]
  obtain ⟨-, -, -, -, -, -, -, -, e0, e1, -⟩ := idx_facts0 t
  funext y
  have hy0 : (y 0).val < 1 := (y 0).isLt
  obtain ⟨j, rfl⟩ : ∃ j : Fin 512, y = ix2 (0 : Fin 1) j := ⟨⟨(y 1).val, (y 1).isLt⟩, by
    funext a; apply Fin.ext
    match a with
    | ⟨0, _⟩ => show (y 0).val = 0; omega
    | ⟨1, _⟩ => rfl⟩
  show k0_pay1 (iblk0 V c 0 t) (iblk0 V c 1 t) (iblk0 V c 2 t) (ix2 (0 : Fin 1) j)
    = weights0 V c (((cfg0.win 4).blk t).view.emb (ix2 (0 : Fin 1) j))
  rw [pay1_blocks]
  unfold weights0
  refine congrArg (Cert.Spec.softmax (scores0 V c)) (Fin.ext ?_)
  show j.val = win0_4.index t (1 : Fin 2) * 512 + 1 * j.val
  rw [e1]; omega

/-- WHAT THE POINT WRITES BACK to the context array is the weights row times the encoder outputs. -/
theorem flushed0_5_eq (c : Dev nD) (t : Fin cfg0.N) :
    (dat0 (F := Ideal) V c).flushed 5 t = ((cfg0.win 5).blk t).view.read (Elt Ideal) (context0 V c) := by
  show (cfg0.win 5).cut (grid0.coords t) ((dat0 V c).after 5 t) = _
  rw [after0_5]
  unfold out0_5
  rw [View.canon_unit_zero (S := S1x2048) zeros2_0 inb_S1x2048_S1x2048_0_0,
    View.ld_unit_zero (S := S1x4096) zeros2_0 inb_S1x4096_S1x4096_0_0,
    View.ld_unit_zero (S := S512x4096) zeros2_0 inb_S512x4096_S512x4096_0_0,
    View.ld_unit_zero (S := S1x512) zeros2_0 inb_S1x512_S1x512_0_0,
    View.ld_unit_zero (S := S512x2048) zeros2_0 inb_S512x2048_S512x2048_0_0]
  obtain ⟨-, -, -, -, -, -, -, -, -, -, e0, e1⟩ := idx_facts0 t
  funext y
  have hy0 : (y 0).val < 1 := (y 0).isLt
  obtain ⟨j, rfl⟩ : ∃ j : Fin 2048, y = ix2 (0 : Fin 1) j := ⟨⟨(y 1).val, (y 1).isLt⟩, by
    funext a; apply Fin.ext
    match a with
    | ⟨0, _⟩ => show (y 0).val = 0; omega
    | ⟨1, _⟩ => rfl⟩
  show k0_pay2 (iblk0 V c 0 t) (iblk0 V c 1 t) (iblk0 V c 2 t) (iblk0 V c 3 t) (ix2 (0 : Fin 1) j)
    = context0 V c (((cfg0.win 5).blk t).view.emb (ix2 (0 : Fin 1) j))
  rw [k0_pay2_apply_ideal]
  unfold context0 Cert.Spec.weighted
  have hj : (⟨(((cfg0.win 5).blk t).view.emb (ix2 (0 : Fin 1) j) 1).val, (((cfg0.win 5).blk t).view.emb (ix2 (0 : Fin 1) j) 1).isLt⟩ : Fin 2048) = j :=
    Fin.ext (by show win0_5.index t (1 : Fin 2) * 2048 + 1 * j.val = j.val; rw [e1]; omega)
  rw [hj]
  exact Finset.sum_congr rfl fun k _ => congrArg₂ (· * ·) (pay1_blocks V c t k) (iblk0_3_apply V c t k j)

/-- The one point's block of the weights array is the array. -/
theorem cover0_4v (i : S1x512.Idx) : ∃ t : Fin cfg0.N, (cfg0.win 4).flush t = true ∧ i ∈ ((cfg0.win 4).blk t).view.set := by
  refine ⟨t0_0, flush0_4 _, ?_⟩
  obtain ⟨-, -, -, -, -, -, -, -, e0, e1, -⟩ := idx_facts0 t0_0
  show i ∈ ((View.whole main_v5_0).slice (win0_4.rect t0_0)).set
  rw [View.set_slice_whole, Rect.mem_set_unit]
  intro a
  match a with
  | ⟨0, _⟩ =>
    have h : (i 0).val < 1 := (i 0).isLt
    show win0_4.index t0_0 (0 : Fin 2) * 1 ≤ (i 0).val ∧ (i 0).val < win0_4.index t0_0 (0 : Fin 2) * 1 + 1
    rw [e0]; omega
  | ⟨1, _⟩ =>
    have h : (i 1).val < 512 := (i 1).isLt
    show win0_4.index t0_0 (1 : Fin 2) * 512 ≤ (i 1).val ∧ (i 1).val < win0_4.index t0_0 (1 : Fin 2) * 512 + 512
    rw [e1]; omega

/-- The one point's block of the context array is the array. -/
theorem cover0_5v (i : S1x2048.Idx) : ∃ t : Fin cfg0.N, (cfg0.win 5).flush t = true ∧ i ∈ ((cfg0.win 5).blk t).view.set := by
  refine ⟨t0_0, flush0_5 _, ?_⟩
  obtain ⟨-, -, -, -, -, -, -, -, -, -, e0, e1⟩ := idx_facts0 t0_0
  show i ∈ ((View.whole main_v5_1).slice (win0_5.rect t0_0)).set
  rw [View.set_slice_whole, Rect.mem_set_unit]
  intro a
  match a with
  | ⟨0, _⟩ =>
    have h : (i 0).val < 1 := (i 0).isLt
    show win0_5.index t0_0 (0 : Fin 2) * 1 ≤ (i 0).val ∧ (i 0).val < win0_5.index t0_0 (0 : Fin 2) * 1 + 1
    rw [e0]; omega
  | ⟨1, _⟩ =>
    have h : (i 1).val < 2048 := (i 1).isLt
    show win0_5.index t0_0 (1 : Fin 2) * 2048 ≤ (i 1).val ∧ (i 1).val < win0_5.index t0_0 (1 : Fin 2) * 2048 + 2048
    rw [e1]; omega

/-- THE WEIGHTS ARRAY after the region: the softmax of the attention scores. -/
theorem final0_4 (c : Dev nD) :
    (dat0 (F := Ideal) V c).arrAt 4 cfg0.N = fun i => Cert.Spec.softmax (scores0 V c) ⟨(i 1).val, (i 1).isLt⟩ :=
  (dat0 V c).arrAt_eq_of_cover 4 (weights0 V c) (fun t _ => flushed0_4_eq V c t) cover0_4v

/-- THE CONTEXT ARRAY after the region: the weights row times the encoder outputs. -/
theorem final0_5 (c : Dev nD) :
    (dat0 (F := Ideal) V c).arrAt 5 cfg0.N = fun i =>
      Cert.Spec.weighted (L := 512) (H := 2048) (Cert.Spec.softmax (scores0 V c)) (fun k j => V c main_arg2 (ix2 k j))
        ⟨(i 1).val, (i 1).isLt⟩ :=
  (dat0 V c).arrAt_eq_of_cover 5 (context0 V c) (fun t _ => flushed0_5_eq V c t) cover0_5v

end

end Cert.KernelIdeal.Hand

end
-- ==== Proof.KI.Value1.lean ====
import proofs.«111195_j57131654971751_2_alg».proof.Proof.KI.Region1
import proofs.«111195_j57131654971751_2_alg».proof.Proof.KI.Spec
import Idealize.ShloMosaic.Lib.Pipeline.Value
import Idealize.ShloMosaic.Lib.ValueIdx
import Idealize.ShloMosaic.Lib.ValueLayout
import Idealize.ShloMosaic.PureOps.Ideal.Laws

/-
  The attention-combine projection at the exact values: after its four grid points the output row holds, at column j,
  the larger of zero and  (the sum over k of x[0,k] * W[j,k]) + b[0,j],  x the whole input row, W the weight and b the bias
  as the region finds them. First the body's arithmetic on one tile (the matrix product into a zero accumulator is the
  plain sum over the contraction index; the roundings to the narrower format are the identity on exact values), then
  tile t of the weight's rows and of the bias and output columns is rows / columns t * 512 + r, and the four output
  tiles cover the row: column j lies in tile j / 512.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Window)
open scoped BigOperators

/-- The body's arithmetic at a column of the tile: the product row against row b of the weight tile, summed over the
    contraction index, plus the bias there, cut off below at zero. -/
theorem k1_pay1_apply (v0 : Vec Ideal S1x4096 .f32) (v2 : Vec Ideal S512x4096 .f32) (v6 : Vec Ideal S1x512 .f32) (a : Fin 1) (b : Fin 512) :
    k1_pay1 v0 v2 v6 (ix2 a b) = max ((∑ c : Fin 4096, v0 (ix2 a c) * v2 (ix2 b c)) + v6 (ix2 a b)) 0 := by
  unfold k1_pay1
  rw [shapeCast_self, shapeCast_self, maximumf_apply, addf_apply, broadcast_apply]
  simp only [matmul]
  rw [Ideal.matmul_constant_zero_apply, ← Equiv.sum_comp (contrEquiv1 dot_S1x4096_S512x4096_S1x512_1_1_0_0_n_n 4096 rfl rfl).symm]
  have e0 : (FloatOps.ofBits (F := Ideal) FTy.f32 0#32) = (0 : EReal) := Ideal.ofBits_zero_f32
  rw [e0]
  congr 2
  refine Finset.sum_congr rfl fun c _ => ?_
  have c1 := contrEquiv1_symm_val dot_S1x4096_S512x4096_S1x512_1_1_0_0_n_n 4096 rfl rfl c
  have l : dot_S1x4096_S512x4096_S1x512_1_1_0_0_n_n.lhsIdx (ix2 a b) ((contrEquiv1 dot_S1x4096_S512x4096_S1x512_1_1_0_0_n_n 4096 rfl rfl).symm c) = ix2 a c := by
    funext ax; apply Fin.ext
    match ax with
    | ⟨0, _⟩ => simp [DotDims.lhsIdx, dot_S1x4096_S512x4096_S1x512_1_1_0_0_n_n] <;> rfl
    | ⟨1, _⟩ => simp [DotDims.lhsIdx, dot_S1x4096_S512x4096_S1x512_1_1_0_0_n_n] <;> exact c1
  have r : dot_S1x4096_S512x4096_S1x512_1_1_0_0_n_n.rhsIdx (ix2 a b) ((contrEquiv1 dot_S1x4096_S512x4096_S1x512_1_1_0_0_n_n 4096 rfl rfl).symm c) = ix2 b c := by
    funext ax; apply Fin.ext
    match ax with
    | ⟨0, _⟩ => simp [DotDims.rhsIdx, dot_S1x4096_S512x4096_S1x512_1_1_0_0_n_n] <;> rfl
    | ⟨1, _⟩ => simp [DotDims.rhsIdx, dot_S1x4096_S512x4096_S1x512_1_1_0_0_n_n] <;> exact c1
  rw [truncf_apply, truncf_apply, l, r]

/-- The zero offset, as a constant function. -/
theorem zeroOff1 : (![0, 0] : Fin 2 → Nat) = fun _ => 0 := funext fun a => by fin_cases a <;> rfl

/-- What the body leaves in the output tile, at a column: the one store covers the tile and every load reads its
    whole buffer. -/
theorem out1_3_apply (x0 : Vec Ideal S1x4096 .f32) (x1 : Vec Ideal S512x4096 .f32) (x2 : Vec Ideal S1x512 .f32) (a : Fin 1) (b : Fin 512) :
    out1_3 x0 x1 x2 (ix2 a b) = max ((∑ k : Fin 4096, x0 (ix2 a k) * x1 (ix2 b k)) + x2 (ix2 a b)) 0 := by
  unfold out1_3
  rw [View.canon_unit_zero zeroOff1]
  simp only [View.ld_unit_zero (S := S1x4096) zeroOff1, View.ld_unit_zero (S := S512x4096) zeroOff1, View.ld_unit_zero (S := S1x512) zeroOff1]
  exact k1_pay1_apply x0 x1 x2 a b

/-- The windows' block indices, decided over the four points: the input row is block (0, 0) throughout; point t takes
    row block t of the weight and column block t of the bias and of the output. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

variable (V : (c : Dev nD) → (b : Ref sig .tc) → Buf (Elt Ideal) ((c : Thread nD τ).loc b))

/-- The output row as one function of the arrays the region finds: relu of the affine map. -/
abbrev G1 (c : Dev nD) : S1x2048.Idx → Elt Ideal .f32 := fun i =>
  Cert.Spec.relu (Cert.Spec.affine (K := 4096) (N := 2048) (fun k => V c main_v6 (ix2 0 k)) (fun j k => V c main_arg6 (ix2 j k))
    (fun j => V c main_v7 (ix2 0 j)) ⟨(i 1).val, (i 1).isLt⟩)

set_option maxHeartbeats 1000000 in
/-- What point t writes back is tile t of that function: each window's block index places its tile in its array. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  funext j
  obtain ⟨a, b, rfl⟩ : ∃ (a : Fin 1) (b : Fin 512), j = ix2 a b := ⟨j 0, j 1, eq_ix2 j⟩
  show out1_3 (iblk1 V c 0 t) (iblk1 V c 1 t) (iblk1 V c 2 t) (ix2 a b) = G1 V c (((cfg1.win 3).blk t).view.emb (ix2 a b))
  rw [out1_3_apply]
  obtain ⟨e0, e1, e2, e3, e4, e5, e6, e7⟩ := idx_facts1 t
  have ht : t.val < 4 := by have h : t.val < grid1.N := t.isLt; rw [N_1] at h; exact h
  have ha : a.val = 0 := by have := a.isLt; omega
  have hb : b.val < 512 := b.isLt
  have hJ : t.val * 512 + b.val < 2048 := by omega
  have h0 : ∀ k : Fin 4096, ((cfg1.win 0).blk t).view.emb (ix2 a k) = ix2 (0 : Fin 1) k := fun k => by
    funext ax; apply Fin.ext
    match ax with
    | ⟨0, _⟩ => show win1_0.index t (0 : Fin 2) * 1 + 1 * a.val = 0; omega
    | ⟨1, _⟩ => show win1_0.index t (1 : Fin 2) * 4096 + 1 * k.val = k.val; omega
  have h1 : ∀ k : Fin 4096, ((cfg1.win 1).blk t).view.emb (ix2 b k) = ix2 (⟨t.val * 512 + b.val, hJ⟩ : Fin 2048) k := fun k => by
    funext ax; apply Fin.ext
    match ax with
    | ⟨0, _⟩ => show win1_1.index t (0 : Fin 2) * 512 + 1 * b.val = t.val * 512 + b.val; omega
    | ⟨1, _⟩ => show win1_1.index t (1 : Fin 2) * 4096 + 1 * k.val = k.val; omega
  have h2 : ((cfg1.win 2).blk t).view.emb (ix2 a b) = ix2 (0 : Fin 1) (⟨t.val * 512 + b.val, hJ⟩ : Fin 2048) := by
    funext ax; apply Fin.ext
    match ax with
    | ⟨0, _⟩ => show win1_2.index t (0 : Fin 2) * 1 + 1 * a.val = 0; omega
    | ⟨1, _⟩ => show win1_2.index t (1 : Fin 2) * 512 + 1 * b.val = t.val * 512 + b.val; omega
  have h3 : ((cfg1.win 3).blk t).view.emb (ix2 a b) = ix2 (0 : Fin 1) (⟨t.val * 512 + b.val, hJ⟩ : Fin 2048) := by
    funext ax; apply Fin.ext
    match ax with
    | ⟨0, _⟩ => show win1_3.index t (0 : Fin 2) * 1 + 1 * a.val = 0; omega
    | ⟨1, _⟩ => show win1_3.index t (1 : Fin 2) * 512 + 1 * b.val = t.val * 512 + b.val; omega
  have r0 : ∀ k : Fin 4096, iblk1 V c 0 t (ix2 a k) = V c main_v6 (ix2 (0 : Fin 1) k) := fun k => by
    show V c main_v6 (((cfg1.win 0).blk t).view.emb (ix2 a k)) = _
    rw [h0 k]
  have r1 : ∀ k : Fin 4096, iblk1 V c 1 t (ix2 b k) = V c main_arg6 (ix2 (⟨t.val * 512 + b.val, hJ⟩ : Fin 2048) k) := fun k => by
    show V c main_arg6 (((cfg1.win 1).blk t).view.emb (ix2 b k)) = _
    rw [h1 k]
  have r2 : iblk1 V c 2 t (ix2 a b) = V c main_v7 (ix2 (0 : Fin 1) (⟨t.val * 512 + b.val, hJ⟩ : Fin 2048)) := by
    show V c main_v7 (((cfg1.win 2).blk t).view.emb (ix2 a b)) = _
    rw [h2]
  rw [h3]
  show _ = Cert.Spec.relu (Cert.Spec.affine (K := 4096) (N := 2048) (fun k => V c main_v6 (ix2 0 k)) (fun j k => V c main_arg6 (ix2 j k))
    (fun j => V c main_v7 (ix2 0 j)) (⟨t.val * 512 + b.val, hJ⟩ : Fin 2048))
  unfold Cert.Spec.relu Cert.Spec.affine
  rw [r2]
  exact congrArg (fun s => max (s + _) 0) (Finset.sum_congr rfl fun k _ => by rw [r0 k, r1 k])

/-- An index of the output row is in point t's block iff each coordinate is in the block's range on its axis. -/
theorem mem_blk1 (t : Fin cfg1.N) (i : S1x2048.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v8).slice (win1_3.rect t)).set ↔ _
  rw [View.set_slice_whole, Rect.mem_set_unit]
  exact Iff.rfl

/-- Column j of the output row is in tile j / 512. -/
theorem cover1 (i : S1x2048.Idx) : ∃ t : Fin cfg1.N, (cfg1.win 3).flush t = true ∧ i ∈ ((cfg1.win 3).blk t).view.set := by
  have hi0 : (i 0).val < 1 := idx2_lt0 i
  have hi1 : (i 1).val < 2048 := idx2_lt1 i
  have hlt : (i 1).val / 512 < grid1.N := by rw [N_1]; omega
  refine ⟨⟨(i 1).val / 512, hlt⟩, flush1_3 _, ?_⟩
  rw [mem_blk1]
  obtain ⟨e0, e1, e2, e3, e4, e5, e6, e7⟩ := idx_facts1 ⟨(i 1).val / 512, hlt⟩
  intro ax
  match ax with
  | ⟨0, _⟩ =>
    show win1_3.index ⟨(i 1).val / 512, hlt⟩ (0 : Fin 2) * 1 ≤ (i 0).val ∧ (i 0).val < win1_3.index ⟨(i 1).val / 512, hlt⟩ (0 : Fin 2) * 1 + 1
    omega
  | ⟨1, _⟩ =>
    show win1_3.index ⟨(i 1).val / 512, hlt⟩ (1 : Fin 2) * 512 ≤ (i 1).val ∧ (i 1).val < win1_3.index ⟨(i 1).val / 512, hlt⟩ (1 : Fin 2) * 512 + 512
    have e7' : win1_3.index ⟨(i 1).val / 512, hlt⟩ (1 : Fin 2) = (i 1).val / 512 := e7
    omega

/-- THE OUTPUT ROW after the four points. -/
theorem final1 (c : Dev nD) : (dat1 (F := Ideal) V c).arrAt 3 cfg1.N = fun i =>
    Cert.Spec.relu (Cert.Spec.affine (K := 4096) (N := 2048) (fun k => V c main_v6 (ix2 0 k)) (fun j k => V c main_arg6 (ix2 j k))
      (fun j => V c main_v7 (ix2 0 j)) ⟨(i 1).val, (i 1).isLt⟩) :=
  (dat1 V c).arrAt_eq_of_cover 3 (G1 V c) (fun t _ => flushed1_eq V c t) cover1

end Cert.KernelIdeal.Hand

end
-- ==== Proof.KI.Value2.lean ====
/- The fused GRU gates at the exact values: what the body leaves in the output tile, entry by entry, is the gated cell
   of the six pre-activations (each a row of a weight tile against the input or the hidden state, plus its bias) and
   the old state's entry; and the new hidden state the region leaves, column by column, is that cell of the whole
   arrays' rows. -/
import proofs.«111195_j57131654971751_2_alg».proof.Proof.KI.Region2
import proofs.«111195_j57131654971751_2_alg».proof.Proof.KI.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Window)
open scoped BigOperators

/-! ## One gate's product at an entry -/

/-- The product of a `1 × 2048` row against gate `g`'s `256 × 2048` block of a weight tile (the tile's slice at
    `(g, 0, 0)` with its unit axis dropped), into the zero splat, at column `r`: the sum over `k` of the row's entry
    `k` against the block's entry `(r, k)`. -/
theorem gate_dot (x : FVec Ideal S1x2048 .bf16) (w : FVec Ideal S3x256x2048 .bf16) (g : Fin 3) (off : Fin 3 → ℕ)
    (h0 : off 0 = g.val) (h1 : off 1 = 0) (h2 : off 2 = 0) (hs : S3x256x2048.Slices off S1x256x2048) (r : Fin 256) :
    matmul dot_S1x2048_S256x2048_S1x256_1_1_0_0_n_n none x
        (shapeCast S256x2048 (extractStridedSlice S1x256x2048 off w hs) shapeCasts_S1x256x2048_S256x2048)
        (constant S1x256 .f32 0x00000000#32) (ix2 (0 : Fin 1) r)
      = ∑ k : Fin 2048, x (ix2 (0 : Fin 1) k) * w (ix3 g r k) := by
  simp only [matmul]
  rw [Ideal.matmul_constant_zero_apply,
    ← Equiv.sum_comp (contrEquiv1 dot_S1x2048_S256x2048_S1x256_1_1_0_0_n_n 2048 rfl rfl).symm]
  refine Finset.sum_congr rfl fun k _ => ?_
  have hl : dot_S1x2048_S256x2048_S1x256_1_1_0_0_n_n.lhsIdx (ix2 (0 : Fin 1) r) ((contrEquiv1 dot_S1x2048_S256x2048_S1x256_1_1_0_0_n_n 2048 rfl rfl).symm k) = ix2 (0 : Fin 1) k := by
    funext a
    match a with
    | ⟨0, _⟩ =>
      have hlt : (dot_S1x2048_S256x2048_S1x256_1_1_0_0_n_n.lhsIdx (ix2 (0 : Fin 1) r) ((contrEquiv1 dot_S1x2048_S256x2048_S1x256_1_1_0_0_n_n 2048 rfl rfl).symm k) ⟨0, by decide⟩).val < 1 := Fin.isLt _
      exact Fin.ext (by show _ = 0; omega)
    | ⟨1, _⟩ =>
      exact Fin.ext ((dot_S1x2048_S256x2048_S1x256_1_1_0_0_n_n.lhsIdx_val_of_single (cl := ⟨1, by decide⟩) rfl _ _).trans (contrEquiv1_symm_val dot_S1x2048_S256x2048_S1x256_1_1_0_0_n_n 2048 rfl rfl k))
  have hr : dot_S1x2048_S256x2048_S1x256_1_1_0_0_n_n.rhsIdx (ix2 (0 : Fin 1) r) ((contrEquiv1 dot_S1x2048_S256x2048_S1x256_1_1_0_0_n_n 2048 rfl rfl).symm k) = ix2 r k := by
    funext a
    match a with
    | ⟨0, _⟩ => exact Fin.ext rfl
    | ⟨1, _⟩ =>
      exact Fin.ext ((dot_S1x2048_S256x2048_S1x256_1_1_0_0_n_n.rhsIdx_val_of_single (cr := ⟨1, by decide⟩) rfl _ _).trans (contrEquiv1_symm_val dot_S1x2048_S256x2048_S1x256_1_1_0_0_n_n 2048 rfl rfl k))
  rw [hl, hr, shapeCast_1ab_ab_apply]
  exact congrArg _ (extractStridedSlice_apply off w hs (ix3 (0 : Fin 1) r k) (ix3 g r k) (fun a => by
    match a with
    | ⟨0, _⟩ => show g.val = off 0 + 0; rw [h0, Nat.add_zero]
    | ⟨1, _⟩ => show r.val = off 1 + r.val; rw [h1, Nat.zero_add]
    | ⟨2, _⟩ => show k.val = off 2 + k.val; rw [h2, Nat.zero_add]))

/-- Gate `g`'s row of a `3 × 256` bias tile (its slice at `(g, 0)`) at column `r`. -/
theorem gate_bias (b : FVec Ideal S3x256 .f32) (g : Fin 3) (off : Fin 2 → ℕ) (h0 : off 0 = g.val) (h1 : off 1 = 0)
    (hs : S3x256.Slices off S1x256) (r : Fin 256) :
    extractStridedSlice S1x256 off b hs (ix2 (0 : Fin 1) r) = b (ix2 g r) :=
  extractStridedSlice_apply off b hs (ix2 (0 : Fin 1) r) (ix2 g r) (fun a => by
    match a with
    | ⟨0, _⟩ => show g.val = off 0 + 0; rw [h0, Nat.add_zero]
    | ⟨1, _⟩ => show r.val = off 1 + r.val; rw [h1, Nat.zero_add])

/-! ## The loaded blocks as the body uses them: at the exact values the rounding to the product's operand format and
the casts to the same shape change nothing -/

theorem pay2_apply (x : Vec Ideal S1x2048 .f32) (i : S1x2048.Idx) : k2_pay2 x i = x i := by
  unfold k2_pay2; rw [shapeCast_self]; rfl
theorem pay3_apply (x : Vec Ideal S1x2048 .f32) (i : S1x2048.Idx) : k2_pay3 x i = x i := by
  unfold k2_pay3; rw [shapeCast_self]; rfl
theorem pay4_apply (w : Vec Ideal S3x256x2048 .f32) (i : S3x256x2048.Idx) : k2_pay4 w i = w i := by
  unfold k2_pay4; rw [shapeCast_self]; rfl
theorem pay5_apply (w : Vec Ideal S3x256x2048 .f32) (i : S3x256x2048.Idx) : k2_pay5 w i = w i := by
  unfold k2_pay5; rw [shapeCast_self]; rfl
theorem pay6_apply (b : Vec Ideal S3x256 .f32) (i : S3x256.Idx) : k2_pay6 b i = b i := by
  unfold k2_pay6; rw [shapeCast_self]
theorem pay7_apply (b : Vec Ideal S3x256 .f32) (i : S3x256.Idx) : k2_pay7 b i = b i := by
  unfold k2_pay7; rw [shapeCast_self]

/-! ## The six pre-activations -/

/-- Gate `g`'s pre-activation at column `r` of a tile: the row `x` against row `(g, r)` of the weight tile `w`, plus the
    bias tile's entry `(g, r)`. -/
def preact (x : S1x2048.Idx → EReal) (w : S3x256x2048.Idx → EReal) (b : S3x256.Idx → EReal) (g : Fin 3) (r : Fin 256) : EReal :=
  Cert.Spec.affine (K := 2048) (N := 256) (fun k => x (ix2 (0 : Fin 1) k)) (fun j k => w (ix3 g j k)) (fun j => b (ix2 g j)) r

theorem pay8_apply (x : Vec Ideal S1x2048 .f32) (w : Vec Ideal S3x256x2048 .f32) (b : Vec Ideal S3x256 .f32) (r : Fin 256) :
    k2_pay8 x w b (ix2 (0 : Fin 1) r) = preact x w b 0 r := by
  unfold k2_pay8 preact Cert.Spec.affine
  show (matmul (F := Ideal) _ none _ _ _ (ix2 (0 : Fin 1) r) : EReal) + extractStridedSlice S1x256 ![0, 0] (k2_pay6 b) _ (ix2 (0 : Fin 1) r) = _
  rw [gate_dot (k2_pay2 x) (k2_pay4 w) 0 ![0, 0, 0] rfl rfl rfl, gate_bias (k2_pay6 b) 0 ![0, 0] rfl rfl]
  simp only [pay2_apply, pay4_apply, pay6_apply]

theorem pay9_apply (x : Vec Ideal S1x2048 .f32) (w : Vec Ideal S3x256x2048 .f32) (b : Vec Ideal S3x256 .f32) (r : Fin 256) :
    k2_pay9 x w b (ix2 (0 : Fin 1) r) = preact x w b 1 r := by
  unfold k2_pay9 preact Cert.Spec.affine
  show (matmul (F := Ideal) _ none _ _ _ (ix2 (0 : Fin 1) r) : EReal) + extractStridedSlice S1x256 ![1, 0] (k2_pay6 b) _ (ix2 (0 : Fin 1) r) = _
  rw [gate_dot (k2_pay2 x) (k2_pay4 w) 1 ![1, 0, 0] rfl rfl rfl, gate_bias (k2_pay6 b) 1 ![1, 0] rfl rfl]
  simp only [pay2_apply, pay4_apply, pay6_apply]

theorem pay10_apply (x : Vec Ideal S1x2048 .f32) (w : Vec Ideal S3x256x2048 .f32) (b : Vec Ideal S3x256 .f32) (r : Fin 256) :
    k2_pay10 x w b (ix2 (0 : Fin 1) r) = preact x w b 2 r := by
  unfold k2_pay10 preact Cert.Spec.affine
  show (matmul (F := Ideal) _ none _ _ _ (ix2 (0 : Fin 1) r) : EReal) + extractStridedSlice S1x256 ![2, 0] (k2_pay6 b) _ (ix2 (0 : Fin 1) r) = _
  rw [gate_dot (k2_pay2 x) (k2_pay4 w) 2 ![2, 0, 0] rfl rfl rfl, gate_bias (k2_pay6 b) 2 ![2, 0] rfl rfl]
  simp only [pay2_apply, pay4_apply, pay6_apply]

theorem pay11_apply (h : Vec Ideal S1x2048 .f32) (w : Vec Ideal S3x256x2048 .f32) (b : Vec Ideal S3x256 .f32) (r : Fin 256) :
    k2_pay11 h w b (ix2 (0 : Fin 1) r) = preact h w b 0 r := by
  unfold k2_pay11 preact Cert.Spec.affine
  show (matmul (F := Ideal) _ none _ _ _ (ix2 (0 : Fin 1) r) : EReal) + extractStridedSlice S1x256 ![0, 0] (k2_pay7 b) _ (ix2 (0 : Fin 1) r) = _
  rw [gate_dot (k2_pay3 h) (k2_pay5 w) 0 ![0, 0, 0] rfl rfl rfl, gate_bias (k2_pay7 b) 0 ![0, 0] rfl rfl]
  simp only [pay3_apply, pay5_apply, pay7_apply]

theorem pay12_apply (b : Vec Ideal S3x256 .f32) (r : Fin 256) : k2_pay12 b (ix2 (0 : Fin 1) r) = b (ix2 (1 : Fin 3) r) := by
  unfold k2_pay12
  show extractStridedSlice S1x256 ![1, 0] (k2_pay7 b) _ (ix2 (0 : Fin 1) r) = _
  rw [gate_bias (k2_pay7 b) 1 ![1, 0] rfl rfl, pay7_apply]

theorem pay13_apply (h : Vec Ideal S1x2048 .f32) (w : Vec Ideal S3x256x2048 .f32) (r : Fin 256) :
    k2_pay13 h w (ix2 (0 : Fin 1) r) = ∑ k : Fin 2048, h (ix2 (0 : Fin 1) k) * w (ix3 (1 : Fin 3) r k) := by
  unfold k2_pay13
  show (matmul (F := Ideal) _ none _ _ _ (ix2 (0 : Fin 1) r) : EReal) = _
  rw [gate_dot (k2_pay3 h) (k2_pay5 w) 1 ![1, 0, 0] rfl rfl rfl]
  simp only [pay3_apply, pay5_apply]

/-! ## The output tile, entry by entry -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- Entry `r` of what the body leaves in the output tile: the gated cell of the six pre-activations at column `r` and
    the old state's tile entry. -/
theorem out2_7_apply (x h : Vec Ideal S1x2048 .f32) (hT : Vec Ideal S1x256 .f32) (wi wh : Vec Ideal S3x256x2048 .f32)
    (bi bh : Vec Ideal S3x256 .f32) (r : Fin 256) :
    out2_7 x h hT wi wh bi bh (ix2 (0 : Fin 1) r)
      = Cert.Spec.gru (preact x wi bi 0 r) (preact x wi bi 1 r) (preact x wi bi 2 r)
          (preact h wh bh 0 r) (preact h wh bh 1 r) (preact h wh bh 2 r) (hT (ix2 (0 : Fin 1) r)) := by
  unfold out2_7
  rw [View.canon_unit_zero hz2]
  simp only [View.ld_unit_zero (S := S1x2048) hz2, View.ld_unit_zero (S := S3x256x2048) hz3,
    View.ld_unit_zero (S := S3x256) hz2, View.ld_unit_zero (S := S1x256) hz2]
  unfold k2_pay1
  show (Ideal.ofBits .f32 0x3F800000#32
          - Ideal.logistic (k2_pay9 x wi bi (ix2 (0 : Fin 1) r) + (k2_pay13 h wh (ix2 (0 : Fin 1) r) + k2_pay12 bh (ix2 (0 : Fin 1) r))))
        * Ideal.tanh (k2_pay10 x wi bi (ix2 (0 : Fin 1) r)
            + Ideal.logistic (k2_pay8 x wi bi (ix2 (0 : Fin 1) r) + k2_pay11 h wh bh (ix2 (0 : Fin 1) r))
              * ((matmul (F := Ideal) dot_S1x2048_S256x2048_S1x256_1_1_0_0_n_n none (k2_pay3 h)
                    (shapeCast S256x2048 (extractStridedSlice S1x256x2048 ![2, 0, 0] (k2_pay5 wh) slices_S3x256x2048_o2_0_0_S1x256x2048) shapeCasts_S1x256x2048_S256x2048)
                    (constant S1x256 .f32 0x00000000#32) (ix2 (0 : Fin 1) r) : EReal)
                  + extractStridedSlice S1x256 ![2, 0] (k2_pay7 bh) slices_S3x256_o2_0_S1x256 (ix2 (0 : Fin 1) r)))
      + Ideal.logistic (k2_pay9 x wi bi (ix2 (0 : Fin 1) r) + (k2_pay13 h wh (ix2 (0 : Fin 1) r) + k2_pay12 bh (ix2 (0 : Fin 1) r)))
        * shapeCast S1x256 hT shapeCasts_S1x256_S1x256 (ix2 (0 : Fin 1) r) = _
  rw [gate_dot (k2_pay3 h) (k2_pay5 wh) 2 ![2, 0, 0] rfl rfl rfl, gate_bias (k2_pay7 bh) 2 ![2, 0] rfl rfl,
    pay8_apply, pay9_apply, pay10_apply, pay11_apply, pay12_apply, pay13_apply, shapeCast_self, Ideal.ofBits_one_f32]
  simp only [pay3_apply, pay5_apply, pay7_apply]
  rfl

/-! # The blocks as parts of the arrays -/

/-! ## The index maps, decided over the grid: the input vector and the whole hidden state sit at block (0, 0); the
hidden state's tile, the bias tiles and the output tile at (0, t); the weight tiles at (0, t, 0) -/
theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = 0 ∧ win2_2.index t (1 : Fin 2) = t.val :=
  (by decide +kernel : ∀ t : Fin grid2.N, win2_2.index t (0 : Fin 2) = 0 ∧ win2_2.index t (1 : Fin 2) = t.val)
theorem idx2_3 : ∀ t : Fin cfg2.N, win2_3.index t (0 : Fin 3) = 0 ∧ win2_3.index t (1 : Fin 3) = t.val ∧ win2_3.index t (2 : Fin 3) = 0 :=
  (by decide +kernel : ∀ t : Fin grid2.N, win2_3.index t (0 : Fin 3) = 0 ∧ win2_3.index t (1 : Fin 3) = t.val ∧ win2_3.index t (2 : Fin 3) = 0)
theorem idx2_4 : ∀ t : Fin cfg2.N, win2_4.index t (0 : Fin 3) = 0 ∧ win2_4.index t (1 : Fin 3) = t.val ∧ win2_4.index t (2 : Fin 3) = 0 :=
  (by decide +kernel : ∀ t : Fin grid2.N, win2_4.index t (0 : Fin 3) = 0 ∧ win2_4.index t (1 : Fin 3) = t.val ∧ win2_4.index t (2 : Fin 3) = 0)
theorem idx2_5 : ∀ t : Fin cfg2.N, win2_5.index t (0 : Fin 2) = 0 ∧ win2_5.index t (1 : Fin 2) = t.val :=
  (by decide +kernel : ∀ t : Fin grid2.N, win2_5.index t (0 : Fin 2) = 0 ∧ win2_5.index t (1 : Fin 2) = t.val)
theorem idx2_6 : ∀ t : Fin cfg2.N, win2_6.index t (0 : Fin 2) = 0 ∧ win2_6.index t (1 : Fin 2) = t.val :=
  (by decide +kernel : ∀ t : Fin grid2.N, win2_6.index t (0 : Fin 2) = 0 ∧ win2_6.index t (1 : Fin 2) = t.val)
theorem idx2_7 : ∀ t : Fin cfg2.N, win2_7.index t (0 : Fin 2) = 0 ∧ win2_7.index t (1 : Fin 2) = t.val :=
  (by decide +kernel : ∀ t : Fin grid2.N, win2_7.index t (0 : Fin 2) = 0 ∧ win2_7.index t (1 : Fin 2) = t.val)

section Region
variable (V : (c : Dev nD) → (b : Ref sig .tc) → Buf (Elt Ideal) ((c : Thread nD τ).loc b))

/-! ## Each window's block at a point, read off its array -/

/-- The input vector's block is the vector. -/
theorem iblk2_0_apply (c : Dev nD) (t : Fin cfg2.N) (k : Fin 2048) :
    iblk2 V c 0 t (ix2 (0 : Fin 1) k) = V c main_v8 (ix2 (0 : Fin 1) k) := by
  obtain ⟨e0, e1⟩ := idx2_0 t
  unfold iblk2
  rw [View.read_apply]
  show V c main_v8 _ = V c main_v8 _
  refine congrArg (V c main_v8) ?_
  funext a; apply Fin.ext
  match a with
  | ⟨0, _⟩ => show win2_0.index t (0 : Fin 2) * 1 + 1 * 0 = 0; rw [e0]
  | ⟨1, _⟩ => show win2_0.index t (1 : Fin 2) * 2048 + 1 * k.val = k.val; rw [e1]; omega

/-- The whole hidden state's block is the hidden state. -/
theorem iblk2_1_apply (c : Dev nD) (t : Fin cfg2.N) (k : Fin 2048) :
    iblk2 V c 1 t (ix2 (0 : Fin 1) k) = V c main_v2 (ix2 (0 : Fin 1) k) := by
  obtain ⟨e0, e1⟩ := idx2_1 t
  unfold iblk2
  rw [View.read_apply]
  show V c main_v2 _ = V c main_v2 _
  refine congrArg (V c main_v2) ?_
  funext a; apply Fin.ext
  match a with
  | ⟨0, _⟩ => show win2_1.index t (0 : Fin 2) * 1 + 1 * 0 = 0; rw [e0]
  | ⟨1, _⟩ => show win2_1.index t (1 : Fin 2) * 2048 + 1 * k.val = k.val; rw [e1]; omega

/-- The hidden state's tile at point `t` is its columns `256 t` to `256 t + 255`. -/
theorem iblk2_2_apply (c : Dev nD) (t : Fin cfg2.N) (r : Fin 256) (j : Fin 2048) (hj : j.val = t.val * 256 + r.val) :
    iblk2 V c 2 t (ix2 (0 : Fin 1) r) = V c main_v2 (ix2 (0 : Fin 1) j) := by
  obtain ⟨e0, e1⟩ := idx2_2 t
  unfold iblk2
  rw [View.read_apply]
  show V c main_v2 _ = V c main_v2 _
  refine congrArg (V c main_v2) ?_
  funext a; apply Fin.ext
  match a with
  | ⟨0, _⟩ => show win2_2.index t (0 : Fin 2) * 1 + 1 * 0 = 0; rw [e0]
  | ⟨1, _⟩ => show win2_2.index t (1 : Fin 2) * 256 + 1 * r.val = j.val; rw [e1, hj]; omega

/-- The input weights' tile at point `t` is, of each gate, rows `256 t` to `256 t + 255`. -/
theorem iblk2_3_apply (c : Dev nD) (t : Fin cfg2.N) (g : Fin 3) (r : Fin 256) (k : Fin 2048) (j : Fin 2048)
    (hj : j.val = t.val * 256 + r.val) : iblk2 V c 3 t (ix3 g r k) = V c main_v11 (ix3 g j k) := by
  obtain ⟨e0, e1, e2⟩ := idx2_3 t
  unfold iblk2
  rw [View.read_apply]
  show V c main_v11 _ = V c main_v11 _
  refine congrArg (V c main_v11) ?_
  funext a; apply Fin.ext
  match a with
  | ⟨0, _⟩ => show win2_3.index t (0 : Fin 3) * 3 + 1 * g.val = g.val; rw [e0]; omega
  | ⟨1, _⟩ => show win2_3.index t (1 : Fin 3) * 256 + 1 * r.val = j.val; rw [e1, hj]; omega
  | ⟨2, _⟩ => show win2_3.index t (2 : Fin 3) * 2048 + 1 * k.val = k.val; rw [e2]; omega

/-- The hidden weights' tile at point `t` is, of each gate, rows `256 t` to `256 t + 255`. -/
theorem iblk2_4_apply (c : Dev nD) (t : Fin cfg2.N) (g : Fin 3) (r : Fin 256) (k : Fin 2048) (j : Fin 2048)
    (hj : j.val = t.val * 256 + r.val) : iblk2 V c 4 t (ix3 g r k) = V c main_v12 (ix3 g j k) := by
  obtain ⟨e0, e1, e2⟩ := idx2_4 t
  unfold iblk2
  rw [View.read_apply]
  show V c main_v12 _ = V c main_v12 _
  refine congrArg (V c main_v12) ?_
  funext a; apply Fin.ext
  match a with
  | ⟨0, _⟩ => show win2_4.index t (0 : Fin 3) * 3 + 1 * g.val = g.val; rw [e0]; omega
  | ⟨1, _⟩ => show win2_4.index t (1 : Fin 3) * 256 + 1 * r.val = j.val; rw [e1, hj]; omega
  | ⟨2, _⟩ => show win2_4.index t (2 : Fin 3) * 2048 + 1 * k.val = k.val; rw [e2]; omega

/-- The input bias's tile at point `t` is, of each gate, entries `256 t` to `256 t + 255`. -/
theorem iblk2_5_apply (c : Dev nD) (t : Fin cfg2.N) (g : Fin 3) (r : Fin 256) (j : Fin 2048)
    (hj : j.val = t.val * 256 + r.val) : iblk2 V c 5 t (ix2 g r) = V c main_v13 (ix2 g j) := by
  obtain ⟨e0, e1⟩ := idx2_5 t
  unfold iblk2
  rw [View.read_apply]
  show V c main_v13 _ = V c main_v13 _
  refine congrArg (V c main_v13) ?_
  funext a; apply Fin.ext
  match a with
  | ⟨0, _⟩ => show win2_5.index t (0 : Fin 2) * 3 + 1 * g.val = g.val; rw [e0]; omega
  | ⟨1, _⟩ => show win2_5.index t (1 : Fin 2) * 256 + 1 * r.val = j.val; rw [e1, hj]; omega

/-- The hidden bias's tile at point `t` is, of each gate, entries `256 t` to `256 t + 255`. -/
theorem iblk2_6_apply (c : Dev nD) (t : Fin cfg2.N) (g : Fin 3) (r : Fin 256) (j : Fin 2048)
    (hj : j.val = t.val * 256 + r.val) : iblk2 V c 6 t (ix2 g r) = V c main_v14 (ix2 g j) := by
  obtain ⟨e0, e1⟩ := idx2_6 t
  unfold iblk2
  rw [View.read_apply]
  show V c main_v14 _ = V c main_v14 _
  refine congrArg (V c main_v14) ?_
  funext a; apply Fin.ext
  match a with
  | ⟨0, _⟩ => show win2_6.index t (0 : Fin 2) * 3 + 1 * g.val = g.val; rw [e0]; omega
  | ⟨1, _⟩ => show win2_6.index t (1 : Fin 2) * 256 + 1 * r.val = j.val; rw [e1, hj]; omega

/-! ## The new hidden state -/

/-- Gate `g`'s input pre-activations, column by column: the input vector against the gate's rows of the input weights,
    plus the gate's input bias. -/
def gi (c : Dev nD) (g : Fin 3) : Fin 2048 → EReal :=
  Cert.Spec.affine (K := 2048) (N := 2048) (fun k => V c main_v8 (ix2 (0 : Fin 1) k)) (fun j k => V c main_v11 (ix3 g j k))
    (fun j => V c main_v13 (ix2 g j))

/-- Gate `g`'s hidden pre-activations: the old hidden state against the gate's rows of the hidden weights, plus the
    gate's hidden bias. -/
def gh (c : Dev nD) (g : Fin 3) : Fin 2048 → EReal :=
  Cert.Spec.affine (K := 2048) (N := 2048) (fun k => V c main_v2 (ix2 (0 : Fin 1) k)) (fun j k => V c main_v12 (ix3 g j k))
    (fun j => V c main_v14 (ix2 g j))

/-- The new hidden state: entry `(0, j)` is the gated cell of the six pre-activations at column `j` and the old state's
    entry `j`. -/
def newH (c : Dev nD) : S1x2048.Idx → EReal := fun i =>
  Cert.Spec.gru (gi V c 0 ⟨(i 1).val, idx2_lt1 i⟩) (gi V c 1 ⟨(i 1).val, idx2_lt1 i⟩) (gi V c 2 ⟨(i 1).val, idx2_lt1 i⟩)
    (gh V c 0 ⟨(i 1).val, idx2_lt1 i⟩) (gh V c 1 ⟨(i 1).val, idx2_lt1 i⟩) (gh V c 2 ⟨(i 1).val, idx2_lt1 i⟩)
    (V c main_v2 (ix2 (0 : Fin 1) ⟨(i 1).val, idx2_lt1 i⟩))

/-- A tile's pre-activation at column `r` of point `t` is the arrays' at column `256 t + r`. -/
theorem preact_i (c : Dev nD) (t : Fin cfg2.N) (g : Fin 3) (r : Fin 256) (j : Fin 2048) (hj : j.val = t.val * 256 + r.val) :
    preact (iblk2 V c 0 t) (iblk2 V c 3 t) (iblk2 V c 5 t) g r = gi V c g j := by
  unfold preact gi Cert.Spec.affine
  simp only [iblk2_0_apply, iblk2_3_apply V c t g r _ j hj, iblk2_5_apply V c t g r j hj]

theorem preact_h (c : Dev nD) (t : Fin cfg2.N) (g : Fin 3) (r : Fin 256) (j : Fin 2048) (hj : j.val = t.val * 256 + r.val) :
    preact (iblk2 V c 1 t) (iblk2 V c 4 t) (iblk2 V c 6 t) g r = gh V c g j := by
  unfold preact gh Cert.Spec.affine
  simp only [iblk2_1_apply, iblk2_4_apply V c t g r _ j hj, iblk2_6_apply V c t g r j hj]

/-- WHAT POINT `t` WRITES BACK is tile `t` of the new hidden state. -/
theorem flushed2_7_eq (c : Dev nD) (t : Fin cfg2.N) :
    (dat2 V c).flushed 7 t = ((cfg2.win 7).blk t).view.read (Elt Ideal) (newH V c) := by
  obtain ⟨e0, e1⟩ := idx2_7 t
  show (cfg2.win 7).cut (grid2.coords t) ((dat2 V c).after 7 t) = _
  rw [after2_7]
  funext y
  obtain ⟨a, r, rfl⟩ : ∃ (a : Fin 1) (r : Fin 256), y = ix2 a r := ⟨y 0, y 1, eq_ix2 y⟩
  obtain rfl : a = 0 := Subsingleton.elim _ _
  have ht : t.val < 8 := lt_of_lt_of_eq t.isLt N_2
  have hjlt : t.val * 256 + r.val < 2048 := by have := r.isLt; omega
  rw [View.read_apply]
  have hemb : ((cfg2.win 7).blk t).view.emb (ix2 (0 : Fin 1) r) = ix2 (0 : Fin 1) (⟨t.val * 256 + r.val, hjlt⟩ : Fin 2048) := by
    funext a; apply Fin.ext
    match a with
    | ⟨0, _⟩ => show win2_7.index t (0 : Fin 2) * 1 + 1 * 0 = 0; rw [e0]
    | ⟨1, _⟩ => show win2_7.index t (1 : Fin 2) * 256 + 1 * r.val = t.val * 256 + r.val; rw [e1]; omega
  rw [hemb]
  show out2_7 (iblk2 V c 0 t) (iblk2 V c 1 t) (iblk2 V c 2 t) (iblk2 V c 3 t) (iblk2 V c 4 t) (iblk2 V c 5 t) (iblk2 V c 6 t) (ix2 (0 : Fin 1) r)
    = newH V c (ix2 (0 : Fin 1) (⟨t.val * 256 + r.val, hjlt⟩ : Fin 2048))
  rw [out2_7_apply]
  unfold newH
  rw [preact_i V c t 0 r ⟨t.val * 256 + r.val, hjlt⟩ rfl, preact_i V c t 1 r ⟨t.val * 256 + r.val, hjlt⟩ rfl,
    preact_i V c t 2 r ⟨t.val * 256 + r.val, hjlt⟩ rfl, preact_h V c t 0 r ⟨t.val * 256 + r.val, hjlt⟩ rfl,
    preact_h V c t 1 r ⟨t.val * 256 + r.val, hjlt⟩ rfl, preact_h V c t 2 r ⟨t.val * 256 + r.val, hjlt⟩ rfl,
    iblk2_2_apply V c t r ⟨t.val * 256 + r.val, hjlt⟩ rfl]

/-- An index of the hidden-state array is in point `t`'s output tile iff each coordinate is in the tile's range. -/
theorem mem_blk2_7 (t : Fin cfg2.N) (i : S1x2048.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v15).slice (win2_7.rect t)).set ↔ _
  rw [View.set_slice_whole, Rect.mem_set_unit]
  exact Iff.rfl

/-- Every column is in some point's tile: column `j` in tile `j / 256`. -/
theorem cover2_7_arr (i : S1x2048.Idx) :
    ∃ t : Fin cfg2.N, (cfg2.win 7).flush t = true ∧ i ∈ ((cfg2.win 7).blk t).view.set := by
  have hi0 : (i 0).val < 1 := idx2_lt0 i
  have hi1 : (i 1).val < 2048 := idx2_lt1 i
  have hN : cfg2.N = 8 := N_2
  let t : Fin cfg2.N := ⟨(i 1).val / 256, by rw [hN]; omega⟩
  obtain ⟨e0, e1⟩ := idx2_7 t
  refine ⟨t, flush2_7 t, ?_⟩
  rw [mem_blk2_7]
  intro a
  match a with
  | ⟨0, _⟩ => show win2_7.index t (0 : Fin 2) * 1 ≤ (i 0).val ∧ (i 0).val < win2_7.index t (0 : Fin 2) * 1 + 1; rw [e0]; omega
  | ⟨1, _⟩ =>
    show win2_7.index t (1 : Fin 2) * 256 ≤ (i 1).val ∧ (i 1).val < win2_7.index t (1 : Fin 2) * 256 + 256
    rw [e1]; show (i 1).val / 256 * 256 ≤ (i 1).val ∧ (i 1).val < (i 1).val / 256 * 256 + 256; omega

/-- THE NEW HIDDEN STATE after the region: the array the output tiles are written back to ends holding, in column `j`,
    the gated cell of the six pre-activations at `j` — the input vector and the old hidden state against row `j` of each
    gate's block of the two weight arrays, plus the biases — and the old state's entry `j`. -/
theorem final2 (c : Dev nD) : (dat2 V c).arrAt 7 cfg2.N = newH V c :=
  (dat2 V c).arrAt_eq_of_cover 7 (newH V c) (fun t _ => flushed2_7_eq V c t) (cover2_7_arr)

/-- The new hidden state at column `j`. -/
theorem newH_apply (c : Dev nD) (j : Fin 2048) :
    newH V c (ix2 (0 : Fin 1) j)
      = Cert.Spec.gru (gi V c 0 j) (gi V c 1 j) (gi V c 2 j) (gh V c 0 j) (gh V c 1 j) (gh V c 2 j) (V c main_v2 (ix2 (0 : Fin 1) j)) := rfl

end Region

end Cert.KernelIdeal.Hand

end
-- ==== Proof.KI.Value3.lean ====
/-
  The value of the output projection at the exact values: after its 50 points the logits array holds, at column j, the
  sum over k of h_new[k] · out_W[j, k], plus bias[j] — the row x · Wᵀ + b of the specification. Point t writes back tile
  t of that row (columns 1024·t onward: all 1024 of the tile but at the last point, where the 81 columns inside the
  array are written), each column read from the hidden state, from the one row of the weight tile with the column's
  number and from the bias entry there, all three inside their arrays; the tiles cover the array, column j lying in
  tile j / 1024.
-/
import proofs.«111195_j57131654971751_2_alg».proof.Proof.KI.Region3
import proofs.«111195_j57131654971751_2_alg».proof.Proof.KI.Region3Ideal
import proofs.«111195_j57131654971751_2_alg».proof.Proof.KI.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.ShloMosaic.Pipeline (Window Dat)

/-- The payload at a column, at the exact values: the hidden state against that row of the row tile, plus the bias. -/
theorem k3_pay1_apply_ideal (x0 : Vec Ideal S1x2048 .f32) (x1 : Vec Ideal S1024x2048 .f32) (x2 : Vec Ideal S1x1024 .f32)
    (y : S1x1024.Idx) :
    k3_pay1 x0 x1 x2 y
      = (∑ k : dot_S1x2048_S1024x2048_S1x1024_1_1_0_0_n_n.contr.Idx,
          x0 (dot_S1x2048_S1024x2048_S1x1024_1_1_0_0_n_n.lhsIdx y k) * x1 (dot_S1x2048_S1024x2048_S1x1024_1_1_0_0_n_n.rhsIdx y k))
        + x2 y := by
  unfold k3_pay1
  rw [shapeCast_self, shapeCast_self]
  show FloatOps.addf (F := Ideal) (φ := .f32) (matmul _ none _ _ _ y) (x2 y) = _
  simp only [matmul]
  rw [Ideal.matmul_constant_zero_apply]
  rfl

/-- The four windows' block indices, decided over the grid's 50 points: the hidden state's block is the array; point `t`
    takes row tile `t`, bias tile `t` and logits tile `t`. -/
theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- How much of each tile the transfers move, decided over the grid: all 1024 rows but at the last point, 81. -/
theorem xsize_facts3 : ∀ t : Fin cfg3.N, win3_3.xsize (grid3.coords t) (0 : Fin 2) = 1
    ∧ win3_3.xsize (grid3.coords t) (1 : Fin 2) = (if t.val = 49 then 81 else 1024) :=
  (by decide +kernel : ∀ t : Fin grid3.N, _)

section
variable (V : (c : Dev nD) → (b : Ref sig .tc) → Buf (Elt Ideal) ((c : Thread nD τ).loc b))

/-- The logits row as one function of the three arrays the region finds: entry `j` is the hidden state against row `j`
    of the weight matrix, plus the bias's entry `j`. -/
def logits3 (c : Dev nD) : S1x50257.Idx → EReal := fun i =>
  Cert.Spec.affine (K := 2048) (N := 50257) (fun k => V c main_v15 (ix2 (0 : Fin 1) k))
    (fun j k => V c main_arg12 (ix2 j k)) (fun j => V c main_v16 (ix2 (0 : Fin 1) j)) ⟨(i 1).val, (i 1).isLt⟩

/-- An index of the logits array is in point `t`'s tile iff each coordinate is in the part of the tile inside the array. -/
theorem mem_blk3 (t : Fin cfg3.N) (i : S1x50257.Idx) :
    i ∈ ((cfg3.win 3).blk t).view.set ↔ ∀ a : Fin 2, win3_3.index t a * S1x1024.size a ≤ (i a).val
      ∧ (i a).val < win3_3.index t a * S1x1024.size a + win3_3.xsize (grid3.coords t) a := by
  show i ∈ ((View.whole main_v17).slice (win3_3.rect t)).set ↔ _
  rw [View.set_slice_whole, Rect.mem_set_unit]
  exact Iff.rfl

/-- Every column of the logits array is in some point's tile: column `j` in tile `j / 1024`, the last tile holding the
    81 columns from 50176 on. -/
theorem cover3 (i : S1x50257.Idx) :
    ∃ t : Fin cfg3.N, (cfg3.win 3).flush t = true ∧ i ∈ ((cfg3.win 3).blk t).view.set := by
  have hi0 : (i 0).val < 1 := (i 0).isLt
  have hi1 : (i 1).val < 50257 := (i 1).isLt
  have hN : cfg3.N = 50 := N_3
  refine ⟨⟨(i 1).val / 1024, by rw [hN]; omega⟩, flush3_3 _, ?_⟩
  rw [mem_blk3]
  obtain ⟨-, -, -, -, -, -, e0, e1⟩ := idx_facts3 ⟨(i 1).val / 1024, by rw [hN]; omega⟩
  obtain ⟨x0, x1⟩ := xsize_facts3 ⟨(i 1).val / 1024, by rw [hN]; omega⟩
  intro a
  match a with
  | ⟨0, _⟩ =>
    show win3_3.index _ (0 : Fin 2) * 1 ≤ (i 0).val ∧ (i 0).val < win3_3.index _ (0 : Fin 2) * 1 + win3_3.xsize _ (0 : Fin 2)
    rw [e0, x0]; omega
  | ⟨1, _⟩ =>
    show win3_3.index _ (1 : Fin 2) * 1024 ≤ (i 1).val ∧ (i 1).val < win3_3.index _ (1 : Fin 2) * 1024 + win3_3.xsize _ (1 : Fin 2)
    rw [e1, x1]
    show (i 1).val / 1024 * 1024 ≤ (i 1).val ∧ (i 1).val < (i 1).val / 1024 * 1024 + (if (i 1).val / 1024 = 49 then 81 else 1024)
    split <;> omega

/-- A filled block where the transfer moves the index is the moved part there. -/
theorem fill_apply_of_moved {G : Pipeline.Grid} (w : Window sig G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Window.fill; rw [dif_pos h]

/-- The product contracts one axis of 2048 entries. -/
abbrev contr3 : dot_S1x2048_S1024x2048_S1x1024_1_1_0_0_n_n.contr.Idx ≃ Fin 2048 :=
  contrEquiv1 dot_S1x2048_S1024x2048_S1x1024_1_1_0_0_n_n 2048 rfl rfl

/-- WHAT POINT `t` WRITES BACK is tile `t` of the logits row: the tile's column `y` is the hidden state against row
    `1024 t + y` of the weight matrix plus the bias there, the row and the bias entry both inside their arrays. -/
theorem flushed3_eq (c : Dev nD) (t : Fin cfg3.N) :
    (dat3 (F := Ideal) V c).flushed 3 t = ((cfg3.win 3).blk t).view.read (Elt Ideal) (logits3 V c) := by
  show (cfg3.win 3).cut (grid3.coords t) ((dat3 V c).after 3 t) = _
  rw [after3_3]
  unfold out3_3
  funext y
  show k3_pay1 (iblk3 V c 0 t) (win3_1.fill (grid3.coords t) pad3 (iblk3 V c 1 t))
      (win3_2.fill (grid3.coords t) pad3 (iblk3 V c 2 t)) (win3_3.xinj (grid3.coords t) y)
    = logits3 V c (((cfg3.win 3).blk t).view.emb y)
  rw [k3_pay1_apply_ideal]
  obtain ⟨a00, a01, a10, a11, a20, a21, a30, a31⟩ := idx_facts3 t
  obtain ⟨xs0, xs1⟩ := xsize_facts3 t
  have hy0 : (y 0).val < 1 := by
    have h : (y 0).val < win3_3.xsize (grid3.coords t) (0 : Fin 2) := (y 0).isLt
    rw [xs0] at h; exact h
  -- where the tile's column sits in the logits row
  have h31 : (((cfg3.win 3).blk t).view.emb y 1).val = win3_3.index t (1 : Fin 2) * 1024 + 1 * (y 1).val := rfl
  -- the tile's column as a column of the whole staging block
  generalize hy' : win3_3.xinj (grid3.coords t) y = y'
  have hyv : ∀ a, (y' a).val = (y a).val := fun a => by rw [← hy']
  -- the bias tile there is its block's entry: the bias and logits tiles are cut alike
  have hbias : win3_2.fill (grid3.coords t) pad3 (iblk3 V c 2 t) y' = iblk3 V c 2 t y := by
    rw [← hy']; exact win3_2.fill_xinj (grid3.coords t) pad3 (iblk3 V c 2 t) y
  -- row `y 1` of the row tile is inside the weight array, at every contraction index
  have hmoved : ∀ k, win3_1.moved (grid3.coords t) (dot_S1x2048_S1024x2048_S1x1024_1_1_0_0_n_n.rhsIdx y' k) = true := fun k =>
    (win3_1.moved_iff (grid3.coords t) _).mpr fun a => by
      fin_cases a
      · show (dot_S1x2048_S1024x2048_S1x1024_1_1_0_0_n_n.rhsIdx y' k 0).val < win3_1.xsize (grid3.coords t) 0
        have e : (dot_S1x2048_S1024x2048_S1x1024_1_1_0_0_n_n.rhsIdx y' k 0).val = (y' 1).val := rfl
        rw [e, hyv 1]; exact (y 1).isLt
      · exact (dot_S1x2048_S1024x2048_S1x1024_1_1_0_0_n_n.rhsIdx y' k 1).isLt
  rw [hbias]
  unfold logits3 Cert.Spec.affine
  congr 1
  · rw [← Equiv.sum_comp contr3]
    refine Finset.sum_congr rfl fun k _ => ?_
    rw [fill_apply_of_moved win3_1 (grid3.coords t) pad3 (iblk3 V c 1 t) (hmoved k)]
    -- the hidden state's entry and the weight's entry, as entries of their arrays
    have hk : (contr3 k).val = (k ⟨0, Nat.one_pos⟩).val := rfl
    have e0 : (win3_0.blk t).view.emb (dot_S1x2048_S1024x2048_S1x1024_1_1_0_0_n_n.lhsIdx y' k) = ix2 (0 : Fin 1) (contr3 k) := by
      funext a; apply Fin.ext
      match a with
      | ⟨0, _⟩ =>
        show win3_0.index t (0 : Fin 2) * 1 + 1 * (dot_S1x2048_S1024x2048_S1x1024_1_1_0_0_n_n.lhsIdx y' k 0).val = 0
        have h : (dot_S1x2048_S1024x2048_S1x1024_1_1_0_0_n_n.lhsIdx y' k 0).val < 1 :=
          (dot_S1x2048_S1024x2048_S1x1024_1_1_0_0_n_n.lhsIdx y' k 0).isLt
        rw [a00]; omega
      | ⟨1, _⟩ =>
        show win3_0.index t (1 : Fin 2) * 2048 + 1 * (dot_S1x2048_S1024x2048_S1x1024_1_1_0_0_n_n.lhsIdx y' k 1).val = (contr3 k).val
        have e : (dot_S1x2048_S1024x2048_S1x1024_1_1_0_0_n_n.lhsIdx y' k 1).val = (k ⟨0, Nat.one_pos⟩).val := rfl
        rw [a01, e, hk]; omega
    have e1 : (win3_1.blk t).view.emb (fun a => ⟨(dot_S1x2048_S1024x2048_S1x1024_1_1_0_0_n_n.rhsIdx y' k a).val,
          (win3_1.moved_iff (grid3.coords t) _).mp (hmoved k) a⟩)
        = ix2 (⟨(((cfg3.win 3).blk t).view.emb y 1).val, (((cfg3.win 3).blk t).view.emb y 1).isLt⟩ : Fin 50257) (contr3 k) := by
      funext a; apply Fin.ext
      match a with
      | ⟨0, _⟩ =>
        show win3_1.index t (0 : Fin 2) * 1024 + 1 * (dot_S1x2048_S1024x2048_S1x1024_1_1_0_0_n_n.rhsIdx y' k 0).val
          = (((cfg3.win 3).blk t).view.emb y 1).val
        have e : (dot_S1x2048_S1024x2048_S1x1024_1_1_0_0_n_n.rhsIdx y' k 0).val = (y' 1).val := rfl
        rw [h31, a10, a31, e, hyv 1]
      | ⟨1, _⟩ =>
        show win3_1.index t (1 : Fin 2) * 2048 + 1 * (dot_S1x2048_S1024x2048_S1x1024_1_1_0_0_n_n.rhsIdx y' k 1).val = (contr3 k).val
        have e : (dot_S1x2048_S1024x2048_S1x1024_1_1_0_0_n_n.rhsIdx y' k 1).val = (k ⟨0, Nat.one_pos⟩).val := rfl
        rw [a11, e, hk]; omega
    exact congrArg₂ (· * ·) (congrArg (V c main_v15) e0) (congrArg (V c main_arg12) e1)
  · have e2 : (win3_2.blk t).view.emb y
        = ix2 (0 : Fin 1) (⟨(((cfg3.win 3).blk t).view.emb y 1).val, (((cfg3.win 3).blk t).view.emb y 1).isLt⟩ : Fin 50257) := by
      funext a; apply Fin.ext
      match a with
      | ⟨0, _⟩ =>
        show win3_2.index t (0 : Fin 2) * 1 + 1 * (y 0).val = 0
        rw [a20]; omega
      | ⟨1, _⟩ =>
        show win3_2.index t (1 : Fin 2) * 1024 + 1 * (y 1).val = (((cfg3.win 3).blk t).view.emb y 1).val
        rw [h31, a21, a31]
    exact congrArg (V c main_v16) e2

/-- THE LOGITS ARRAY after the 50 points: every column is in some point's tile, so the array holds the logits row —
    entry `(0, j)` the sum over `k` of the hidden state's entry `k` times the weight matrix's entry `(j, k)`, plus the bias's
    entry `j`. -/
theorem final3 (c : Dev nD) :
    (dat3 (F := Ideal) V c).arrAt 3 cfg3.N = fun i =>
      Cert.Spec.affine (K := 2048) (N := 50257) (fun k => V c main_v15 (ix2 (0 : Fin 1) k))
        (fun j k => V c main_arg12 (ix2 j k)) (fun j => V c main_v16 (ix2 (0 : Fin 1) j)) ⟨(i 1).val, (i 1).isLt⟩ :=
  (dat3 V c).arrAt_eq_of_cover 3 (logits3 V c) (fun t _ => flushed3_eq V c t) cover3

end

end Cert.KernelIdeal.Hand

end
-- ==== Proof.KI.Rows.lean ====
/- The host's reshapes of the bias and weight arguments, read at an index: a vector viewed as a one-row matrix, the
   hidden state's two unit axes cut to one, the stacked gate weights [6144, 2048] viewed as three [2048, 2048] blocks
   and the stacked gate biases [6144] viewed (through a one-row matrix) as three rows of 2048 — each reshaped array at
   an index is the original array at the index with the same row-major position. -/
import proofs.«111195_j57131654971751_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

variable {α : Type}

/-- A vector of 512 viewed as a one-row matrix: entry `(0, j)` is entry `j`. -/
theorem row512 (v : S512.Idx → α) (j : Fin 512) :
    shapeCast S1x512 v shapeCasts_S512_S1x512 (ix2 (0 : Fin 1) j) = v (ix1 j) :=
  shapeCast_a_1a_apply v shapeCasts_S512_S1x512 0 j

/-- A vector of 2048 viewed as a one-row matrix. -/
theorem row2048 (v : S2048.Idx → α) (j : Fin 2048) :
    shapeCast S1x2048 v shapeCasts_S2048_S1x2048 (ix2 (0 : Fin 1) j) = v (ix1 j) :=
  shapeCast_a_1a_apply v shapeCasts_S2048_S1x2048 0 j

/-- A vector of 50257 viewed as a one-row matrix. -/
theorem row50257 (v : S50257.Idx → α) (j : Fin 50257) :
    shapeCast S1x50257 v shapeCasts_S50257_S1x50257 (ix2 (0 : Fin 1) j) = v (ix1 j) :=
  shapeCast_a_1a_apply v shapeCasts_S50257_S1x50257 0 j

/-- The hidden state `[1, 1, 2048]` viewed `[1, 2048]`: entry `(0, k)` is entry `(0, 0, k)`. -/
theorem hrow (v : S1x1x2048.Idx → α) (k : Fin 2048) :
    shapeCast S1x2048 v shapeCasts_S1x1x2048_S1x2048 (ix2 (0 : Fin 1) k) = v (ix3 (0 : Fin 1) (0 : Fin 1) k) :=
  shapeCast_1ab_ab_apply v shapeCasts_S1x1x2048_S1x2048 0 k

/-- The stacked gate weights `[6144, 2048]` viewed as three `[2048, 2048]` blocks: row `j` of gate `g` is row
    `2048 g + j`. -/
theorem gateW (v : S6144x2048.Idx → α) (g : Fin 3) (j k : Fin 2048) :
    shapeCast S3x2048x2048 v shapeCasts_S6144x2048_S3x2048x2048 (ix3 g j k)
      = v (ix2 (⟨g.val * 2048 + j.val, by omega⟩ : Fin 6144) k) :=
  shapeCast_apply v shapeCasts_S6144x2048_S3x2048x2048 _ _ (by
    rw [Shape.rowMajor_val_two, Shape.rowMajor_val_three]
    show (g.val * 2048 + j.val) * 2048 + k.val = (g.val * 2048 + j.val) * 2048 + k.val
    rfl)

/-- The stacked gate biases `[6144]` viewed as a one-row matrix and then as three rows of 2048: entry `j` of gate `g` is
    entry `2048 g + j`. -/
theorem gateB (v : S6144.Idx → α) (g : Fin 3) (j : Fin 2048) :
    shapeCast S3x2048 (fun i' => shapeCast S1x6144 v shapeCasts_S6144_S1x6144 i') shapeCasts_S1x6144_S3x2048 (ix2 g j)
      = v (ix1 (⟨g.val * 2048 + j.val, by omega⟩ : Fin 6144)) :=
  (shapeCast_apply (fun i' => shapeCast S1x6144 v shapeCasts_S6144_S1x6144 i') shapeCasts_S1x6144_S3x2048 (ix2 g j)
    (ix2 (0 : Fin 1) (⟨g.val * 2048 + j.val, by omega⟩ : Fin 6144)) (by
      rw [Shape.rowMajor_val_two, Shape.rowMajor_val_two]
      show 0 * 6144 + (g.val * 2048 + j.val) = g.val * 2048 + j.val
      rw [Nat.zero_mul, Nat.zero_add])).trans
    (shapeCast_a_1a_apply v shapeCasts_S6144_S1x6144 0 _)

end Cert.KernelIdeal.Hand

end
-- ==== Proof.KI.ChainDefs.lean ====
/-
  The decoder step written over the argument arrays alone, stage by stage: the embedding row of the token and the old
  hidden state as a row; the attention scores over their concatenation, the softmax weights and the context row; the
  combine layer over the embedding and the context, rectified; the six gate pre-activations (row 2048·g + j of the
  stacked weights and biases is row j of gate g) and the gated cell; the logits row.
-/
import proofs.«111195_j57131654971751_2_alg».proof.Proof.KI.Entries
import proofs.«111195_j57131654971751_2_alg».proof.Proof.KI.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The decoder step as functions of the argument arrays -/

/-- The embedding row of the token. -/
def embK (c : Dev nD) : (⟨S1x2048, .f32⟩ : BufTy).Contents (Elt Ideal) :=
  takeRow (m ((c : Thread nD τ).loc main_arg3)) (fun i => shapeCast S1 (m ((c : Thread nD τ).loc main_arg0)) shapeCasts_S1x1_S1 i)

/-- The old hidden state as a row. -/
def hrowK (c : Dev nD) : (⟨S1x2048, .f32⟩ : BufTy).Contents (Elt Ideal) :=
  fun i => shapeCast S1x2048 (m ((c : Thread nD τ).loc main_arg1)) shapeCasts_S1x1x2048_S1x2048 i

/-- The attention's input row: the embedding row and the old state side by side. -/
def x1K (c : Dev nD) : (⟨S1x4096, .f32⟩ : BufTy).Contents (Elt Ideal) :=
  concatenate S1x4096 1 [⟨S1x2048, embK m c⟩, ⟨S1x2048, hrowK m c⟩] concatenates_S1x2048_S1x2048_S1x4096_d1

/-- The attention scores. -/
def scoresK (c : Dev nD) : Fin 512 → EReal :=
  Cert.Spec.affine (K := 4096) (N := 512) (fun k => x1K m c (ix2 (0 : Fin 1) k))
    (fun j k => m ((c : Thread nD τ).loc main_arg4) (ix2 j k)) (fun j => m ((c : Thread nD τ).loc main_arg5) (ix1 j))

/-- The attention weights row. -/
def awK (c : Dev nD) : S1x512.Idx → EReal := fun i => Cert.Spec.softmax (scoresK m c) ⟨(i 1).val, (i 1).isLt⟩

/-- The context row. -/
def ctxK (c : Dev nD) : S1x2048.Idx → EReal := fun i =>
  Cert.Spec.weighted (L := 512) (H := 2048) (Cert.Spec.softmax (scoresK m c))
    (fun k j => m ((c : Thread nD τ).loc main_arg2) (ix2 k j)) ⟨(i 1).val, (i 1).isLt⟩

/-- The combine layer's input row: the embedding row and the context row side by side. -/
def x2K (c : Dev nD) : (⟨S1x4096, .f32⟩ : BufTy).Contents (Elt Ideal) :=
  concatenate S1x4096 1 [⟨S1x2048, embK m c⟩, ⟨S1x2048, ctxK m c⟩] concatenates_S1x2048_S1x2048_S1x4096_d1

/-- The recurrent cell's input row: the combine layer, rectified. -/
def xK (c : Dev nD) : S1x2048.Idx → EReal := fun i =>
  Cert.Spec.relu (Cert.Spec.affine (K := 4096) (N := 2048) (fun k => x2K m c (ix2 (0 : Fin 1) k))
    (fun j k => m ((c : Thread nD τ).loc main_arg6) (ix2 j k)) (fun j => m ((c : Thread nD τ).loc main_arg7) (ix1 j))
    ⟨(i 1).val, (i 1).isLt⟩)

/-- Gate `g`'s input pre-activations. -/
def giK (c : Dev nD) (g : Fin 3) : Fin 2048 → EReal :=
  Cert.Spec.affine (K := 2048) (N := 2048) (fun k => xK m c (ix2 (0 : Fin 1) k))
    (fun j k => m ((c : Thread nD τ).loc main_arg8) (ix2 (⟨g.val * 2048 + j.val, by omega⟩ : Fin 6144) k))
    (fun j => m ((c : Thread nD τ).loc main_arg10) (ix1 (⟨g.val * 2048 + j.val, by omega⟩ : Fin 6144)))

/-- Gate `g`'s hidden pre-activations. -/
def ghK (c : Dev nD) (g : Fin 3) : Fin 2048 → EReal :=
  Cert.Spec.affine (K := 2048) (N := 2048) (fun k => hrowK m c (ix2 (0 : Fin 1) k))
    (fun j k => m ((c : Thread nD τ).loc main_arg9) (ix2 (⟨g.val * 2048 + j.val, by omega⟩ : Fin 6144) k))
    (fun j => m ((c : Thread nD τ).loc main_arg11) (ix1 (⟨g.val * 2048 + j.val, by omega⟩ : Fin 6144)))

/-- The new hidden state. -/
def hnewK (c : Dev nD) : S1x2048.Idx → EReal := fun i =>
  Cert.Spec.gru (giK m c 0 ⟨(i 1).val, (i 1).isLt⟩) (giK m c 1 ⟨(i 1).val, (i 1).isLt⟩) (giK m c 2 ⟨(i 1).val, (i 1).isLt⟩)
    (ghK m c 0 ⟨(i 1).val, (i 1).isLt⟩) (ghK m c 1 ⟨(i 1).val, (i 1).isLt⟩) (ghK m c 2 ⟨(i 1).val, (i 1).isLt⟩)
    (hrowK m c (ix2 (0 : Fin 1) ⟨(i 1).val, (i 1).isLt⟩))

/-- The logits row. -/
def lrK (c : Dev nD) : S1x50257.Idx → EReal := fun i =>
  Cert.Spec.affine (K := 2048) (N := 50257) (fun k => hnewK m c (ix2 (0 : Fin 1) k))
    (fun j k => m ((c : Thread nD τ).loc main_arg12) (ix2 j k)) (fun j => m ((c : Thread nD τ).loc main_arg13) (ix1 j))
    ⟨(i 1).val, (i 1).isLt⟩

/-- The new hidden state under one more leading unit axis: the second result. -/
def houtK (c : Dev nD) : (⟨S1x1x2048, .f32⟩ : BufTy).Contents (Elt Ideal) :=
  broadcastInDim S1x1x2048 ![1, 2] bcast_S1x2048_S1x1x2048_1_2 (hnewK m c)

/-- The log-softmax of the logits row: the first result. -/
def logitsK (c : Dev nD) : (⟨S1x50257, .f32⟩ : BufTy).Contents (Elt Ideal) :=
  logSoftmaxRow (F := Ideal) (lrK m c)

end Cert.KernelIdeal.Hand

end
-- ==== Proof.KI.Chain.lean ====
/-
  The kernel side of the decoder step as functions of the argument arrays alone. Each kernel region's operand buffers
  are followed back through the boundaries before it: an argument array is written by nothing and reaches every region as
  launched; a reshaped bias or weight array is the argument read at the index with the same row-major position; the
  attention's and the combine layer's input rows are the embedding row beside the old state and beside the context row.
  With that, each region's value — the softmax weights and the context row, the rectified combine row, the gated cell,
  the logits row — is the specification's function of the arguments, and the three results at the last boundary are the
  attention weights, the new hidden state under one more unit axis, and the log-softmax of the logits row.
-/
import proofs.«111195_j57131654971751_2_alg».proof.Proof.KI.Results
import proofs.«111195_j57131654971751_2_alg».proof.Proof.KI.Entries
import proofs.«111195_j57131654971751_2_alg».proof.Proof.KI.Value0
import proofs.«111195_j57131654971751_2_alg».proof.Proof.KI.Value1
import proofs.«111195_j57131654971751_2_alg».proof.Proof.KI.Value2
import proofs.«111195_j57131654971751_2_alg».proof.Proof.KI.Value3
import proofs.«111195_j57131654971751_2_alg».proof.Proof.KI.Rows
import proofs.«111195_j57131654971751_2_alg».proof.Proof.KI.Spec
import proofs.«111195_j57131654971751_2_alg».proof.Proof.KI.ChainDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Window)

variable (m : (ℓ : Loc nD τ sig) → Buf (Elt Ideal) ℓ)

/-- The launch memory at an argument, as the first boundary's contents. -/
theorem W0_arg (c : Dev nD) (r : Ref sig .tc) : W0 m c (Proc.devRef .tc r) = m ((c : Thread nD τ).loc r) := rfl

/-! ## An argument array is as launched at every boundary before the last region -/

theorem W1_arg (c : Dev nD) (r : Ref sig .tc) (h0 : r ∉ hostOps0_W) :
    W1 m c (Proc.devRef .tc r) = m ((c : Thread nD τ).loc r) := W1_of m c r h0
theorem W2_arg (c : Dev nD) (r : Ref sig .tc) (h0 : r ∉ hostOps0_W) (h1 : r ∉ hostOps0_1_W) :
    W2 m c (Proc.devRef .tc r) = m ((c : Thread nD τ).loc r) := (W2_of m c r h1).trans (W1_arg m c r h0)
theorem W3_arg (c : Dev nD) (r : Ref sig .tc) (h0 : r ∉ hostOps0_W) (h1 : r ∉ hostOps0_1_W) (h2 : r ∉ hostOps0_2_W) :
    W3 m c (Proc.devRef .tc r) = m ((c : Thread nD τ).loc r) := (W3_of m c r h2).trans (W2_arg m c r h0 h1)
theorem W4_arg (c : Dev nD) (r : Ref sig .tc) (h0 : r ∉ hostOps0_W) (h1 : r ∉ hostOps0_1_W) (h2 : r ∉ hostOps0_2_W)
    (h3 : r ∉ ([main_v5_0, main_v5_1] : List (Ref sig .tc))) :
    W4 m c (Proc.devRef .tc r) = m ((c : Thread nD τ).loc r) := (W4_of m c r h3).trans (W3_arg m c r h0 h1 h2)
theorem W5_arg (c : Dev nD) (r : Ref sig .tc) (h0 : r ∉ hostOps0_W) (h1 : r ∉ hostOps0_1_W) (h2 : r ∉ hostOps0_2_W)
    (h3 : r ∉ ([main_v5_0, main_v5_1] : List (Ref sig .tc))) (h4 : r ∉ hostOps1_W) :
    W5 m c (Proc.devRef .tc r) = m ((c : Thread nD τ).loc r) := (W5_of m c r h4).trans (W4_arg m c r h0 h1 h2 h3)
theorem W6_arg (c : Dev nD) (r : Ref sig .tc) (h0 : r ∉ hostOps0_W) (h1 : r ∉ hostOps0_1_W) (h2 : r ∉ hostOps0_2_W)
    (h3 : r ∉ ([main_v5_0, main_v5_1] : List (Ref sig .tc))) (h4 : r ∉ hostOps1_W) (h5 : r ∉ ([main_v8] : List (Ref sig .tc))) :
    W6 m c (Proc.devRef .tc r) = m ((c : Thread nD τ).loc r) := (W6_of m c r h5).trans (W5_arg m c r h0 h1 h2 h3 h4)
theorem W7_arg (c : Dev nD) (r : Ref sig .tc) (h0 : r ∉ hostOps0_W) (h1 : r ∉ hostOps0_1_W) (h2 : r ∉ hostOps0_2_W)
    (h3 : r ∉ ([main_v5_0, main_v5_1] : List (Ref sig .tc))) (h4 : r ∉ hostOps1_W) (h5 : r ∉ ([main_v8] : List (Ref sig .tc)))
    (h6 : r ∉ hostOps2_W) :
    W7 m c (Proc.devRef .tc r) = m ((c : Thread nD τ).loc r) := (W7_of m c r h6).trans (W6_arg m c r h0 h1 h2 h3 h4 h5)
theorem W8_arg (c : Dev nD) (r : Ref sig .tc) (h0 : r ∉ hostOps0_W) (h1 : r ∉ hostOps0_1_W) (h2 : r ∉ hostOps0_2_W)
    (h3 : r ∉ ([main_v5_0, main_v5_1] : List (Ref sig .tc))) (h4 : r ∉ hostOps1_W) (h5 : r ∉ ([main_v8] : List (Ref sig .tc)))
    (h6 : r ∉ hostOps2_W) (h7 : r ∉ ([main_v15] : List (Ref sig .tc))) :
    W8 m c (Proc.devRef .tc r) = m ((c : Thread nD τ).loc r) := (W8_of m c r h7).trans (W7_arg m c r h0 h1 h2 h3 h4 h5 h6)
theorem W9_arg (c : Dev nD) (r : Ref sig .tc) (h0 : r ∉ hostOps0_W) (h1 : r ∉ hostOps0_1_W) (h2 : r ∉ hostOps0_2_W)
    (h3 : r ∉ ([main_v5_0, main_v5_1] : List (Ref sig .tc))) (h4 : r ∉ hostOps1_W) (h5 : r ∉ ([main_v8] : List (Ref sig .tc)))
    (h6 : r ∉ hostOps2_W) (h7 : r ∉ ([main_v15] : List (Ref sig .tc))) (h8 : r ∉ hostOps3_W) :
    W9 m c (Proc.devRef .tc r) = m ((c : Thread nD τ).loc r) := (W9_of m c r h8).trans (W8_arg m c r h0 h1 h2 h3 h4 h5 h6 h7)

/-! ## Region 0: what the attention kernel finds, and what it leaves -/

/-- The embedding row, in the buffer the lookup leaves it in. -/
theorem emb_at2 (c : Dev nD) : W2 m c (Proc.devRef .tc main_v1) = embK m c :=
  (W2_main_v1 m c).trans (congrArg₂ takeRow (W1_arg m c main_arg3 (by decide)) (W1_main_v0 m c))

/-- The old hidden state as a row, from the second boundary's contents. -/
theorem hrow_at2 (c : Dev nD) :
    (fun i => shapeCast S1x2048 (W2 m c (Proc.devRef .tc main_arg1)) shapeCasts_S1x1x2048_S1x2048 i) = hrowK m c :=
  congrArg (fun a => fun i => shapeCast S1x2048 a shapeCasts_S1x1x2048_S1x2048 i) (W2_arg m c main_arg1 (by decide) (by decide))

/-- The attention's input row. -/
theorem in0_x (c : Dev nD) : Vb3 m c main_v3 = x1K m c :=
  (W3_main_v3 m c).trans
    (congrArg₂ (fun a b => concatenate S1x4096 1 [⟨S1x2048, a⟩, ⟨S1x2048, b⟩] concatenates_S1x2048_S1x2048_S1x4096_d1)
      (emb_at2 m c) (hrow_at2 m c))

/-- The attention weights. -/
theorem in0_W (c : Dev nD) : Vb3 m c main_arg4 = m ((c : Thread nD τ).loc main_arg4) :=
  W3_arg m c main_arg4 (by decide) (by decide) (by decide)

/-- The attention bias as a row. -/
theorem in0_b (c : Dev nD) :
    Vb3 m c main_v4 = fun i => shapeCast S1x512 (m ((c : Thread nD τ).loc main_arg5)) shapeCasts_S512_S1x512 i :=
  (W3_main_v4 m c).trans
    (congrArg (fun a => fun i => shapeCast S1x512 a shapeCasts_S512_S1x512 i) (W2_arg m c main_arg5 (by decide) (by decide)))

/-- The encoder outputs. -/
theorem in0_E (c : Dev nD) : Vb3 m c main_arg2 = m ((c : Thread nD τ).loc main_arg2) :=
  W3_arg m c main_arg2 (by decide) (by decide) (by decide)

/-- The attention scores are the scores of the arguments. -/
theorem scores0_eq (c : Dev nD) : scores0 (Vb3 m) c = scoresK m c := by
  have h1 : (fun k : Fin 4096 => Vb3 m c main_v3 (ix2 (0 : Fin 1) k)) = fun k => x1K m c (ix2 (0 : Fin 1) k) :=
    funext fun k => congrFun (in0_x m c) _
  have h2 : (fun (j : Fin 512) (k : Fin 4096) => Vb3 m c main_arg4 (ix2 j k))
      = fun j k => m ((c : Thread nD τ).loc main_arg4) (ix2 j k) :=
    funext fun j => funext fun k => congrFun (in0_W m c) _
  have h3 : (fun j : Fin 512 => Vb3 m c main_v4 (ix2 (0 : Fin 1) j)) = fun j => m ((c : Thread nD τ).loc main_arg5) (ix1 j) :=
    funext fun j => (congrFun (in0_b m c) _).trans (row512 _ j)
  unfold scores0 scoresK
  exact congr (congr (congrArg (Cert.Spec.affine (K := 4096) (N := 512)) h1) h2) h3

/-- The attention weights the region leaves. -/
theorem out0_aw (c : Dev nD) : (dat0 (Vb3 m) c).arrAt 4 cfg0.N = awK m c :=
  (final0_4 (Vb3 m) c).trans
    (congrArg (fun s : Fin 512 → EReal => fun i : S1x512.Idx => Cert.Spec.softmax s ⟨(i 1).val, (i 1).isLt⟩) (scores0_eq m c))

/-- The context row the region leaves. -/
theorem out0_ctx (c : Dev nD) : (dat0 (Vb3 m) c).arrAt 5 cfg0.N = ctxK m c := by
  have hE : (fun (k : Fin 512) (j : Fin 2048) => Vb3 m c main_arg2 (ix2 k j))
      = fun k j => m ((c : Thread nD τ).loc main_arg2) (ix2 k j) :=
    funext fun k => funext fun j => congrFun (in0_E m c) _
  exact (final0_5 (Vb3 m) c).trans
    (congrArg₂ (fun (s : Fin 512 → EReal) (E : Fin 512 → Fin 2048 → EReal) => fun i : S1x2048.Idx =>
        Cert.Spec.weighted (L := 512) (H := 2048) (Cert.Spec.softmax s) E ⟨(i 1).val, (i 1).isLt⟩) (scores0_eq m c) hE)

/-- THE ATTENTION WEIGHTS at the last boundary. -/
theorem res_attn (c : Dev nD) : W12 m c (Proc.devRef .tc main_v5_0) = awK m c :=
  (W12_main_v5_0 m c).trans (out0_aw m c)

/-! ## Region 1: the combine layer -/

/-- The embedding row is still in its buffer when region 1 is reached. -/
theorem emb_at4 (c : Dev nD) : W4 m c (Proc.devRef .tc main_v1) = embK m c :=
  (W4_of m c main_v1 (by decide)).trans ((W3_of m c main_v1 (by decide)).trans (emb_at2 m c))

/-- The context row, in the buffer region 0 left it in. -/
theorem ctx_at4 (c : Dev nD) : W4 m c (Proc.devRef .tc main_v5_1) = ctxK m c := (W4_main_v5_1 m c).trans (out0_ctx m c)

/-- The combine layer's input row. -/
theorem in1_x (c : Dev nD) : Vb5 m c main_v6 = x2K m c :=
  (W5_main_v6 m c).trans
    (congrArg₂ (fun a b => concatenate S1x4096 1 [⟨S1x2048, a⟩, ⟨S1x2048, b⟩] concatenates_S1x2048_S1x2048_S1x4096_d1)
      (emb_at4 m c) (ctx_at4 m c))

/-- The combine weights. -/
theorem in1_W (c : Dev nD) : Vb5 m c main_arg6 = m ((c : Thread nD τ).loc main_arg6) :=
  W5_arg m c main_arg6 (by decide) (by decide) (by decide) (by decide) (by decide)

/-- The combine bias as a row. -/
theorem in1_b (c : Dev nD) :
    Vb5 m c main_v7 = fun i => shapeCast S1x2048 (m ((c : Thread nD τ).loc main_arg7)) shapeCasts_S2048_S1x2048 i :=
  (W5_main_v7 m c).trans
    (congrArg (fun a => fun i => shapeCast S1x2048 a shapeCasts_S2048_S1x2048 i)
      (W4_arg m c main_arg7 (by decide) (by decide) (by decide) (by decide)))

/-- The rectified row the region leaves. -/
theorem out1_x (c : Dev nD) : (dat1 (Vb5 m) c).arrAt 3 cfg1.N = xK m c := by
  have h1 : (fun k : Fin 4096 => Vb5 m c main_v6 (ix2 (0 : Fin 1) k)) = fun k => x2K m c (ix2 (0 : Fin 1) k) :=
    funext fun k => congrFun (in1_x m c) _
  have h2 : (fun (j : Fin 2048) (k : Fin 4096) => Vb5 m c main_arg6 (ix2 j k))
      = fun j k => m ((c : Thread nD τ).loc main_arg6) (ix2 j k) :=
    funext fun j => funext fun k => congrFun (in1_W m c) _
  have h3 : (fun j : Fin 2048 => Vb5 m c main_v7 (ix2 (0 : Fin 1) j)) = fun j => m ((c : Thread nD τ).loc main_arg7) (ix1 j) :=
    funext fun j => (congrFun (in1_b m c) _).trans (row2048 _ j)
  exact (final1 (Vb5 m) c).trans
    (congrArg (fun s : Fin 2048 → EReal => fun i : S1x2048.Idx => Cert.Spec.relu (s ⟨(i 1).val, (i 1).isLt⟩))
      (congr (congr (congrArg (Cert.Spec.affine (K := 4096) (N := 2048)) h1) h2) h3))

/-! ## Region 2: the recurrent cell -/

/-- The cell's input row. -/
theorem in2_x (c : Dev nD) : Vb7 m c main_v8 = xK m c :=
  (W7_of m c main_v8 (by decide)).trans ((W6_main_v8 m c).trans (out1_x m c))

/-- The old hidden state as a row, still in its buffer. -/
theorem in2_h (c : Dev nD) : Vb7 m c main_v2 = hrowK m c :=
  (W7_of m c main_v2 (by decide)).trans ((W6_of m c main_v2 (by decide)).trans ((W5_of m c main_v2 (by decide)).trans
    ((W4_of m c main_v2 (by decide)).trans ((W3_main_v2 m c).trans (hrow_at2 m c)))))

/-- The input weights by gate. -/
theorem in2_Wi (c : Dev nD) : Vb7 m c main_v11
    = fun i => shapeCast S3x2048x2048 (m ((c : Thread nD τ).loc main_arg8)) shapeCasts_S6144x2048_S3x2048x2048 i :=
  (W7_main_v11 m c).trans (congrArg (fun a => fun i => shapeCast S3x2048x2048 a shapeCasts_S6144x2048_S3x2048x2048 i)
    (W6_arg m c main_arg8 (by decide) (by decide) (by decide) (by decide) (by decide) (by decide)))

/-- The hidden weights by gate. -/
theorem in2_Wh (c : Dev nD) : Vb7 m c main_v12
    = fun i => shapeCast S3x2048x2048 (m ((c : Thread nD τ).loc main_arg9)) shapeCasts_S6144x2048_S3x2048x2048 i :=
  (W7_main_v12 m c).trans (congrArg (fun a => fun i => shapeCast S3x2048x2048 a shapeCasts_S6144x2048_S3x2048x2048 i)
    (W6_arg m c main_arg9 (by decide) (by decide) (by decide) (by decide) (by decide) (by decide)))

/-- The input bias by gate. -/
theorem in2_bi (c : Dev nD) : Vb7 m c main_v13
    = fun i => shapeCast S3x2048 (fun i' => shapeCast S1x6144 (m ((c : Thread nD τ).loc main_arg10)) shapeCasts_S6144_S1x6144 i')
        shapeCasts_S1x6144_S3x2048 i :=
  (W7_main_v13 m c).trans (congrArg (fun a => fun i => shapeCast S3x2048 (fun i' => shapeCast S1x6144 a shapeCasts_S6144_S1x6144 i')
      shapeCasts_S1x6144_S3x2048 i)
    (W6_arg m c main_arg10 (by decide) (by decide) (by decide) (by decide) (by decide) (by decide)))

/-- The hidden bias by gate. -/
theorem in2_bh (c : Dev nD) : Vb7 m c main_v14
    = fun i => shapeCast S3x2048 (fun i' => shapeCast S1x6144 (m ((c : Thread nD τ).loc main_arg11)) shapeCasts_S6144_S1x6144 i')
        shapeCasts_S1x6144_S3x2048 i :=
  (W7_main_v14 m c).trans (congrArg (fun a => fun i => shapeCast S3x2048 (fun i' => shapeCast S1x6144 a shapeCasts_S6144_S1x6144 i')
      shapeCasts_S1x6144_S3x2048 i)
    (W6_arg m c main_arg11 (by decide) (by decide) (by decide) (by decide) (by decide) (by decide)))

/-- Gate `g`'s input pre-activations are those of the arguments. -/
theorem gi_eq (c : Dev nD) (g : Fin 3) : gi (Vb7 m) c g = giK m c g := by
  have h1 : (fun k : Fin 2048 => Vb7 m c main_v8 (ix2 (0 : Fin 1) k)) = fun k => xK m c (ix2 (0 : Fin 1) k) :=
    funext fun k => congrFun (in2_x m c) _
  have h2 : (fun (j k : Fin 2048) => Vb7 m c main_v11 (ix3 g j k))
      = fun j k => m ((c : Thread nD τ).loc main_arg8) (ix2 (⟨g.val * 2048 + j.val, by omega⟩ : Fin 6144) k) :=
    funext fun j => funext fun k => (congrFun (in2_Wi m c) _).trans (gateW _ g j k)
  have h3 : (fun j : Fin 2048 => Vb7 m c main_v13 (ix2 g j))
      = fun j => m ((c : Thread nD τ).loc main_arg10) (ix1 (⟨g.val * 2048 + j.val, by omega⟩ : Fin 6144)) :=
    funext fun j => (congrFun (in2_bi m c) _).trans (gateB _ g j)
  unfold gi giK
  exact congr (congr (congrArg (Cert.Spec.affine (K := 2048) (N := 2048)) h1) h2) h3

/-- Gate `g`'s hidden pre-activations likewise. -/
theorem gh_eq (c : Dev nD) (g : Fin 3) : gh (Vb7 m) c g = ghK m c g := by
  have h1 : (fun k : Fin 2048 => Vb7 m c main_v2 (ix2 (0 : Fin 1) k)) = fun k => hrowK m c (ix2 (0 : Fin 1) k) :=
    funext fun k => congrFun (in2_h m c) _
  have h2 : (fun (j k : Fin 2048) => Vb7 m c main_v12 (ix3 g j k))
      = fun j k => m ((c : Thread nD τ).loc main_arg9) (ix2 (⟨g.val * 2048 + j.val, by omega⟩ : Fin 6144) k) :=
    funext fun j => funext fun k => (congrFun (in2_Wh m c) _).trans (gateW _ g j k)
  have h3 : (fun j : Fin 2048 => Vb7 m c main_v14 (ix2 g j))
      = fun j => m ((c : Thread nD τ).loc main_arg11) (ix1 (⟨g.val * 2048 + j.val, by omega⟩ : Fin 6144)) :=
    funext fun j => (congrFun (in2_bh m c) _).trans (gateB _ g j)
  unfold gh ghK
  exact congr (congr (congrArg (Cert.Spec.affine (K := 2048) (N := 2048)) h1) h2) h3

/-- The gated cell of equal arguments. -/
theorem gru_congr {a a' b b' d d' e e' f f' g g' h h' : EReal} (ha : a = a') (hb : b = b') (hd : d = d') (he : e = e')
    (hf : f = f') (hg : g = g') (hh : h = h') : Cert.Spec.gru a b d e f g h = Cert.Spec.gru a' b' d' e' f' g' h' := by
  rw [ha, hb, hd, he, hf, hg, hh]

/-- The new hidden state the region leaves. -/
theorem out2_h (c : Dev nD) : (dat2 (Vb7 m) c).arrAt 7 cfg2.N = hnewK m c :=
  (final2 (Vb7 m) c).trans (funext fun i =>
    gru_congr (congrFun (gi_eq m c 0) _) (congrFun (gi_eq m c 1) _) (congrFun (gi_eq m c 2) _)
      (congrFun (gh_eq m c 0) _) (congrFun (gh_eq m c 1) _) (congrFun (gh_eq m c 2) _) (congrFun (in2_h m c) _))

/-- THE NEW HIDDEN STATE at the last boundary. -/
theorem res_hnew (c : Dev nD) : W12 m c (Proc.devRef .tc main_v19)
    = broadcastInDim S1x1x2048 ![1, 2] bcast_S1x2048_S1x1x2048_1_2 (hnewK m c) :=
  (W12_main_v19 m c).trans (by rw [out2_h m c])

/-! ## Region 3: the output projection -/

/-- The new hidden state, in the buffer region 2 left it in. -/
theorem in3_h (c : Dev nD) : Vb9 m c main_v15 = hnewK m c :=
  (W9_of m c main_v15 (by decide)).trans ((W8_main_v15 m c).trans (out2_h m c))

/-- The output weights. -/
theorem in3_W (c : Dev nD) : Vb9 m c main_arg12 = m ((c : Thread nD τ).loc main_arg12) :=
  W9_arg m c main_arg12 (by decide) (by decide) (by decide) (by decide) (by decide) (by decide) (by decide) (by decide) (by decide)

/-- The output bias as a row. -/
theorem in3_b (c : Dev nD) :
    Vb9 m c main_v16 = fun i => shapeCast S1x50257 (m ((c : Thread nD τ).loc main_arg13)) shapeCasts_S50257_S1x50257 i :=
  (W9_main_v16 m c).trans (congrArg (fun a => fun i => shapeCast S1x50257 a shapeCasts_S50257_S1x50257 i)
    (W8_arg m c main_arg13 (by decide) (by decide) (by decide) (by decide) (by decide) (by decide) (by decide) (by decide)))

/-- The logits row the region leaves. -/
theorem out3_l (c : Dev nD) : (dat3 (Vb9 m) c).arrAt 3 cfg3.N = lrK m c := by
  have h1 : (fun k : Fin 2048 => Vb9 m c main_v15 (ix2 (0 : Fin 1) k)) = fun k => hnewK m c (ix2 (0 : Fin 1) k) :=
    funext fun k => congrFun (in3_h m c) _
  have h2 : (fun (j : Fin 50257) (k : Fin 2048) => Vb9 m c main_arg12 (ix2 j k))
      = fun j k => m ((c : Thread nD τ).loc main_arg12) (ix2 j k) :=
    funext fun j => funext fun k => congrFun (in3_W m c) _
  have h3 : (fun j : Fin 50257 => Vb9 m c main_v16 (ix2 (0 : Fin 1) j)) = fun j => m ((c : Thread nD τ).loc main_arg13) (ix1 j) :=
    funext fun j => (congrFun (in3_b m c) _).trans (row50257 _ j)
  exact (final3 (Vb9 m) c).trans
    (congrArg (fun s : Fin 50257 → EReal => fun i : S1x50257.Idx => s ⟨(i 1).val, (i 1).isLt⟩)
      (congr (congr (congrArg (Cert.Spec.affine (K := 2048) (N := 50257)) h1) h2) h3))

/-- THE LOG-PROBABILITIES at the last boundary. -/
theorem res_logits (c : Dev nD) : W12 m c (Proc.devRef .tc main_v18) = logSoftmaxRow (F := Ideal) (lrK m c) :=
  (W12_main_v18 m c).trans (congrArg (logSoftmaxRow (F := Ideal)) (out3_l m c))

end Cert.KernelIdeal.Hand

end
-- ==== Proof.KI.KernelValue.lean ====
/-
  The idealized kernel's run with its three results named: from any memory with zero counters every weakly fair execution
  ends, nothing faulting, with the log-softmax row, the new hidden state and the attention weights at their functions of
  the argument arrays, and the arguments unchanged.
-/
import proofs.«111195_j57131654971751_2_alg».proof.Proof.KI.Run
import proofs.«111195_j57131654971751_2_alg».proof.Proof.KI.Region3Ideal
import proofs.«111195_j57131654971751_2_alg».proof.Proof.KI.Chain

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The run, read at the three result buffers and the fourteen arguments. -/
theorem run_values : θ_run defs (onTc (τ := τ) (main (F := Ideal))) ⟨m, fun _ => 0, ρ⟩ (fun r => ∀ c : Dev nD,
      r.2.mem ((c.tc : Thread nD τ).loc main_v18) = logitsK m c
      ∧ r.2.mem ((c.tc : Thread nD τ).loc main_v19) = houtK m c
      ∧ r.2.mem ((c.tc : Thread nD τ).loc main_v5_0) = awK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v18 (by decide))).trans (res_logits m c),
    (h c _ (mem_uc main_v19 (by decide))).trans (res_hnew m c),
    (h c _ (mem_uc main_v5_0 (by decide))).trans (res_attn m c),
    (h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c),
    (h c _ (mem_uc main_arg11 (by decide))).trans (W12_main_arg11 m c),
    (h c _ (mem_uc main_arg12 (by decide))).trans (W12_main_arg12 m c),
    (h c _ (mem_uc main_arg13 (by decide))).trans (W12_main_arg13 m c)⟩)
    (run_all m ρ rowLocal3_ideal)

end Cert.KernelIdeal.Hand

end
-- ==== Proof.RefStagesA.lean ====
import proofs.«111195_j57131654971751_2_alg».proof.Proof.Gen.ReferenceIdeal
import proofs.«111195_j57131654971751_2_alg».proof.Proof.KI.Spec
import Idealize.ShloMosaic.Lib.Pipeline.Value
import Idealize.ShloMosaic.Lib.ValueIdx
import Idealize.ShloMosaic.Lib.ValueLayout
import Idealize.ShloMosaic.PureOps.Ideal.Laws

/-
  Two stages of the reference decoder step as functions of their operands, at the exact values, each read at a column:
  the output projection is the affine map  (the sum over k of h[0,k] * W[j,k]) + b[j],  and the attention-combine stage
  is the larger of zero and the same map of its own operands. Each function is the composition of the reference's
  operations for the stage, in their order: the weight transposed, the row times it, the bias broadcast along the row,
  the sum (and, for the second, the maximum against the broadcast zero).
-/

set_option maxRecDepth 16384

noncomputable section

namespace Cert.ReferenceIdeal.RefStage

open Cert.ReferenceIdeal Cert.ReferenceIdeal.Facts₀ Cert.ReferenceIdeal.Facts
open Idealize.ShloMosaic Idealize.ShloMosaic.ValueIdx
open scoped BigOperators

/-! ## The output projection -/

/-- The logits row: the hidden row times the transposed output weight, plus the output bias broadcast along the row. -/
def refProject (hn : FVec Ideal S1x2048 .f32) (out_W : FVec Ideal S50257x2048 .f32) (out_b : FVec Ideal S50257 .f32) : FVec Ideal S1x50257 .f32 :=
  addf (Host.dotGeneral dot_S1x2048_S2048x50257_S1x50257_1_0_0_1_n_n none hn
      ((transpose S2048x50257 [1, 0] · transposes_S50257x2048_S2048x50257_1_0) out_W))
    (broadcastInDim S1x50257 ![1] bcast_S50257_S1x50257_1 out_b)

/-- Column j of the logits row: the sum over k of h[0,k] * W[j,k], plus b[j]. -/
theorem refProject_apply (hn : FVec Ideal S1x2048 .f32) (out_W : FVec Ideal S50257x2048 .f32) (out_b : FVec Ideal S50257 .f32) (j : Fin 50257) :
    refProject hn out_W out_b (ix2 (0 : Fin 1) j)
      = Cert.Spec.affine (K := 2048) (N := 50257) (fun k => hn (ix2 (0 : Fin 1) k)) (fun j k => out_W (ix2 j k)) (fun j => out_b (ix1 j)) j := by
  unfold refProject Cert.Spec.affine
  rw [addf_apply]
  simp only [Host.dotGeneral]
  rw [Ideal.dotGeneral_apply, ← Equiv.sum_comp (contrEquiv1 dot_S1x2048_S2048x50257_S1x50257_1_0_0_1_n_n 2048 rfl rfl).symm]
  congr 1
  · refine Finset.sum_congr rfl fun c _ => ?_
    have c1 := contrEquiv1_symm_val dot_S1x2048_S2048x50257_S1x50257_1_0_0_1_n_n 2048 rfl rfl c
    have l : dot_S1x2048_S2048x50257_S1x50257_1_0_0_1_n_n.lhsIdx (ix2 (0 : Fin 1) j)
        ((contrEquiv1 dot_S1x2048_S2048x50257_S1x50257_1_0_0_1_n_n 2048 rfl rfl).symm c) = ix2 (0 : Fin 1) c := by
      funext ax; apply Fin.ext
      match ax with
      | ⟨0, _⟩ => simp [DotDims.lhsIdx, dot_S1x2048_S2048x50257_S1x50257_1_0_0_1_n_n] <;> rfl
      | ⟨1, _⟩ => simp [DotDims.lhsIdx, dot_S1x2048_S2048x50257_S1x50257_1_0_0_1_n_n] <;> exact c1
    have r : dot_S1x2048_S2048x50257_S1x50257_1_0_0_1_n_n.rhsIdx (ix2 (0 : Fin 1) j)
        ((contrEquiv1 dot_S1x2048_S2048x50257_S1x50257_1_0_0_1_n_n 2048 rfl rfl).symm c) = ix2 c j := by
      funext ax; apply Fin.ext
      match ax with
      | ⟨0, _⟩ => simp [DotDims.rhsIdx, dot_S1x2048_S2048x50257_S1x50257_1_0_0_1_n_n] <;> exact c1
      | ⟨1, _⟩ => simp [DotDims.rhsIdx, dot_S1x2048_S2048x50257_S1x50257_1_0_0_1_n_n] <;> rfl
    rw [l, r]
    exact congrArg (hn (ix2 (0 : Fin 1) c) * ·)
      (transpose_apply [1, 0] out_W transposes_S50257x2048_S2048x50257_1_0 (ix2 c j) (ix2 j c)
        (fun b => by match b with | ⟨0, _⟩ => rfl | ⟨1, _⟩ => rfl))
  · exact broadcastInDim_apply ![1] bcast_S50257_S1x50257_1 out_b (ix2 (0 : Fin 1) j) (ix1 j)
      (fun a => by match a with | ⟨0, _⟩ => exact (if_neg (show ¬ (50257 : ℕ) = 1 by decide)).symm)

/-! ## The attention-combine stage -/

/-- The combined row: the concatenated row times the transposed combine weight, plus the combine bias broadcast along
    the row, then the larger of that and the broadcast zero. -/
def refCombine (x2 : FVec Ideal S1x4096 .f32) (comb_W : FVec Ideal S2048x4096 .f32) (comb_b : FVec Ideal S2048 .f32) : FVec Ideal S1x2048 .f32 :=
  maximumf
    (addf (Host.dotGeneral dot_S1x4096_S4096x2048_S1x2048_1_0_0_1_n_n none x2
        ((transpose S4096x2048 [1, 0] · transposes_S2048x4096_S4096x2048_1_0) comb_W))
      (broadcastInDim S1x2048 ![1] bcast_S2048_S1x2048_1 comb_b))
    (broadcastInDim S1x2048 ![] bcast_S_S1x2048 (constant S_ .f32 0x00000000#32))

/-- Column j of the combined row: the larger of zero and the sum over k of x[0,k] * W[j,k], plus b[j]. -/
theorem refCombine_apply (x2 : FVec Ideal S1x4096 .f32) (comb_W : FVec Ideal S2048x4096 .f32) (comb_b : FVec Ideal S2048 .f32) (j : Fin 2048) :
    refCombine x2 comb_W comb_b (ix2 (0 : Fin 1) j)
      = Cert.Spec.relu (Cert.Spec.affine (K := 4096) (N := 2048) (fun k => x2 (ix2 (0 : Fin 1) k)) (fun j k => comb_W (ix2 j k)) (fun j => comb_b (ix1 j)) j) := by
  unfold refCombine Cert.Spec.relu Cert.Spec.affine
  rw [maximumf_apply, addf_apply]
  have hz : broadcastInDim S1x2048 ![] bcast_S_S1x2048 (constant (F := Ideal) S_ .f32 0x00000000#32) (ix2 (0 : Fin 1) j) = (0 : EReal) :=
    (broadcastInDim_apply ![] bcast_S_S1x2048 (constant (F := Ideal) S_ .f32 0x00000000#32) (ix2 (0 : Fin 1) j) ix0 (fun a => a.elim0)).trans
      Ideal.ofBits_zero_f32
  rw [hz]
  simp only [Host.dotGeneral]
  rw [Ideal.dotGeneral_apply, ← Equiv.sum_comp (contrEquiv1 dot_S1x4096_S4096x2048_S1x2048_1_0_0_1_n_n 4096 rfl rfl).symm]
  congr 2
  · refine Finset.sum_congr rfl fun c _ => ?_
    have c1 := contrEquiv1_symm_val dot_S1x4096_S4096x2048_S1x2048_1_0_0_1_n_n 4096 rfl rfl c
    have l : dot_S1x4096_S4096x2048_S1x2048_1_0_0_1_n_n.lhsIdx (ix2 (0 : Fin 1) j)
        ((contrEquiv1 dot_S1x4096_S4096x2048_S1x2048_1_0_0_1_n_n 4096 rfl rfl).symm c) = ix2 (0 : Fin 1) c := by
      funext ax; apply Fin.ext
      match ax with
      | ⟨0, _⟩ => simp [DotDims.lhsIdx, dot_S1x4096_S4096x2048_S1x2048_1_0_0_1_n_n] <;> rfl
      | ⟨1, _⟩ => simp [DotDims.lhsIdx, dot_S1x4096_S4096x2048_S1x2048_1_0_0_1_n_n] <;> exact c1
    have r : dot_S1x4096_S4096x2048_S1x2048_1_0_0_1_n_n.rhsIdx (ix2 (0 : Fin 1) j)
        ((contrEquiv1 dot_S1x4096_S4096x2048_S1x2048_1_0_0_1_n_n 4096 rfl rfl).symm c) = ix2 c j := by
      funext ax; apply Fin.ext
      match ax with
      | ⟨0, _⟩ => simp [DotDims.rhsIdx, dot_S1x4096_S4096x2048_S1x2048_1_0_0_1_n_n] <;> exact c1
      | ⟨1, _⟩ => simp [DotDims.rhsIdx, dot_S1x4096_S4096x2048_S1x2048_1_0_0_1_n_n] <;> rfl
    rw [l, r]
    exact congrArg (x2 (ix2 (0 : Fin 1) c) * ·)
      (transpose_apply [1, 0] comb_W transposes_S2048x4096_S4096x2048_1_0 (ix2 c j) (ix2 j c)
        (fun b => by match b with | ⟨0, _⟩ => rfl | ⟨1, _⟩ => rfl))
  · exact broadcastInDim_apply ![1] bcast_S2048_S1x2048_1 comb_b (ix2 (0 : Fin 1) j) (ix1 j)
      (fun a => by match a with | ⟨0, _⟩ => exact (if_neg (show ¬ (2048 : ℕ) = 1 by decide)).symm)

end Cert.ReferenceIdeal.RefStage

end
-- ==== Proof.RefStagesB.lean ====
/- The reference's gated cell and attention softmax at the exact values, as pure functions of their operands: each is the
   composition of the host operations the reference prints, and, entry by entry, the specification's function of the
   operands' entries. -/
import proofs.«111195_j57131654971751_2_alg».proof.Proof.Gen.ReferenceIdeal
import proofs.«111195_j57131654971751_2_alg».proof.Proof.KI.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefStage

open Cert.ReferenceIdeal Cert.ReferenceIdeal.Gen
open Idealize.ShloMosaic Idealize.ShloMosaic.ValueIdx
open scoped BigOperators

/-! # The gated cell -/

/-- The three gates' pre-activations side by side, `[1, 6144]`: the row `x` against the stacked gate weights, transposed
    for the product, plus the stacked gate biases broadcast along the row. -/
def refGates (x : FVec Ideal S1x2048 .f32) (w : FVec Ideal S6144x2048 .f32) (b : FVec Ideal S6144 .f32) : FVec Ideal S1x6144 .f32 :=
  addf (Host.dotGeneral dot_S1x2048_S2048x6144_S1x6144_1_0_0_1_n_n none x (transpose S2048x6144 [1, 0] w transposes_S6144x2048_S2048x6144_1_0))
    (broadcastInDim S1x6144 ![1] bcast_S6144_S1x6144_1 b)

/-- Entry `c` of the gates' row: `x` against row `c` of the stacked weights, plus the stacked bias's entry `c`. -/
theorem refGates_apply (x : FVec Ideal S1x2048 .f32) (w : FVec Ideal S6144x2048 .f32) (b : FVec Ideal S6144 .f32) (c : Fin 6144) :
    refGates x w b (ix2 (0 : Fin 1) c) = (∑ k : Fin 2048, x (ix2 (0 : Fin 1) k) * w (ix2 c k)) + b (ix1 c) := by
  unfold refGates
  show (Host.dotGeneral (F := Ideal) dot_S1x2048_S2048x6144_S1x6144_1_0_0_1_n_n none x (transpose S2048x6144 [1, 0] w transposes_S6144x2048_S2048x6144_1_0) (ix2 (0 : Fin 1) c) : EReal)
      + broadcastInDim S1x6144 ![1] bcast_S6144_S1x6144_1 b (ix2 (0 : Fin 1) c) = _
  simp only [Host.dotGeneral]
  rw [Ideal.dotGeneral_apply, ← Equiv.sum_comp (contrEquiv1 dot_S1x2048_S2048x6144_S1x6144_1_0_0_1_n_n 2048 rfl rfl).symm]
  congr 1
  · refine Finset.sum_congr rfl fun k _ => ?_
    have hl : dot_S1x2048_S2048x6144_S1x6144_1_0_0_1_n_n.lhsIdx (ix2 (0 : Fin 1) c) ((contrEquiv1 dot_S1x2048_S2048x6144_S1x6144_1_0_0_1_n_n 2048 rfl rfl).symm k) = ix2 (0 : Fin 1) k := by
      funext a
      match a with
      | ⟨0, _⟩ =>
        have hlt : (dot_S1x2048_S2048x6144_S1x6144_1_0_0_1_n_n.lhsIdx (ix2 (0 : Fin 1) c) ((contrEquiv1 dot_S1x2048_S2048x6144_S1x6144_1_0_0_1_n_n 2048 rfl rfl).symm k) ⟨0, by decide⟩).val < 1 := Fin.isLt _
        exact Fin.ext (by show _ = 0; omega)
      | ⟨1, _⟩ =>
        exact Fin.ext ((dot_S1x2048_S2048x6144_S1x6144_1_0_0_1_n_n.lhsIdx_val_of_single (cl := ⟨1, by decide⟩) rfl _ _).trans (contrEquiv1_symm_val dot_S1x2048_S2048x6144_S1x6144_1_0_0_1_n_n 2048 rfl rfl k))
    have hr : dot_S1x2048_S2048x6144_S1x6144_1_0_0_1_n_n.rhsIdx (ix2 (0 : Fin 1) c) ((contrEquiv1 dot_S1x2048_S2048x6144_S1x6144_1_0_0_1_n_n 2048 rfl rfl).symm k) = ix2 k c := by
      funext a
      match a with
      | ⟨0, _⟩ =>
        exact Fin.ext ((dot_S1x2048_S2048x6144_S1x6144_1_0_0_1_n_n.rhsIdx_val_of_single (cr := ⟨0, by decide⟩) rfl _ _).trans (contrEquiv1_symm_val dot_S1x2048_S2048x6144_S1x6144_1_0_0_1_n_n 2048 rfl rfl k))
      | ⟨1, _⟩ => exact Fin.ext rfl
    rw [hl, hr, transpose_ix2_apply]
  · exact broadcastInDim_apply ![1] bcast_S6144_S1x6144_1 b (ix2 (0 : Fin 1) c) (ix1 c) (fun a => by
      match a with
      | ⟨0, _⟩ => rfl)

/-- Gate `g`'s columns of a gates row: entry `j` of the slice from column `2048 g` is entry `2048 g + j`. -/
theorem gate_slice (G : FVec Ideal S1x6144 .f32) (g : Fin 3) (off : Fin 2 → ℕ) (h0 : off 0 = 0) (h1 : off 1 = g.val * 2048)
    (hs : S1x6144.Slices off S1x2048) (j : Fin 2048) :
    extractStridedSlice S1x2048 off G hs (ix2 (0 : Fin 1) j) = G (ix2 (0 : Fin 1) (⟨g.val * 2048 + j.val, by omega⟩ : Fin 6144)) :=
  extractStridedSlice_apply off G hs _ _ (fun a => by
    match a with
    | ⟨0, _⟩ => show 0 = off 0 + 0; rw [h0]
    | ⟨1, _⟩ => show g.val * 2048 + j.val = off 1 + j.val; rw [h1])

/-- The gated cell as the reference computes it, operation by operation: the two gates' rows (input and hidden), their
    three slices each, the reset and update gates as `1 / (1 + exp (−·))` of the summed slices, the candidate as the
    hyperbolic tangent of the input slice plus the reset gate times the hidden slice, and the mix
    `(1 − z) · n + z · h`. -/
def refCell (x h : FVec Ideal S1x2048 .f32) (w_ih w_hh : FVec Ideal S6144x2048 .f32) (b_ih b_hh : FVec Ideal S6144 .f32) :
    FVec Ideal S1x2048 .f32 :=
  have v26 : FVec Ideal S2048x6144 .f32 := transpose S2048x6144 [1, 0] w_ih transposes_S6144x2048_S2048x6144_1_0
  have v27 : FVec Ideal S1x6144 .f32 := Host.dotGeneral dot_S1x2048_S2048x6144_S1x6144_1_0_0_1_n_n none x v26
  have v28 : FVec Ideal S1x6144 .f32 := broadcastInDim S1x6144 ![1] bcast_S6144_S1x6144_1 b_ih
  have v29 : FVec Ideal S1x6144 .f32 := addf v27 v28
  have v30 : FVec Ideal S2048x6144 .f32 := transpose S2048x6144 [1, 0] w_hh transposes_S6144x2048_S2048x6144_1_0
  have v31 : FVec Ideal S1x6144 .f32 := Host.dotGeneral dot_S1x2048_S2048x6144_S1x6144_1_0_0_1_n_n none h v30
  have v32 : FVec Ideal S1x6144 .f32 := broadcastInDim S1x6144 ![1] bcast_S6144_S1x6144_1 b_hh
  have v33 : FVec Ideal S1x6144 .f32 := addf v31 v32
  have v34 : FVec Ideal S1x2048 .f32 := extractStridedSlice S1x2048 ![0, 0] v29 slices_S1x6144_S1x2048_0_0
  have v35 : FVec Ideal S1x2048 .f32 := extractStridedSlice S1x2048 ![0, 2048] v29 slices_S1x6144_S1x2048_0_2048
  have v36 : FVec Ideal S1x2048 .f32 := extractStridedSlice S1x2048 ![0, 4096] v29 slices_S1x6144_S1x2048_0_4096
  have v37 : FVec Ideal S1x2048 .f32 := extractStridedSlice S1x2048 ![0, 0] v33 slices_S1x6144_S1x2048_0_0
  have v38 : FVec Ideal S1x2048 .f32 := extractStridedSlice S1x2048 ![0, 2048] v33 slices_S1x6144_S1x2048_0_2048
  have v39 : FVec Ideal S1x2048 .f32 := extractStridedSlice S1x2048 ![0, 4096] v33 slices_S1x6144_S1x2048_0_4096
  have v40 : FVec Ideal S1x2048 .f32 := addf v34 v37
  have v41 : FVec Ideal S1x2048 .f32 := Host.negf v40
  have v42 : FVec Ideal S1x2048 .f32 := Host.exp v41
  have v43 : FVec Ideal S1x2048 .f32 := broadcastInDim S1x2048 ![] bcast_S_S1x2048 (constant S_ .f32 0x3F800000#32)
  have v44 : FVec Ideal S1x2048 .f32 := addf v43 v42
  have v45 : FVec Ideal S1x2048 .f32 := broadcastInDim S1x2048 ![] bcast_S_S1x2048 (constant S_ .f32 0x3F800000#32)
  have v46 : FVec Ideal S1x2048 .f32 := Host.divf v45 v44
  have v47 : FVec Ideal S1x2048 .f32 := addf v35 v38
  have v48 : FVec Ideal S1x2048 .f32 := Host.negf v47
  have v49 : FVec Ideal S1x2048 .f32 := Host.exp v48
  have v50 : FVec Ideal S1x2048 .f32 := broadcastInDim S1x2048 ![] bcast_S_S1x2048 (constant S_ .f32 0x3F800000#32)
  have v51 : FVec Ideal S1x2048 .f32 := addf v50 v49
  have v52 : FVec Ideal S1x2048 .f32 := broadcastInDim S1x2048 ![] bcast_S_S1x2048 (constant S_ .f32 0x3F800000#32)
  have v53 : FVec Ideal S1x2048 .f32 := Host.divf v52 v51
  have v54 : FVec Ideal S1x2048 .f32 := mulf v46 v39
  have v55 : FVec Ideal S1x2048 .f32 := addf v36 v54
  have v56 : FVec Ideal S1x2048 .f32 := Host.tanh v55
  have v57 : FVec Ideal S1x2048 .f32 := broadcastInDim S1x2048 ![] bcast_S_S1x2048 (constant S_ .f32 0x3F800000#32)
  have v58 : FVec Ideal S1x2048 .f32 := subf v57 v53
  have v59 : FVec Ideal S1x2048 .f32 := mulf v58 v56
  have v60 : FVec Ideal S1x2048 .f32 := mulf v53 h
  have v61 : FVec Ideal S1x2048 .f32 := addf v59 v60
  v61

/-- Gate `g`'s pre-activations, column by column: the row `x` against the gate's rows `2048 g` to `2048 g + 2047` of the
    stacked weights, plus the gate's entries of the stacked bias. -/
def gatePre (x : FVec Ideal S1x2048 .f32) (w : FVec Ideal S6144x2048 .f32) (b : FVec Ideal S6144 .f32) (g : Fin 3) : Fin 2048 → EReal :=
  Cert.Spec.affine (K := 2048) (N := 2048) (fun k => x (ix2 (0 : Fin 1) k))
    (fun j k => w (ix2 (⟨g.val * 2048 + j.val, by omega⟩ : Fin 6144) k)) (fun j => b (ix1 (⟨g.val * 2048 + j.val, by omega⟩ : Fin 6144)))

/-- Entry `j` of the reference's cell is the specification's gated cell of the six pre-activations at column `j` and the
    old state's entry `j`. -/
theorem refCell_apply (x h : FVec Ideal S1x2048 .f32) (w_ih w_hh : FVec Ideal S6144x2048 .f32) (b_ih b_hh : FVec Ideal S6144 .f32)
    (j : Fin 2048) :
    refCell x h w_ih w_hh b_ih b_hh (ix2 (0 : Fin 1) j)
      = Cert.Spec.gru (gatePre x w_ih b_ih 0 j) (gatePre x w_ih b_ih 1 j) (gatePre x w_ih b_ih 2 j)
          (gatePre h w_hh b_hh 0 j) (gatePre h w_hh b_hh 1 j) (gatePre h w_hh b_hh 2 j) (h (ix2 (0 : Fin 1) j)) := by
  unfold refCell
  show (Ideal.ofBits .f32 0x3F800000#32 - Ideal.div (Ideal.ofBits .f32 0x3F800000#32) (Ideal.ofBits .f32 0x3F800000#32 + Ideal.exp (-(extractStridedSlice S1x2048 ![0, 2048] (refGates x w_ih b_ih) slices_S1x6144_S1x2048_0_2048 (ix2 (0 : Fin 1) j) + extractStridedSlice S1x2048 ![0, 2048] (refGates h w_hh b_hh) slices_S1x6144_S1x2048_0_2048 (ix2 (0 : Fin 1) j)))))
        * Ideal.tanh (extractStridedSlice S1x2048 ![0, 4096] (refGates x w_ih b_ih) slices_S1x6144_S1x2048_0_4096 (ix2 (0 : Fin 1) j)
            + Ideal.div (Ideal.ofBits .f32 0x3F800000#32) (Ideal.ofBits .f32 0x3F800000#32 + Ideal.exp (-(extractStridedSlice S1x2048 ![0, 0] (refGates x w_ih b_ih) slices_S1x6144_S1x2048_0_0 (ix2 (0 : Fin 1) j) + extractStridedSlice S1x2048 ![0, 0] (refGates h w_hh b_hh) slices_S1x6144_S1x2048_0_0 (ix2 (0 : Fin 1) j)))) * extractStridedSlice S1x2048 ![0, 4096] (refGates h w_hh b_hh) slices_S1x6144_S1x2048_0_4096 (ix2 (0 : Fin 1) j))
      + Ideal.div (Ideal.ofBits .f32 0x3F800000#32) (Ideal.ofBits .f32 0x3F800000#32 + Ideal.exp (-(extractStridedSlice S1x2048 ![0, 2048] (refGates x w_ih b_ih) slices_S1x6144_S1x2048_0_2048 (ix2 (0 : Fin 1) j) + extractStridedSlice S1x2048 ![0, 2048] (refGates h w_hh b_hh) slices_S1x6144_S1x2048_0_2048 (ix2 (0 : Fin 1) j)))) * h (ix2 (0 : Fin 1) j) = _
  rw [gate_slice (refGates x w_ih b_ih) 0 ![0, 0] rfl rfl, gate_slice (refGates h w_hh b_hh) 0 ![0, 0] rfl rfl,
    gate_slice (refGates x w_ih b_ih) 1 ![0, 2048] rfl rfl, gate_slice (refGates h w_hh b_hh) 1 ![0, 2048] rfl rfl,
    gate_slice (refGates x w_ih b_ih) 2 ![0, 4096] rfl rfl, gate_slice (refGates h w_hh b_hh) 2 ![0, 4096] rfl rfl]
  simp only [refGates_apply, Ideal.ofBits_one_f32]
  rfl

/-! # The attention weights -/

/-- The attention logits, `[1, 512]`: the row `x1` against the attention weights, transposed for the product, plus the
    attention bias broadcast along the row. -/
def refLogits (x1 : FVec Ideal S1x4096 .f32) (attn_W : FVec Ideal S512x4096 .f32) (attn_b : FVec Ideal S512 .f32) : FVec Ideal S1x512 .f32 :=
  addf (Host.dotGeneral dot_S1x4096_S4096x512_S1x512_1_0_0_1_n_n none x1 (transpose S4096x512 [1, 0] attn_W transposes_S512x4096_S4096x512_1_0))
    (broadcastInDim S1x512 ![1] bcast_S512_S1x512_1 attn_b)

/-- Entry `c` of the logits: `x1` against row `c` of the weights, plus the bias's entry `c`. -/
theorem refLogits_apply (x1 : FVec Ideal S1x4096 .f32) (attn_W : FVec Ideal S512x4096 .f32) (attn_b : FVec Ideal S512 .f32) (c : Fin 512) :
    refLogits x1 attn_W attn_b (ix2 (0 : Fin 1) c)
      = Cert.Spec.affine (K := 4096) (N := 512) (fun k => x1 (ix2 (0 : Fin 1) k)) (fun j k => attn_W (ix2 j k)) (fun j => attn_b (ix1 j)) c := by
  unfold refLogits Cert.Spec.affine
  show (Host.dotGeneral (F := Ideal) dot_S1x4096_S4096x512_S1x512_1_0_0_1_n_n none x1 (transpose S4096x512 [1, 0] attn_W transposes_S512x4096_S4096x512_1_0) (ix2 (0 : Fin 1) c) : EReal)
      + broadcastInDim S1x512 ![1] bcast_S512_S1x512_1 attn_b (ix2 (0 : Fin 1) c) = _
  simp only [Host.dotGeneral]
  rw [Ideal.dotGeneral_apply, ← Equiv.sum_comp (contrEquiv1 dot_S1x4096_S4096x512_S1x512_1_0_0_1_n_n 4096 rfl rfl).symm]
  congr 1
  · refine Finset.sum_congr rfl fun k _ => ?_
    have hl : dot_S1x4096_S4096x512_S1x512_1_0_0_1_n_n.lhsIdx (ix2 (0 : Fin 1) c) ((contrEquiv1 dot_S1x4096_S4096x512_S1x512_1_0_0_1_n_n 4096 rfl rfl).symm k) = ix2 (0 : Fin 1) k := by
      funext a
      match a with
      | ⟨0, _⟩ =>
        have hlt : (dot_S1x4096_S4096x512_S1x512_1_0_0_1_n_n.lhsIdx (ix2 (0 : Fin 1) c) ((contrEquiv1 dot_S1x4096_S4096x512_S1x512_1_0_0_1_n_n 4096 rfl rfl).symm k) ⟨0, by decide⟩).val < 1 := Fin.isLt _
        exact Fin.ext (by show _ = 0; omega)
      | ⟨1, _⟩ =>
        exact Fin.ext ((dot_S1x4096_S4096x512_S1x512_1_0_0_1_n_n.lhsIdx_val_of_single (cl := ⟨1, by decide⟩) rfl _ _).trans (contrEquiv1_symm_val dot_S1x4096_S4096x512_S1x512_1_0_0_1_n_n 4096 rfl rfl k))
    have hr : dot_S1x4096_S4096x512_S1x512_1_0_0_1_n_n.rhsIdx (ix2 (0 : Fin 1) c) ((contrEquiv1 dot_S1x4096_S4096x512_S1x512_1_0_0_1_n_n 4096 rfl rfl).symm k) = ix2 k c := by
      funext a
      match a with
      | ⟨0, _⟩ =>
        exact Fin.ext ((dot_S1x4096_S4096x512_S1x512_1_0_0_1_n_n.rhsIdx_val_of_single (cr := ⟨0, by decide⟩) rfl _ _).trans (contrEquiv1_symm_val dot_S1x4096_S4096x512_S1x512_1_0_0_1_n_n 4096 rfl rfl k))
      | ⟨1, _⟩ => exact Fin.ext rfl
    rw [hl, hr, transpose_ix2_apply]
  · exact broadcastInDim_apply ![1] bcast_S512_S1x512_1 attn_b (ix2 (0 : Fin 1) c) (ix1 c) (fun a => by
      match a with
      | ⟨0, _⟩ => rfl)

/-- The word of minus infinity is the bottom element. -/
theorem ofBits_neg_inf : Ideal.ofBits .f32 0xFF800000#32 = ⊥ := by simp [Ideal.ofBits, Ideal.ieee]

/-- The one index of the one-entry shape. -/
theorem idx_S1_eq (j j' : S1.Idx) : j = j' := by
  funext a; apply Fin.ext
  have h : (j a).val < 1 := by match a with | ⟨0, _⟩ => exact (j 0).isLt
  have h' : (j' a).val < 1 := by match a with | ⟨0, _⟩ => exact (j' 0).isLt
  omega

/-- A row of 512 reduces along its one long axis to one entry. -/
theorem reduces_S1x512_S1 : S1x512.Reduces [1] S1 := by decide

/-- A row's entry `k`, as the index a reduction along the row visits. -/
theorem lift_S1x512 (j0 : S1.Idx) (k : Fin 512) : reduces_S1x512_S1.lift j0 k = ix2 (0 : Fin 1) k := by
  funext a; apply Fin.ext
  match a with
  | ⟨0, _⟩ =>
    have h : (reduces_S1x512_S1.lift j0 k 0).val < 1 := (reduces_S1x512_S1.lift j0 k 0).isLt
    show (reduces_S1x512_S1.lift j0 k 0).val = 0
    omega
  | ⟨1, _⟩ => rfl

/-- A one-entry vector spread to one row of one entry and then along a row of 512 reads its entry everywhere. -/
theorem keep_row {α : Type} (g : S1.Idx → α) (y : S1x512.Idx) (j0 : S1.Idx) :
    broadcastInDim S1x512 ![0, 1] bcast_S1x1_S1x512_0_1 (broadcastInDim S1x1 ![0] bcast_S1_S1x1_0 g) y = g j0 := by
  unfold broadcastInDim; exact congrArg g (idx_S1_eq _ _)

/-- The row's largest entry as the reference computes it — the maximum-reduction from minus infinity, once more
    against minus infinity, spread back along the row — is the row's largest entry, everywhere. -/
theorem rowMaxB (f : FVec Ideal S1x512 .f32) (y : S1x512.Idx) :
    (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf (f) (constant S_ .f32 0xFF800000#32) reducesTo_S1x512_S1_d1 h_S_)))) y = Cert.Spec.rowMax (fun k : Fin 512 => f (ix2 (0 : Fin 1) k)) := by
  rw [keep_row _ y (ix1 (0 : Fin 1))]
  show max (Ideal.ofBits .f32 0xFF800000#32) (Host.reduce FloatOps.maximumf f (constant S_ .f32 0xFF800000#32) reducesTo_S1x512_S1_d1 h_S_ (ix1 (0 : Fin 1))) = _
  rw [Host.reduce_eq_fold_single FloatOps.maximumf f _ reducesTo_S1x512_S1_d1 reduces_S1x512_S1 h_S_]
  unfold Cert.Spec.rowMax
  show max (Ideal.ofBits .f32 0xFF800000#32) (Finset.univ.fold max (Ideal.ofBits .f32 0xFF800000#32) (f ∘ reduces_S1x512_S1.lift (ix1 (0 : Fin 1)))) = _
  rw [ofBits_neg_inf, max_eq_right bot_le]
  congr 1
  funext k; exact congrArg f (lift_S1x512 _ k)

/-- The row's sum as the reference computes it — the add-reduction from zero, spread back along the row — is the sum
    of the row's entries, everywhere. -/
theorem rowSumB (f : FVec Ideal S1x512 .f32) (y : S1x512.Idx) :
    (broadcastInDim S1x512 ![0, 1] bcast_S1x1_S1x512_0_1 (broadcastInDim S1x1 ![0] bcast_S1_S1x1_0
      (Host.reduceAdd (f) (constant S_ .f32 0x00000000#32) reducesTo_S1x512_S1_d1 h_S_))) y = ∑ k : Fin 512, f (ix2 (0 : Fin 1) k) := by
  rw [keep_row _ y (ix1 (0 : Fin 1)), hostReduceAdd_apply, Ideal.hostReduceAdd_single reducesTo_S1x512_S1_d1 reduces_S1x512_S1]
  show Ideal.ofBits .f32 0x00000000#32 + _ = _
  rw [Ideal.ofBits_zero_f32, zero_add]
  exact Finset.sum_congr rfl fun k _ => congrArg f (lift_S1x512 _ k)

/-- The attention weights as the reference computes them, operation by operation: the logits, their largest entry (from
    minus infinity), the shifted logits' exponentials, their sum, and the quotient. -/
def refSoftmax (x1 : FVec Ideal S1x4096 .f32) (attn_W : FVec Ideal S512x4096 .f32) (attn_b : FVec Ideal S512 .f32) : FVec Ideal S1x512 .f32 :=
  have v4 : FVec Ideal S4096x512 .f32 := transpose S4096x512 [1, 0] attn_W transposes_S512x4096_S4096x512_1_0
  have v5 : FVec Ideal S1x512 .f32 := Host.dotGeneral dot_S1x4096_S4096x512_S1x512_1_0_0_1_n_n none x1 v4
  have v6 : FVec Ideal S1x512 .f32 := broadcastInDim S1x512 ![1] bcast_S512_S1x512_1 attn_b
  have v7 : FVec Ideal S1x512 .f32 := addf v5 v6
  have cst : FVec Ideal S_ .f32 := constant S_ .f32 0xFF800000#32
  have v8 : FVec Ideal S1 .f32 := Host.reduce FloatOps.maximumf v7 cst reducesTo_S1x512_S1_d1 h_S_
  have cst_0 : FVec Ideal S_ .f32 := constant S_ .f32 0xFF800000#32
  have v9 : FVec Ideal S1 .f32 := broadcastInDim S1 ![] bcast_S_S1 cst_0
  have v10 : FVec Ideal S1 .f32 := maximumf v9 v8
  have v11 : FVec Ideal S1x1 .f32 := broadcastInDim S1x1 ![0] bcast_S1_S1x1_0 v10
  have v12 : FVec Ideal S1x512 .f32 := broadcastInDim S1x512 ![0, 1] bcast_S1x1_S1x512_0_1 v11
  have v13 : FVec Ideal S1x512 .f32 := subf v7 v12
  have v14 : FVec Ideal S1x512 .f32 := Host.exp v13
  have cst_1 : FVec Ideal S_ .f32 := constant S_ .f32 0x00000000#32
  have v15 : FVec Ideal S1 .f32 := Host.reduceAdd v14 cst_1 reducesTo_S1x512_S1_d1 h_S_
  have v16 : FVec Ideal S1x1 .f32 := broadcastInDim S1x1 ![0] bcast_S1_S1x1_0 v15
  have v17 : FVec Ideal S1x512 .f32 := broadcastInDim S1x512 ![0, 1] bcast_S1x1_S1x512_0_1 v16
  have v18 : FVec Ideal S1x512 .f32 := Host.divf v14 v17
  v18

/-- The shifted logits' exponentials, entry by entry. -/
theorem expShift_apply (f : FVec Ideal S1x512 .f32) (y : S1x512.Idx) :
    Host.exp (subf f (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf (f) (constant S_ .f32 0xFF800000#32) reducesTo_S1x512_S1_d1 h_S_))))) y = Ideal.exp (f y - Cert.Spec.rowMax (fun k : Fin 512 => f (ix2 (0 : Fin 1) k))) := by
  show Ideal.exp (f y - (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf (f) (constant S_ .f32 0xFF800000#32) reducesTo_S1x512_S1_d1 h_S_)))) y) = _
  rw [rowMaxB]

/-- Entry `j` of the reference's attention weights is the specification's softmax of the attention logits at `j`. -/
theorem refSoftmax_apply (x1 : FVec Ideal S1x4096 .f32) (attn_W : FVec Ideal S512x4096 .f32) (attn_b : FVec Ideal S512 .f32) (j : Fin 512) :
    refSoftmax x1 attn_W attn_b (ix2 (0 : Fin 1) j)
      = Cert.Spec.softmax (Cert.Spec.affine (K := 4096) (N := 512) (fun k => x1 (ix2 (0 : Fin 1) k)) (fun j k => attn_W (ix2 j k))
          (fun j => attn_b (ix1 j))) j := by
  have hL : (fun k : Fin 512 => refLogits x1 attn_W attn_b (ix2 (0 : Fin 1) k))
      = Cert.Spec.affine (K := 4096) (N := 512) (fun k => x1 (ix2 (0 : Fin 1) k)) (fun j k => attn_W (ix2 j k)) (fun j => attn_b (ix1 j)) :=
    funext fun k => refLogits_apply x1 attn_W attn_b k
  unfold refSoftmax
  show Ideal.div (Host.exp (subf (refLogits x1 attn_W attn_b) (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf (refLogits x1 attn_W attn_b) (constant S_ .f32 0xFF800000#32) reducesTo_S1x512_S1_d1 h_S_))))) (ix2 (0 : Fin 1) j))
      ((broadcastInDim S1x512 ![0, 1] bcast_S1x1_S1x512_0_1 (broadcastInDim S1x1 ![0] bcast_S1_S1x1_0
      (Host.reduceAdd (Host.exp (subf (refLogits x1 attn_W attn_b) (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf (refLogits x1 attn_W attn_b) (constant S_ .f32 0xFF800000#32) reducesTo_S1x512_S1_d1 h_S_)))))) (constant S_ .f32 0x00000000#32) reducesTo_S1x512_S1_d1 h_S_))) (ix2 (0 : Fin 1) j)) = _
  rw [rowSumB, expShift_apply,
    Finset.sum_congr rfl (fun k _ => expShift_apply (refLogits x1 attn_W attn_b) (ix2 (0 : Fin 1) k)), hL]
  unfold Cert.Spec.softmax
  refine congrArg₂ Ideal.div ?_ ?_
  · rw [refLogits_apply]
  · exact Finset.sum_congr rfl fun k _ => by rw [refLogits_apply]

/-! # The context row -/

/-- The context row as the reference computes it: the attention weights against the encoder outputs. -/
def refContext (aw : FVec Ideal S1x512 .f32) (enc : FVec Ideal S512x2048 .f32) : FVec Ideal S1x2048 .f32 :=
  Host.dotGeneral dot_S1x512_S512x2048_S1x2048_1_0_0_1_n_n none aw enc

/-- Entry `j` of the context row: the sum over the positions `k` of weight `k` times the encoder output's entry `(k, j)`. -/
theorem refContext_apply (aw : FVec Ideal S1x512 .f32) (enc : FVec Ideal S512x2048 .f32) (j : Fin 2048) :
    refContext aw enc (ix2 (0 : Fin 1) j)
      = Cert.Spec.weighted (L := 512) (H := 2048) (fun k => aw (ix2 (0 : Fin 1) k)) (fun k j => enc (ix2 k j)) j := by
  unfold refContext Cert.Spec.weighted
  simp only [Host.dotGeneral]
  rw [Ideal.dotGeneral_apply, ← Equiv.sum_comp (contrEquiv1 dot_S1x512_S512x2048_S1x2048_1_0_0_1_n_n 512 rfl rfl).symm]
  refine Finset.sum_congr rfl fun k _ => ?_
  have hl : dot_S1x512_S512x2048_S1x2048_1_0_0_1_n_n.lhsIdx (ix2 (0 : Fin 1) j) ((contrEquiv1 dot_S1x512_S512x2048_S1x2048_1_0_0_1_n_n 512 rfl rfl).symm k) = ix2 (0 : Fin 1) k := by
    funext a
    match a with
    | ⟨0, _⟩ =>
      have hlt : (dot_S1x512_S512x2048_S1x2048_1_0_0_1_n_n.lhsIdx (ix2 (0 : Fin 1) j) ((contrEquiv1 dot_S1x512_S512x2048_S1x2048_1_0_0_1_n_n 512 rfl rfl).symm k) ⟨0, by decide⟩).val < 1 := Fin.isLt _
      exact Fin.ext (by show _ = 0; omega)
    | ⟨1, _⟩ =>
      exact Fin.ext ((dot_S1x512_S512x2048_S1x2048_1_0_0_1_n_n.lhsIdx_val_of_single (cl := ⟨1, by decide⟩) rfl _ _).trans (contrEquiv1_symm_val dot_S1x512_S512x2048_S1x2048_1_0_0_1_n_n 512 rfl rfl k))
  have hr : dot_S1x512_S512x2048_S1x2048_1_0_0_1_n_n.rhsIdx (ix2 (0 : Fin 1) j) ((contrEquiv1 dot_S1x512_S512x2048_S1x2048_1_0_0_1_n_n 512 rfl rfl).symm k) = ix2 k j := by
    funext a
    match a with
    | ⟨0, _⟩ =>
      exact Fin.ext ((dot_S1x512_S512x2048_S1x2048_1_0_0_1_n_n.rhsIdx_val_of_single (cr := ⟨0, by decide⟩) rfl _ _).trans (contrEquiv1_symm_val dot_S1x512_S512x2048_S1x2048_1_0_0_1_n_n 512 rfl rfl k))
    | ⟨1, _⟩ => exact Fin.ext rfl
  rw [hl, hr]

end Cert.ReferenceIdeal.RefStage

end
-- ==== Proof.RefDefs.lean ====
/-
  The reference program's values as pure functions. Each stage of the program — the embedding lookup, the attention
  layer with its softmax, the context product, the combining layer with its rectifier, the recurrent cell, the output
  layer, the log-softmax — is the composition of the program's own operations over variables; the three results, and the
  values several of them share (the embedding row, the attention weights, the new hidden state), are those stages applied
  in the program's order to the argument arrays.
-/
import proofs.«111195_j57131654971751_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The token index as a vector of one. -/
def tok (a0 : IVec S1x1 32) : IVec S1 32 :=
  shapeCast S1 a0 shapeCasts_S1x1_S1

/-- The gather index: the token index, a negative one wrapped by the table's height, as a 1×1 table. -/
def gidx (a0 : IVec S1x1 32) : IVec S1x1 32 :=
  broadcastInDim S1x1 ![0] bcast_S1_S1x1_0 (select (cmpi .slt (tok a0) (broadcastInDim S1 ![] bcast_S_S1 (constantI S_ 32 0#32 : IVec S_ 32))) (addi (tok a0) (broadcastInDim S1 ![] bcast_S_S1 (constantI S_ 32 50257#32 : IVec S_ 32))) (tok a0))

/-- Whether the wrapped index lies inside the table. -/
def inb (a0 : IVec S1x1 32) : IVec S1 1 :=
  Host.reduce IntOp.andi (andi (cmpi .sge (gidx a0) (broadcastInDim S1x1 ![] bcast_S_S1x1 (constantI S_ 32 0#32 : IVec S_ 32))) (cmpi .sle (gidx a0) (broadcastInDim S1x1 ![1] bcast_S1_S1x1_1 (constantI S1 32 50256#32 : IVec S1 32)))) (constantI S_ 1 1#1 : IVec S_ 1) reducesTo_S1x1_S1_d1 h_S_

/-- The embedding row of the token: the gathered row where the index is in range, the filler elsewhere. -/
def emb (a0 : IVec S1x1 32) (a3 : FVec F S50257x2048 .f32) : FVec F S1x2048 .f32 :=
  select (broadcastInDim S1x2048 ![0] bcast_S1_S1x2048_0 (inb a0)) (Host.gather gather_S50257x2048_S1x1_S1x2048_1_0_n_n_0_1_12048 a3 (gidx a0)) (broadcastInDim S1x2048 ![] bcast_S_S1x2048 (constant S_ .f32 0x7FC00000#32 : FVec F S_ .f32))

/-- The previous hidden state as a row. -/
def hprev (a1 : FVec F S1x1x2048 .f32) : FVec F S1x2048 .f32 :=
  shapeCast S1x2048 a1 shapeCasts_S1x1x2048_S1x2048

/-- Two rows side by side. -/
def cat (u v : FVec F S1x2048 .f32) : FVec F S1x4096 .f32 :=
  concatenate S1x4096 1 [⟨S1x2048, u⟩, ⟨S1x2048, v⟩] concatenates_S1x2048_S1x2048_S1x4096_d1

/-- The attention layer: the row through the weights' transpose, plus the bias. -/
def scoresS (x : FVec F S1x4096 .f32) (w : FVec F S512x4096 .f32) (b : FVec F S512 .f32) : FVec F S1x512 .f32 :=
  addf (Host.dotGeneral dot_S1x4096_S4096x512_S1x512_1_0_0_1_n_n none x (transpose S4096x512 [1, 0] w transposes_S512x4096_S4096x512_1_0)) (broadcastInDim S1x512 ![1] bcast_S512_S1x512_1 b)

/-- The exponentials of the scores shifted by their maximum. -/
def attnES (x : FVec F S1x4096 .f32) (w : FVec F S512x4096 .f32) (b : FVec F S512 .f32) : FVec F S1x512 .f32 :=
  Host.exp (subf (scoresS x w b) (broadcastInDim S1x512 ![0, 1] bcast_S1x1_S1x512_0_1 (broadcastInDim S1x1 ![0] bcast_S1_S1x1_0 (maximumf (broadcastInDim S1 ![] bcast_S_S1 (constant S_ .f32 0xFF800000#32 : FVec F S_ .f32)) (Host.reduce FloatOps.maximumf (scoresS x w b) (constant S_ .f32 0xFF800000#32 : FVec F S_ .f32) reducesTo_S1x512_S1_d1 h_S_)))))

/-- The attention stage: the softmax of the scores. -/
def attnS (x : FVec F S1x4096 .f32) (w : FVec F S512x4096 .f32) (b : FVec F S512 .f32) : FVec F S1x512 .f32 :=
  Host.divf (attnES x w b) (broadcastInDim S1x512 ![0, 1] bcast_S1x1_S1x512_0_1 (broadcastInDim S1x1 ![0] bcast_S1_S1x1_0 (Host.reduceAdd (attnES x w b) (constant S_ .f32 0x00000000#32 : FVec F S_ .f32) reducesTo_S1x512_S1_d1 h_S_)))

/-- The weights applied to the encoder outputs. -/
def ctxS (aw : FVec F S1x512 .f32) (enc : FVec F S512x2048 .f32) : FVec F S1x2048 .f32 :=
  Host.dotGeneral dot_S1x512_S512x2048_S1x2048_1_0_0_1_n_n none aw enc

/-- The combining layer, rectified. -/
def combS (x : FVec F S1x4096 .f32) (w : FVec F S2048x4096 .f32) (b : FVec F S2048 .f32) : FVec F S1x2048 .f32 :=
  maximumf (addf (Host.dotGeneral dot_S1x4096_S4096x2048_S1x2048_1_0_0_1_n_n none x (transpose S4096x2048 [1, 0] w transposes_S2048x4096_S4096x2048_1_0)) (broadcastInDim S1x2048 ![1] bcast_S2048_S1x2048_1 b)) (broadcastInDim S1x2048 ![] bcast_S_S1x2048 (constant S_ .f32 0x00000000#32 : FVec F S_ .f32))

/-- The three gates' pre-activations from one row: the row through the weights' transpose, plus the bias. -/
def giS (x : FVec F S1x2048 .f32) (w : FVec F S6144x2048 .f32) (b : FVec F S6144 .f32) : FVec F S1x6144 .f32 :=
  addf (Host.dotGeneral dot_S1x2048_S2048x6144_S1x6144_1_0_0_1_n_n none x (transpose S2048x6144 [1, 0] w transposes_S6144x2048_S2048x6144_1_0)) (broadcastInDim S1x6144 ![1] bcast_S6144_S1x6144_1 b)

/-- The reset gate. -/
def rS (gi gh : FVec F S1x6144 .f32) : FVec F S1x2048 .f32 :=
  Host.divf (broadcastInDim S1x2048 ![] bcast_S_S1x2048 (constant S_ .f32 0x3F800000#32 : FVec F S_ .f32)) (addf (broadcastInDim S1x2048 ![] bcast_S_S1x2048 (constant S_ .f32 0x3F800000#32 : FVec F S_ .f32)) (Host.exp (Host.negf (addf (extractStridedSlice S1x2048 ![0, 0] gi slices_S1x6144_S1x2048_0_0) (extractStridedSlice S1x2048 ![0, 0] gh slices_S1x6144_S1x2048_0_0)))))

/-- The update gate. -/
def zS (gi gh : FVec F S1x6144 .f32) : FVec F S1x2048 .f32 :=
  Host.divf (broadcastInDim S1x2048 ![] bcast_S_S1x2048 (constant S_ .f32 0x3F800000#32 : FVec F S_ .f32)) (addf (broadcastInDim S1x2048 ![] bcast_S_S1x2048 (constant S_ .f32 0x3F800000#32 : FVec F S_ .f32)) (Host.exp (Host.negf (addf (extractStridedSlice S1x2048 ![0, 2048] gi slices_S1x6144_S1x2048_0_2048) (extractStridedSlice S1x2048 ![0, 2048] gh slices_S1x6144_S1x2048_0_2048)))))

/-- The candidate state. -/
def nS (gi gh : FVec F S1x6144 .f32) : FVec F S1x2048 .f32 :=
  Host.tanh (addf (extractStridedSlice S1x2048 ![0, 4096] gi slices_S1x6144_S1x2048_0_4096) (mulf (rS gi gh) (extractStridedSlice S1x2048 ![0, 4096] gh slices_S1x6144_S1x2048_0_4096)))

/-- The gated update of the hidden row. -/
def cellS (gi gh : FVec F S1x6144 .f32) (h : FVec F S1x2048 .f32) : FVec F S1x2048 .f32 :=
  addf (mulf (subf (broadcastInDim S1x2048 ![] bcast_S_S1x2048 (constant S_ .f32 0x3F800000#32 : FVec F S_ .f32)) (zS gi gh)) (nS gi gh)) (mulf (zS gi gh) h)

/-- The recurrent cell. -/
def gruS (x h : FVec F S1x2048 .f32) (wih whh : FVec F S6144x2048 .f32) (bih bhh : FVec F S6144 .f32) : FVec F S1x2048 .f32 :=
  cellS (giS x wih bih) (giS h whh bhh) h

/-- The output layer. -/
def projS (hn : FVec F S1x2048 .f32) (w : FVec F S50257x2048 .f32) (b : FVec F S50257 .f32) : FVec F S1x50257 .f32 :=
  addf (Host.dotGeneral dot_S1x2048_S2048x50257_S1x50257_1_0_0_1_n_n none hn (transpose S2048x50257 [1, 0] w transposes_S50257x2048_S2048x50257_1_0)) (broadcastInDim S1x50257 ![1] bcast_S50257_S1x50257_1 b)

/-- A row shifted by its maximum. -/
def lgsS (l : FVec F S1x50257 .f32) : FVec F S1x50257 .f32 :=
  subf l (broadcastInDim S1x50257 ![0, 1] bcast_S1x1_S1x50257_0_1 (broadcastInDim S1x1 ![0] bcast_S1_S1x1_0 (maximumf (broadcastInDim S1 ![] bcast_S_S1 (constant S_ .f32 0xFF800000#32 : FVec F S_ .f32)) (Host.reduce FloatOps.maximumf l (constant S_ .f32 0xFF800000#32 : FVec F S_ .f32) reducesTo_S1x50257_S1_d1 h_S_))))

/-- The log-softmax of a row. -/
def lsmS (l : FVec F S1x50257 .f32) : FVec F S1x50257 .f32 :=
  subf (lgsS l) (broadcastInDim S1x50257 ![0, 1] bcast_S1x1_S1x50257_0_1 (Host.log (broadcastInDim S1x1 ![0] bcast_S1_S1x1_0 (Host.reduceAdd (Host.exp (lgsS l)) (constant S_ .f32 0x00000000#32 : FVec F S_ .f32) reducesTo_S1x50257_S1_d1 h_S_))))

/-- A row in the hidden state's own shape. -/
def hnewS (hn : FVec F S1x2048 .f32) : FVec F S1x1x2048 .f32 :=
  broadcastInDim S1x1x2048 ![1, 2] bcast_S1x2048_S1x1x2048_1_2 hn

/-- The third result, the attention weights: the attention stage at the row [embedding, hidden]. -/
def attn (a0 : IVec S1x1 32) (a1 : FVec F S1x1x2048 .f32) (a3 : FVec F S50257x2048 .f32) (a4 : FVec F S512x4096 .f32) (a5 : FVec F S512 .f32) : FVec F S1x512 .f32 :=
  attnS (cat (emb a0 a3) (hprev a1)) a4 a5

/-- The context row. -/
def ctx (a0 : IVec S1x1 32) (a1 : FVec F S1x1x2048 .f32) (a2 : FVec F S512x2048 .f32) (a3 : FVec F S50257x2048 .f32) (a4 : FVec F S512x4096 .f32) (a5 : FVec F S512 .f32) : FVec F S1x2048 .f32 :=
  ctxS (attn a0 a1 a3 a4 a5) a2

/-- The combined input: the combining stage at the row [embedding, context]. -/
def comb (a0 : IVec S1x1 32) (a1 : FVec F S1x1x2048 .f32) (a2 : FVec F S512x2048 .f32) (a3 : FVec F S50257x2048 .f32) (a4 : FVec F S512x4096 .f32) (a5 : FVec F S512 .f32) (a6 : FVec F S2048x4096 .f32) (a7 : FVec F S2048 .f32) : FVec F S1x2048 .f32 :=
  combS (cat (emb a0 a3) (ctx a0 a1 a2 a3 a4 a5)) a6 a7

/-- The new hidden state as a row. -/
def hnew61 (a0 : IVec S1x1 32) (a1 : FVec F S1x1x2048 .f32) (a2 : FVec F S512x2048 .f32) (a3 : FVec F S50257x2048 .f32) (a4 : FVec F S512x4096 .f32) (a5 : FVec F S512 .f32) (a6 : FVec F S2048x4096 .f32) (a7 : FVec F S2048 .f32) (a8 : FVec F S6144x2048 .f32) (a9 : FVec F S6144x2048 .f32) (a10 : FVec F S6144 .f32) (a11 : FVec F S6144 .f32) : FVec F S1x2048 .f32 :=
  gruS (comb a0 a1 a2 a3 a4 a5 a6 a7) (hprev a1) a8 a9 a10 a11

/-- The output layer's row before normalisation. -/
def lg (a0 : IVec S1x1 32) (a1 : FVec F S1x1x2048 .f32) (a2 : FVec F S512x2048 .f32) (a3 : FVec F S50257x2048 .f32) (a4 : FVec F S512x4096 .f32) (a5 : FVec F S512 .f32) (a6 : FVec F S2048x4096 .f32) (a7 : FVec F S2048 .f32) (a8 : FVec F S6144x2048 .f32) (a9 : FVec F S6144x2048 .f32) (a10 : FVec F S6144 .f32) (a11 : FVec F S6144 .f32) (a12 : FVec F S50257x2048 .f32) (a13 : FVec F S50257 .f32) : FVec F S1x50257 .f32 :=
  projS (hnew61 a0 a1 a2 a3 a4 a5 a6 a7 a8 a9 a10 a11) a12 a13

/-- The first result: the log-softmax of the output layer's row. -/
def logits (a0 : IVec S1x1 32) (a1 : FVec F S1x1x2048 .f32) (a2 : FVec F S512x2048 .f32) (a3 : FVec F S50257x2048 .f32) (a4 : FVec F S512x4096 .f32) (a5 : FVec F S512 .f32) (a6 : FVec F S2048x4096 .f32) (a7 : FVec F S2048 .f32) (a8 : FVec F S6144x2048 .f32) (a9 : FVec F S6144x2048 .f32) (a10 : FVec F S6144 .f32) (a11 : FVec F S6144 .f32) (a12 : FVec F S50257x2048 .f32) (a13 : FVec F S50257 .f32) : FVec F S1x50257 .f32 :=
  lsmS (lg a0 a1 a2 a3 a4 a5 a6 a7 a8 a9 a10 a11 a12 a13)

/-- The second result: the new hidden state in the hidden state's own shape. -/
def hnew (a0 : IVec S1x1 32) (a1 : FVec F S1x1x2048 .f32) (a2 : FVec F S512x2048 .f32) (a3 : FVec F S50257x2048 .f32) (a4 : FVec F S512x4096 .f32) (a5 : FVec F S512 .f32) (a6 : FVec F S2048x4096 .f32) (a7 : FVec F S2048 .f32) (a8 : FVec F S6144x2048 .f32) (a9 : FVec F S6144x2048 .f32) (a10 : FVec F S6144 .f32) (a11 : FVec F S6144 .f32) : FVec F S1x1x2048 .f32 :=
  hnewS (hnew61 a0 a1 a2 a3 a4 a5 a6 a7 a8 a9 a10 a11)

end Cert.ReferenceIdeal.RefValue

end
-- ==== Proof.Bridge.lean ====
import proofs.«111195_j57131654971751_2_alg».proof.Proof.KI.ChainDefs
import proofs.«111195_j57131654971751_2_alg».proof.Proof.KI.Results
import proofs.«111195_j57131654971751_2_alg».proof.Proof.KI.Entries
import proofs.«111195_j57131654971751_2_alg».proof.Proof.RefStagesA
import proofs.«111195_j57131654971751_2_alg».proof.Proof.RefStagesB
import proofs.«111195_j57131654971751_2_alg».proof.Proof.RefDefs
import proofs.«111195_j57131654971751_2_alg».proof.Proof.Gen.ReferenceIdeal
import proofs.«111195_j57131654971751_2_alg».proof.Proof.Gen.KernelIdeal

/-
  THE BRIDGE between the two programs at the exact values. First the reference decoder step as ONE function of its
  fourteen argument arrays, stage by stage, each stage the composition of the reference's own operations: the token's
  embedding row (the lookup with its index wrapped and checked), the old hidden state as a row, the attention weights
  (softmax of the scores over the two side by side), the context row, the combine layer rectified, the gated cell,
  the logits and their log-softmax, and the new state under a leading unit axis. Then, stage by stage, that function
  of the kernel program's launch arrays IS the kernel side's description of the same stage: the shared host operations
  are the same operations, and each computed stage is the same specification function of equal operands.
-/

set_option maxRecDepth 16384

noncomputable section

namespace Cert.Bridge

open Cert.ReferenceIdeal Cert.ReferenceIdeal.Facts₀ Cert.ReferenceIdeal.Facts Cert.ReferenceIdeal.RefStage
open Idealize.ShloMosaic Idealize.ShloMosaic.ValueIdx
open scoped BigOperators

/-! # The reference as one function of its argument arrays -/

/-- The row of the table at the token's index: a negative index wrapped once by the table's length, the lookup kept where
    the wrapped index is in range and the filler word elsewhere. -/
def refTake (E : (⟨S50257x2048, .f32⟩ : BufTy).Contents (Elt Ideal)) (tok : (⟨S1, .i32⟩ : BufTy).Contents (Elt Ideal)) :
    (⟨S1x2048, .f32⟩ : BufTy).Contents (Elt Ideal) :=
  select (broadcastInDim S1x2048 ![0] bcast_S1_S1x2048_0
      (Host.reduce IntOp.andi
        (andi
          (cmpi .sge (broadcastInDim S1x1 ![0] bcast_S1_S1x1_0
              (select (cmpi .slt tok (broadcastInDim S1 ![] bcast_S_S1 (constantI S_ 32 0#32)))
                (addi tok (broadcastInDim S1 ![] bcast_S_S1 (constantI S_ 32 50257#32))) tok))
            (broadcastInDim S1x1 ![] bcast_S_S1x1 (constantI S_ 32 0#32)))
          (cmpi .sle (broadcastInDim S1x1 ![0] bcast_S1_S1x1_0
              (select (cmpi .slt tok (broadcastInDim S1 ![] bcast_S_S1 (constantI S_ 32 0#32)))
                (addi tok (broadcastInDim S1 ![] bcast_S_S1 (constantI S_ 32 50257#32))) tok))
            (broadcastInDim S1x1 ![1] bcast_S1_S1x1_1 (constantI S1 32 50256#32))))
        (constantI S_ 1 1#1) reducesTo_S1x1_S1_d1 h_S_))
    (Host.gather gather_S50257x2048_S1x1_S1x2048_1_0_n_n_0_1_12048 E
      (broadcastInDim S1x1 ![0] bcast_S1_S1x1_0
        (select (cmpi .slt tok (broadcastInDim S1 ![] bcast_S_S1 (constantI S_ 32 0#32)))
          (addi tok (broadcastInDim S1 ![] bcast_S_S1 (constantI S_ 32 50257#32))) tok)))
    (broadcastInDim S1x2048 ![] bcast_S_S1x2048 (constant (F := Ideal) S_ .f32 0x7FC00000#32))

/-- The log-softmax of a row: the row less its largest entry (taken from minus infinity, then once more against it),
    less the logarithm of the sum of that difference's exponentials. -/
def refLogSoftmax (x : FVec Ideal S1x50257 .f32) : FVec Ideal S1x50257 .f32 :=
  subf
    (subf x (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp
          (subf x (broadcastInDim S1x50257 ![0, 1] bcast_S1x1_S1x50257_0_1 (broadcastInDim S1x1 ![0] bcast_S1_S1x1_0
            (maximumf (broadcastInDim S1 ![] bcast_S_S1 (constant S_ .f32 0xFF800000#32))
              (Host.reduce FloatOps.maximumf x (constant S_ .f32 0xFF800000#32) reducesTo_S1x50257_S1_d1 h_S_))))))
        (constant S_ .f32 0x00000000#32) reducesTo_S1x50257_S1_d1 h_S_))))

section Model

variable (B0 : (⟨S1x1, .i32⟩ : BufTy).Contents (Elt Ideal)) (B1 : FVec Ideal S1x1x2048 .f32) (B2 : FVec Ideal S512x2048 .f32)
  (B3 : FVec Ideal S50257x2048 .f32) (B4 : FVec Ideal S512x4096 .f32) (B5 : FVec Ideal S512 .f32)
  (B6 : FVec Ideal S2048x4096 .f32) (B7 : FVec Ideal S2048 .f32) (B8 B9 : FVec Ideal S6144x2048 .f32)
  (B10 B11 : FVec Ideal S6144 .f32) (B12 : FVec Ideal S50257x2048 .f32) (B13 : FVec Ideal S50257 .f32)

/-- The token as a one-entry vector. -/
def mTok : (⟨S1, .i32⟩ : BufTy).Contents (Elt Ideal) := fun i => shapeCast S1 B0 shapeCasts_S1x1_S1 i
/-- The token's embedding row. -/
def mEmb : FVec Ideal S1x2048 .f32 := refTake B3 (mTok B0)
/-- The old hidden state as a row. -/
def mH : FVec Ideal S1x2048 .f32 := fun i => shapeCast S1x2048 B1 shapeCasts_S1x1x2048_S1x2048 i
/-- The attention's input row: the embedding row and the old state side by side. -/
def mX1 : FVec Ideal S1x4096 .f32 :=
  concatenate S1x4096 1 [⟨S1x2048, mEmb B0 B3⟩, ⟨S1x2048, mH B1⟩] concatenates_S1x2048_S1x2048_S1x4096_d1
/-- The attention weights. -/
def mAttn : FVec Ideal S1x512 .f32 := refSoftmax (mX1 B0 B1 B3) B4 B5
/-- The context row. -/
def mCtx : FVec Ideal S1x2048 .f32 := refContext (mAttn B0 B1 B3 B4 B5) B2
/-- The combine layer's input row: the embedding row and the context row side by side. -/
def mX2 : FVec Ideal S1x4096 .f32 :=
  concatenate S1x4096 1 [⟨S1x2048, mEmb B0 B3⟩, ⟨S1x2048, mCtx B0 B1 B2 B3 B4 B5⟩] concatenates_S1x2048_S1x2048_S1x4096_d1
/-- The combine layer, rectified. -/
def mX : FVec Ideal S1x2048 .f32 := refCombine (mX2 B0 B1 B2 B3 B4 B5) B6 B7
/-- The new hidden state. -/
def mHnew : FVec Ideal S1x2048 .f32 := refCell (mX B0 B1 B2 B3 B4 B5 B6 B7) (mH B1) B8 B9 B10 B11
/-- The logits row. -/
def mLr : FVec Ideal S1x50257 .f32 := refProject (mHnew B0 B1 B2 B3 B4 B5 B6 B7 B8 B9 B10 B11) B12 B13
/-- The first result: the logits' log-softmax. -/
def mLogits : FVec Ideal S1x50257 .f32 := refLogSoftmax (mLr B0 B1 B2 B3 B4 B5 B6 B7 B8 B9 B10 B11 B12 B13)
/-- The second result: the new hidden state under a leading unit axis. -/
def mHout : FVec Ideal S1x1x2048 .f32 :=
  broadcastInDim S1x1x2048 ![1, 2] bcast_S1x2048_S1x1x2048_1_2 (mHnew B0 B1 B2 B3 B4 B5 B6 B7 B8 B9 B10 B11)

/-! ## The reference's results, as its run states them, are these -/

/-- The attention weights. -/
theorem attn_model : Cert.ReferenceIdeal.RefValue.attn (F := Ideal) B0 B1 B3 B4 B5 = mAttn B0 B1 B3 B4 B5 := rfl
/-- The new hidden state in the hidden state's own shape. -/
theorem hnew_model : Cert.ReferenceIdeal.RefValue.hnew (F := Ideal) B0 B1 B2 B3 B4 B5 B6 B7 B8 B9 B10 B11
    = mHout B0 B1 B2 B3 B4 B5 B6 B7 B8 B9 B10 B11 := rfl
/-- The log-softmax of the logits. -/
theorem logits_model : Cert.ReferenceIdeal.RefValue.logits (F := Ideal) B0 B1 B2 B3 B4 B5 B6 B7 B8 B9 B10 B11 B12 B13
    = mLogits B0 B1 B2 B3 B4 B5 B6 B7 B8 B9 B10 B11 B12 B13 := rfl

end Model

/-! # The bridge: the same function of the kernel program's launch arrays is the kernel side's description -/

section Bridge

variable (m : (ℓ : Loc Cert.KernelIdeal.nD Cert.KernelIdeal.τ Cert.KernelIdeal.sig) → Buf (Elt Ideal) ℓ) (c : Dev Cert.KernelIdeal.nD)

/-- The kernel program's launch arrays on core c, read at the reference's types (the two programs' argument buffers have
    the same types once the shape abbreviations are unfolded). -/
abbrev kA0 : (⟨S1x1, .i32⟩ : BufTy).Contents (Elt Ideal) := m ((c.tc : Thread Cert.KernelIdeal.nD Cert.KernelIdeal.τ).loc Cert.KernelIdeal.main_arg0)
abbrev kA1 : FVec Ideal S1x1x2048 .f32 := m ((c.tc : Thread Cert.KernelIdeal.nD Cert.KernelIdeal.τ).loc Cert.KernelIdeal.main_arg1)
abbrev kA2 : FVec Ideal S512x2048 .f32 := m ((c.tc : Thread Cert.KernelIdeal.nD Cert.KernelIdeal.τ).loc Cert.KernelIdeal.main_arg2)
abbrev kA3 : FVec Ideal S50257x2048 .f32 := m ((c.tc : Thread Cert.KernelIdeal.nD Cert.KernelIdeal.τ).loc Cert.KernelIdeal.main_arg3)
abbrev kA4 : FVec Ideal S512x4096 .f32 := m ((c.tc : Thread Cert.KernelIdeal.nD Cert.KernelIdeal.τ).loc Cert.KernelIdeal.main_arg4)
abbrev kA5 : FVec Ideal S512 .f32 := m ((c.tc : Thread Cert.KernelIdeal.nD Cert.KernelIdeal.τ).loc Cert.KernelIdeal.main_arg5)
abbrev kA6 : FVec Ideal S2048x4096 .f32 := m ((c.tc : Thread Cert.KernelIdeal.nD Cert.KernelIdeal.τ).loc Cert.KernelIdeal.main_arg6)
abbrev kA7 : FVec Ideal S2048 .f32 := m ((c.tc : Thread Cert.KernelIdeal.nD Cert.KernelIdeal.τ).loc Cert.KernelIdeal.main_arg7)
abbrev kA8 : FVec Ideal S6144x2048 .f32 := m ((c.tc : Thread Cert.KernelIdeal.nD Cert.KernelIdeal.τ).loc Cert.KernelIdeal.main_arg8)
abbrev kA9 : FVec Ideal S6144x2048 .f32 := m ((c.tc : Thread Cert.KernelIdeal.nD Cert.KernelIdeal.τ).loc Cert.KernelIdeal.main_arg9)
abbrev kA10 : FVec Ideal S6144 .f32 := m ((c.tc : Thread Cert.KernelIdeal.nD Cert.KernelIdeal.τ).loc Cert.KernelIdeal.main_arg10)
abbrev kA11 : FVec Ideal S6144 .f32 := m ((c.tc : Thread Cert.KernelIdeal.nD Cert.KernelIdeal.τ).loc Cert.KernelIdeal.main_arg11)
abbrev kA12 : FVec Ideal S50257x2048 .f32 := m ((c.tc : Thread Cert.KernelIdeal.nD Cert.KernelIdeal.τ).loc Cert.KernelIdeal.main_arg12)
abbrev kA13 : FVec Ideal S50257 .f32 := m ((c.tc : Thread Cert.KernelIdeal.nD Cert.KernelIdeal.τ).loc Cert.KernelIdeal.main_arg13)

/-- The embedding lookup is the same operations in both programs. -/
theorem emb_eq : mEmb (kA0 m c) (kA3 m c) = Cert.KernelIdeal.Hand.embK m c := rfl

/-- So is the old state's reshape. -/
theorem h_eq : mH (kA1 m c) = Cert.KernelIdeal.Hand.hrowK m c := rfl

/-- And the first concatenation. -/
theorem x1_eq : mX1 (kA0 m c) (kA1 m c) (kA3 m c) = Cert.KernelIdeal.Hand.x1K m c := rfl

/-- The attention weights: the softmax of the same scores. -/
theorem mAttn_eq : mAttn (kA0 m c) (kA1 m c) (kA3 m c) (kA4 m c) (kA5 m c) = Cert.KernelIdeal.Hand.awK m c := by
  funext i
  obtain ⟨a, b, rfl⟩ : ∃ (a : Fin 1) (b : Fin 512), i = ix2 a b := ⟨i 0, i 1, eq_ix2 i⟩
  obtain rfl : a = 0 := Subsingleton.elim _ _
  unfold mAttn
  rw [refSoftmax_apply, x1_eq]
  rfl

/-- The context row: the same weights against the same encoder rows. -/
theorem ctx_eq : mCtx (kA0 m c) (kA1 m c) (kA2 m c) (kA3 m c) (kA4 m c) (kA5 m c) = Cert.KernelIdeal.Hand.ctxK m c := by
  funext i
  obtain ⟨a, b, rfl⟩ : ∃ (a : Fin 1) (b : Fin 2048), i = ix2 a b := ⟨i 0, i 1, eq_ix2 i⟩
  obtain rfl : a = 0 := Subsingleton.elim _ _
  unfold mCtx
  rw [refContext_apply, mAttn_eq]
  rfl

/-- The second concatenation. -/
theorem x2_eq : mX2 (kA0 m c) (kA1 m c) (kA2 m c) (kA3 m c) (kA4 m c) (kA5 m c) = Cert.KernelIdeal.Hand.x2K m c := by
  unfold mX2
  rw [ctx_eq, emb_eq]
  rfl

/-- The combine layer, rectified. -/
theorem x_eq : mX (kA0 m c) (kA1 m c) (kA2 m c) (kA3 m c) (kA4 m c) (kA5 m c) (kA6 m c) (kA7 m c) = Cert.KernelIdeal.Hand.xK m c := by
  funext i
  obtain ⟨a, b, rfl⟩ : ∃ (a : Fin 1) (b : Fin 2048), i = ix2 a b := ⟨i 0, i 1, eq_ix2 i⟩
  obtain rfl : a = 0 := Subsingleton.elim _ _
  unfold mX
  rw [refCombine_apply, x2_eq]
  rfl

/-- The gated cell: the same six pre-activations and the same old state. -/
theorem mHnew_eq : mHnew (kA0 m c) (kA1 m c) (kA2 m c) (kA3 m c) (kA4 m c) (kA5 m c) (kA6 m c) (kA7 m c) (kA8 m c) (kA9 m c) (kA10 m c) (kA11 m c)
    = Cert.KernelIdeal.Hand.hnewK m c := by
  funext i
  obtain ⟨a, b, rfl⟩ : ∃ (a : Fin 1) (b : Fin 2048), i = ix2 a b := ⟨i 0, i 1, eq_ix2 i⟩
  obtain rfl : a = 0 := Subsingleton.elim _ _
  unfold mHnew
  rw [refCell_apply, x_eq, h_eq]
  rfl

/-- The logits row. -/
theorem lr_eq : mLr (kA0 m c) (kA1 m c) (kA2 m c) (kA3 m c) (kA4 m c) (kA5 m c) (kA6 m c) (kA7 m c) (kA8 m c) (kA9 m c) (kA10 m c) (kA11 m c) (kA12 m c) (kA13 m c)
    = Cert.KernelIdeal.Hand.lrK m c := by
  funext i
  obtain ⟨a, b, rfl⟩ : ∃ (a : Fin 1) (b : Fin 50257), i = ix2 a b := ⟨i 0, i 1, eq_ix2 i⟩
  obtain rfl : a = 0 := Subsingleton.elim _ _
  unfold mLr
  rw [refProject_apply, mHnew_eq]
  rfl

/-- THE FIRST RESULT: the log-softmax is the same fifteen operations of equal rows. -/
theorem mLogits_eq : mLogits (kA0 m c) (kA1 m c) (kA2 m c) (kA3 m c) (kA4 m c) (kA5 m c) (kA6 m c) (kA7 m c) (kA8 m c) (kA9 m c) (kA10 m c) (kA11 m c) (kA12 m c) (kA13 m c)
    = Cert.KernelIdeal.Hand.logSoftmaxRow (F := Ideal) (Cert.KernelIdeal.Hand.lrK m c) := by
  unfold mLogits
  rw [lr_eq]
  rfl

/-- THE SECOND RESULT: the same broadcast of equal rows. -/
theorem mHout_eq : mHout (kA0 m c) (kA1 m c) (kA2 m c) (kA3 m c) (kA4 m c) (kA5 m c) (kA6 m c) (kA7 m c) (kA8 m c) (kA9 m c) (kA10 m c) (kA11 m c)
    = broadcastInDim Cert.KernelIdeal.S1x1x2048 ![1, 2] Cert.KernelIdeal.Gen.bcast_S1x2048_S1x1x2048_1_2 (Cert.KernelIdeal.Hand.hnewK m c) := by
  unfold mHout
  rw [mHnew_eq]

/-! ## The three results -/

/-- The third result: the reference's attention weights of the launch arrays are the kernel side's. -/
theorem attn_eq : Cert.ReferenceIdeal.RefValue.attn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = Cert.KernelIdeal.Hand.awK m c :=
  (attn_model (kA0 m c) (kA1 m c) (kA3 m c) (kA4 m c) (kA5 m c)).trans (mAttn_eq m c)

/-- The second result: the reference's new hidden state of the launch arrays is the kernel side's row under a leading
    unit axis. -/
theorem hnew_eq : Cert.ReferenceIdeal.RefValue.hnew (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    = broadcastInDim Cert.KernelIdeal.S1x1x2048 ![1, 2] Cert.KernelIdeal.Gen.bcast_S1x2048_S1x1x2048_1_2 (Cert.KernelIdeal.Hand.hnewK m c) :=
  (hnew_model (kA0 m c) (kA1 m c) (kA2 m c) (kA3 m c) (kA4 m c) (kA5 m c) (kA6 m c) (kA7 m c) (kA8 m c) (kA9 m c) (kA10 m c) (kA11 m c)).trans
    (mHout_eq m c)

/-- The first result: the reference's log-softmax of the launch arrays is the kernel side's log-softmax of its logits row. -/
theorem logits_eq : Cert.ReferenceIdeal.RefValue.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    = Cert.KernelIdeal.Hand.logSoftmaxRow (F := Ideal) (Cert.KernelIdeal.Hand.lrK m c) :=
  (logits_model (kA0 m c) (kA1 m c) (kA2 m c) (kA3 m c) (kA4 m c) (kA5 m c) (kA6 m c) (kA7 m c) (kA8 m c) (kA9 m c) (kA10 m c) (kA11 m c)
    (kA12 m c) (kA13 m c)).trans (mLogits_eq m c)

/-! ## The same, with the reference's arrays as variables that agree with the launch arrays -/

/-- The third result, for reference arrays equal to the launch arrays. -/
theorem attn_agree (B0 : IVec S1x1 32) (B1 : FVec Ideal S1x1x2048 .f32) (B3 : FVec Ideal S50257x2048 .f32) (B4 : FVec Ideal S512x4096 .f32) (B5 : FVec Ideal S512 .f32)
    (h0 : B0 = (m ((c.tc : Thread Cert.KernelIdeal.nD Cert.KernelIdeal.τ).loc Cert.KernelIdeal.main_arg0)))
    (h1 : B1 = (m ((c.tc : Thread Cert.KernelIdeal.nD Cert.KernelIdeal.τ).loc Cert.KernelIdeal.main_arg1)))
    (h3 : B3 = (m ((c.tc : Thread Cert.KernelIdeal.nD Cert.KernelIdeal.τ).loc Cert.KernelIdeal.main_arg3)))
    (h4 : B4 = (m ((c.tc : Thread Cert.KernelIdeal.nD Cert.KernelIdeal.τ).loc Cert.KernelIdeal.main_arg4)))
    (h5 : B5 = (m ((c.tc : Thread Cert.KernelIdeal.nD Cert.KernelIdeal.τ).loc Cert.KernelIdeal.main_arg5))) :
    Cert.ReferenceIdeal.RefValue.attn (F := Ideal) B0 B1 B3 B4 B5 = Cert.KernelIdeal.Hand.awK m c := by
  subst h0 h1 h3 h4 h5; exact attn_eq m c

/-- The second result, for reference arrays equal to the launch arrays. -/
theorem hnew_agree (B0 : IVec S1x1 32) (B1 : FVec Ideal S1x1x2048 .f32) (B2 : FVec Ideal S512x2048 .f32) (B3 : FVec Ideal S50257x2048 .f32) (B4 : FVec Ideal S512x4096 .f32) (B5 : FVec Ideal S512 .f32) (B6 : FVec Ideal S2048x4096 .f32) (B7 : FVec Ideal S2048 .f32) (B8 B9 : FVec Ideal S6144x2048 .f32) (B10 B11 : FVec Ideal S6144 .f32)
    (h0 : B0 = (m ((c.tc : Thread Cert.KernelIdeal.nD Cert.KernelIdeal.τ).loc Cert.KernelIdeal.main_arg0)))
    (h1 : B1 = (m ((c.tc : Thread Cert.KernelIdeal.nD Cert.KernelIdeal.τ).loc Cert.KernelIdeal.main_arg1)))
    (h2 : B2 = (m ((c.tc : Thread Cert.KernelIdeal.nD Cert.KernelIdeal.τ).loc Cert.KernelIdeal.main_arg2)))
    (h3 : B3 = (m ((c.tc : Thread Cert.KernelIdeal.nD Cert.KernelIdeal.τ).loc Cert.KernelIdeal.main_arg3)))
    (h4 : B4 = (m ((c.tc : Thread Cert.KernelIdeal.nD Cert.KernelIdeal.τ).loc Cert.KernelIdeal.main_arg4)))
    (h5 : B5 = (m ((c.tc : Thread Cert.KernelIdeal.nD Cert.KernelIdeal.τ).loc Cert.KernelIdeal.main_arg5)))
    (h6 : B6 = (m ((c.tc : Thread Cert.KernelIdeal.nD Cert.KernelIdeal.τ).loc Cert.KernelIdeal.main_arg6)))
    (h7 : B7 = (m ((c.tc : Thread Cert.KernelIdeal.nD Cert.KernelIdeal.τ).loc Cert.KernelIdeal.main_arg7)))
    (h8 : B8 = (m ((c.tc : Thread Cert.KernelIdeal.nD Cert.KernelIdeal.τ).loc Cert.KernelIdeal.main_arg8)))
    (h9 : B9 = (m ((c.tc : Thread Cert.KernelIdeal.nD Cert.KernelIdeal.τ).loc Cert.KernelIdeal.main_arg9)))
    (h10 : B10 = (m ((c.tc : Thread Cert.KernelIdeal.nD Cert.KernelIdeal.τ).loc Cert.KernelIdeal.main_arg10)))
    (h11 : B11 = (m ((c.tc : Thread Cert.KernelIdeal.nD Cert.KernelIdeal.τ).loc Cert.KernelIdeal.main_arg11))) :
    Cert.ReferenceIdeal.RefValue.hnew (F := Ideal) B0 B1 B2 B3 B4 B5 B6 B7 B8 B9 B10 B11
      = broadcastInDim Cert.KernelIdeal.S1x1x2048 ![1, 2] Cert.KernelIdeal.Gen.bcast_S1x2048_S1x1x2048_1_2 (Cert.KernelIdeal.Hand.hnewK m c) := by
  subst h0 h1 h2 h3 h4 h5 h6 h7 h8 h9 h10 h11; exact hnew_eq m c

/-- The first result, for reference arrays equal to the launch arrays. -/
theorem logits_agree (B0 : IVec S1x1 32) (B1 : FVec Ideal S1x1x2048 .f32) (B2 : FVec Ideal S512x2048 .f32) (B3 : FVec Ideal S50257x2048 .f32) (B4 : FVec Ideal S512x4096 .f32) (B5 : FVec Ideal S512 .f32) (B6 : FVec Ideal S2048x4096 .f32) (B7 : FVec Ideal S2048 .f32) (B8 B9 : FVec Ideal S6144x2048 .f32) (B10 B11 : FVec Ideal S6144 .f32) (B12 : FVec Ideal S50257x2048 .f32) (B13 : FVec Ideal S50257 .f32)
    (h0 : B0 = (m ((c.tc : Thread Cert.KernelIdeal.nD Cert.KernelIdeal.τ).loc Cert.KernelIdeal.main_arg0)))
    (h1 : B1 = (m ((c.tc : Thread Cert.KernelIdeal.nD Cert.KernelIdeal.τ).loc Cert.KernelIdeal.main_arg1)))
    (h2 : B2 = (m ((c.tc : Thread Cert.KernelIdeal.nD Cert.KernelIdeal.τ).loc Cert.KernelIdeal.main_arg2)))
    (h3 : B3 = (m ((c.tc : Thread Cert.KernelIdeal.nD Cert.KernelIdeal.τ).loc Cert.KernelIdeal.main_arg3)))
    (h4 : B4 = (m ((c.tc : Thread Cert.KernelIdeal.nD Cert.KernelIdeal.τ).loc Cert.KernelIdeal.main_arg4)))
    (h5 : B5 = (m ((c.tc : Thread Cert.KernelIdeal.nD Cert.KernelIdeal.τ).loc Cert.KernelIdeal.main_arg5)))
    (h6 : B6 = (m ((c.tc : Thread Cert.KernelIdeal.nD Cert.KernelIdeal.τ).loc Cert.KernelIdeal.main_arg6)))
    (h7 : B7 = (m ((c.tc : Thread Cert.KernelIdeal.nD Cert.KernelIdeal.τ).loc Cert.KernelIdeal.main_arg7)))
    (h8 : B8 = (m ((c.tc : Thread Cert.KernelIdeal.nD Cert.KernelIdeal.τ).loc Cert.KernelIdeal.main_arg8)))
    (h9 : B9 = (m ((c.tc : Thread Cert.KernelIdeal.nD Cert.KernelIdeal.τ).loc Cert.KernelIdeal.main_arg9)))
    (h10 : B10 = (m ((c.tc : Thread Cert.KernelIdeal.nD Cert.KernelIdeal.τ).loc Cert.KernelIdeal.main_arg10)))
    (h11 : B11 = (m ((c.tc : Thread Cert.KernelIdeal.nD Cert.KernelIdeal.τ).loc Cert.KernelIdeal.main_arg11)))
    (h12 : B12 = (m ((c.tc : Thread Cert.KernelIdeal.nD Cert.KernelIdeal.τ).loc Cert.KernelIdeal.main_arg12)))
    (h13 : B13 = (m ((c.tc : Thread Cert.KernelIdeal.nD Cert.KernelIdeal.τ).loc Cert.KernelIdeal.main_arg13))) :
    Cert.ReferenceIdeal.RefValue.logits (F := Ideal) B0 B1 B2 B3 B4 B5 B6 B7 B8 B9 B10 B11 B12 B13
      = Cert.KernelIdeal.Hand.logSoftmaxRow (F := Ideal) (Cert.KernelIdeal.Hand.lrK m c) := by
  subst h0 h1 h2 h3 h4 h5 h6 h7 h8 h9 h10 h11 h12 h13; exact logits_eq m c

/-! ## The first two results against the kernel side's NAMED terms -/

/-- The second result, named on the kernel side. -/
theorem houtK_eq : mHout (kA0 m c) (kA1 m c) (kA2 m c) (kA3 m c) (kA4 m c) (kA5 m c) (kA6 m c) (kA7 m c) (kA8 m c) (kA9 m c) (kA10 m c) (kA11 m c)
    = Cert.KernelIdeal.Hand.houtK m c := by
  unfold mHout Cert.KernelIdeal.Hand.houtK
  rw [mHnew_eq]

/-- The first result, named on the kernel side. -/
theorem logitsK_eq : mLogits (kA0 m c) (kA1 m c) (kA2 m c) (kA3 m c) (kA4 m c) (kA5 m c) (kA6 m c) (kA7 m c) (kA8 m c) (kA9 m c) (kA10 m c) (kA11 m c) (kA12 m c) (kA13 m c)
    = Cert.KernelIdeal.Hand.logitsK m c := by
  unfold mLogits Cert.KernelIdeal.Hand.logitsK
  rw [lr_eq]
  rfl

/-- The second result, for reference arrays equal to the launch arrays, against the kernel side's named term. -/
theorem hout_agree (B0 : IVec S1x1 32) (B1 : FVec Ideal S1x1x2048 .f32) (B2 : FVec Ideal S512x2048 .f32) (B3 : FVec Ideal S50257x2048 .f32) (B4 : FVec Ideal S512x4096 .f32) (B5 : FVec Ideal S512 .f32) (B6 : FVec Ideal S2048x4096 .f32) (B7 : FVec Ideal S2048 .f32) (B8 B9 : FVec Ideal S6144x2048 .f32) (B10 B11 : FVec Ideal S6144 .f32)
    (h0 : B0 = (m ((c.tc : Thread Cert.KernelIdeal.nD Cert.KernelIdeal.τ).loc Cert.KernelIdeal.main_arg0)))
    (h1 : B1 = (m ((c.tc : Thread Cert.KernelIdeal.nD Cert.KernelIdeal.τ).loc Cert.KernelIdeal.main_arg1)))
    (h2 : B2 = (m ((c.tc : Thread Cert.KernelIdeal.nD Cert.KernelIdeal.τ).loc Cert.KernelIdeal.main_arg2)))
    (h3 : B3 = (m ((c.tc : Thread Cert.KernelIdeal.nD Cert.KernelIdeal.τ).loc Cert.KernelIdeal.main_arg3)))
    (h4 : B4 = (m ((c.tc : Thread Cert.KernelIdeal.nD Cert.KernelIdeal.τ).loc Cert.KernelIdeal.main_arg4)))
    (h5 : B5 = (m ((c.tc : Thread Cert.KernelIdeal.nD Cert.KernelIdeal.τ).loc Cert.KernelIdeal.main_arg5)))
    (h6 : B6 = (m ((c.tc : Thread Cert.KernelIdeal.nD Cert.KernelIdeal.τ).loc Cert.KernelIdeal.main_arg6)))
    (h7 : B7 = (m ((c.tc : Thread Cert.KernelIdeal.nD Cert.KernelIdeal.τ).loc Cert.KernelIdeal.main_arg7)))
    (h8 : B8 = (m ((c.tc : Thread Cert.KernelIdeal.nD Cert.KernelIdeal.τ).loc Cert.KernelIdeal.main_arg8)))
    (h9 : B9 = (m ((c.tc : Thread Cert.KernelIdeal.nD Cert.KernelIdeal.τ).loc Cert.KernelIdeal.main_arg9)))
    (h10 : B10 = (m ((c.tc : Thread Cert.KernelIdeal.nD Cert.KernelIdeal.τ).loc Cert.KernelIdeal.main_arg10)))
    (h11 : B11 = (m ((c.tc : Thread Cert.KernelIdeal.nD Cert.KernelIdeal.τ).loc Cert.KernelIdeal.main_arg11))) :
    Cert.ReferenceIdeal.RefValue.hnew (F := Ideal) B0 B1 B2 B3 B4 B5 B6 B7 B8 B9 B10 B11 = Cert.KernelIdeal.Hand.houtK m c := by
  subst h0 h1 h2 h3 h4 h5 h6 h7 h8 h9 h10 h11
  exact (hnew_model (kA0 m c) (kA1 m c) (kA2 m c) (kA3 m c) (kA4 m c) (kA5 m c) (kA6 m c) (kA7 m c) (kA8 m c) (kA9 m c) (kA10 m c) (kA11 m c)).trans
    (houtK_eq m c)

/-- The first result, for reference arrays equal to the launch arrays, against the kernel side's named term. -/
theorem logitsK_agree (B0 : IVec S1x1 32) (B1 : FVec Ideal S1x1x2048 .f32) (B2 : FVec Ideal S512x2048 .f32) (B3 : FVec Ideal S50257x2048 .f32) (B4 : FVec Ideal S512x4096 .f32) (B5 : FVec Ideal S512 .f32) (B6 : FVec Ideal S2048x4096 .f32) (B7 : FVec Ideal S2048 .f32) (B8 B9 : FVec Ideal S6144x2048 .f32) (B10 B11 : FVec Ideal S6144 .f32) (B12 : FVec Ideal S50257x2048 .f32) (B13 : FVec Ideal S50257 .f32)
    (h0 : B0 = (m ((c.tc : Thread Cert.KernelIdeal.nD Cert.KernelIdeal.τ).loc Cert.KernelIdeal.main_arg0)))
    (h1 : B1 = (m ((c.tc : Thread Cert.KernelIdeal.nD Cert.KernelIdeal.τ).loc Cert.KernelIdeal.main_arg1)))
    (h2 : B2 = (m ((c.tc : Thread Cert.KernelIdeal.nD Cert.KernelIdeal.τ).loc Cert.KernelIdeal.main_arg2)))
    (h3 : B3 = (m ((c.tc : Thread Cert.KernelIdeal.nD Cert.KernelIdeal.τ).loc Cert.KernelIdeal.main_arg3)))
    (h4 : B4 = (m ((c.tc : Thread Cert.KernelIdeal.nD Cert.KernelIdeal.τ).loc Cert.KernelIdeal.main_arg4)))
    (h5 : B5 = (m ((c.tc : Thread Cert.KernelIdeal.nD Cert.KernelIdeal.τ).loc Cert.KernelIdeal.main_arg5)))
    (h6 : B6 = (m ((c.tc : Thread Cert.KernelIdeal.nD Cert.KernelIdeal.τ).loc Cert.KernelIdeal.main_arg6)))
    (h7 : B7 = (m ((c.tc : Thread Cert.KernelIdeal.nD Cert.KernelIdeal.τ).loc Cert.KernelIdeal.main_arg7)))
    (h8 : B8 = (m ((c.tc : Thread Cert.KernelIdeal.nD Cert.KernelIdeal.τ).loc Cert.KernelIdeal.main_arg8)))
    (h9 : B9 = (m ((c.tc : Thread Cert.KernelIdeal.nD Cert.KernelIdeal.τ).loc Cert.KernelIdeal.main_arg9)))
    (h10 : B10 = (m ((c.tc : Thread Cert.KernelIdeal.nD Cert.KernelIdeal.τ).loc Cert.KernelIdeal.main_arg10)))
    (h11 : B11 = (m ((c.tc : Thread Cert.KernelIdeal.nD Cert.KernelIdeal.τ).loc Cert.KernelIdeal.main_arg11)))
    (h12 : B12 = (m ((c.tc : Thread Cert.KernelIdeal.nD Cert.KernelIdeal.τ).loc Cert.KernelIdeal.main_arg12)))
    (h13 : B13 = (m ((c.tc : Thread Cert.KernelIdeal.nD Cert.KernelIdeal.τ).loc Cert.KernelIdeal.main_arg13))) :
    Cert.ReferenceIdeal.RefValue.logits (F := Ideal) B0 B1 B2 B3 B4 B5 B6 B7 B8 B9 B10 B11 B12 B13 = Cert.KernelIdeal.Hand.logitsK m c := by
  subst h0 h1 h2 h3 h4 h5 h6 h7 h8 h9 h10 h11 h12 h13
  exact (logits_model (kA0 m c) (kA1 m c) (kA2 m c) (kA3 m c) (kA4 m c) (kA5 m c) (kA6 m c) (kA7 m c) (kA8 m c) (kA9 m c) (kA10 m c) (kA11 m c)
    (kA12 m c) (kA13 m c)).trans (logitsK_eq m c)

end Bridge

end Cert.Bridge

end
-- ==== Proof.RefOps.lean ====
/-
  The reference program's @main as one list of host operations: each outlined function's operations listed
  inline at its call site, over that call's own buffers; @main is the straight line of that list.
-/
import proofs.«111195_j57131654971751_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- @main's 113 operations, in order: its own seventy-four, and at their call sites the twenty-two of the embedding lookup (the index wrapped, checked in range, the row gathered, selected against the out-of-range filler), the three of the rectifier and the fifteen of the log-softmax. -/
abbrev ops : List (HloOp τ sig (Elt F)) :=
  [ StableHlo.reshape main_arg0 main_v0 rfl shapeCasts_S1x1_S1,
    StableHlo.TRef.nullary main_call0.c (constantI S_ 32 0#32),
    StableHlo.TRef.unary main_call0.c main_call0.v0 (broadcastInDim S1 ![] bcast_S_S1),
    StableHlo.TRef.binary (.of main_v0 : StableHlo.TRef sig ⟨S1, .i32⟩) main_call0.v0 main_call0.v1 (cmpi .slt),
    StableHlo.TRef.nullary main_call0.c_0 (constantI S_ 32 50257#32),
    StableHlo.TRef.unary main_call0.c_0 main_call0.v2 (broadcastInDim S1 ![] bcast_S_S1),
    StableHlo.TRef.binary (.of main_v0 : StableHlo.TRef sig ⟨S1, .i32⟩) main_call0.v2 main_call0.v3 addi,
    StableHlo.TRef.ternary main_call0.v1 main_call0.v3 (.of main_v0 : StableHlo.TRef sig ⟨S1, .i32⟩) main_call0.call0.v0 select,
    StableHlo.TRef.unary main_call0.call0.v0 main_call0.v5 (broadcastInDim S1x1 ![0] bcast_S1_S1x1_0),
    StableHlo.TRef.nullary main_call0.c_1 (constantI S1 32 50256#32),
    StableHlo.TRef.nullary main_call0.c_2 (constantI S_ 32 0#32),
    StableHlo.TRef.unary main_call0.c_2 main_call0.v6 (broadcastInDim S1x1 ![] bcast_S_S1x1),
    StableHlo.TRef.binary main_call0.v5 main_call0.v6 main_call0.v7 (cmpi .sge),
    StableHlo.TRef.unary main_call0.c_1 main_call0.v8 (broadcastInDim S1x1 ![1] bcast_S1_S1x1_1),
    StableHlo.TRef.binary main_call0.v5 main_call0.v8 main_call0.v9 (cmpi .sle),
    StableHlo.TRef.binary main_call0.v7 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S1x1_S1_d1 h_S_),
    StableHlo.TRef.binary (.of main_arg3 : StableHlo.TRef sig ⟨S50257x2048, .f32⟩) main_call0.v5 main_call0.v12 (fun x i => Host.gather gather_S50257x2048_S1x1_S1x2048_1_0_n_n_0_1_12048 x i),
    StableHlo.TRef.unary main_call0.v11 main_call0.v13 (broadcastInDim S1x2048 ![0] bcast_S1_S1x2048_0),
    StableHlo.TRef.nullary main_call0.cst (constant S_ .f32 0x7FC00000#32),
    StableHlo.TRef.unary main_call0.cst main_call0.v14 (broadcastInDim S1x2048 ![] bcast_S_S1x2048),
    StableHlo.TRef.ternary main_call0.v13 main_call0.v12 main_call0.v14 main_call0.v15 select,
    StableHlo.reshape main_arg1 main_v2 rfl shapeCasts_S1x1x2048_S1x2048,
    StableHlo.binary main_v1 main_v2 main_v3 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    StableHlo.unary main_arg4 main_v4 ((transpose S4096x512 [1, 0] · transposes_S512x4096_S4096x512_1_0) : (⟨S512x4096, .f32⟩ : BufTy).Contents (Elt F) → (⟨S4096x512, .f32⟩ : BufTy).Contents (Elt F)),
    StableHlo.binary main_v3 main_v4 main_v5 ((fun l r => Host.dotGeneral dot_S1x4096_S4096x512_S1x512_1_0_0_1_n_n none l r) : (⟨S1x4096, .f32⟩ : BufTy).Contents (Elt F) → (⟨S4096x512, .f32⟩ : BufTy).Contents (Elt F) → (⟨S1x512, .f32⟩ : BufTy).Contents (Elt F)),
    StableHlo.unary main_arg5 main_v6 (broadcastInDim S1x512 ![1] bcast_S512_S1x512_1 : (⟨S512, .f32⟩ : BufTy).Contents (Elt F) → (⟨S1x512, .f32⟩ : BufTy).Contents (Elt F)),
    StableHlo.binary main_v5 main_v6 main_v7 (addf : (⟨S1x512, .f32⟩ : BufTy).Contents (Elt F) → (⟨S1x512, .f32⟩ : BufTy).Contents (Elt F) → (⟨S1x512, .f32⟩ : BufTy).Contents (Elt F)),
    StableHlo.nullary main_cst (constant S_ .f32 0xFF800000#32),
    StableHlo.binary main_v7 main_cst main_v8 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.nullary main_cst_0 (constant S_ .f32 0xFF800000#32),
    StableHlo.unary main_cst_0 main_v9 (broadcastInDim S1 ![] bcast_S_S1 : (⟨S_, .f32⟩ : BufTy).Contents (Elt F) → (⟨S1, .f32⟩ : BufTy).Contents (Elt F)),
    StableHlo.binary main_v9 main_v8 main_v10 (maximumf : (⟨S1, .f32⟩ : BufTy).Contents (Elt F) → (⟨S1, .f32⟩ : BufTy).Contents (Elt F) → (⟨S1, .f32⟩ : BufTy).Contents (Elt F)),
    StableHlo.unary main_v10 main_v11 (broadcastInDim S1x1 ![0] bcast_S1_S1x1_0 : (⟨S1, .f32⟩ : BufTy).Contents (Elt F) → (⟨S1x1, .f32⟩ : BufTy).Contents (Elt F)),
    StableHlo.unary main_v11 main_v12 (broadcastInDim S1x512 ![0, 1] bcast_S1x1_S1x512_0_1 : (⟨S1x1, .f32⟩ : BufTy).Contents (Elt F) → (⟨S1x512, .f32⟩ : BufTy).Contents (Elt F)),
    StableHlo.binary main_v7 main_v12 main_v13 (subf : (⟨S1x512, .f32⟩ : BufTy).Contents (Elt F) → (⟨S1x512, .f32⟩ : BufTy).Contents (Elt F) → (⟨S1x512, .f32⟩ : BufTy).Contents (Elt F)),
    StableHlo.unary main_v13 main_v14 (Host.exp : (⟨S1x512, .f32⟩ : BufTy).Contents (Elt F) → (⟨S1x512, .f32⟩ : BufTy).Contents (Elt F)),
    StableHlo.nullary main_cst_1 (constant S_ .f32 0x00000000#32),
    StableHlo.binary main_v14 main_cst_1 main_v15 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.unary main_v15 main_v16 (broadcastInDim S1x1 ![0] bcast_S1_S1x1_0 : (⟨S1, .f32⟩ : BufTy).Contents (Elt F) → (⟨S1x1, .f32⟩ : BufTy).Contents (Elt F)),
    StableHlo.unary main_v16 main_v17 (broadcastInDim S1x512 ![0, 1] bcast_S1x1_S1x512_0_1 : (⟨S1x1, .f32⟩ : BufTy).Contents (Elt F) → (⟨S1x512, .f32⟩ : BufTy).Contents (Elt F)),
    StableHlo.binary main_v14 main_v17 main_v18 (Host.divf : (⟨S1x512, .f32⟩ : BufTy).Contents (Elt F) → (⟨S1x512, .f32⟩ : BufTy).Contents (Elt F) → (⟨S1x512, .f32⟩ : BufTy).Contents (Elt F)),
    StableHlo.binary main_v18 main_arg2 main_v19 ((fun l r => Host.dotGeneral dot_S1x512_S512x2048_S1x2048_1_0_0_1_n_n none l r) : (⟨S1x512, .f32⟩ : BufTy).Contents (Elt F) → (⟨S512x2048, .f32⟩ : BufTy).Contents (Elt F) → (⟨S1x2048, .f32⟩ : BufTy).Contents (Elt F)),
    StableHlo.binary main_v1 main_v19 main_v20 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    StableHlo.unary main_arg6 main_v21 ((transpose S4096x2048 [1, 0] · transposes_S2048x4096_S4096x2048_1_0) : (⟨S2048x4096, .f32⟩ : BufTy).Contents (Elt F) → (⟨S4096x2048, .f32⟩ : BufTy).Contents (Elt F)),
    StableHlo.binary main_v20 main_v21 main_v22 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    StableHlo.unary main_arg7 main_v23 (broadcastInDim S1x2048 ![1] bcast_S2048_S1x2048_1 : (⟨S2048, .f32⟩ : BufTy).Contents (Elt F) → (⟨S1x2048, .f32⟩ : BufTy).Contents (Elt F)),
    StableHlo.binary main_v22 main_v23 main_v24 (addf : (⟨S1x2048, .f32⟩ : BufTy).Contents (Elt F) → (⟨S1x2048, .f32⟩ : BufTy).Contents (Elt F) → (⟨S1x2048, .f32⟩ : BufTy).Contents (Elt F)),
    StableHlo.TRef.nullary main_call1.cst (constant S_ .f32 0x00000000#32),
    StableHlo.TRef.unary main_call1.cst main_call1.v0 (broadcastInDim S1x2048 ![] bcast_S_S1x2048),
    StableHlo.TRef.binary (.of main_v24 : StableHlo.TRef sig ⟨S1x2048, .f32⟩) main_call1.v0 main_call1.v1 maximumf,
    StableHlo.unary main_arg8 main_v26 ((transpose S2048x6144 [1, 0] · transposes_S6144x2048_S2048x6144_1_0) : (⟨S6144x2048, .f32⟩ : BufTy).Contents (Elt F) → (⟨S2048x6144, .f32⟩ : BufTy).Contents (Elt F)),
    StableHlo.binary main_v25 main_v26 main_v27 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    StableHlo.unary main_arg10 main_v28 (broadcastInDim S1x6144 ![1] bcast_S6144_S1x6144_1 : (⟨S6144, .f32⟩ : BufTy).Contents (Elt F) → (⟨S1x6144, .f32⟩ : BufTy).Contents (Elt F)),
    StableHlo.binary main_v27 main_v28 main_v29 (addf : (⟨S1x6144, .f32⟩ : BufTy).Contents (Elt F) → (⟨S1x6144, .f32⟩ : BufTy).Contents (Elt F) → (⟨S1x6144, .f32⟩ : BufTy).Contents (Elt F)),
    StableHlo.unary main_arg9 main_v30 ((transpose S2048x6144 [1, 0] · transposes_S6144x2048_S2048x6144_1_0) : (⟨S6144x2048, .f32⟩ : BufTy).Contents (Elt F) → (⟨S2048x6144, .f32⟩ : BufTy).Contents (Elt F)),
    StableHlo.binary main_v2 main_v30 main_v31 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    StableHlo.unary main_arg11 main_v32 (broadcastInDim S1x6144 ![1] bcast_S6144_S1x6144_1 : (⟨S6144, .f32⟩ : BufTy).Contents (Elt F) → (⟨S1x6144, .f32⟩ : BufTy).Contents (Elt F)),
    StableHlo.binary main_v31 main_v32 main_v33 (addf : (⟨S1x6144, .f32⟩ : BufTy).Contents (Elt F) → (⟨S1x6144, .f32⟩ : BufTy).Contents (Elt F) → (⟨S1x6144, .f32⟩ : BufTy).Contents (Elt F)),
    StableHlo.unary main_v29 main_v34 ((extractStridedSlice S1x2048 ![0, 0] · slices_S1x6144_S1x2048_0_0) : (⟨S1x6144, .f32⟩ : BufTy).Contents (Elt F) → (⟨S1x2048, .f32⟩ : BufTy).Contents (Elt F)),
    StableHlo.unary main_v29 main_v35 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v29 main_v36 ((extractStridedSlice S1x2048 ![0, 4096] · slices_S1x6144_S1x2048_0_4096) : (⟨S1x6144, .f32⟩ : BufTy).Contents (Elt F) → (⟨S1x2048, .f32⟩ : BufTy).Contents (Elt F)),
    StableHlo.unary main_v33 main_v37 ((extractStridedSlice S1x2048 ![0, 0] · slices_S1x6144_S1x2048_0_0) : (⟨S1x6144, .f32⟩ : BufTy).Contents (Elt F) → (⟨S1x2048, .f32⟩ : BufTy).Contents (Elt F)),
    StableHlo.unary main_v33 main_v38 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v33 main_v39 ((extractStridedSlice S1x2048 ![0, 4096] · slices_S1x6144_S1x2048_0_4096) : (⟨S1x6144, .f32⟩ : BufTy).Contents (Elt F) → (⟨S1x2048, .f32⟩ : BufTy).Contents (Elt F)),
    StableHlo.binary main_v34 main_v37 main_v40 (addf : (⟨S1x2048, .f32⟩ : BufTy).Contents (Elt F) → (⟨S1x2048, .f32⟩ : BufTy).Contents (Elt F) → (⟨S1x2048, .f32⟩ : BufTy).Contents (Elt F)),
    StableHlo.unary main_v40 main_v41 (Host.negf : (⟨S1x2048, .f32⟩ : BufTy).Contents (Elt F) → (⟨S1x2048, .f32⟩ : BufTy).Contents (Elt F)),
    StableHlo.unary main_v41 main_v42 (Host.exp : (⟨S1x2048, .f32⟩ : BufTy).Contents (Elt F) → (⟨S1x2048, .f32⟩ : BufTy).Contents (Elt F)),
    StableHlo.nullary main_cst_2 (constant S_ .f32 0x3F800000#32),
    StableHlo.unary main_cst_2 main_v43 (broadcastInDim S1x2048 ![] bcast_S_S1x2048 : (⟨S_, .f32⟩ : BufTy).Contents (Elt F) → (⟨S1x2048, .f32⟩ : BufTy).Contents (Elt F)),
    StableHlo.binary main_v43 main_v42 main_v44 (addf : (⟨S1x2048, .f32⟩ : BufTy).Contents (Elt F) → (⟨S1x2048, .f32⟩ : BufTy).Contents (Elt F) → (⟨S1x2048, .f32⟩ : BufTy).Contents (Elt F)),
    StableHlo.nullary main_cst_3 (constant S_ .f32 0x3F800000#32),
    StableHlo.unary main_cst_3 main_v45 (broadcastInDim S1x2048 ![] bcast_S_S1x2048 : (⟨S_, .f32⟩ : BufTy).Contents (Elt F) → (⟨S1x2048, .f32⟩ : BufTy).Contents (Elt F)),
    StableHlo.binary main_v45 main_v44 main_v46 (Host.divf : (⟨S1x2048, .f32⟩ : BufTy).Contents (Elt F) → (⟨S1x2048, .f32⟩ : BufTy).Contents (Elt F) → (⟨S1x2048, .f32⟩ : BufTy).Contents (Elt F)),
    StableHlo.binary main_v35 main_v38 main_v47 (addf : (⟨S1x2048, .f32⟩ : BufTy).Contents (Elt F) → (⟨S1x2048, .f32⟩ : BufTy).Contents (Elt F) → (⟨S1x2048, .f32⟩ : BufTy).Contents (Elt F)),
    StableHlo.unary main_v47 main_v48 (Host.negf : (⟨S1x2048, .f32⟩ : BufTy).Contents (Elt F) → (⟨S1x2048, .f32⟩ : BufTy).Contents (Elt F)),
    StableHlo.unary main_v48 main_v49 (Host.exp : (⟨S1x2048, .f32⟩ : BufTy).Contents (Elt F) → (⟨S1x2048, .f32⟩ : BufTy).Contents (Elt F)),
    StableHlo.nullary main_cst_4 (constant S_ .f32 0x3F800000#32),
    StableHlo.unary main_cst_4 main_v50 (broadcastInDim S1x2048 ![] bcast_S_S1x2048 : (⟨S_, .f32⟩ : BufTy).Contents (Elt F) → (⟨S1x2048, .f32⟩ : BufTy).Contents (Elt F)),
    StableHlo.binary main_v50 main_v49 main_v51 (addf : (⟨S1x2048, .f32⟩ : BufTy).Contents (Elt F) → (⟨S1x2048, .f32⟩ : BufTy).Contents (Elt F) → (⟨S1x2048, .f32⟩ : BufTy).Contents (Elt F)),
    StableHlo.nullary main_cst_5 (constant S_ .f32 0x3F800000#32),
    StableHlo.unary main_cst_5 main_v52 (broadcastInDim S1x2048 ![] bcast_S_S1x2048 : (⟨S_, .f32⟩ : BufTy).Contents (Elt F) → (⟨S1x2048, .f32⟩ : BufTy).Contents (Elt F)),
    StableHlo.binary main_v52 main_v51 main_v53 (Host.divf : (⟨S1x2048, .f32⟩ : BufTy).Contents (Elt F) → (⟨S1x2048, .f32⟩ : BufTy).Contents (Elt F) → (⟨S1x2048, .f32⟩ : BufTy).Contents (Elt F)),
    StableHlo.binary main_v46 main_v39 main_v54 (mulf : (⟨S1x2048, .f32⟩ : BufTy).Contents (Elt F) → (⟨S1x2048, .f32⟩ : BufTy).Contents (Elt F) → (⟨S1x2048, .f32⟩ : BufTy).Contents (Elt F)),
    StableHlo.binary main_v36 main_v54 main_v55 (addf : (⟨S1x2048, .f32⟩ : BufTy).Contents (Elt F) → (⟨S1x2048, .f32⟩ : BufTy).Contents (Elt F) → (⟨S1x2048, .f32⟩ : BufTy).Contents (Elt F)),
    StableHlo.unary main_v55 main_v56 (Host.tanh : (⟨S1x2048, .f32⟩ : BufTy).Contents (Elt F) → (⟨S1x2048, .f32⟩ : BufTy).Contents (Elt F)),
    StableHlo.nullary main_cst_6 (constant S_ .f32 0x3F800000#32),
    StableHlo.unary main_cst_6 main_v57 (broadcastInDim S1x2048 ![] bcast_S_S1x2048 : (⟨S_, .f32⟩ : BufTy).Contents (Elt F) → (⟨S1x2048, .f32⟩ : BufTy).Contents (Elt F)),
    StableHlo.binary main_v57 main_v53 main_v58 (subf : (⟨S1x2048, .f32⟩ : BufTy).Contents (Elt F) → (⟨S1x2048, .f32⟩ : BufTy).Contents (Elt F) → (⟨S1x2048, .f32⟩ : BufTy).Contents (Elt F)),
    StableHlo.binary main_v58 main_v56 main_v59 (mulf : (⟨S1x2048, .f32⟩ : BufTy).Contents (Elt F) → (⟨S1x2048, .f32⟩ : BufTy).Contents (Elt F) → (⟨S1x2048, .f32⟩ : BufTy).Contents (Elt F)),
    StableHlo.binary main_v53 main_v2 main_v60 (mulf : (⟨S1x2048, .f32⟩ : BufTy).Contents (Elt F) → (⟨S1x2048, .f32⟩ : BufTy).Contents (Elt F) → (⟨S1x2048, .f32⟩ : BufTy).Contents (Elt F)),
    StableHlo.binary main_v59 main_v60 main_v61 (addf : (⟨S1x2048, .f32⟩ : BufTy).Contents (Elt F) → (⟨S1x2048, .f32⟩ : BufTy).Contents (Elt F) → (⟨S1x2048, .f32⟩ : BufTy).Contents (Elt F)),
    StableHlo.unary main_arg12 main_v62 ((transpose S2048x50257 [1, 0] · transposes_S50257x2048_S2048x50257_1_0) : (⟨S50257x2048, .f32⟩ : BufTy).Contents (Elt F) → (⟨S2048x50257, .f32⟩ : BufTy).Contents (Elt F)),
    StableHlo.binary main_v61 main_v62 main_v63 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    StableHlo.unary main_arg13 main_v64 (broadcastInDim S1x50257 ![1] bcast_S50257_S1x50257_1 : (⟨S50257, .f32⟩ : BufTy).Contents (Elt F) → (⟨S1x50257, .f32⟩ : BufTy).Contents (Elt F)),
    StableHlo.binary main_v63 main_v64 main_v65 (addf : (⟨S1x50257, .f32⟩ : BufTy).Contents (Elt F) → (⟨S1x50257, .f32⟩ : BufTy).Contents (Elt F) → (⟨S1x50257, .f32⟩ : BufTy).Contents (Elt F)),
    StableHlo.TRef.nullary main_call2.cst (constant S_ .f32 0xFF800000#32),
    StableHlo.TRef.binary (.of main_v65 : StableHlo.TRef sig ⟨S1x50257, .f32⟩) main_call2.cst main_call2.v0 (fun x v => Host.reduce FloatOps.maximumf x v reducesTo_S1x50257_S1_d1 h_S_),
    StableHlo.TRef.nullary main_call2.cst_0 (constant S_ .f32 0xFF800000#32),
    StableHlo.TRef.unary main_call2.cst_0 main_call2.v1 (broadcastInDim S1 ![] bcast_S_S1),
    StableHlo.TRef.binary main_call2.v1 main_call2.v0 main_call2.v2 maximumf,
    StableHlo.TRef.unary main_call2.v2 main_call2.v3 (broadcastInDim S1x1 ![0] bcast_S1_S1x1_0),
    StableHlo.TRef.unary main_call2.v3 main_call2.v4 (broadcastInDim S1x50257 ![0, 1] bcast_S1x1_S1x50257_0_1),
    StableHlo.TRef.binary (.of main_v65 : StableHlo.TRef sig ⟨S1x50257, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S1x50257_S1_d1 h_S_),
    StableHlo.TRef.unary main_call2.v7 main_call2.v8 (broadcastInDim S1x1 ![0] bcast_S1_S1x1_0),
    StableHlo.TRef.unary main_call2.v8 main_call2.v9 Host.log,
    StableHlo.TRef.unary main_call2.v9 main_call2.v10 (broadcastInDim S1x50257 ![0, 1] bcast_S1x1_S1x50257_0_1),
    StableHlo.TRef.binary main_call2.v5 main_call2.v10 main_call2.v11 subf,
    StableHlo.unary main_v61 main_v67 (broadcastInDim S1x1x2048 ![1, 2] bcast_S1x2048_S1x1x2048_1_2 : (⟨S1x2048, .f32⟩ : BufTy).Contents (Elt F) → (⟨S1x1x2048, .f32⟩ : BufTy).Contents (Elt F)) ]

-- one hundred and thirteen binds re-associated: the rewrite under the chain recurses once per statement
set_option maxRecDepth 8192 in
set_option maxHeartbeats 4000000 in
/-- @main is that straight line: its two windows and the functions' definitions unfolded at their calls, both sides are one
    chain of steps once sequencing is reassociated. -/
theorem main_eq (c : Dev nD) : main (F := F) c = seq ops := by
  simp only [main, main_part0, main_part1, fn_take.body, fn_where.body, fn_relu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    binary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., unary_bufs_sub .., binary_bufs_sub .., unary_bufs_sub ..,
    binary_bufs_sub .., nullary_bufs_sub .., unary_bufs_sub .., binary_bufs_sub .., unary_bufs_sub .., binary_bufs_sub ..,
    unary_bufs_sub .., binary_bufs_sub .., unary_bufs_sub .., binary_bufs_sub .., unary_bufs_sub .., binary_bufs_sub ..,
    unary_bufs_sub .., unary_bufs_sub .., unary_bufs_sub .., unary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., unary_bufs_sub .., nullary_bufs_sub .., unary_bufs_sub .., binary_bufs_sub ..,
    binary_bufs_sub .., binary_bufs_sub .., binary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub ..⟩

end Cert.ReferenceIdeal.RefValue

end
-- ==== Proof.RefRun.lean ====
/-
  The reference program's run read back. The list of operations is cut where the named values are complete; from any
  contents each stage leaves its result at the stage's function of the contents of the buffers it reads, and every
  buffer it does not write as it was. Folding the stages in order, every weakly fair execution of @main terminates with
  each result buffer at its function of the arguments' launch contents and the arguments unchanged.
-/
import proofs.«111195_j57131654971751_2_alg».proof.Proof.RefOps
import proofs.«111195_j57131654971751_2_alg».proof.Proof.RefDefs
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The list in stages

Each operation's result at its own buffer is its function of its operands' contents, at any other buffer what was
there; a typed reference's transport of a value to its buffer type and back is the identity. The shape and contraction
operations are kept folded meanwhile: the equations never look inside them. -/

/-- Operations 1 … 23 of the list: the embedding lookup. -/
def seg0 : List (HloOp τ sig (Elt F)) :=
  [ StableHlo.reshape main_arg0 main_v0 rfl shapeCasts_S1x1_S1,
    StableHlo.TRef.nullary main_call0.c (constantI S_ 32 0#32),
    StableHlo.TRef.unary main_call0.c main_call0.v0 (broadcastInDim S1 ![] bcast_S_S1),
    StableHlo.TRef.binary (.of main_v0 : StableHlo.TRef sig ⟨S1, .i32⟩) main_call0.v0 main_call0.v1 (cmpi .slt),
    StableHlo.TRef.nullary main_call0.c_0 (constantI S_ 32 50257#32),
    StableHlo.TRef.unary main_call0.c_0 main_call0.v2 (broadcastInDim S1 ![] bcast_S_S1),
    StableHlo.TRef.binary (.of main_v0 : StableHlo.TRef sig ⟨S1, .i32⟩) main_call0.v2 main_call0.v3 addi,
    StableHlo.TRef.ternary main_call0.v1 main_call0.v3 (.of main_v0 : StableHlo.TRef sig ⟨S1, .i32⟩) main_call0.call0.v0 select,
    StableHlo.TRef.unary main_call0.call0.v0 main_call0.v5 (broadcastInDim S1x1 ![0] bcast_S1_S1x1_0),
    StableHlo.TRef.nullary main_call0.c_1 (constantI S1 32 50256#32),
    StableHlo.TRef.nullary main_call0.c_2 (constantI S_ 32 0#32),
    StableHlo.TRef.unary main_call0.c_2 main_call0.v6 (broadcastInDim S1x1 ![] bcast_S_S1x1),
    StableHlo.TRef.binary main_call0.v5 main_call0.v6 main_call0.v7 (cmpi .sge),
    StableHlo.TRef.unary main_call0.c_1 main_call0.v8 (broadcastInDim S1x1 ![1] bcast_S1_S1x1_1),
    StableHlo.TRef.binary main_call0.v5 main_call0.v8 main_call0.v9 (cmpi .sle),
    StableHlo.TRef.binary main_call0.v7 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S1x1_S1_d1 h_S_),
    StableHlo.TRef.binary (.of main_arg3 : StableHlo.TRef sig ⟨S50257x2048, .f32⟩) main_call0.v5 main_call0.v12 (fun x i => Host.gather gather_S50257x2048_S1x1_S1x2048_1_0_n_n_0_1_12048 x i),
    StableHlo.TRef.unary main_call0.v11 main_call0.v13 (broadcastInDim S1x2048 ![0] bcast_S1_S1x2048_0),
    StableHlo.TRef.nullary main_call0.cst (constant S_ .f32 0x7FC00000#32),
    StableHlo.TRef.unary main_call0.cst main_call0.v14 (broadcastInDim S1x2048 ![] bcast_S_S1x2048),
    StableHlo.TRef.ternary main_call0.v13 main_call0.v12 main_call0.v14 main_call0.v15 select ]

/-- Operations 24 … 24 of the list: the hidden state as a row. -/
def seg1 : List (HloOp τ sig (Elt F)) :=
  [ StableHlo.reshape main_arg1 main_v2 rfl shapeCasts_S1x1x2048_S1x2048 ]

/-- Operations 25 … 25 of the list: the row [embedding, hidden]. -/
def seg2 : List (HloOp τ sig (Elt F)) :=
  [ StableHlo.binary main_v1 main_v2 main_v3 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)) ]

/-- Operations 26 … 43 of the list: the attention layer and its softmax. -/
def seg3 : List (HloOp τ sig (Elt F)) :=
  [ StableHlo.unary main_arg4 main_v4 ((transpose S4096x512 [1, 0] · transposes_S512x4096_S4096x512_1_0) : (⟨S512x4096, .f32⟩ : BufTy).Contents (Elt F) → (⟨S4096x512, .f32⟩ : BufTy).Contents (Elt F)),
    StableHlo.binary main_v3 main_v4 main_v5 ((fun l r => Host.dotGeneral dot_S1x4096_S4096x512_S1x512_1_0_0_1_n_n none l r) : (⟨S1x4096, .f32⟩ : BufTy).Contents (Elt F) → (⟨S4096x512, .f32⟩ : BufTy).Contents (Elt F) → (⟨S1x512, .f32⟩ : BufTy).Contents (Elt F)),
    StableHlo.unary main_arg5 main_v6 (broadcastInDim S1x512 ![1] bcast_S512_S1x512_1 : (⟨S512, .f32⟩ : BufTy).Contents (Elt F) → (⟨S1x512, .f32⟩ : BufTy).Contents (Elt F)),
    StableHlo.binary main_v5 main_v6 main_v7 (addf : (⟨S1x512, .f32⟩ : BufTy).Contents (Elt F) → (⟨S1x512, .f32⟩ : BufTy).Contents (Elt F) → (⟨S1x512, .f32⟩ : BufTy).Contents (Elt F)),
    StableHlo.nullary main_cst (constant S_ .f32 0xFF800000#32),
    StableHlo.binary main_v7 main_cst main_v8 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.nullary main_cst_0 (constant S_ .f32 0xFF800000#32),
    StableHlo.unary main_cst_0 main_v9 (broadcastInDim S1 ![] bcast_S_S1 : (⟨S_, .f32⟩ : BufTy).Contents (Elt F) → (⟨S1, .f32⟩ : BufTy).Contents (Elt F)),
    StableHlo.binary main_v9 main_v8 main_v10 (maximumf : (⟨S1, .f32⟩ : BufTy).Contents (Elt F) → (⟨S1, .f32⟩ : BufTy).Contents (Elt F) → (⟨S1, .f32⟩ : BufTy).Contents (Elt F)),
    StableHlo.unary main_v10 main_v11 (broadcastInDim S1x1 ![0] bcast_S1_S1x1_0 : (⟨S1, .f32⟩ : BufTy).Contents (Elt F) → (⟨S1x1, .f32⟩ : BufTy).Contents (Elt F)),
    StableHlo.unary main_v11 main_v12 (broadcastInDim S1x512 ![0, 1] bcast_S1x1_S1x512_0_1 : (⟨S1x1, .f32⟩ : BufTy).Contents (Elt F) → (⟨S1x512, .f32⟩ : BufTy).Contents (Elt F)),
    StableHlo.binary main_v7 main_v12 main_v13 (subf : (⟨S1x512, .f32⟩ : BufTy).Contents (Elt F) → (⟨S1x512, .f32⟩ : BufTy).Contents (Elt F) → (⟨S1x512, .f32⟩ : BufTy).Contents (Elt F)),
    StableHlo.unary main_v13 main_v14 (Host.exp : (⟨S1x512, .f32⟩ : BufTy).Contents (Elt F) → (⟨S1x512, .f32⟩ : BufTy).Contents (Elt F)),
    StableHlo.nullary main_cst_1 (constant S_ .f32 0x00000000#32),
    StableHlo.binary main_v14 main_cst_1 main_v15 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.unary main_v15 main_v16 (broadcastInDim S1x1 ![0] bcast_S1_S1x1_0 : (⟨S1, .f32⟩ : BufTy).Contents (Elt F) → (⟨S1x1, .f32⟩ : BufTy).Contents (Elt F)),
    StableHlo.unary main_v16 main_v17 (broadcastInDim S1x512 ![0, 1] bcast_S1x1_S1x512_0_1 : (⟨S1x1, .f32⟩ : BufTy).Contents (Elt F) → (⟨S1x512, .f32⟩ : BufTy).Contents (Elt F)),
    StableHlo.binary main_v14 main_v17 main_v18 (Host.divf : (⟨S1x512, .f32⟩ : BufTy).Contents (Elt F) → (⟨S1x512, .f32⟩ : BufTy).Contents (Elt F) → (⟨S1x512, .f32⟩ : BufTy).Contents (Elt F)) ]

/-- Operations 44 … 44 of the list: the context row. -/
def seg4 : List (HloOp τ sig (Elt F)) :=
  [ StableHlo.binary main_v18 main_arg2 main_v19 ((fun l r => Host.dotGeneral dot_S1x512_S512x2048_S1x2048_1_0_0_1_n_n none l r) : (⟨S1x512, .f32⟩ : BufTy).Contents (Elt F) → (⟨S512x2048, .f32⟩ : BufTy).Contents (Elt F) → (⟨S1x2048, .f32⟩ : BufTy).Contents (Elt F)) ]

/-- Operations 45 … 45 of the list: the row [embedding, context]. -/
def seg5 : List (HloOp τ sig (Elt F)) :=
  [ StableHlo.binary main_v1 main_v19 main_v20 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)) ]

/-- Operations 46 … 52 of the list: the combining layer and the rectifier. -/
def seg6 : List (HloOp τ sig (Elt F)) :=
  [ StableHlo.unary main_arg6 main_v21 ((transpose S4096x2048 [1, 0] · transposes_S2048x4096_S4096x2048_1_0) : (⟨S2048x4096, .f32⟩ : BufTy).Contents (Elt F) → (⟨S4096x2048, .f32⟩ : BufTy).Contents (Elt F)),
    StableHlo.binary main_v20 main_v21 main_v22 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    StableHlo.unary main_arg7 main_v23 (broadcastInDim S1x2048 ![1] bcast_S2048_S1x2048_1 : (⟨S2048, .f32⟩ : BufTy).Contents (Elt F) → (⟨S1x2048, .f32⟩ : BufTy).Contents (Elt F)),
    StableHlo.binary main_v22 main_v23 main_v24 (addf : (⟨S1x2048, .f32⟩ : BufTy).Contents (Elt F) → (⟨S1x2048, .f32⟩ : BufTy).Contents (Elt F) → (⟨S1x2048, .f32⟩ : BufTy).Contents (Elt F)),
    StableHlo.TRef.nullary main_call1.cst (constant S_ .f32 0x00000000#32),
    StableHlo.TRef.unary main_call1.cst main_call1.v0 (broadcastInDim S1x2048 ![] bcast_S_S1x2048),
    StableHlo.TRef.binary (.of main_v24 : StableHlo.TRef sig ⟨S1x2048, .f32⟩) main_call1.v0 main_call1.v1 maximumf ]

/-- Operations 53 … 93 of the list: the recurrent cell. -/
def seg7 : List (HloOp τ sig (Elt F)) :=
  [ StableHlo.unary main_arg8 main_v26 ((transpose S2048x6144 [1, 0] · transposes_S6144x2048_S2048x6144_1_0) : (⟨S6144x2048, .f32⟩ : BufTy).Contents (Elt F) → (⟨S2048x6144, .f32⟩ : BufTy).Contents (Elt F)),
    StableHlo.binary main_v25 main_v26 main_v27 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    StableHlo.unary main_arg10 main_v28 (broadcastInDim S1x6144 ![1] bcast_S6144_S1x6144_1 : (⟨S6144, .f32⟩ : BufTy).Contents (Elt F) → (⟨S1x6144, .f32⟩ : BufTy).Contents (Elt F)),
    StableHlo.binary main_v27 main_v28 main_v29 (addf : (⟨S1x6144, .f32⟩ : BufTy).Contents (Elt F) → (⟨S1x6144, .f32⟩ : BufTy).Contents (Elt F) → (⟨S1x6144, .f32⟩ : BufTy).Contents (Elt F)),
    StableHlo.unary main_arg9 main_v30 ((transpose S2048x6144 [1, 0] · transposes_S6144x2048_S2048x6144_1_0) : (⟨S6144x2048, .f32⟩ : BufTy).Contents (Elt F) → (⟨S2048x6144, .f32⟩ : BufTy).Contents (Elt F)),
    StableHlo.binary main_v2 main_v30 main_v31 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    StableHlo.unary main_arg11 main_v32 (broadcastInDim S1x6144 ![1] bcast_S6144_S1x6144_1 : (⟨S6144, .f32⟩ : BufTy).Contents (Elt F) → (⟨S1x6144, .f32⟩ : BufTy).Contents (Elt F)),
    StableHlo.binary main_v31 main_v32 main_v33 (addf : (⟨S1x6144, .f32⟩ : BufTy).Contents (Elt F) → (⟨S1x6144, .f32⟩ : BufTy).Contents (Elt F) → (⟨S1x6144, .f32⟩ : BufTy).Contents (Elt F)),
    StableHlo.unary main_v29 main_v34 ((extractStridedSlice S1x2048 ![0, 0] · slices_S1x6144_S1x2048_0_0) : (⟨S1x6144, .f32⟩ : BufTy).Contents (Elt F) → (⟨S1x2048, .f32⟩ : BufTy).Contents (Elt F)),
    StableHlo.unary main_v29 main_v35 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v29 main_v36 ((extractStridedSlice S1x2048 ![0, 4096] · slices_S1x6144_S1x2048_0_4096) : (⟨S1x6144, .f32⟩ : BufTy).Contents (Elt F) → (⟨S1x2048, .f32⟩ : BufTy).Contents (Elt F)),
    StableHlo.unary main_v33 main_v37 ((extractStridedSlice S1x2048 ![0, 0] · slices_S1x6144_S1x2048_0_0) : (⟨S1x6144, .f32⟩ : BufTy).Contents (Elt F) → (⟨S1x2048, .f32⟩ : BufTy).Contents (Elt F)),
    StableHlo.unary main_v33 main_v38 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v33 main_v39 ((extractStridedSlice S1x2048 ![0, 4096] · slices_S1x6144_S1x2048_0_4096) : (⟨S1x6144, .f32⟩ : BufTy).Contents (Elt F) → (⟨S1x2048, .f32⟩ : BufTy).Contents (Elt F)),
    StableHlo.binary main_v34 main_v37 main_v40 (addf : (⟨S1x2048, .f32⟩ : BufTy).Contents (Elt F) → (⟨S1x2048, .f32⟩ : BufTy).Contents (Elt F) → (⟨S1x2048, .f32⟩ : BufTy).Contents (Elt F)),
    StableHlo.unary main_v40 main_v41 (Host.negf : (⟨S1x2048, .f32⟩ : BufTy).Contents (Elt F) → (⟨S1x2048, .f32⟩ : BufTy).Contents (Elt F)),
    StableHlo.unary main_v41 main_v42 (Host.exp : (⟨S1x2048, .f32⟩ : BufTy).Contents (Elt F) → (⟨S1x2048, .f32⟩ : BufTy).Contents (Elt F)),
    StableHlo.nullary main_cst_2 (constant S_ .f32 0x3F800000#32),
    StableHlo.unary main_cst_2 main_v43 (broadcastInDim S1x2048 ![] bcast_S_S1x2048 : (⟨S_, .f32⟩ : BufTy).Contents (Elt F) → (⟨S1x2048, .f32⟩ : BufTy).Contents (Elt F)),
    StableHlo.binary main_v43 main_v42 main_v44 (addf : (⟨S1x2048, .f32⟩ : BufTy).Contents (Elt F) → (⟨S1x2048, .f32⟩ : BufTy).Contents (Elt F) → (⟨S1x2048, .f32⟩ : BufTy).Contents (Elt F)),
    StableHlo.nullary main_cst_3 (constant S_ .f32 0x3F800000#32),
    StableHlo.unary main_cst_3 main_v45 (broadcastInDim S1x2048 ![] bcast_S_S1x2048 : (⟨S_, .f32⟩ : BufTy).Contents (Elt F) → (⟨S1x2048, .f32⟩ : BufTy).Contents (Elt F)),
    StableHlo.binary main_v45 main_v44 main_v46 (Host.divf : (⟨S1x2048, .f32⟩ : BufTy).Contents (Elt F) → (⟨S1x2048, .f32⟩ : BufTy).Contents (Elt F) → (⟨S1x2048, .f32⟩ : BufTy).Contents (Elt F)),
    StableHlo.binary main_v35 main_v38 main_v47 (addf : (⟨S1x2048, .f32⟩ : BufTy).Contents (Elt F) → (⟨S1x2048, .f32⟩ : BufTy).Contents (Elt F) → (⟨S1x2048, .f32⟩ : BufTy).Contents (Elt F)),
    StableHlo.unary main_v47 main_v48 (Host.negf : (⟨S1x2048, .f32⟩ : BufTy).Contents (Elt F) → (⟨S1x2048, .f32⟩ : BufTy).Contents (Elt F)),
    StableHlo.unary main_v48 main_v49 (Host.exp : (⟨S1x2048, .f32⟩ : BufTy).Contents (Elt F) → (⟨S1x2048, .f32⟩ : BufTy).Contents (Elt F)),
    StableHlo.nullary main_cst_4 (constant S_ .f32 0x3F800000#32),
    StableHlo.unary main_cst_4 main_v50 (broadcastInDim S1x2048 ![] bcast_S_S1x2048 : (⟨S_, .f32⟩ : BufTy).Contents (Elt F) → (⟨S1x2048, .f32⟩ : BufTy).Contents (Elt F)),
    StableHlo.binary main_v50 main_v49 main_v51 (addf : (⟨S1x2048, .f32⟩ : BufTy).Contents (Elt F) → (⟨S1x2048, .f32⟩ : BufTy).Contents (Elt F) → (⟨S1x2048, .f32⟩ : BufTy).Contents (Elt F)),
    StableHlo.nullary main_cst_5 (constant S_ .f32 0x3F800000#32),
    StableHlo.unary main_cst_5 main_v52 (broadcastInDim S1x2048 ![] bcast_S_S1x2048 : (⟨S_, .f32⟩ : BufTy).Contents (Elt F) → (⟨S1x2048, .f32⟩ : BufTy).Contents (Elt F)),
    StableHlo.binary main_v52 main_v51 main_v53 (Host.divf : (⟨S1x2048, .f32⟩ : BufTy).Contents (Elt F) → (⟨S1x2048, .f32⟩ : BufTy).Contents (Elt F) → (⟨S1x2048, .f32⟩ : BufTy).Contents (Elt F)),
    StableHlo.binary main_v46 main_v39 main_v54 (mulf : (⟨S1x2048, .f32⟩ : BufTy).Contents (Elt F) → (⟨S1x2048, .f32⟩ : BufTy).Contents (Elt F) → (⟨S1x2048, .f32⟩ : BufTy).Contents (Elt F)),
    StableHlo.binary main_v36 main_v54 main_v55 (addf : (⟨S1x2048, .f32⟩ : BufTy).Contents (Elt F) → (⟨S1x2048, .f32⟩ : BufTy).Contents (Elt F) → (⟨S1x2048, .f32⟩ : BufTy).Contents (Elt F)),
    StableHlo.unary main_v55 main_v56 (Host.tanh : (⟨S1x2048, .f32⟩ : BufTy).Contents (Elt F) → (⟨S1x2048, .f32⟩ : BufTy).Contents (Elt F)),
    StableHlo.nullary main_cst_6 (constant S_ .f32 0x3F800000#32),
    StableHlo.unary main_cst_6 main_v57 (broadcastInDim S1x2048 ![] bcast_S_S1x2048 : (⟨S_, .f32⟩ : BufTy).Contents (Elt F) → (⟨S1x2048, .f32⟩ : BufTy).Contents (Elt F)),
    StableHlo.binary main_v57 main_v53 main_v58 (subf : (⟨S1x2048, .f32⟩ : BufTy).Contents (Elt F) → (⟨S1x2048, .f32⟩ : BufTy).Contents (Elt F) → (⟨S1x2048, .f32⟩ : BufTy).Contents (Elt F)),
    StableHlo.binary main_v58 main_v56 main_v59 (mulf : (⟨S1x2048, .f32⟩ : BufTy).Contents (Elt F) → (⟨S1x2048, .f32⟩ : BufTy).Contents (Elt F) → (⟨S1x2048, .f32⟩ : BufTy).Contents (Elt F)),
    StableHlo.binary main_v53 main_v2 main_v60 (mulf : (⟨S1x2048, .f32⟩ : BufTy).Contents (Elt F) → (⟨S1x2048, .f32⟩ : BufTy).Contents (Elt F) → (⟨S1x2048, .f32⟩ : BufTy).Contents (Elt F)),
    StableHlo.binary main_v59 main_v60 main_v61 (addf : (⟨S1x2048, .f32⟩ : BufTy).Contents (Elt F) → (⟨S1x2048, .f32⟩ : BufTy).Contents (Elt F) → (⟨S1x2048, .f32⟩ : BufTy).Contents (Elt F)) ]

/-- Operations 94 … 97 of the list: the output layer. -/
def seg8 : List (HloOp τ sig (Elt F)) :=
  [ StableHlo.unary main_arg12 main_v62 ((transpose S2048x50257 [1, 0] · transposes_S50257x2048_S2048x50257_1_0) : (⟨S50257x2048, .f32⟩ : BufTy).Contents (Elt F) → (⟨S2048x50257, .f32⟩ : BufTy).Contents (Elt F)),
    StableHlo.binary main_v61 main_v62 main_v63 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    StableHlo.unary main_arg13 main_v64 (broadcastInDim S1x50257 ![1] bcast_S50257_S1x50257_1 : (⟨S50257, .f32⟩ : BufTy).Contents (Elt F) → (⟨S1x50257, .f32⟩ : BufTy).Contents (Elt F)),
    StableHlo.binary main_v63 main_v64 main_v65 (addf : (⟨S1x50257, .f32⟩ : BufTy).Contents (Elt F) → (⟨S1x50257, .f32⟩ : BufTy).Contents (Elt F) → (⟨S1x50257, .f32⟩ : BufTy).Contents (Elt F)) ]

/-- Operations 98 … 112 of the list: the log-softmax. -/
def seg9 : List (HloOp τ sig (Elt F)) :=
  [ StableHlo.TRef.nullary main_call2.cst (constant S_ .f32 0xFF800000#32),
    StableHlo.TRef.binary (.of main_v65 : StableHlo.TRef sig ⟨S1x50257, .f32⟩) main_call2.cst main_call2.v0 (fun x v => Host.reduce FloatOps.maximumf x v reducesTo_S1x50257_S1_d1 h_S_),
    StableHlo.TRef.nullary main_call2.cst_0 (constant S_ .f32 0xFF800000#32),
    StableHlo.TRef.unary main_call2.cst_0 main_call2.v1 (broadcastInDim S1 ![] bcast_S_S1),
    StableHlo.TRef.binary main_call2.v1 main_call2.v0 main_call2.v2 maximumf,
    StableHlo.TRef.unary main_call2.v2 main_call2.v3 (broadcastInDim S1x1 ![0] bcast_S1_S1x1_0),
    StableHlo.TRef.unary main_call2.v3 main_call2.v4 (broadcastInDim S1x50257 ![0, 1] bcast_S1x1_S1x50257_0_1),
    StableHlo.TRef.binary (.of main_v65 : StableHlo.TRef sig ⟨S1x50257, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S1x50257_S1_d1 h_S_),
    StableHlo.TRef.unary main_call2.v7 main_call2.v8 (broadcastInDim S1x1 ![0] bcast_S1_S1x1_0),
    StableHlo.TRef.unary main_call2.v8 main_call2.v9 Host.log,
    StableHlo.TRef.unary main_call2.v9 main_call2.v10 (broadcastInDim S1x50257 ![0, 1] bcast_S1x1_S1x50257_0_1),
    StableHlo.TRef.binary main_call2.v5 main_call2.v10 main_call2.v11 subf ]

/-- Operations 113 … 113 of the list: the hidden state's own shape. -/
def seg10 : List (HloOp τ sig (Elt F)) :=
  [ StableHlo.unary main_v61 main_v67 (broadcastInDim S1x1x2048 ![1, 2] bcast_S1x2048_S1x1x2048_1_2 : (⟨S1x2048, .f32⟩ : BufTy).Contents (Elt F) → (⟨S1x1x2048, .f32⟩ : BufTy).Contents (Elt F)) ]

/-- The list is its eleven stages in a row. -/
theorem ops_eq : (ops : List (HloOp τ sig (Elt F))) = seg0 ++ seg1 ++ seg2 ++ seg3 ++ seg4 ++ seg5 ++ seg6 ++ seg7 ++ seg8 ++ seg9 ++ seg10 := rfl

/-- A value moved to a typed reference's buffer type and back is itself. -/
theorem ofBuf_toBuf {T : BufTy} (x : StableHlo.TRef sig T) (v : T.Contents (Elt F)) : x.ofBuf (x.toBuf v) = v := by
  obtain ⟨r, rfl, h1, h2⟩ := x; rfl

/-- A one-buffer set of writes lies in the set of a list that names the buffer. -/
theorem writes_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- The buffers stage 0 writes. -/
abbrev wr0 : List (Ref sig .tc) := [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_c_3, main_call0_v11, main_call0_v12, main_call0_v13, main_call0_cst, main_call0_v14, main_v1]
/-- Stage 0 leaves every buffer it does not write as it was. -/
theorem frame0 (W : Valuation τ sig (Elt F)) {r : Ref sig .tc} (hr : r ∉ wr0) :
    after seg0 W (no_index (Proc.devRef (τ := τ) .tc r)) = W (Proc.devRef (τ := τ) .tc r) :=
  after_of_writes_sub (W := wr0) seg0 W (by unfold seg0; exact ⟨writes_sub_of_mem (y := main_v0) (by decide),
    writes_sub_of_mem (y := main_call0_c) (by decide),
    writes_sub_of_mem (y := main_call0_v0) (by decide),
    writes_sub_of_mem (y := main_call0_v1) (by decide),
    writes_sub_of_mem (y := main_call0_c_0) (by decide),
    writes_sub_of_mem (y := main_call0_v2) (by decide),
    writes_sub_of_mem (y := main_call0_v3) (by decide),
    writes_sub_of_mem (y := main_call0_v4) (by decide),
    writes_sub_of_mem (y := main_call0_v5) (by decide),
    writes_sub_of_mem (y := main_call0_c_1) (by decide),
    writes_sub_of_mem (y := main_call0_c_2) (by decide),
    writes_sub_of_mem (y := main_call0_v6) (by decide),
    writes_sub_of_mem (y := main_call0_v7) (by decide),
    writes_sub_of_mem (y := main_call0_v8) (by decide),
    writes_sub_of_mem (y := main_call0_v9) (by decide),
    writes_sub_of_mem (y := main_call0_v10) (by decide),
    writes_sub_of_mem (y := main_call0_c_3) (by decide),
    writes_sub_of_mem (y := main_call0_v11) (by decide),
    writes_sub_of_mem (y := main_call0_v12) (by decide),
    writes_sub_of_mem (y := main_call0_v13) (by decide),
    writes_sub_of_mem (y := main_call0_cst) (by decide),
    writes_sub_of_mem (y := main_call0_v14) (by decide),
    writes_sub_of_mem (y := main_v1) (by decide)⟩) hr

/-- The buffers stage 1 writes. -/
abbrev wr1 : List (Ref sig .tc) := [main_v2]
/-- Stage 1 leaves every buffer it does not write as it was. -/
theorem frame1 (W : Valuation τ sig (Elt F)) {r : Ref sig .tc} (hr : r ∉ wr1) :
    after seg1 W (no_index (Proc.devRef (τ := τ) .tc r)) = W (Proc.devRef (τ := τ) .tc r) :=
  after_of_writes_sub (W := wr1) seg1 W (by unfold seg1; exact writes_sub_of_mem (y := main_v2) (by decide)) hr

/-- The buffers stage 2 writes. -/
abbrev wr2 : List (Ref sig .tc) := [main_v3]
/-- Stage 2 leaves every buffer it does not write as it was. -/
theorem frame2 (W : Valuation τ sig (Elt F)) {r : Ref sig .tc} (hr : r ∉ wr2) :
    after seg2 W (no_index (Proc.devRef (τ := τ) .tc r)) = W (Proc.devRef (τ := τ) .tc r) :=
  after_of_writes_sub (W := wr2) seg2 W (by unfold seg2; exact writes_sub_of_mem (y := main_v3) (by decide)) hr

/-- The buffers stage 3 writes. -/
abbrev wr3 : List (Ref sig .tc) := [main_v4, main_v5, main_v6, main_v7, main_cst, main_v8, main_cst_0, main_v9, main_v10, main_v11, main_v12, main_v13, main_v14, main_cst_1, main_v15, main_v16, main_v17, main_v18]
/-- Stage 3 leaves every buffer it does not write as it was. -/
theorem frame3 (W : Valuation τ sig (Elt F)) {r : Ref sig .tc} (hr : r ∉ wr3) :
    after seg3 W (no_index (Proc.devRef (τ := τ) .tc r)) = W (Proc.devRef (τ := τ) .tc r) :=
  after_of_writes_sub (W := wr3) seg3 W (by unfold seg3; exact ⟨writes_sub_of_mem (y := main_v4) (by decide),
    writes_sub_of_mem (y := main_v5) (by decide),
    writes_sub_of_mem (y := main_v6) (by decide),
    writes_sub_of_mem (y := main_v7) (by decide),
    writes_sub_of_mem (y := main_cst) (by decide),
    writes_sub_of_mem (y := main_v8) (by decide),
    writes_sub_of_mem (y := main_cst_0) (by decide),
    writes_sub_of_mem (y := main_v9) (by decide),
    writes_sub_of_mem (y := main_v10) (by decide),
    writes_sub_of_mem (y := main_v11) (by decide),
    writes_sub_of_mem (y := main_v12) (by decide),
    writes_sub_of_mem (y := main_v13) (by decide),
    writes_sub_of_mem (y := main_v14) (by decide),
    writes_sub_of_mem (y := main_cst_1) (by decide),
    writes_sub_of_mem (y := main_v15) (by decide),
    writes_sub_of_mem (y := main_v16) (by decide),
    writes_sub_of_mem (y := main_v17) (by decide),
    writes_sub_of_mem (y := main_v18) (by decide)⟩) hr

/-- The buffers stage 4 writes. -/
abbrev wr4 : List (Ref sig .tc) := [main_v19]
/-- Stage 4 leaves every buffer it does not write as it was. -/
theorem frame4 (W : Valuation τ sig (Elt F)) {r : Ref sig .tc} (hr : r ∉ wr4) :
    after seg4 W (no_index (Proc.devRef (τ := τ) .tc r)) = W (Proc.devRef (τ := τ) .tc r) :=
  after_of_writes_sub (W := wr4) seg4 W (by unfold seg4; exact writes_sub_of_mem (y := main_v19) (by decide)) hr

/-- The buffers stage 5 writes. -/
abbrev wr5 : List (Ref sig .tc) := [main_v20]
/-- Stage 5 leaves every buffer it does not write as it was. -/
theorem frame5 (W : Valuation τ sig (Elt F)) {r : Ref sig .tc} (hr : r ∉ wr5) :
    after seg5 W (no_index (Proc.devRef (τ := τ) .tc r)) = W (Proc.devRef (τ := τ) .tc r) :=
  after_of_writes_sub (W := wr5) seg5 W (by unfold seg5; exact writes_sub_of_mem (y := main_v20) (by decide)) hr

/-- The buffers stage 6 writes. -/
abbrev wr6 : List (Ref sig .tc) := [main_v21, main_v22, main_v23, main_v24, main_call1_cst, main_call1_v0, main_v25]
/-- Stage 6 leaves every buffer it does not write as it was. -/
theorem frame6 (W : Valuation τ sig (Elt F)) {r : Ref sig .tc} (hr : r ∉ wr6) :
    after seg6 W (no_index (Proc.devRef (τ := τ) .tc r)) = W (Proc.devRef (τ := τ) .tc r) :=
  after_of_writes_sub (W := wr6) seg6 W (by unfold seg6; exact ⟨writes_sub_of_mem (y := main_v21) (by decide),
    writes_sub_of_mem (y := main_v22) (by decide),
    writes_sub_of_mem (y := main_v23) (by decide),
    writes_sub_of_mem (y := main_v24) (by decide),
    writes_sub_of_mem (y := main_call1_cst) (by decide),
    writes_sub_of_mem (y := main_call1_v0) (by decide),
    writes_sub_of_mem (y := main_v25) (by decide)⟩) hr

/-- The buffers stage 7 writes. -/
abbrev wr7 : List (Ref sig .tc) := [main_v26, main_v27, main_v28, main_v29, main_v30, main_v31, main_v32, main_v33, main_v34, main_v35, main_v36, main_v37, main_v38, main_v39, main_v40, main_v41, main_v42, main_cst_2, main_v43, main_v44, main_cst_3, main_v45, main_v46, main_v47, main_v48, main_v49, main_cst_4, main_v50, main_v51, main_cst_5, main_v52, main_v53, main_v54, main_v55, main_v56, main_cst_6, main_v57, main_v58, main_v59, main_v60, main_v61]
/-- Stage 7 leaves every buffer it does not write as it was. -/
theorem frame7 (W : Valuation τ sig (Elt F)) {r : Ref sig .tc} (hr : r ∉ wr7) :
    after seg7 W (no_index (Proc.devRef (τ := τ) .tc r)) = W (Proc.devRef (τ := τ) .tc r) :=
  after_of_writes_sub (W := wr7) seg7 W (by unfold seg7; exact ⟨writes_sub_of_mem (y := main_v26) (by decide),
    writes_sub_of_mem (y := main_v27) (by decide),
    writes_sub_of_mem (y := main_v28) (by decide),
    writes_sub_of_mem (y := main_v29) (by decide),
    writes_sub_of_mem (y := main_v30) (by decide),
    writes_sub_of_mem (y := main_v31) (by decide),
    writes_sub_of_mem (y := main_v32) (by decide),
    writes_sub_of_mem (y := main_v33) (by decide),
    writes_sub_of_mem (y := main_v34) (by decide),
    writes_sub_of_mem (y := main_v35) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_v41) (by decide),
    writes_sub_of_mem (y := main_v42) (by decide),
    writes_sub_of_mem (y := main_cst_2) (by decide),
    writes_sub_of_mem (y := main_v43) (by decide),
    writes_sub_of_mem (y := main_v44) (by decide),
    writes_sub_of_mem (y := main_cst_3) (by decide),
    writes_sub_of_mem (y := main_v45) (by decide),
    writes_sub_of_mem (y := main_v46) (by decide),
    writes_sub_of_mem (y := main_v47) (by decide),
    writes_sub_of_mem (y := main_v48) (by decide),
    writes_sub_of_mem (y := main_v49) (by decide),
    writes_sub_of_mem (y := main_cst_4) (by decide),
    writes_sub_of_mem (y := main_v50) (by decide),
    writes_sub_of_mem (y := main_v51) (by decide),
    writes_sub_of_mem (y := main_cst_5) (by decide),
    writes_sub_of_mem (y := main_v52) (by decide),
    writes_sub_of_mem (y := main_v53) (by decide),
    writes_sub_of_mem (y := main_v54) (by decide),
    writes_sub_of_mem (y := main_v55) (by decide),
    writes_sub_of_mem (y := main_v56) (by decide),
    writes_sub_of_mem (y := main_cst_6) (by decide),
    writes_sub_of_mem (y := main_v57) (by decide),
    writes_sub_of_mem (y := main_v58) (by decide),
    writes_sub_of_mem (y := main_v59) (by decide),
    writes_sub_of_mem (y := main_v60) (by decide),
    writes_sub_of_mem (y := main_v61) (by decide)⟩) hr

/-- The buffers stage 8 writes. -/
abbrev wr8 : List (Ref sig .tc) := [main_v62, main_v63, main_v64, main_v65]
/-- Stage 8 leaves every buffer it does not write as it was. -/
theorem frame8 (W : Valuation τ sig (Elt F)) {r : Ref sig .tc} (hr : r ∉ wr8) :
    after seg8 W (no_index (Proc.devRef (τ := τ) .tc r)) = W (Proc.devRef (τ := τ) .tc r) :=
  after_of_writes_sub (W := wr8) seg8 W (by unfold seg8; exact ⟨writes_sub_of_mem (y := main_v62) (by decide),
    writes_sub_of_mem (y := main_v63) (by decide),
    writes_sub_of_mem (y := main_v64) (by decide),
    writes_sub_of_mem (y := main_v65) (by decide)⟩) hr

/-- The buffers stage 9 writes. -/
abbrev wr9 : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v66]
/-- Stage 9 leaves every buffer it does not write as it was. -/
theorem frame9 (W : Valuation τ sig (Elt F)) {r : Ref sig .tc} (hr : r ∉ wr9) :
    after seg9 W (no_index (Proc.devRef (τ := τ) .tc r)) = W (Proc.devRef (τ := τ) .tc r) :=
  after_of_writes_sub (W := wr9) seg9 W (by unfold seg9; exact ⟨writes_sub_of_mem (y := main_call2_cst) (by decide),
    writes_sub_of_mem (y := main_call2_v0) (by decide),
    writes_sub_of_mem (y := main_call2_cst_0) (by decide),
    writes_sub_of_mem (y := main_call2_v1) (by decide),
    writes_sub_of_mem (y := main_call2_v2) (by decide),
    writes_sub_of_mem (y := main_call2_v3) (by decide),
    writes_sub_of_mem (y := main_call2_v4) (by decide),
    writes_sub_of_mem (y := main_call2_v5) (by decide),
    writes_sub_of_mem (y := main_call2_v6) (by decide),
    writes_sub_of_mem (y := main_call2_cst_1) (by decide),
    writes_sub_of_mem (y := main_call2_v7) (by decide),
    writes_sub_of_mem (y := main_call2_v8) (by decide),
    writes_sub_of_mem (y := main_call2_v9) (by decide),
    writes_sub_of_mem (y := main_call2_v10) (by decide),
    writes_sub_of_mem (y := main_v66) (by decide)⟩) hr

/-- The buffers stage 10 writes. -/
abbrev wr10 : List (Ref sig .tc) := [main_v67]
/-- Stage 10 leaves every buffer it does not write as it was. -/
theorem frame10 (W : Valuation τ sig (Elt F)) {r : Ref sig .tc} (hr : r ∉ wr10) :
    after seg10 W (no_index (Proc.devRef (τ := τ) .tc r)) = W (Proc.devRef (τ := τ) .tc r) :=
  after_of_writes_sub (W := wr10) seg10 W (by unfold seg10; exact writes_sub_of_mem (y := main_v67) (by decide)) hr

set_option maxRecDepth 8192 in
set_option maxHeartbeats 4000000 in
attribute [local irreducible] Host.reduce Host.reduceAdd Host.gather transpose concatenate broadcastInDim extractStridedSlice shapeCast in
/-- Stage 0 from any contents: the embedding lookup. -/
theorem out0 (W : Valuation τ sig (Elt F)) :
    after seg0 W (no_index (Proc.devRef (τ := τ) .tc main_v1)) = emb (W (main_arg0 : DevRef τ sig)) (W (main_arg3 : DevRef τ sig)) := by
  unfold seg0
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 1 from any contents: the hidden state as a row. -/
theorem out1 (W : Valuation τ sig (Elt F)) :
    after seg1 W (no_index (Proc.devRef (τ := τ) .tc main_v2)) = hprev (W (main_arg1 : DevRef τ sig)) := by
  unfold seg1
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 2 from any contents: the row [embedding, hidden]. -/
theorem out2 (W : Valuation τ sig (Elt F)) :
    after seg2 W (no_index (Proc.devRef (τ := τ) .tc main_v3)) = cat (W (main_v1 : DevRef τ sig)) (W (main_v2 : DevRef τ sig)) := by
  unfold seg2
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 3 from any contents: the attention layer and its softmax. -/
theorem out3 (W : Valuation τ sig (Elt F)) :
    after seg3 W (no_index (Proc.devRef (τ := τ) .tc main_v18)) = attnS (W (main_v3 : DevRef τ sig)) (W (main_arg4 : DevRef τ sig)) (W (main_arg5 : DevRef τ sig)) := by
  unfold seg3
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 4 from any contents: the context row. -/
theorem out4 (W : Valuation τ sig (Elt F)) :
    after seg4 W (no_index (Proc.devRef (τ := τ) .tc main_v19)) = ctxS (W (main_v18 : DevRef τ sig)) (W (main_arg2 : DevRef τ sig)) := by
  unfold seg4
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 5 from any contents: the row [embedding, context]. -/
theorem out5 (W : Valuation τ sig (Elt F)) :
    after seg5 W (no_index (Proc.devRef (τ := τ) .tc main_v20)) = cat (W (main_v1 : DevRef τ sig)) (W (main_v19 : DevRef τ sig)) := by
  unfold seg5
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 6 from any contents: the combining layer and the rectifier. -/
theorem out6 (W : Valuation τ sig (Elt F)) :
    after seg6 W (no_index (Proc.devRef (τ := τ) .tc main_v25)) = combS (W (main_v20 : DevRef τ sig)) (W (main_arg6 : DevRef τ sig)) (W (main_arg7 : DevRef τ sig)) := by
  unfold seg6
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 7 from any contents: the recurrent cell. -/
theorem out7 (W : Valuation τ sig (Elt F)) :
    after seg7 W (no_index (Proc.devRef (τ := τ) .tc main_v61)) = gruS (W (main_v25 : DevRef τ sig)) (W (main_v2 : DevRef τ sig)) (W (main_arg8 : DevRef τ sig)) (W (main_arg9 : DevRef τ sig)) (W (main_arg10 : DevRef τ sig)) (W (main_arg11 : DevRef τ sig)) := by
  unfold seg7
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 8 from any contents: the output layer. -/
theorem out8 (W : Valuation τ sig (Elt F)) :
    after seg8 W (no_index (Proc.devRef (τ := τ) .tc main_v65)) = projS (W (main_v61 : DevRef τ sig)) (W (main_arg12 : DevRef τ sig)) (W (main_arg13 : DevRef τ sig)) := by
  unfold seg8
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 9 from any contents: the log-softmax. -/
theorem out9 (W : Valuation τ sig (Elt F)) :
    after seg9 W (no_index (Proc.devRef (τ := τ) .tc main_v66)) = lsmS (W (main_v65 : DevRef τ sig)) := by
  unfold seg9
  after_results_simp
  try simp only [ofBuf_toBuf]
  rfl

set_option maxRecDepth 8192 in
set_option maxHeartbeats 4000000 in
attribute [local irreducible] Host.reduce Host.reduceAdd Host.gather transpose concatenate broadcastInDim extractStridedSlice shapeCast in
/-- Stage 10 from any contents: the hidden state's own shape. -/
theorem out10 (W : Valuation τ sig (Elt F)) :
    after seg10 W (no_index (Proc.devRef (τ := τ) .tc main_v67)) = hnewS (W (main_v61 : DevRef τ sig)) := by
  unfold seg10
  after_results_simp
  try simp only [ofBuf_toBuf]
  rfl

/-! ## The fold of the whole list at the result buffers and at the arguments -/

theorem after_logits (V : Valuation τ sig (Elt F)) :
    after ops V (main_v66 : DevRef τ sig) = logits (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_eq]
  simp (disch := decide) only [after_append, out0, out1, out2, out3, out4, out5, out6, out7, out8, out9, out10, frame0, frame1, frame2, frame3, frame4, frame5, frame6, frame7, frame8, frame9, frame10, logits, lg, hnew61, comb, ctx, attn]

theorem after_hnew (V : Valuation τ sig (Elt F)) :
    after ops V (main_v67 : DevRef τ sig) = hnew (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_eq]
  simp (disch := decide) only [after_append, out0, out1, out2, out3, out4, out5, out6, out7, out8, out9, out10, frame0, frame1, frame2, frame3, frame4, frame5, frame6, frame7, frame8, frame9, frame10, hnew, hnew61, comb, ctx, attn]

theorem after_attn (V : Valuation τ sig (Elt F)) :
    after ops V (main_v18 : DevRef τ sig) = attn (V (main_arg0 : DevRef τ sig)) (V (main_arg1 : DevRef τ sig)) (V (main_arg3 : DevRef τ sig)) (V (main_arg4 : DevRef τ sig)) (V (main_arg5 : DevRef τ sig)) := by
  rw [ops_eq]
  simp (disch := decide) only [after_append, out0, out1, out2, out3, out4, out5, out6, out7, out8, out9, out10, frame0, frame1, frame2, frame3, frame4, frame5, frame6, frame7, frame8, frame9, frame10, attn]

theorem after_arg0 (V : Valuation τ sig (Elt F)) :
    after ops V (main_arg0 : DevRef τ sig) = V (main_arg0 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg1 (V : Valuation τ sig (Elt F)) :
    after ops V (main_arg1 : DevRef τ sig) = V (main_arg1 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg2 (V : Valuation τ sig (Elt F)) :
    after ops V (main_arg2 : DevRef τ sig) = V (main_arg2 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg3 (V : Valuation τ sig (Elt F)) :
    after ops V (main_arg3 : DevRef τ sig) = V (main_arg3 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg4 (V : Valuation τ sig (Elt F)) :
    after ops V (main_arg4 : DevRef τ sig) = V (main_arg4 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg5 (V : Valuation τ sig (Elt F)) :
    after ops V (main_arg5 : DevRef τ sig) = V (main_arg5 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg6 (V : Valuation τ sig (Elt F)) :
    after ops V (main_arg6 : DevRef τ sig) = V (main_arg6 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg7 (V : Valuation τ sig (Elt F)) :
    after ops V (main_arg7 : DevRef τ sig) = V (main_arg7 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg8 (V : Valuation τ sig (Elt F)) :
    after ops V (main_arg8 : DevRef τ sig) = V (main_arg8 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg9 (V : Valuation τ sig (Elt F)) :
    after ops V (main_arg9 : DevRef τ sig) = V (main_arg9 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg10 (V : Valuation τ sig (Elt F)) :
    after ops V (main_arg10 : DevRef τ sig) = V (main_arg10 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg11 (V : Valuation τ sig (Elt F)) :
    after ops V (main_arg11 : DevRef τ sig) = V (main_arg11 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg12 (V : Valuation τ sig (Elt F)) :
    after ops V (main_arg12 : DevRef τ sig) = V (main_arg12 : DevRef τ sig) := by
  rw [ops_eq]
  simp (disch := decide) only [after_append, out0, out1, out2, out3, out4, out5, out6, out7, out8, out9, out10, frame0, frame1, frame2, frame3, frame4, frame5, frame6, frame7, frame8, frame9, frame10]

theorem after_arg13 (V : Valuation τ sig (Elt F)) :
    after ops V (main_arg13 : DevRef τ sig) = V (main_arg13 : DevRef τ sig) := by
  rw [ops_eq]
  simp (disch := decide) only [after_append, out0, out1, out2, out3, out4, out5, out6, out7, out8, out9, out10, frame0, frame1, frame2, frame3, frame4, frame5, frame6, frame7, frame8, frame9, frame10]

/-! ## The run -/

set_option maxRecDepth 16384 in
set_option maxHeartbeats 40000000 in
/-- On every device, for any float values, from any memory with zero counters: every weakly fair execution of @main
    terminates with the three results at their functions of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v67) = hnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v18) = attn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v66).trans (after_logits _),
      (h c main_v67).trans (after_hnew _),
      (h c main_v18).trans (after_attn _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _)⟩)
    (run_seq scopedRefs_eq scopedSems_eq defs main (fun _ => ops) main_eq (fun _ => ops_sub) m ρ)

end Cert.ReferenceIdeal.RefValue

end
-- ==== Proof.lean ====
/-
  The certificate of the attention decoder step: one token's embedding row and the old hidden state give attention
  weights over the encoder outputs (a softmax of an affine map), a context row, a rectified combination, a gated
  recurrent update of the hidden state, and the log-softmax of an affine map of the new state.

  The kernel computes the four matrix stages in four pipelined regions (the second to fourth tiled over the output
  columns, the last tile of the fourth clipped at the vocabulary's end) and the rest on the host; the reference computes
  everything on the host. On the extended reals each stage of either program is the same sum of products: a tiling,
  a transposition before the product, a bias reshaped to a row instead of broadcast, and the logistic function spelt
  by its definition change no value. The frames are those of the runs; the two programs' results are read off their
  runs and met stage by stage at one specification of the arithmetic.
-/
import proofs.«111195_j57131654971751_2_alg».proof.Defs
import proofs.«111195_j57131654971751_2_alg».proof.Proof.Gen.Kernel
import proofs.«111195_j57131654971751_2_alg».proof.Proof.Gen.KernelIdeal
import proofs.«111195_j57131654971751_2_alg».proof.Proof.Gen.ReferenceIdeal
import proofs.«111195_j57131654971751_2_alg».proof.Proof.Gen.Pre_finite_inputs
import proofs.«111195_j57131654971751_2_alg».proof.Proof.K.FrameR
import proofs.«111195_j57131654971751_2_alg».proof.Proof.KI.FrameR
import proofs.«111195_j57131654971751_2_alg».proof.Proof.KI.KernelValue
import proofs.«111195_j57131654971751_2_alg».proof.Proof.Bridge
import proofs.«111195_j57131654971751_2_alg».proof.Proof.RefRun
import Idealize.ShloMosaic.Adequacy
import Idealize.ShloMosaic.Init

noncomputable section

namespace Cert.Proof

open Idealize.ShloMosaic Idealize.SL.Sem

/-- The word-level kernel runs to its end, nothing faulting, its argument arrays unchanged. -/
theorem frame_k : @Cert.frame_Kernel Cert.Kernel.Gen.facts Cert.Pre_finite_inputs.Gen.facts :=
  fun m ρ _ => Cert.Kernel.Hand.frameR m ρ

/-- So does the kernel read on the extended reals. -/
theorem frame_ki : @Cert.frame_KernelIdeal Cert.KernelIdeal.Gen.facts Cert.Pre_finite_inputs.Gen.facts :=
  fun m ρ _ => Cert.KernelIdeal.Hand.frameR m ρ

/-- And the reference: its run with the three results dropped. -/
theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2.2.2)
    (Cert.ReferenceIdeal.RefValue.run m ρ)

set_option maxHeartbeats 1000000 in
/-- From memories agreeing on the arguments the two idealized programs end with equal results: the kernel's are the
    log-softmax of the projected new state, the new state and the attention weights as functions of the arguments;
    the reference's run states its own as the host operations' compositions, and stage by stage those are the same
    functions. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Hand.logitsK m c, fun c => Cert.KernelIdeal.Hand.houtK m c,
    fun c => Cert.KernelIdeal.Hand.awK m c, Cert.KernelIdeal.Hand.run_values m ρ, ?_⟩
  refine (θ_run (Cert.ReferenceIdeal.defs (F := Ideal)) _ _).mono (fun r h c => ?_) (Cert.ReferenceIdeal.RefValue.run m' ρ')
  obtain ⟨h0, h1, h2, hargs⟩ := h c
  obtain ⟨e0, e1, e2, e3, e4, e5, e6, e7, e8, e9, e10, e11, e12, e13⟩ := hagree c
  have b0 : Cert.ReferenceIdeal.RefValue.logits (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.KernelIdeal.Hand.logitsK m c :=
    Cert.Bridge.logitsK_agree m c _ _ _ _ _ _ _ _ _ _ _ _ _ _ e0 e1 e2 e3 e4 e5 e6 e7 e8 e9 e10 e11 e12 e13
  have b1 : Cert.ReferenceIdeal.RefValue.hnew (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.KernelIdeal.Hand.houtK m c :=
    Cert.Bridge.hout_agree m c _ _ _ _ _ _ _ _ _ _ _ _ e0 e1 e2 e3 e4 e5 e6 e7 e8 e9 e10 e11
  have b2 : Cert.ReferenceIdeal.RefValue.attn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.KernelIdeal.Hand.awK m c :=
    Cert.Bridge.attn_agree m c _ _ _ _ _ e0 e1 e3 e4 e5
  exact ⟨h0.trans b0, h1.trans b1, h2.trans b2, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
